-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x2048 : Shape := ⟨3, ![4, 4096, 2048]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_

variable [Facts]

def fn {F : FTy → Type} [FloatOps F] (main_arg0 : FVec F S4x4096x256 .f32) (main_arg1 : FVec F S4x4096x2048 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  main_v8
-- ==== Kernel.lean ====
abbrev S4x4096x256 : Shape := ⟨3, ![4, 4096, 256]⟩
abbrev S4x4096x2048 : Shape := ⟨3, ![4, 4096, 2048]⟩
abbrev S16384x256 : Shape := ⟨2, ![16384, 256]⟩
abbrev S16384x2048 : Shape := ⟨2, ![16384, 2048]⟩
abbrev S8x256 : Shape := ⟨2, ![8, 256]⟩
abbrev S8x2048 : Shape := ⟨2, ![8, 2048]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 8
  | _ => 0

abbrev bufTy : (tb : Table) → Fin (nBuf tb) → BufTy
  | .hbm, ⟨0, _⟩ => ⟨S4x4096x256, .f32⟩
  | .hbm, ⟨1, _⟩ => ⟨S4x4096x2048, .f32⟩
  | .hbm, ⟨2, _⟩ => ⟨S16384x256, .f32⟩
  | .hbm, ⟨3, _⟩ => ⟨S16384x2048, .f32⟩
  | .hbm, ⟨4, _⟩ => ⟨S4x4096x2048, .f32⟩
  | .local .scVector .vmem, ⟨0, _⟩ => ⟨S8x256, .f32⟩
  | .local .scVector .vmem, ⟨1, _⟩ => ⟨S8x256, .f32⟩
  | .local .scVector .vmem, ⟨2, _⟩ => ⟨S8x256, .f32⟩
  | .local .scVector .vmem, ⟨3, _⟩ => ⟨S8x256, .f32⟩
  | .local .scVector .vmem, ⟨4, _⟩ => ⟨S8x2048, .f32⟩
  | .local .scVector .vmem, ⟨5, _⟩ => ⟨S8x2048, .f32⟩
  | .local .scVector .vmem, ⟨6, _⟩ => ⟨S8x2048, .f32⟩
  | .local .scVector .vmem, ⟨7, _⟩ => ⟨S8x2048, .f32⟩
  | _, _ => ⟨S4x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32
  let c0_i32_0 : BitVec 32 := 0#32
  ![v7.toNat, 0]
def k0_off1_at (r : Fin 12) : BitVec 32 :=
  if r.val < 6 then
    if r.val < 3 then
      if r.val < 1 then
        0#32
      else
        if r.val < 2 then
          8#32
        else
          16#32
    else
      if r.val < 4 then
        24#32
      else
        if r.val < 5 then
          32#32
        else
          40#32
  else
    if r.val < 9 then
      if r.val < 7 then
        48#32
      else
        if r.val < 8 then
          56#32
        else
          480#32
    else
      if r.val < 10 then
        488#32
      else
        if r.val < 11 then
          496#32
        else
          504#32
@[reducible] def k0_t1_loop : Scf.Loop 32 :=
  let c0_i32_10 : BitVec 32 := 0#32
  let c1024_i32 : BitVec 32 := 1024#32
  let v20 : BitVec 32 := Scalar.addi c0_i32_10 c1024_i32
  let c1_i32_11 : BitVec 32 := 1#32
  ⟨c0_i32_10, v20, c1_i32_11⟩
def k0_off2 (k0_t1 : Fin k0_t1_loop.trips) : Fin 2 → Nat :=
  let c0_i32_10 : BitVec 32 := 0#32
  let c1_i32_11 : BitVec 32 := 1#32
  let arg20 : BitVec 32 := Scf.iv c0_i32_10 c1_i32_11 k0_t1
  let c7_i32 : BitVec 32 := 7#32
  let v124 : BitVec 32 := Scalar.shrsi arg20 c7_i32
  let v127 : Index := Scalar.indexCast v124
  let c127_i32 : BitVec 32 := 127#32
  let v125 : BitVec 32 := Scalar.andi arg20 c127_i32
  let c16_i32_129 : BitVec 32 := 16#32
  let v126 : BitVec 32 := Scalar.muli v125 c16_i32_129
  let v128 : Index := Scalar.indexCast v126
  ![v127.toNat, v128.toNat]
@[reducible] def k0_t2_loop : Scf.Loop 32 :=
  let c0_i32_17 : BitVec 32 := 0#32
  let c8_i32_18 : BitVec 32 := 8#32
  let v25 : BitVec 32 := Scalar.addi c0_i32_17 c8_i32_18
  let c1_i32_19 : BitVec 32 := 1#32
  ⟨c0_i32_17, v25, c1_i32_19⟩
def k0_off3 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v126 : Index := Scalar.indexCast arg20
  let c0 : Index := 0#32
  ![v126.toNat, 0]

def k0_chk1 (v125 : IVec S16 32) (v129 : IVec S16 32) : Prop :=
  (∀ a x, ((![v125, v129] : Fin 2 → IVec S16 32) a x).toNat < S8x2048.size a)
instance k0_chk1.dec : ∀ (v125 : IVec S16 32) (v129 : IVec S16 32), Decidable (k0_chk1 v125 v129) := fun v125 v129 => decidable_of_iff' _ (Iff.of_eq (k0_chk1.eq_1 v125 v129))
theorem k0_idx1_inb : ∀ (v125 : IVec S16 32) (v129 : IVec S16 32) (k0_hw1 : k0_chk1 v125 v129), ∀ a x, ((![v125, v129] : Fin 2 → IVec S16 32) a x).toNat < S8x2048.size a := fun v125 v129 k0_hw1 => k0_hw1
def k0_off4 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v130 : Index := Scalar.indexCast arg20
  let c16 : Index := 16#32
  ![v130.toNat, 16]

def k0_chk2 (v125 : IVec S16 32) (v133 : IVec S16 32) : Prop :=
  (∀ a x, ((![v125, v133] : Fin 2 → IVec S16 32) a x).toNat < S8x2048.size a)
instance k0_chk2.dec : ∀ (v125 : IVec S16 32) (v133 : IVec S16 32), Decidable (k0_chk2 v125 v133) := fun v125 v133 => decidable_of_iff' _ (Iff.of_eq (k0_chk2.eq_1 v125 v133))
theorem k0_idx2_inb : ∀ (v125 : IVec S16 32) (v133 : IVec S16 32) (k0_hw2 : k0_chk2 v125 v133), ∀ a x, ((![v125, v133] : Fin 2 → IVec S16 32) a x).toNat < S8x2048.size a := fun v125 v133 k0_hw2 => k0_hw2
def k0_off5 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v134 : Index := Scalar.indexCast arg20
  let c32 : Index := 32#32
  ![v134.toNat, 32]

def k0_chk3 (v125 : IVec S16 32) (v137 : IVec S16 32) : Prop :=
  (∀ a x, ((![v125, v137] : Fin 2 → IVec S16 32) a x).toNat < S8x2048.size a)
instance k0_chk3.dec : ∀ (v125 : IVec S16 32) (v137 : IVec S16 32), Decidable (k0_chk3 v125 v137) := fun v125 v137 => decidable_of_iff' _ (Iff.of_eq (k0_chk3.eq_1 v125 v137))
theorem k0_idx3_inb : ∀ (v125 : IVec S16 32) (v137 : IVec S16 32) (k0_hw3 : k0_chk3 v125 v137), ∀ a x, ((![v125, v137] : Fin 2 → IVec S16 32) a x).toNat < S8x2048.size a := fun v125 v137 k0_hw3 => k0_hw3
def k0_off6 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v138 : Index := Scalar.indexCast arg20
  let c48 : Index := 48#32
  ![v138.toNat, 48]

def k0_chk4 (v125 : IVec S16 32) (v141 : IVec S16 32) : Prop :=
  (∀ a x, ((![v125, v141] : Fin 2 → IVec S16 32) a x).toNat < S8x2048.size a)
instance k0_chk4.dec : ∀ (v125 : IVec S16 32) (v141 : IVec S16 32), Decidable (k0_chk4 v125 v141) := fun v125 v141 => decidable_of_iff' _ (Iff.of_eq (k0_chk4.eq_1 v125 v141))
theorem k0_idx4_inb : ∀ (v125 : IVec S16 32) (v141 : IVec S16 32) (k0_hw4 : k0_chk4 v125 v141), ∀ a x, ((![v125, v141] : Fin 2 → IVec S16 32) a x).toNat < S8x2048.size a := fun v125 v141 k0_hw4 => k0_hw4
def k0_off7 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v142 : Index := Scalar.indexCast arg20
  let c64 : Index := 64#32
  ![v142.toNat, 64]

def k0_chk5 (v125 : IVec S16 32) (v145 : IVec S16 32) : Prop :=
  (∀ a x, ((![v125, v145] : Fin 2 → IVec S16 32) a x).toNat < S8x2048.size a)
instance k0_chk5.dec : ∀ (v125 : IVec S16 32) (v145 : IVec S16 32), Decidable (k0_chk5 v125 v145) := fun v125 v145 => decidable_of_iff' _ (Iff.of_eq (k0_chk5.eq_1 v125 v145))
theorem k0_idx5_inb : ∀ (v125 : IVec S16 32) (v145 : IVec S16 32) (k0_hw5 : k0_chk5 v125 v145), ∀ a x, ((![v125, v145] : Fin 2 → IVec S16 32) a x).toNat < S8x2048.size a := fun v125 v145 k0_hw5 => k0_hw5
def k0_off8 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v146 : Index := Scalar.indexCast arg20
  let c80 : Index := 80#32
  ![v146.toNat, 80]

def k0_chk6 (v125 : IVec S16 32) (v149 : IVec S16 32) : Prop :=
  (∀ a x, ((![v125, v149] : Fin 2 → IVec S16 32) a x).toNat < S8x2048.size a)
instance k0_chk6.dec : ∀ (v125 : IVec S16 32) (v149 : IVec S16 32), Decidable (k0_chk6 v125 v149) := fun v125 v149 => decidable_of_iff' _ (Iff.of_eq (k0_chk6.eq_1 v125 v149))
theorem k0_idx6_inb : ∀ (v125 : IVec S16 32) (v149 : IVec S16 32) (k0_hw6 : k0_chk6 v125 v149), ∀ a x, ((![v125, v149] : Fin 2 → IVec S16 32) a x).toNat < S8x2048.size a := fun v125 v149 k0_hw6 => k0_hw6
def k0_off9 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v150 : Index := Scalar.indexCast arg20
  let c96 : Index := 96#32
  ![v150.toNat, 96]

def k0_chk7 (v125 : IVec S16 32) (v153 : IVec S16 32) : Prop :=
  (∀ a x, ((![v125, v153] : Fin 2 → IVec S16 32) a x).toNat < S8x2048.size a)
instance k0_chk7.dec : ∀ (v125 : IVec S16 32) (v153 : IVec S16 32), Decidable (k0_chk7 v125 v153) := fun v125 v153 => decidable_of_iff' _ (Iff.of_eq (k0_chk7.eq_1 v125 v153))
theorem k0_idx7_inb : ∀ (v125 : IVec S16 32) (v153 : IVec S16 32) (k0_hw7 : k0_chk7 v125 v153), ∀ a x, ((![v125, v153] : Fin 2 → IVec S16 32) a x).toNat < S8x2048.size a := fun v125 v153 k0_hw7 => k0_hw7
def k0_off10 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v154 : Index := Scalar.indexCast arg20
  let c112 : Index := 112#32
  ![v154.toNat, 112]

def k0_chk8 (v125 : IVec S16 32) (v157 : IVec S16 32) : Prop :=
  (∀ a x, ((![v125, v157] : Fin 2 → IVec S16 32) a x).toNat < S8x2048.size a)
instance k0_chk8.dec : ∀ (v125 : IVec S16 32) (v157 : IVec S16 32), Decidable (k0_chk8 v125 v157) := fun v125 v157 => decidable_of_iff' _ (Iff.of_eq (k0_chk8.eq_1 v125 v157))
theorem k0_idx8_inb : ∀ (v125 : IVec S16 32) (v157 : IVec S16 32) (k0_hw8 : k0_chk8 v125 v157), ∀ a x, ((![v125, v157] : Fin 2 → IVec S16 32) a x).toNat < S8x2048.size a := fun v125 v157 k0_hw8 => k0_hw8
def k0_off11 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v158 : Index := Scalar.indexCast arg20
  let c128 : Index := 128#32
  ![v158.toNat, 128]

def k0_chk9 (v125 : IVec S16 32) (v161 : IVec S16 32) : Prop :=
  (∀ a x, ((![v125, v161] : Fin 2 → IVec S16 32) a x).toNat < S8x2048.size a)
instance k0_chk9.dec : ∀ (v125 : IVec S16 32) (v161 : IVec S16 32), Decidable (k0_chk9 v125 v161) := fun v125 v161 => decidable_of_iff' _ (Iff.of_eq (k0_chk9.eq_1 v125 v161))
theorem k0_idx9_inb : ∀ (v125 : IVec S16 32) (v161 : IVec S16 32) (k0_hw9 : k0_chk9 v125 v161), ∀ a x, ((![v125, v161] : Fin 2 → IVec S16 32) a x).toNat < S8x2048.size a := fun v125 v161 k0_hw9 => k0_hw9
def k0_off12 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v162 : Index := Scalar.indexCast arg20
  let c144 : Index := 144#32
  ![v162.toNat, 144]

def k0_chk10 (v125 : IVec S16 32) (v165 : IVec S16 32) : Prop :=
  (∀ a x, ((![v125, v165] : Fin 2 → IVec S16 32) a x).toNat < S8x2048.size a)
instance k0_chk10.dec : ∀ (v125 : IVec S16 32) (v165 : IVec S16 32), Decidable (k0_chk10 v125 v165) := fun v125 v165 => decidable_of_iff' _ (Iff.of_eq (k0_chk10.eq_1 v125 v165))
theorem k0_idx10_inb : ∀ (v125 : IVec S16 32) (v165 : IVec S16 32) (k0_hw10 : k0_chk10 v125 v165), ∀ a x, ((![v125, v165] : Fin 2 → IVec S16 32) a x).toNat < S8x2048.size a := fun v125 v165 k0_hw10 => k0_hw10
def k0_off13 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v166 : Index := Scalar.indexCast arg20
  let c160 : Index := 160#32
  ![v166.toNat, 160]

def k0_chk11 (v125 : IVec S16 32) (v169 : IVec S16 32) : Prop :=
  (∀ a x, ((![v125, v169] : Fin 2 → IVec S16 32) a x).toNat < S8x2048.size a)
instance k0_chk11.dec : ∀ (v125 : IVec S16 32) (v169 : IVec S16 32), Decidable (k0_chk11 v125 v169) := fun v125 v169 => decidable_of_iff' _ (Iff.of_eq (k0_chk11.eq_1 v125 v169))
theorem k0_idx11_inb : ∀ (v125 : IVec S16 32) (v169 : IVec S16 32) (k0_hw11 : k0_chk11 v125 v169), ∀ a x, ((![v125, v169] : Fin 2 → IVec S16 32) a x).toNat < S8x2048.size a := fun v125 v169 k0_hw11 => k0_hw11
def k0_off14 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v170 : Index := Scalar.indexCast arg20
  let c176 : Index := 176#32
  ![v170.toNat, 176]

def k0_chk12 (v125 : IVec S16 32) (v173 : IVec S16 32) : Prop :=
  (∀ a x, ((![v125, v173] : Fin 2 → IVec S16 32) a x).toNat < S8x2048.size a)
instance k0_chk12.dec : ∀ (v125 : IVec S16 32) (v173 : IVec S16 32), Decidable (k0_chk12 v125 v173) := fun v125 v173 => decidable_of_iff' _ (Iff.of_eq (k0_chk12.eq_1 v125 v173))
theorem k0_idx12_inb : ∀ (v125 : IVec S16 32) (v173 : IVec S16 32) (k0_hw12 : k0_chk12 v125 v173), ∀ a x, ((![v125, v173] : Fin 2 → IVec S16 32) a x).toNat < S8x2048.size a := fun v125 v173 k0_hw12 => k0_hw12
def k0_off15 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v174 : Index := Scalar.indexCast arg20
  let c192 : Index := 192#32
  ![v174.toNat, 192]

def k0_chk13 (v125 : IVec S16 32) (v177 : IVec S16 32) : Prop :=
  (∀ a x, ((![v125, v177] : Fin 2 → IVec S16 32) a x).toNat < S8x2048.size a)
instance k0_chk13.dec : ∀ (v125 : IVec S16 32) (v177 : IVec S16 32), Decidable (k0_chk13 v125 v177) := fun v125 v177 => decidable_of_iff' _ (Iff.of_eq (k0_chk13.eq_1 v125 v177))
theorem k0_idx13_inb : ∀ (v125 : IVec S16 32) (v177 : IVec S16 32) (k0_hw13 : k0_chk13 v125 v177), ∀ a x, ((![v125, v177] : Fin 2 → IVec S16 32) a x).toNat < S8x2048.size a := fun v125 v177 k0_hw13 => k0_hw13
def k0_off16 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v178 : Index := Scalar.indexCast arg20
  let c208 : Index := 208#32
  ![v178.toNat, 208]

def k0_chk14 (v125 : IVec S16 32) (v181 : IVec S16 32) : Prop :=
  (∀ a x, ((![v125, v181] : Fin 2 → IVec S16 32) a x).toNat < S8x2048.size a)
instance k0_chk14.dec : ∀ (v125 : IVec S16 32) (v181 : IVec S16 32), Decidable (k0_chk14 v125 v181) := fun v125 v181 => decidable_of_iff' _ (Iff.of_eq (k0_chk14.eq_1 v125 v181))
theorem k0_idx14_inb : ∀ (v125 : IVec S16 32) (v181 : IVec S16 32) (k0_hw14 : k0_chk14 v125 v181), ∀ a x, ((![v125, v181] : Fin 2 → IVec S16 32) a x).toNat < S8x2048.size a := fun v125 v181 k0_hw14 => k0_hw14
def k0_off17 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v182 : Index := Scalar.indexCast arg20
  let c224 : Index := 224#32
  ![v182.toNat, 224]

def k0_chk15 (v125 : IVec S16 32) (v185 : IVec S16 32) : Prop :=
  (∀ a x, ((![v125, v185] : Fin 2 → IVec S16 32) a x).toNat < S8x2048.size a)
instance k0_chk15.dec : ∀ (v125 : IVec S16 32) (v185 : IVec S16 32), Decidable (k0_chk15 v125 v185) := fun v125 v185 => decidable_of_iff' _ (Iff.of_eq (k0_chk15.eq_1 v125 v185))
theorem k0_idx15_inb : ∀ (v125 : IVec S16 32) (v185 : IVec S16 32) (k0_hw15 : k0_chk15 v125 v185), ∀ a x, ((![v125, v185] : Fin 2 → IVec S16 32) a x).toNat < S8x2048.size a := fun v125 v185 k0_hw15 => k0_hw15
def k0_off18 (k0_t2 : Fin k0_t2_loop.trips) : Fin 2 → Nat :=
  let c0_i32_17 : BitVec 32 := 0#32
  let c1_i32_19 : BitVec 32 := 1#32
  let arg20 : BitVec 32 := Scf.iv c0_i32_17 c1_i32_19 k0_t2
  let v186 : Index := Scalar.indexCast arg20
  let c240 : Index := 240#32
  ![v186.toNat, 240]

def k0_chk16 (v125 : IVec S16 32) (v189 : IVec S16 32) : Prop :=
  (∀ a x, ((![v125, v189] : Fin 2 → IVec S16 32) a x).toNat < S8x2048.size a)
instance k0_chk16.dec : ∀ (v125 : IVec S16 32) (v189 : IVec S16 32), Decidable (k0_chk16 v125 v189) := fun v125 v189 => decidable_of_iff' _ (Iff.of_eq (k0_chk16.eq_1 v125 v189))
theorem k0_idx16_inb : ∀ (v125 : IVec S16 32) (v189 : IVec S16 32) (k0_hw16 : k0_chk16 v125 v189), ∀ a x, ((![v125, v189] : Fin 2 → IVec S16 32) a x).toNat < S8x2048.size a := fun v125 v189 k0_hw16 => k0_hw16
def k0_off19 (i : grid0.Coords) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v27 : BitVec 32 := Scalar.addi v2 c0_i32_21
  let c0_i32_22 : BitVec 32 := 0#32
  ![v27.toNat, 0]
def k0_off19_at (r : Fin 12) : BitVec 32 :=
  if r.val < 6 then
    if r.val < 3 then
      if r.val < 1 then
        0#32
      else
        if r.val < 2 then
          8#32
        else
          16#32
    else
      if r.val < 4 then
        24#32
      else
        if r.val < 5 then
          448#32
        else
          480#32
  else
    if r.val < 9 then
      if r.val < 7 then
        456#32
      else
        if r.val < 8 then
          488#32
        else
          464#32
    else
      if r.val < 10 then
        496#32
      else
        if r.val < 11 then
          472#32
        else
          504#32
@[reducible] def k0_t3_loop : Scf.Loop 32 :=
  let c0_i32_30 : BitVec 32 := 0#32
  let c8_i32_31 : BitVec 32 := 8#32
  let v36 : BitVec 32 := Scalar.addi c0_i32_30 c8_i32_31
  let c1_i32_32 : BitVec 32 := 1#32
  ⟨c0_i32_30, v36, c1_i32_32⟩
def k0_off20 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v126 : Index := Scalar.indexCast arg20
  let c0 : Index := 0#32
  ![v126.toNat, 0]

def k0_chk17 (v125 : IVec S16 32) (v129 : IVec S16 32) : Prop :=
  (∀ a x, ((![v125, v129] : Fin 2 → IVec S16 32) a x).toNat < S8x2048.size a)
instance k0_chk17.dec : ∀ (v125 : IVec S16 32) (v129 : IVec S16 32), Decidable (k0_chk17 v125 v129) := fun v125 v129 => decidable_of_iff' _ (Iff.of_eq (k0_chk17.eq_1 v125 v129))
theorem k0_idx17_inb : ∀ (v125 : IVec S16 32) (v129 : IVec S16 32) (k0_hw17 : k0_chk17 v125 v129), ∀ a x, ((![v125, v129] : Fin 2 → IVec S16 32) a x).toNat < S8x2048.size a := fun v125 v129 k0_hw17 => k0_hw17
def k0_off21 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v130 : Index := Scalar.indexCast arg20
  let c16 : Index := 16#32
  ![v130.toNat, 16]

def k0_chk18 (v125 : IVec S16 32) (v133 : IVec S16 32) : Prop :=
  (∀ a x, ((![v125, v133] : Fin 2 → IVec S16 32) a x).toNat < S8x2048.size a)
instance k0_chk18.dec : ∀ (v125 : IVec S16 32) (v133 : IVec S16 32), Decidable (k0_chk18 v125 v133) := fun v125 v133 => decidable_of_iff' _ (Iff.of_eq (k0_chk18.eq_1 v125 v133))
theorem k0_idx18_inb : ∀ (v125 : IVec S16 32) (v133 : IVec S16 32) (k0_hw18 : k0_chk18 v125 v133), ∀ a x, ((![v125, v133] : Fin 2 → IVec S16 32) a x).toNat < S8x2048.size a := fun v125 v133 k0_hw18 => k0_hw18
def k0_off22 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v134 : Index := Scalar.indexCast arg20
  let c32 : Index := 32#32
  ![v134.toNat, 32]

def k0_chk19 (v125 : IVec S16 32) (v137 : IVec S16 32) : Prop :=
  (∀ a x, ((![v125, v137] : Fin 2 → IVec S16 32) a x).toNat < S8x2048.size a)
instance k0_chk19.dec : ∀ (v125 : IVec S16 32) (v137 : IVec S16 32), Decidable (k0_chk19 v125 v137) := fun v125 v137 => decidable_of_iff' _ (Iff.of_eq (k0_chk19.eq_1 v125 v137))
theorem k0_idx19_inb : ∀ (v125 : IVec S16 32) (v137 : IVec S16 32) (k0_hw19 : k0_chk19 v125 v137), ∀ a x, ((![v125, v137] : Fin 2 → IVec S16 32) a x).toNat < S8x2048.size a := fun v125 v137 k0_hw19 => k0_hw19
def k0_off23 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v138 : Index := Scalar.indexCast arg20
  let c48 : Index := 48#32
  ![v138.toNat, 48]

def k0_chk20 (v125 : IVec S16 32) (v141 : IVec S16 32) : Prop :=
  (∀ a x, ((![v125, v141] : Fin 2 → IVec S16 32) a x).toNat < S8x2048.size a)
instance k0_chk20.dec : ∀ (v125 : IVec S16 32) (v141 : IVec S16 32), Decidable (k0_chk20 v125 v141) := fun v125 v141 => decidable_of_iff' _ (Iff.of_eq (k0_chk20.eq_1 v125 v141))
theorem k0_idx20_inb : ∀ (v125 : IVec S16 32) (v141 : IVec S16 32) (k0_hw20 : k0_chk20 v125 v141), ∀ a x, ((![v125, v141] : Fin 2 → IVec S16 32) a x).toNat < S8x2048.size a := fun v125 v141 k0_hw20 => k0_hw20
def k0_off24 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v142 : Index := Scalar.indexCast arg20
  let c64 : Index := 64#32
  ![v142.toNat, 64]

def k0_chk21 (v125 : IVec S16 32) (v145 : IVec S16 32) : Prop :=
  (∀ a x, ((![v125, v145] : Fin 2 → IVec S16 32) a x).toNat < S8x2048.size a)
instance k0_chk21.dec : ∀ (v125 : IVec S16 32) (v145 : IVec S16 32), Decidable (k0_chk21 v125 v145) := fun v125 v145 => decidable_of_iff' _ (Iff.of_eq (k0_chk21.eq_1 v125 v145))
theorem k0_idx21_inb : ∀ (v125 : IVec S16 32) (v145 : IVec S16 32) (k0_hw21 : k0_chk21 v125 v145), ∀ a x, ((![v125, v145] : Fin 2 → IVec S16 32) a x).toNat < S8x2048.size a := fun v125 v145 k0_hw21 => k0_hw21
def k0_off25 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v146 : Index := Scalar.indexCast arg20
  let c80 : Index := 80#32
  ![v146.toNat, 80]

def k0_chk22 (v125 : IVec S16 32) (v149 : IVec S16 32) : Prop :=
  (∀ a x, ((![v125, v149] : Fin 2 → IVec S16 32) a x).toNat < S8x2048.size a)
instance k0_chk22.dec : ∀ (v125 : IVec S16 32) (v149 : IVec S16 32), Decidable (k0_chk22 v125 v149) := fun v125 v149 => decidable_of_iff' _ (Iff.of_eq (k0_chk22.eq_1 v125 v149))
theorem k0_idx22_inb : ∀ (v125 : IVec S16 32) (v149 : IVec S16 32) (k0_hw22 : k0_chk22 v125 v149), ∀ a x, ((![v125, v149] : Fin 2 → IVec S16 32) a x).toNat < S8x2048.size a := fun v125 v149 k0_hw22 => k0_hw22
def k0_off26 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v150 : Index := Scalar.indexCast arg20
  let c96 : Index := 96#32
  ![v150.toNat, 96]

def k0_chk23 (v125 : IVec S16 32) (v153 : IVec S16 32) : Prop :=
  (∀ a x, ((![v125, v153] : Fin 2 → IVec S16 32) a x).toNat < S8x2048.size a)
instance k0_chk23.dec : ∀ (v125 : IVec S16 32) (v153 : IVec S16 32), Decidable (k0_chk23 v125 v153) := fun v125 v153 => decidable_of_iff' _ (Iff.of_eq (k0_chk23.eq_1 v125 v153))
theorem k0_idx23_inb : ∀ (v125 : IVec S16 32) (v153 : IVec S16 32) (k0_hw23 : k0_chk23 v125 v153), ∀ a x, ((![v125, v153] : Fin 2 → IVec S16 32) a x).toNat < S8x2048.size a := fun v125 v153 k0_hw23 => k0_hw23
def k0_off27 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v154 : Index := Scalar.indexCast arg20
  let c112 : Index := 112#32
  ![v154.toNat, 112]

def k0_chk24 (v125 : IVec S16 32) (v157 : IVec S16 32) : Prop :=
  (∀ a x, ((![v125, v157] : Fin 2 → IVec S16 32) a x).toNat < S8x2048.size a)
instance k0_chk24.dec : ∀ (v125 : IVec S16 32) (v157 : IVec S16 32), Decidable (k0_chk24 v125 v157) := fun v125 v157 => decidable_of_iff' _ (Iff.of_eq (k0_chk24.eq_1 v125 v157))
theorem k0_idx24_inb : ∀ (v125 : IVec S16 32) (v157 : IVec S16 32) (k0_hw24 : k0_chk24 v125 v157), ∀ a x, ((![v125, v157] : Fin 2 → IVec S16 32) a x).toNat < S8x2048.size a := fun v125 v157 k0_hw24 => k0_hw24
def k0_off28 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v158 : Index := Scalar.indexCast arg20
  let c128 : Index := 128#32
  ![v158.toNat, 128]

def k0_chk25 (v125 : IVec S16 32) (v161 : IVec S16 32) : Prop :=
  (∀ a x, ((![v125, v161] : Fin 2 → IVec S16 32) a x).toNat < S8x2048.size a)
instance k0_chk25.dec : ∀ (v125 : IVec S16 32) (v161 : IVec S16 32), Decidable (k0_chk25 v125 v161) := fun v125 v161 => decidable_of_iff' _ (Iff.of_eq (k0_chk25.eq_1 v125 v161))
theorem k0_idx25_inb : ∀ (v125 : IVec S16 32) (v161 : IVec S16 32) (k0_hw25 : k0_chk25 v125 v161), ∀ a x, ((![v125, v161] : Fin 2 → IVec S16 32) a x).toNat < S8x2048.size a := fun v125 v161 k0_hw25 => k0_hw25
def k0_off29 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v162 : Index := Scalar.indexCast arg20
  let c144 : Index := 144#32
  ![v162.toNat, 144]

def k0_chk26 (v125 : IVec S16 32) (v165 : IVec S16 32) : Prop :=
  (∀ a x, ((![v125, v165] : Fin 2 → IVec S16 32) a x).toNat < S8x2048.size a)
instance k0_chk26.dec : ∀ (v125 : IVec S16 32) (v165 : IVec S16 32), Decidable (k0_chk26 v125 v165) := fun v125 v165 => decidable_of_iff' _ (Iff.of_eq (k0_chk26.eq_1 v125 v165))
theorem k0_idx26_inb : ∀ (v125 : IVec S16 32) (v165 : IVec S16 32) (k0_hw26 : k0_chk26 v125 v165), ∀ a x, ((![v125, v165] : Fin 2 → IVec S16 32) a x).toNat < S8x2048.size a := fun v125 v165 k0_hw26 => k0_hw26
def k0_off30 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v166 : Index := Scalar.indexCast arg20
  let c160 : Index := 160#32
  ![v166.toNat, 160]

def k0_chk27 (v125 : IVec S16 32) (v169 : IVec S16 32) : Prop :=
  (∀ a x, ((![v125, v169] : Fin 2 → IVec S16 32) a x).toNat < S8x2048.size a)
instance k0_chk27.dec : ∀ (v125 : IVec S16 32) (v169 : IVec S16 32), Decidable (k0_chk27 v125 v169) := fun v125 v169 => decidable_of_iff' _ (Iff.of_eq (k0_chk27.eq_1 v125 v169))
theorem k0_idx27_inb : ∀ (v125 : IVec S16 32) (v169 : IVec S16 32) (k0_hw27 : k0_chk27 v125 v169), ∀ a x, ((![v125, v169] : Fin 2 → IVec S16 32) a x).toNat < S8x2048.size a := fun v125 v169 k0_hw27 => k0_hw27
def k0_off31 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v170 : Index := Scalar.indexCast arg20
  let c176 : Index := 176#32
  ![v170.toNat, 176]

def k0_chk28 (v125 : IVec S16 32) (v173 : IVec S16 32) : Prop :=
  (∀ a x, ((![v125, v173] : Fin 2 → IVec S16 32) a x).toNat < S8x2048.size a)
instance k0_chk28.dec : ∀ (v125 : IVec S16 32) (v173 : IVec S16 32), Decidable (k0_chk28 v125 v173) := fun v125 v173 => decidable_of_iff' _ (Iff.of_eq (k0_chk28.eq_1 v125 v173))
theorem k0_idx28_inb : ∀ (v125 : IVec S16 32) (v173 : IVec S16 32) (k0_hw28 : k0_chk28 v125 v173), ∀ a x, ((![v125, v173] : Fin 2 → IVec S16 32) a x).toNat < S8x2048.size a := fun v125 v173 k0_hw28 => k0_hw28
def k0_off32 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v174 : Index := Scalar.indexCast arg20
  let c192 : Index := 192#32
  ![v174.toNat, 192]

def k0_chk29 (v125 : IVec S16 32) (v177 : IVec S16 32) : Prop :=
  (∀ a x, ((![v125, v177] : Fin 2 → IVec S16 32) a x).toNat < S8x2048.size a)
instance k0_chk29.dec : ∀ (v125 : IVec S16 32) (v177 : IVec S16 32), Decidable (k0_chk29 v125 v177) := fun v125 v177 => decidable_of_iff' _ (Iff.of_eq (k0_chk29.eq_1 v125 v177))
theorem k0_idx29_inb : ∀ (v125 : IVec S16 32) (v177 : IVec S16 32) (k0_hw29 : k0_chk29 v125 v177), ∀ a x, ((![v125, v177] : Fin 2 → IVec S16 32) a x).toNat < S8x2048.size a := fun v125 v177 k0_hw29 => k0_hw29
def k0_off33 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v178 : Index := Scalar.indexCast arg20
  let c208 : Index := 208#32
  ![v178.toNat, 208]

def k0_chk30 (v125 : IVec S16 32) (v181 : IVec S16 32) : Prop :=
  (∀ a x, ((![v125, v181] : Fin 2 → IVec S16 32) a x).toNat < S8x2048.size a)
instance k0_chk30.dec : ∀ (v125 : IVec S16 32) (v181 : IVec S16 32), Decidable (k0_chk30 v125 v181) := fun v125 v181 => decidable_of_iff' _ (Iff.of_eq (k0_chk30.eq_1 v125 v181))
theorem k0_idx30_inb : ∀ (v125 : IVec S16 32) (v181 : IVec S16 32) (k0_hw30 : k0_chk30 v125 v181), ∀ a x, ((![v125, v181] : Fin 2 → IVec S16 32) a x).toNat < S8x2048.size a := fun v125 v181 k0_hw30 => k0_hw30
def k0_off34 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v182 : Index := Scalar.indexCast arg20
  let c224 : Index := 224#32
  ![v182.toNat, 224]

def k0_chk31 (v125 : IVec S16 32) (v185 : IVec S16 32) : Prop :=
  (∀ a x, ((![v125, v185] : Fin 2 → IVec S16 32) a x).toNat < S8x2048.size a)
instance k0_chk31.dec : ∀ (v125 : IVec S16 32) (v185 : IVec S16 32), Decidable (k0_chk31 v125 v185) := fun v125 v185 => decidable_of_iff' _ (Iff.of_eq (k0_chk31.eq_1 v125 v185))
theorem k0_idx31_inb : ∀ (v125 : IVec S16 32) (v185 : IVec S16 32) (k0_hw31 : k0_chk31 v125 v185), ∀ a x, ((![v125, v185] : Fin 2 → IVec S16 32) a x).toNat < S8x2048.size a := fun v125 v185 k0_hw31 => k0_hw31
def k0_off35 (k0_t3 : Fin k0_t3_loop.trips) : Fin 2 → Nat :=
  let c0_i32_30 : BitVec 32 := 0#32
  let c1_i32_32 : BitVec 32 := 1#32
  let arg20 : BitVec 32 := Scf.iv c0_i32_30 c1_i32_32 k0_t3
  let v186 : Index := Scalar.indexCast arg20
  let c240 : Index := 240#32
  ![v186.toNat, 240]

def k0_chk32 (v125 : IVec S16 32) (v189 : IVec S16 32) : Prop :=
  (∀ a x, ((![v125, v189] : Fin 2 → IVec S16 32) a x).toNat < S8x2048.size a)
instance k0_chk32.dec : ∀ (v125 : IVec S16 32) (v189 : IVec S16 32), Decidable (k0_chk32 v125 v189) := fun v125 v189 => decidable_of_iff' _ (Iff.of_eq (k0_chk32.eq_1 v125 v189))
theorem k0_idx32_inb : ∀ (v125 : IVec S16 32) (v189 : IVec S16 32) (k0_hw32 : k0_chk32 v125 v189), ∀ a x, ((![v125, v189] : Fin 2 → IVec S16 32) a x).toNat < S8x2048.size a := fun v125 v189 k0_hw32 => k0_hw32
@[reducible] def k0_t4_loop : Scf.Loop 32 :=
  let c0_i32_43 : BitVec 32 := 0#32
  let c8_i32_44 : BitVec 32 := 8#32
  let v47 : BitVec 32 := Scalar.addi c0_i32_43 c8_i32_44
  let c1_i32_45 : BitVec 32 := 1#32
  ⟨c0_i32_43, v47, c1_i32_45⟩
def k0_off36 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v126 : Index := Scalar.indexCast arg20
  let c0 : Index := 0#32
  ![v126.toNat, 0]

def k0_chk33 (v125 : IVec S16 32) (v129 : IVec S16 32) : Prop :=
  (∀ a x, ((![v125, v129] : Fin 2 → IVec S16 32) a x).toNat < S8x2048.size a)
instance k0_chk33.dec : ∀ (v125 : IVec S16 32) (v129 : IVec S16 32), Decidable (k0_chk33 v125 v129) := fun v125 v129 => decidable_of_iff' _ (Iff.of_eq (k0_chk33.eq_1 v125 v129))
theorem k0_idx33_inb : ∀ (v125 : IVec S16 32) (v129 : IVec S16 32) (k0_hw33 : k0_chk33 v125 v129), ∀ a x, ((![v125, v129] : Fin 2 → IVec S16 32) a x).toNat < S8x2048.size a := fun v125 v129 k0_hw33 => k0_hw33
def k0_off37 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v130 : Index := Scalar.indexCast arg20
  let c16 : Index := 16#32
  ![v130.toNat, 16]

def k0_chk34 (v125 : IVec S16 32) (v133 : IVec S16 32) : Prop :=
  (∀ a x, ((![v125, v133] : Fin 2 → IVec S16 32) a x).toNat < S8x2048.size a)
instance k0_chk34.dec : ∀ (v125 : IVec S16 32) (v133 : IVec S16 32), Decidable (k0_chk34 v125 v133) := fun v125 v133 => decidable_of_iff' _ (Iff.of_eq (k0_chk34.eq_1 v125 v133))
theorem k0_idx34_inb : ∀ (v125 : IVec S16 32) (v133 : IVec S16 32) (k0_hw34 : k0_chk34 v125 v133), ∀ a x, ((![v125, v133] : Fin 2 → IVec S16 32) a x).toNat < S8x2048.size a := fun v125 v133 k0_hw34 => k0_hw34
def k0_off38 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v134 : Index := Scalar.indexCast arg20
  let c32 : Index := 32#32
  ![v134.toNat, 32]

def k0_chk35 (v125 : IVec S16 32) (v137 : IVec S16 32) : Prop :=
  (∀ a x, ((![v125, v137] : Fin 2 → IVec S16 32) a x).toNat < S8x2048.size a)
instance k0_chk35.dec : ∀ (v125 : IVec S16 32) (v137 : IVec S16 32), Decidable (k0_chk35 v125 v137) := fun v125 v137 => decidable_of_iff' _ (Iff.of_eq (k0_chk35.eq_1 v125 v137))
theorem k0_idx35_inb : ∀ (v125 : IVec S16 32) (v137 : IVec S16 32) (k0_hw35 : k0_chk35 v125 v137), ∀ a x, ((![v125, v137] : Fin 2 → IVec S16 32) a x).toNat < S8x2048.size a := fun v125 v137 k0_hw35 => k0_hw35
def k0_off39 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v138 : Index := Scalar.indexCast arg20
  let c48 : Index := 48#32
  ![v138.toNat, 48]

def k0_chk36 (v125 : IVec S16 32) (v141 : IVec S16 32) : Prop :=
  (∀ a x, ((![v125, v141] : Fin 2 → IVec S16 32) a x).toNat < S8x2048.size a)
instance k0_chk36.dec : ∀ (v125 : IVec S16 32) (v141 : IVec S16 32), Decidable (k0_chk36 v125 v141) := fun v125 v141 => decidable_of_iff' _ (Iff.of_eq (k0_chk36.eq_1 v125 v141))
theorem k0_idx36_inb : ∀ (v125 : IVec S16 32) (v141 : IVec S16 32) (k0_hw36 : k0_chk36 v125 v141), ∀ a x, ((![v125, v141] : Fin 2 → IVec S16 32) a x).toNat < S8x2048.size a := fun v125 v141 k0_hw36 => k0_hw36
def k0_off40 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v142 : Index := Scalar.indexCast arg20
  let c64 : Index := 64#32
  ![v142.toNat, 64]

def k0_chk37 (v125 : IVec S16 32) (v145 : IVec S16 32) : Prop :=
  (∀ a x, ((![v125, v145] : Fin 2 → IVec S16 32) a x).toNat < S8x2048.size a)
instance k0_chk37.dec : ∀ (v125 : IVec S16 32) (v145 : IVec S16 32), Decidable (k0_chk37 v125 v145) := fun v125 v145 => decidable_of_iff' _ (Iff.of_eq (k0_chk37.eq_1 v125 v145))
theorem k0_idx37_inb : ∀ (v125 : IVec S16 32) (v145 : IVec S16 32) (k0_hw37 : k0_chk37 v125 v145), ∀ a x, ((![v125, v145] : Fin 2 → IVec S16 32) a x).toNat < S8x2048.size a := fun v125 v145 k0_hw37 => k0_hw37
def k0_off41 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v146 : Index := Scalar.indexCast arg20
  let c80 : Index := 80#32
  ![v146.toNat, 80]

def k0_chk38 (v125 : IVec S16 32) (v149 : IVec S16 32) : Prop :=
  (∀ a x, ((![v125, v149] : Fin 2 → IVec S16 32) a x).toNat < S8x2048.size a)
instance k0_chk38.dec : ∀ (v125 : IVec S16 32) (v149 : IVec S16 32), Decidable (k0_chk38 v125 v149) := fun v125 v149 => decidable_of_iff' _ (Iff.of_eq (k0_chk38.eq_1 v125 v149))
theorem k0_idx38_inb : ∀ (v125 : IVec S16 32) (v149 : IVec S16 32) (k0_hw38 : k0_chk38 v125 v149), ∀ a x, ((![v125, v149] : Fin 2 → IVec S16 32) a x).toNat < S8x2048.size a := fun v125 v149 k0_hw38 => k0_hw38
def k0_off42 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v150 : Index := Scalar.indexCast arg20
  let c96 : Index := 96#32
  ![v150.toNat, 96]

def k0_chk39 (v125 : IVec S16 32) (v153 : IVec S16 32) : Prop :=
  (∀ a x, ((![v125, v153] : Fin 2 → IVec S16 32) a x).toNat < S8x2048.size a)
instance k0_chk39.dec : ∀ (v125 : IVec S16 32) (v153 : IVec S16 32), Decidable (k0_chk39 v125 v153) := fun v125 v153 => decidable_of_iff' _ (Iff.of_eq (k0_chk39.eq_1 v125 v153))
theorem k0_idx39_inb : ∀ (v125 : IVec S16 32) (v153 : IVec S16 32) (k0_hw39 : k0_chk39 v125 v153), ∀ a x, ((![v125, v153] : Fin 2 → IVec S16 32) a x).toNat < S8x2048.size a := fun v125 v153 k0_hw39 => k0_hw39
def k0_off43 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v154 : Index := Scalar.indexCast arg20
  let c112 : Index := 112#32
  ![v154.toNat, 112]

def k0_chk40 (v125 : IVec S16 32) (v157 : IVec S16 32) : Prop :=
  (∀ a x, ((![v125, v157] : Fin 2 → IVec S16 32) a x).toNat < S8x2048.size a)
instance k0_chk40.dec : ∀ (v125 : IVec S16 32) (v157 : IVec S16 32), Decidable (k0_chk40 v125 v157) := fun v125 v157 => decidable_of_iff' _ (Iff.of_eq (k0_chk40.eq_1 v125 v157))
theorem k0_idx40_inb : ∀ (v125 : IVec S16 32) (v157 : IVec S16 32) (k0_hw40 : k0_chk40 v125 v157), ∀ a x, ((![v125, v157] : Fin 2 → IVec S16 32) a x).toNat < S8x2048.size a := fun v125 v157 k0_hw40 => k0_hw40
def k0_off44 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v158 : Index := Scalar.indexCast arg20
  let c128 : Index := 128#32
  ![v158.toNat, 128]

def k0_chk41 (v125 : IVec S16 32) (v161 : IVec S16 32) : Prop :=
  (∀ a x, ((![v125, v161] : Fin 2 → IVec S16 32) a x).toNat < S8x2048.size a)
instance k0_chk41.dec : ∀ (v125 : IVec S16 32) (v161 : IVec S16 32), Decidable (k0_chk41 v125 v161) := fun v125 v161 => decidable_of_iff' _ (Iff.of_eq (k0_chk41.eq_1 v125 v161))
theorem k0_idx41_inb : ∀ (v125 : IVec S16 32) (v161 : IVec S16 32) (k0_hw41 : k0_chk41 v125 v161), ∀ a x, ((![v125, v161] : Fin 2 → IVec S16 32) a x).toNat < S8x2048.size a := fun v125 v161 k0_hw41 => k0_hw41
def k0_off45 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v162 : Index := Scalar.indexCast arg20
  let c144 : Index := 144#32
  ![v162.toNat, 144]

def k0_chk42 (v125 : IVec S16 32) (v165 : IVec S16 32) : Prop :=
  (∀ a x, ((![v125, v165] : Fin 2 → IVec S16 32) a x).toNat < S8x2048.size a)
instance k0_chk42.dec : ∀ (v125 : IVec S16 32) (v165 : IVec S16 32), Decidable (k0_chk42 v125 v165) := fun v125 v165 => decidable_of_iff' _ (Iff.of_eq (k0_chk42.eq_1 v125 v165))
theorem k0_idx42_inb : ∀ (v125 : IVec S16 32) (v165 : IVec S16 32) (k0_hw42 : k0_chk42 v125 v165), ∀ a x, ((![v125, v165] : Fin 2 → IVec S16 32) a x).toNat < S8x2048.size a := fun v125 v165 k0_hw42 => k0_hw42
def k0_off46 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v166 : Index := Scalar.indexCast arg20
  let c160 : Index := 160#32
  ![v166.toNat, 160]

def k0_chk43 (v125 : IVec S16 32) (v169 : IVec S16 32) : Prop :=
  (∀ a x, ((![v125, v169] : Fin 2 → IVec S16 32) a x).toNat < S8x2048.size a)
instance k0_chk43.dec : ∀ (v125 : IVec S16 32) (v169 : IVec S16 32), Decidable (k0_chk43 v125 v169) := fun v125 v169 => decidable_of_iff' _ (Iff.of_eq (k0_chk43.eq_1 v125 v169))
theorem k0_idx43_inb : ∀ (v125 : IVec S16 32) (v169 : IVec S16 32) (k0_hw43 : k0_chk43 v125 v169), ∀ a x, ((![v125, v169] : Fin 2 → IVec S16 32) a x).toNat < S8x2048.size a := fun v125 v169 k0_hw43 => k0_hw43
def k0_off47 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v170 : Index := Scalar.indexCast arg20
  let c176 : Index := 176#32
  ![v170.toNat, 176]

def k0_chk44 (v125 : IVec S16 32) (v173 : IVec S16 32) : Prop :=
  (∀ a x, ((![v125, v173] : Fin 2 → IVec S16 32) a x).toNat < S8x2048.size a)
instance k0_chk44.dec : ∀ (v125 : IVec S16 32) (v173 : IVec S16 32), Decidable (k0_chk44 v125 v173) := fun v125 v173 => decidable_of_iff' _ (Iff.of_eq (k0_chk44.eq_1 v125 v173))
theorem k0_idx44_inb : ∀ (v125 : IVec S16 32) (v173 : IVec S16 32) (k0_hw44 : k0_chk44 v125 v173), ∀ a x, ((![v125, v173] : Fin 2 → IVec S16 32) a x).toNat < S8x2048.size a := fun v125 v173 k0_hw44 => k0_hw44
def k0_off48 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v174 : Index := Scalar.indexCast arg20
  let c192 : Index := 192#32
  ![v174.toNat, 192]

def k0_chk45 (v125 : IVec S16 32) (v177 : IVec S16 32) : Prop :=
  (∀ a x, ((![v125, v177] : Fin 2 → IVec S16 32) a x).toNat < S8x2048.size a)
instance k0_chk45.dec : ∀ (v125 : IVec S16 32) (v177 : IVec S16 32), Decidable (k0_chk45 v125 v177) := fun v125 v177 => decidable_of_iff' _ (Iff.of_eq (k0_chk45.eq_1 v125 v177))
theorem k0_idx45_inb : ∀ (v125 : IVec S16 32) (v177 : IVec S16 32) (k0_hw45 : k0_chk45 v125 v177), ∀ a x, ((![v125, v177] : Fin 2 → IVec S16 32) a x).toNat < S8x2048.size a := fun v125 v177 k0_hw45 => k0_hw45
def k0_off49 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v178 : Index := Scalar.indexCast arg20
  let c208 : Index := 208#32
  ![v178.toNat, 208]

def k0_chk46 (v125 : IVec S16 32) (v181 : IVec S16 32) : Prop :=
  (∀ a x, ((![v125, v181] : Fin 2 → IVec S16 32) a x).toNat < S8x2048.size a)
instance k0_chk46.dec : ∀ (v125 : IVec S16 32) (v181 : IVec S16 32), Decidable (k0_chk46 v125 v181) := fun v125 v181 => decidable_of_iff' _ (Iff.of_eq (k0_chk46.eq_1 v125 v181))
theorem k0_idx46_inb : ∀ (v125 : IVec S16 32) (v181 : IVec S16 32) (k0_hw46 : k0_chk46 v125 v181), ∀ a x, ((![v125, v181] : Fin 2 → IVec S16 32) a x).toNat < S8x2048.size a := fun v125 v181 k0_hw46 => k0_hw46
def k0_off50 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v182 : Index := Scalar.indexCast arg20
  let c224 : Index := 224#32
  ![v182.toNat, 224]

def k0_chk47 (v125 : IVec S16 32) (v185 : IVec S16 32) : Prop :=
  (∀ a x, ((![v125, v185] : Fin 2 → IVec S16 32) a x).toNat < S8x2048.size a)
instance k0_chk47.dec : ∀ (v125 : IVec S16 32) (v185 : IVec S16 32), Decidable (k0_chk47 v125 v185) := fun v125 v185 => decidable_of_iff' _ (Iff.of_eq (k0_chk47.eq_1 v125 v185))
theorem k0_idx47_inb : ∀ (v125 : IVec S16 32) (v185 : IVec S16 32) (k0_hw47 : k0_chk47 v125 v185), ∀ a x, ((![v125, v185] : Fin 2 → IVec S16 32) a x).toNat < S8x2048.size a := fun v125 v185 k0_hw47 => k0_hw47
def k0_off51 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let v186 : Index := Scalar.indexCast arg20
  let c240 : Index := 240#32
  ![v186.toNat, 240]

def k0_chk48 (v125 : IVec S16 32) (v189 : IVec S16 32) : Prop :=
  (∀ a x, ((![v125, v189] : Fin 2 → IVec S16 32) a x).toNat < S8x2048.size a)
instance k0_chk48.dec : ∀ (v125 : IVec S16 32) (v189 : IVec S16 32), Decidable (k0_chk48 v125 v189) := fun v125 v189 => decidable_of_iff' _ (Iff.of_eq (k0_chk48.eq_1 v125 v189))
theorem k0_idx48_inb : ∀ (v125 : IVec S16 32) (v189 : IVec S16 32) (k0_hw48 : k0_chk48 v125 v189), ∀ a x, ((![v125, v189] : Fin 2 → IVec S16 32) a x).toNat < S8x2048.size a := fun v125 v189 k0_hw48 => k0_hw48
@[reducible] def k0_t5_loop : Scf.Loop 32 :=
  let c0_i32_56 : BitVec 32 := 0#32
  let c8_i32_57 : BitVec 32 := 8#32
  let v58 : BitVec 32 := Scalar.addi c0_i32_56 c8_i32_57
  let c1_i32_58 : BitVec 32 := 1#32
  ⟨c0_i32_56, v58, c1_i32_58⟩
def k0_off52 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v126 : Index := Scalar.indexCast arg20
  let c0 : Index := 0#32
  ![v126.toNat, 0]

def k0_chk49 (v125 : IVec S16 32) (v129 : IVec S16 32) : Prop :=
  (∀ a x, ((![v125, v129] : Fin 2 → IVec S16 32) a x).toNat < S8x2048.size a)
instance k0_chk49.dec : ∀ (v125 : IVec S16 32) (v129 : IVec S16 32), Decidable (k0_chk49 v125 v129) := fun v125 v129 => decidable_of_iff' _ (Iff.of_eq (k0_chk49.eq_1 v125 v129))
theorem k0_idx49_inb : ∀ (v125 : IVec S16 32) (v129 : IVec S16 32) (k0_hw49 : k0_chk49 v125 v129), ∀ a x, ((![v125, v129] : Fin 2 → IVec S16 32) a x).toNat < S8x2048.size a := fun v125 v129 k0_hw49 => k0_hw49
def k0_off53 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v130 : Index := Scalar.indexCast arg20
  let c16 : Index := 16#32
  ![v130.toNat, 16]

def k0_chk50 (v125 : IVec S16 32) (v133 : IVec S16 32) : Prop :=
  (∀ a x, ((![v125, v133] : Fin 2 → IVec S16 32) a x).toNat < S8x2048.size a)
instance k0_chk50.dec : ∀ (v125 : IVec S16 32) (v133 : IVec S16 32), Decidable (k0_chk50 v125 v133) := fun v125 v133 => decidable_of_iff' _ (Iff.of_eq (k0_chk50.eq_1 v125 v133))
theorem k0_idx50_inb : ∀ (v125 : IVec S16 32) (v133 : IVec S16 32) (k0_hw50 : k0_chk50 v125 v133), ∀ a x, ((![v125, v133] : Fin 2 → IVec S16 32) a x).toNat < S8x2048.size a := fun v125 v133 k0_hw50 => k0_hw50
def k0_off54 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v134 : Index := Scalar.indexCast arg20
  let c32 : Index := 32#32
  ![v134.toNat, 32]

def k0_chk51 (v125 : IVec S16 32) (v137 : IVec S16 32) : Prop :=
  (∀ a x, ((![v125, v137] : Fin 2 → IVec S16 32) a x).toNat < S8x2048.size a)
instance k0_chk51.dec : ∀ (v125 : IVec S16 32) (v137 : IVec S16 32), Decidable (k0_chk51 v125 v137) := fun v125 v137 => decidable_of_iff' _ (Iff.of_eq (k0_chk51.eq_1 v125 v137))
theorem k0_idx51_inb : ∀ (v125 : IVec S16 32) (v137 : IVec S16 32) (k0_hw51 : k0_chk51 v125 v137), ∀ a x, ((![v125, v137] : Fin 2 → IVec S16 32) a x).toNat < S8x2048.size a := fun v125 v137 k0_hw51 => k0_hw51
def k0_off55 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v138 : Index := Scalar.indexCast arg20
  let c48 : Index := 48#32
  ![v138.toNat, 48]

def k0_chk52 (v125 : IVec S16 32) (v141 : IVec S16 32) : Prop :=
  (∀ a x, ((![v125, v141] : Fin 2 → IVec S16 32) a x).toNat < S8x2048.size a)
instance k0_chk52.dec : ∀ (v125 : IVec S16 32) (v141 : IVec S16 32), Decidable (k0_chk52 v125 v141) := fun v125 v141 => decidable_of_iff' _ (Iff.of_eq (k0_chk52.eq_1 v125 v141))
theorem k0_idx52_inb : ∀ (v125 : IVec S16 32) (v141 : IVec S16 32) (k0_hw52 : k0_chk52 v125 v141), ∀ a x, ((![v125, v141] : Fin 2 → IVec S16 32) a x).toNat < S8x2048.size a := fun v125 v141 k0_hw52 => k0_hw52
def k0_off56 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v142 : Index := Scalar.indexCast arg20
  let c64 : Index := 64#32
  ![v142.toNat, 64]

def k0_chk53 (v125 : IVec S16 32) (v145 : IVec S16 32) : Prop :=
  (∀ a x, ((![v125, v145] : Fin 2 → IVec S16 32) a x).toNat < S8x2048.size a)
instance k0_chk53.dec : ∀ (v125 : IVec S16 32) (v145 : IVec S16 32), Decidable (k0_chk53 v125 v145) := fun v125 v145 => decidable_of_iff' _ (Iff.of_eq (k0_chk53.eq_1 v125 v145))
theorem k0_idx53_inb : ∀ (v125 : IVec S16 32) (v145 : IVec S16 32) (k0_hw53 : k0_chk53 v125 v145), ∀ a x, ((![v125, v145] : Fin 2 → IVec S16 32) a x).toNat < S8x2048.size a := fun v125 v145 k0_hw53 => k0_hw53
def k0_off57 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v146 : Index := Scalar.indexCast arg20
  let c80 : Index := 80#32
  ![v146.toNat, 80]

def k0_chk54 (v125 : IVec S16 32) (v149 : IVec S16 32) : Prop :=
  (∀ a x, ((![v125, v149] : Fin 2 → IVec S16 32) a x).toNat < S8x2048.size a)
instance k0_chk54.dec : ∀ (v125 : IVec S16 32) (v149 : IVec S16 32), Decidable (k0_chk54 v125 v149) := fun v125 v149 => decidable_of_iff' _ (Iff.of_eq (k0_chk54.eq_1 v125 v149))
theorem k0_idx54_inb : ∀ (v125 : IVec S16 32) (v149 : IVec S16 32) (k0_hw54 : k0_chk54 v125 v149), ∀ a x, ((![v125, v149] : Fin 2 → IVec S16 32) a x).toNat < S8x2048.size a := fun v125 v149 k0_hw54 => k0_hw54
def k0_off58 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v150 : Index := Scalar.indexCast arg20
  let c96 : Index := 96#32
  ![v150.toNat, 96]

def k0_chk55 (v125 : IVec S16 32) (v153 : IVec S16 32) : Prop :=
  (∀ a x, ((![v125, v153] : Fin 2 → IVec S16 32) a x).toNat < S8x2048.size a)
instance k0_chk55.dec : ∀ (v125 : IVec S16 32) (v153 : IVec S16 32), Decidable (k0_chk55 v125 v153) := fun v125 v153 => decidable_of_iff' _ (Iff.of_eq (k0_chk55.eq_1 v125 v153))
theorem k0_idx55_inb : ∀ (v125 : IVec S16 32) (v153 : IVec S16 32) (k0_hw55 : k0_chk55 v125 v153), ∀ a x, ((![v125, v153] : Fin 2 → IVec S16 32) a x).toNat < S8x2048.size a := fun v125 v153 k0_hw55 => k0_hw55
def k0_off59 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v154 : Index := Scalar.indexCast arg20
  let c112 : Index := 112#32
  ![v154.toNat, 112]

def k0_chk56 (v125 : IVec S16 32) (v157 : IVec S16 32) : Prop :=
  (∀ a x, ((![v125, v157] : Fin 2 → IVec S16 32) a x).toNat < S8x2048.size a)
instance k0_chk56.dec : ∀ (v125 : IVec S16 32) (v157 : IVec S16 32), Decidable (k0_chk56 v125 v157) := fun v125 v157 => decidable_of_iff' _ (Iff.of_eq (k0_chk56.eq_1 v125 v157))
theorem k0_idx56_inb : ∀ (v125 : IVec S16 32) (v157 : IVec S16 32) (k0_hw56 : k0_chk56 v125 v157), ∀ a x, ((![v125, v157] : Fin 2 → IVec S16 32) a x).toNat < S8x2048.size a := fun v125 v157 k0_hw56 => k0_hw56
def k0_off60 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v158 : Index := Scalar.indexCast arg20
  let c128 : Index := 128#32
  ![v158.toNat, 128]

def k0_chk57 (v125 : IVec S16 32) (v161 : IVec S16 32) : Prop :=
  (∀ a x, ((![v125, v161] : Fin 2 → IVec S16 32) a x).toNat < S8x2048.size a)
instance k0_chk57.dec : ∀ (v125 : IVec S16 32) (v161 : IVec S16 32), Decidable (k0_chk57 v125 v161) := fun v125 v161 => decidable_of_iff' _ (Iff.of_eq (k0_chk57.eq_1 v125 v161))
theorem k0_idx57_inb : ∀ (v125 : IVec S16 32) (v161 : IVec S16 32) (k0_hw57 : k0_chk57 v125 v161), ∀ a x, ((![v125, v161] : Fin 2 → IVec S16 32) a x).toNat < S8x2048.size a := fun v125 v161 k0_hw57 => k0_hw57
def k0_off61 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v162 : Index := Scalar.indexCast arg20
  let c144 : Index := 144#32
  ![v162.toNat, 144]

def k0_chk58 (v125 : IVec S16 32) (v165 : IVec S16 32) : Prop :=
  (∀ a x, ((![v125, v165] : Fin 2 → IVec S16 32) a x).toNat < S8x2048.size a)
instance k0_chk58.dec : ∀ (v125 : IVec S16 32) (v165 : IVec S16 32), Decidable (k0_chk58 v125 v165) := fun v125 v165 => decidable_of_iff' _ (Iff.of_eq (k0_chk58.eq_1 v125 v165))
theorem k0_idx58_inb : ∀ (v125 : IVec S16 32) (v165 : IVec S16 32) (k0_hw58 : k0_chk58 v125 v165), ∀ a x, ((![v125, v165] : Fin 2 → IVec S16 32) a x).toNat < S8x2048.size a := fun v125 v165 k0_hw58 => k0_hw58
def k0_off62 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v166 : Index := Scalar.indexCast arg20
  let c160 : Index := 160#32
  ![v166.toNat, 160]

def k0_chk59 (v125 : IVec S16 32) (v169 : IVec S16 32) : Prop :=
  (∀ a x, ((![v125, v169] : Fin 2 → IVec S16 32) a x).toNat < S8x2048.size a)
instance k0_chk59.dec : ∀ (v125 : IVec S16 32) (v169 : IVec S16 32), Decidable (k0_chk59 v125 v169) := fun v125 v169 => decidable_of_iff' _ (Iff.of_eq (k0_chk59.eq_1 v125 v169))
theorem k0_idx59_inb : ∀ (v125 : IVec S16 32) (v169 : IVec S16 32) (k0_hw59 : k0_chk59 v125 v169), ∀ a x, ((![v125, v169] : Fin 2 → IVec S16 32) a x).toNat < S8x2048.size a := fun v125 v169 k0_hw59 => k0_hw59
def k0_off63 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v170 : Index := Scalar.indexCast arg20
  let c176 : Index := 176#32
  ![v170.toNat, 176]

def k0_chk60 (v125 : IVec S16 32) (v173 : IVec S16 32) : Prop :=
  (∀ a x, ((![v125, v173] : Fin 2 → IVec S16 32) a x).toNat < S8x2048.size a)
instance k0_chk60.dec : ∀ (v125 : IVec S16 32) (v173 : IVec S16 32), Decidable (k0_chk60 v125 v173) := fun v125 v173 => decidable_of_iff' _ (Iff.of_eq (k0_chk60.eq_1 v125 v173))
theorem k0_idx60_inb : ∀ (v125 : IVec S16 32) (v173 : IVec S16 32) (k0_hw60 : k0_chk60 v125 v173), ∀ a x, ((![v125, v173] : Fin 2 → IVec S16 32) a x).toNat < S8x2048.size a := fun v125 v173 k0_hw60 => k0_hw60
def k0_off64 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v174 : Index := Scalar.indexCast arg20
  let c192 : Index := 192#32
  ![v174.toNat, 192]

def k0_chk61 (v125 : IVec S16 32) (v177 : IVec S16 32) : Prop :=
  (∀ a x, ((![v125, v177] : Fin 2 → IVec S16 32) a x).toNat < S8x2048.size a)
instance k0_chk61.dec : ∀ (v125 : IVec S16 32) (v177 : IVec S16 32), Decidable (k0_chk61 v125 v177) := fun v125 v177 => decidable_of_iff' _ (Iff.of_eq (k0_chk61.eq_1 v125 v177))
theorem k0_idx61_inb : ∀ (v125 : IVec S16 32) (v177 : IVec S16 32) (k0_hw61 : k0_chk61 v125 v177), ∀ a x, ((![v125, v177] : Fin 2 → IVec S16 32) a x).toNat < S8x2048.size a := fun v125 v177 k0_hw61 => k0_hw61
def k0_off65 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v178 : Index := Scalar.indexCast arg20
  let c208 : Index := 208#32
  ![v178.toNat, 208]

def k0_chk62 (v125 : IVec S16 32) (v181 : IVec S16 32) : Prop :=
  (∀ a x, ((![v125, v181] : Fin 2 → IVec S16 32) a x).toNat < S8x2048.size a)
instance k0_chk62.dec : ∀ (v125 : IVec S16 32) (v181 : IVec S16 32), Decidable (k0_chk62 v125 v181) := fun v125 v181 => decidable_of_iff' _ (Iff.of_eq (k0_chk62.eq_1 v125 v181))
theorem k0_idx62_inb : ∀ (v125 : IVec S16 32) (v181 : IVec S16 32) (k0_hw62 : k0_chk62 v125 v181), ∀ a x, ((![v125, v181] : Fin 2 → IVec S16 32) a x).toNat < S8x2048.size a := fun v125 v181 k0_hw62 => k0_hw62
def k0_off66 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v182 : Index := Scalar.indexCast arg20
  let c224 : Index := 224#32
  ![v182.toNat, 224]

def k0_chk63 (v125 : IVec S16 32) (v185 : IVec S16 32) : Prop :=
  (∀ a x, ((![v125, v185] : Fin 2 → IVec S16 32) a x).toNat < S8x2048.size a)
instance k0_chk63.dec : ∀ (v125 : IVec S16 32) (v185 : IVec S16 32), Decidable (k0_chk63 v125 v185) := fun v125 v185 => decidable_of_iff' _ (Iff.of_eq (k0_chk63.eq_1 v125 v185))
theorem k0_idx63_inb : ∀ (v125 : IVec S16 32) (v185 : IVec S16 32) (k0_hw63 : k0_chk63 v125 v185), ∀ a x, ((![v125, v185] : Fin 2 → IVec S16 32) a x).toNat < S8x2048.size a := fun v125 v185 k0_hw63 => k0_hw63
def k0_off67 (k0_t5 : Fin k0_t5_loop.trips) : Fin 2 → Nat :=
  let c0_i32_56 : BitVec 32 := 0#32
  let c1_i32_58 : BitVec 32 := 1#32
  let arg20 : BitVec 32 := Scf.iv c0_i32_56 c1_i32_58 k0_t5
  let v186 : Index := Scalar.indexCast arg20
  let c240 : Index := 240#32
  ![v186.toNat, 240]

def k0_chk64 (v125 : IVec S16 32) (v189 : IVec S16 32) : Prop :=
  (∀ a x, ((![v125, v189] : Fin 2 → IVec S16 32) a x).toNat < S8x2048.size a)
instance k0_chk64.dec : ∀ (v125 : IVec S16 32) (v189 : IVec S16 32), Decidable (k0_chk64 v125 v189) := fun v125 v189 => decidable_of_iff' _ (Iff.of_eq (k0_chk64.eq_1 v125 v189))
theorem k0_idx64_inb : ∀ (v125 : IVec S16 32) (v189 : IVec S16 32) (k0_hw64 : k0_chk64 v125 v189), ∀ a x, ((![v125, v189] : Fin 2 → IVec S16 32) a x).toNat < S8x2048.size a := fun v125 v189 k0_hw64 => k0_hw64
@[reducible] def k0_t6_loop : Scf.Loop 32 :=
  let c1_i32_66 : BitVec 32 := 1#32
  let c14_i32 : BitVec 32 := 14#32
  let v66 : BitVec 32 := Scalar.addi c1_i32_66 c14_i32
  let c1_i32_67 : BitVec 32 := 1#32
  ⟨c1_i32_66, v66, c1_i32_67⟩
def k0_off68 (i : grid0.Coords) (k0_t6 : Fin k0_t6_loop.trips) (c0_i32_129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_66 : BitVec 32 := 1#32
  let c1_i32_67 : BitVec 32 := 1#32
  let arg20 : BitVec 32 := Scf.iv c1_i32_66 c1_i32_67 k0_t6
  let c4_i32 : BitVec 32 := 4#32
  let v124 : BitVec 32 := Scalar.muli arg20 c4_i32
  let v125 : BitVec 32 := Scalar.addi v124 c0_i32_129
  let c8_i32_130 : BitVec 32 := 8#32
  let v126 : BitVec 32 := Scalar.muli v125 c8_i32_130
  let v127 : BitVec 32 := Scalar.addi v2 v126
  let c0_i32_131 : BitVec 32 := 0#32
  ![v127.toNat, 0]
def k0_off69 (i : grid0.Coords) (k0_t6 : Fin k0_t6_loop.trips) (c0_i32_129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_66 : BitVec 32 := 1#32
  let c1_i32_67 : BitVec 32 := 1#32
  let arg20 : BitVec 32 := Scf.iv c1_i32_66 c1_i32_67 k0_t6
  let c4_i32 : BitVec 32 := 4#32
  let v124 : BitVec 32 := Scalar.muli arg20 c4_i32
  let v125 : BitVec 32 := Scalar.addi v124 c0_i32_129
  let c4_i32_133 : BitVec 32 := 4#32
  let v130 : BitVec 32 := Scalar.subi v125 c4_i32_133
  let c8_i32_134 : BitVec 32 := 8#32
  let v131 : BitVec 32 := Scalar.muli v130 c8_i32_134
  let v132 : BitVec 32 := Scalar.addi v2 v131
  let c0_i32_135 : BitVec 32 := 0#32
  ![v132.toNat, 0]
@[reducible] def k0_t7_loop : Scf.Loop 32 :=
  let c0_i32_138 : BitVec 32 := 0#32
  let c8_i32_139 : BitVec 32 := 8#32
  let v135 : BitVec 32 := Scalar.addi c0_i32_138 c8_i32_139
  let c1_i32_140 : BitVec 32 := 1#32
  ⟨c0_i32_138, v135, c1_i32_140⟩
def k0_off70 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v211 : Index := Scalar.indexCast arg22
  let c0 : Index := 0#32
  ![v211.toNat, 0]

def k0_chk65 (v210 : IVec S16 32) (v214 : IVec S16 32) : Prop :=
  (∀ a x, ((![v210, v214] : Fin 2 → IVec S16 32) a x).toNat < S8x2048.size a)
instance k0_chk65.dec : ∀ (v210 : IVec S16 32) (v214 : IVec S16 32), Decidable (k0_chk65 v210 v214) := fun v210 v214 => decidable_of_iff' _ (Iff.of_eq (k0_chk65.eq_1 v210 v214))
theorem k0_idx65_inb : ∀ (v210 : IVec S16 32) (v214 : IVec S16 32) (k0_hw65 : k0_chk65 v210 v214), ∀ a x, ((![v210, v214] : Fin 2 → IVec S16 32) a x).toNat < S8x2048.size a := fun v210 v214 k0_hw65 => k0_hw65
def k0_off71 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v215 : Index := Scalar.indexCast arg22
  let c16 : Index := 16#32
  ![v215.toNat, 16]

def k0_chk66 (v210 : IVec S16 32) (v218 : IVec S16 32) : Prop :=
  (∀ a x, ((![v210, v218] : Fin 2 → IVec S16 32) a x).toNat < S8x2048.size a)
instance k0_chk66.dec : ∀ (v210 : IVec S16 32) (v218 : IVec S16 32), Decidable (k0_chk66 v210 v218) := fun v210 v218 => decidable_of_iff' _ (Iff.of_eq (k0_chk66.eq_1 v210 v218))
theorem k0_idx66_inb : ∀ (v210 : IVec S16 32) (v218 : IVec S16 32) (k0_hw66 : k0_chk66 v210 v218), ∀ a x, ((![v210, v218] : Fin 2 → IVec S16 32) a x).toNat < S8x2048.size a := fun v210 v218 k0_hw66 => k0_hw66
def k0_off72 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v219 : Index := Scalar.indexCast arg22
  let c32 : Index := 32#32
  ![v219.toNat, 32]

def k0_chk67 (v210 : IVec S16 32) (v222 : IVec S16 32) : Prop :=
  (∀ a x, ((![v210, v222] : Fin 2 → IVec S16 32) a x).toNat < S8x2048.size a)
instance k0_chk67.dec : ∀ (v210 : IVec S16 32) (v222 : IVec S16 32), Decidable (k0_chk67 v210 v222) := fun v210 v222 => decidable_of_iff' _ (Iff.of_eq (k0_chk67.eq_1 v210 v222))
theorem k0_idx67_inb : ∀ (v210 : IVec S16 32) (v222 : IVec S16 32) (k0_hw67 : k0_chk67 v210 v222), ∀ a x, ((![v210, v222] : Fin 2 → IVec S16 32) a x).toNat < S8x2048.size a := fun v210 v222 k0_hw67 => k0_hw67
def k0_off73 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v223 : Index := Scalar.indexCast arg22
  let c48 : Index := 48#32
  ![v223.toNat, 48]

def k0_chk68 (v210 : IVec S16 32) (v226 : IVec S16 32) : Prop :=
  (∀ a x, ((![v210, v226] : Fin 2 → IVec S16 32) a x).toNat < S8x2048.size a)
instance k0_chk68.dec : ∀ (v210 : IVec S16 32) (v226 : IVec S16 32), Decidable (k0_chk68 v210 v226) := fun v210 v226 => decidable_of_iff' _ (Iff.of_eq (k0_chk68.eq_1 v210 v226))
theorem k0_idx68_inb : ∀ (v210 : IVec S16 32) (v226 : IVec S16 32) (k0_hw68 : k0_chk68 v210 v226), ∀ a x, ((![v210, v226] : Fin 2 → IVec S16 32) a x).toNat < S8x2048.size a := fun v210 v226 k0_hw68 => k0_hw68
def k0_off74 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v227 : Index := Scalar.indexCast arg22
  let c64 : Index := 64#32
  ![v227.toNat, 64]

def k0_chk69 (v210 : IVec S16 32) (v230 : IVec S16 32) : Prop :=
  (∀ a x, ((![v210, v230] : Fin 2 → IVec S16 32) a x).toNat < S8x2048.size a)
instance k0_chk69.dec : ∀ (v210 : IVec S16 32) (v230 : IVec S16 32), Decidable (k0_chk69 v210 v230) := fun v210 v230 => decidable_of_iff' _ (Iff.of_eq (k0_chk69.eq_1 v210 v230))
theorem k0_idx69_inb : ∀ (v210 : IVec S16 32) (v230 : IVec S16 32) (k0_hw69 : k0_chk69 v210 v230), ∀ a x, ((![v210, v230] : Fin 2 → IVec S16 32) a x).toNat < S8x2048.size a := fun v210 v230 k0_hw69 => k0_hw69
def k0_off75 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v231 : Index := Scalar.indexCast arg22
  let c80 : Index := 80#32
  ![v231.toNat, 80]

def k0_chk70 (v210 : IVec S16 32) (v234 : IVec S16 32) : Prop :=
  (∀ a x, ((![v210, v234] : Fin 2 → IVec S16 32) a x).toNat < S8x2048.size a)
instance k0_chk70.dec : ∀ (v210 : IVec S16 32) (v234 : IVec S16 32), Decidable (k0_chk70 v210 v234) := fun v210 v234 => decidable_of_iff' _ (Iff.of_eq (k0_chk70.eq_1 v210 v234))
theorem k0_idx70_inb : ∀ (v210 : IVec S16 32) (v234 : IVec S16 32) (k0_hw70 : k0_chk70 v210 v234), ∀ a x, ((![v210, v234] : Fin 2 → IVec S16 32) a x).toNat < S8x2048.size a := fun v210 v234 k0_hw70 => k0_hw70
def k0_off76 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v235 : Index := Scalar.indexCast arg22
  let c96 : Index := 96#32
  ![v235.toNat, 96]

def k0_chk71 (v210 : IVec S16 32) (v238 : IVec S16 32) : Prop :=
  (∀ a x, ((![v210, v238] : Fin 2 → IVec S16 32) a x).toNat < S8x2048.size a)
instance k0_chk71.dec : ∀ (v210 : IVec S16 32) (v238 : IVec S16 32), Decidable (k0_chk71 v210 v238) := fun v210 v238 => decidable_of_iff' _ (Iff.of_eq (k0_chk71.eq_1 v210 v238))
theorem k0_idx71_inb : ∀ (v210 : IVec S16 32) (v238 : IVec S16 32) (k0_hw71 : k0_chk71 v210 v238), ∀ a x, ((![v210, v238] : Fin 2 → IVec S16 32) a x).toNat < S8x2048.size a := fun v210 v238 k0_hw71 => k0_hw71
def k0_off77 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v239 : Index := Scalar.indexCast arg22
  let c112 : Index := 112#32
  ![v239.toNat, 112]

def k0_chk72 (v210 : IVec S16 32) (v242 : IVec S16 32) : Prop :=
  (∀ a x, ((![v210, v242] : Fin 2 → IVec S16 32) a x).toNat < S8x2048.size a)
instance k0_chk72.dec : ∀ (v210 : IVec S16 32) (v242 : IVec S16 32), Decidable (k0_chk72 v210 v242) := fun v210 v242 => decidable_of_iff' _ (Iff.of_eq (k0_chk72.eq_1 v210 v242))
theorem k0_idx72_inb : ∀ (v210 : IVec S16 32) (v242 : IVec S16 32) (k0_hw72 : k0_chk72 v210 v242), ∀ a x, ((![v210, v242] : Fin 2 → IVec S16 32) a x).toNat < S8x2048.size a := fun v210 v242 k0_hw72 => k0_hw72
def k0_off78 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v243 : Index := Scalar.indexCast arg22
  let c128 : Index := 128#32
  ![v243.toNat, 128]

def k0_chk73 (v210 : IVec S16 32) (v246 : IVec S16 32) : Prop :=
  (∀ a x, ((![v210, v246] : Fin 2 → IVec S16 32) a x).toNat < S8x2048.size a)
instance k0_chk73.dec : ∀ (v210 : IVec S16 32) (v246 : IVec S16 32), Decidable (k0_chk73 v210 v246) := fun v210 v246 => decidable_of_iff' _ (Iff.of_eq (k0_chk73.eq_1 v210 v246))
theorem k0_idx73_inb : ∀ (v210 : IVec S16 32) (v246 : IVec S16 32) (k0_hw73 : k0_chk73 v210 v246), ∀ a x, ((![v210, v246] : Fin 2 → IVec S16 32) a x).toNat < S8x2048.size a := fun v210 v246 k0_hw73 => k0_hw73
def k0_off79 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v247 : Index := Scalar.indexCast arg22
  let c144 : Index := 144#32
  ![v247.toNat, 144]

def k0_chk74 (v210 : IVec S16 32) (v250 : IVec S16 32) : Prop :=
  (∀ a x, ((![v210, v250] : Fin 2 → IVec S16 32) a x).toNat < S8x2048.size a)
instance k0_chk74.dec : ∀ (v210 : IVec S16 32) (v250 : IVec S16 32), Decidable (k0_chk74 v210 v250) := fun v210 v250 => decidable_of_iff' _ (Iff.of_eq (k0_chk74.eq_1 v210 v250))
theorem k0_idx74_inb : ∀ (v210 : IVec S16 32) (v250 : IVec S16 32) (k0_hw74 : k0_chk74 v210 v250), ∀ a x, ((![v210, v250] : Fin 2 → IVec S16 32) a x).toNat < S8x2048.size a := fun v210 v250 k0_hw74 => k0_hw74
def k0_off80 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v251 : Index := Scalar.indexCast arg22
  let c160 : Index := 160#32
  ![v251.toNat, 160]

def k0_chk75 (v210 : IVec S16 32) (v254 : IVec S16 32) : Prop :=
  (∀ a x, ((![v210, v254] : Fin 2 → IVec S16 32) a x).toNat < S8x2048.size a)
instance k0_chk75.dec : ∀ (v210 : IVec S16 32) (v254 : IVec S16 32), Decidable (k0_chk75 v210 v254) := fun v210 v254 => decidable_of_iff' _ (Iff.of_eq (k0_chk75.eq_1 v210 v254))
theorem k0_idx75_inb : ∀ (v210 : IVec S16 32) (v254 : IVec S16 32) (k0_hw75 : k0_chk75 v210 v254), ∀ a x, ((![v210, v254] : Fin 2 → IVec S16 32) a x).toNat < S8x2048.size a := fun v210 v254 k0_hw75 => k0_hw75
def k0_off81 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v255 : Index := Scalar.indexCast arg22
  let c176 : Index := 176#32
  ![v255.toNat, 176]

def k0_chk76 (v210 : IVec S16 32) (v258 : IVec S16 32) : Prop :=
  (∀ a x, ((![v210, v258] : Fin 2 → IVec S16 32) a x).toNat < S8x2048.size a)
instance k0_chk76.dec : ∀ (v210 : IVec S16 32) (v258 : IVec S16 32), Decidable (k0_chk76 v210 v258) := fun v210 v258 => decidable_of_iff' _ (Iff.of_eq (k0_chk76.eq_1 v210 v258))
theorem k0_idx76_inb : ∀ (v210 : IVec S16 32) (v258 : IVec S16 32) (k0_hw76 : k0_chk76 v210 v258), ∀ a x, ((![v210, v258] : Fin 2 → IVec S16 32) a x).toNat < S8x2048.size a := fun v210 v258 k0_hw76 => k0_hw76
def k0_off82 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v259 : Index := Scalar.indexCast arg22
  let c192 : Index := 192#32
  ![v259.toNat, 192]

def k0_chk77 (v210 : IVec S16 32) (v262 : IVec S16 32) : Prop :=
  (∀ a x, ((![v210, v262] : Fin 2 → IVec S16 32) a x).toNat < S8x2048.size a)
instance k0_chk77.dec : ∀ (v210 : IVec S16 32) (v262 : IVec S16 32), Decidable (k0_chk77 v210 v262) := fun v210 v262 => decidable_of_iff' _ (Iff.of_eq (k0_chk77.eq_1 v210 v262))
theorem k0_idx77_inb : ∀ (v210 : IVec S16 32) (v262 : IVec S16 32) (k0_hw77 : k0_chk77 v210 v262), ∀ a x, ((![v210, v262] : Fin 2 → IVec S16 32) a x).toNat < S8x2048.size a := fun v210 v262 k0_hw77 => k0_hw77
def k0_off83 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v263 : Index := Scalar.indexCast arg22
  let c208 : Index := 208#32
  ![v263.toNat, 208]

def k0_chk78 (v210 : IVec S16 32) (v266 : IVec S16 32) : Prop :=
  (∀ a x, ((![v210, v266] : Fin 2 → IVec S16 32) a x).toNat < S8x2048.size a)
instance k0_chk78.dec : ∀ (v210 : IVec S16 32) (v266 : IVec S16 32), Decidable (k0_chk78 v210 v266) := fun v210 v266 => decidable_of_iff' _ (Iff.of_eq (k0_chk78.eq_1 v210 v266))
theorem k0_idx78_inb : ∀ (v210 : IVec S16 32) (v266 : IVec S16 32) (k0_hw78 : k0_chk78 v210 v266), ∀ a x, ((![v210, v266] : Fin 2 → IVec S16 32) a x).toNat < S8x2048.size a := fun v210 v266 k0_hw78 => k0_hw78
def k0_off84 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v267 : Index := Scalar.indexCast arg22
  let c224 : Index := 224#32
  ![v267.toNat, 224]

def k0_chk79 (v210 : IVec S16 32) (v270 : IVec S16 32) : Prop :=
  (∀ a x, ((![v210, v270] : Fin 2 → IVec S16 32) a x).toNat < S8x2048.size a)
instance k0_chk79.dec : ∀ (v210 : IVec S16 32) (v270 : IVec S16 32), Decidable (k0_chk79 v210 v270) := fun v210 v270 => decidable_of_iff' _ (Iff.of_eq (k0_chk79.eq_1 v210 v270))
theorem k0_idx79_inb : ∀ (v210 : IVec S16 32) (v270 : IVec S16 32) (k0_hw79 : k0_chk79 v210 v270), ∀ a x, ((![v210, v270] : Fin 2 → IVec S16 32) a x).toNat < S8x2048.size a := fun v210 v270 k0_hw79 => k0_hw79
def k0_off85 (k0_t7 : Fin k0_t7_loop.trips) : Fin 2 → Nat :=
  let c0_i32_138 : BitVec 32 := 0#32
  let c1_i32_140 : BitVec 32 := 1#32
  let arg22 : BitVec 32 := Scf.iv c0_i32_138 c1_i32_140 k0_t7
  let v271 : Index := Scalar.indexCast arg22
  let c240 : Index := 240#32
  ![v271.toNat, 240]

def k0_chk80 (v210 : IVec S16 32) (v274 : IVec S16 32) : Prop :=
  (∀ a x, ((![v210, v274] : Fin 2 → IVec S16 32) a x).toNat < S8x2048.size a)
instance k0_chk80.dec : ∀ (v210 : IVec S16 32) (v274 : IVec S16 32), Decidable (k0_chk80 v210 v274) := fun v210 v274 => decidable_of_iff' _ (Iff.of_eq (k0_chk80.eq_1 v210 v274))
theorem k0_idx80_inb : ∀ (v210 : IVec S16 32) (v274 : IVec S16 32) (k0_hw80 : k0_chk80 v210 v274), ∀ a x, ((![v210, v274] : Fin 2 → IVec S16 32) a x).toNat < S8x2048.size a := fun v210 v274 k0_hw80 => k0_hw80
def k0_off86 (i : grid0.Coords) (k0_t6 : Fin k0_t6_loop.trips) (c0_i32_129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_66 : BitVec 32 := 1#32
  let c1_i32_67 : BitVec 32 := 1#32
  let arg20 : BitVec 32 := Scf.iv c1_i32_66 c1_i32_67 k0_t6
  let c4_i32 : BitVec 32 := 4#32
  let v124 : BitVec 32 := Scalar.muli arg20 c4_i32
  let v125 : BitVec 32 := Scalar.addi v124 c0_i32_129
  let c8_i32_142 : BitVec 32 := 8#32
  let v137 : BitVec 32 := Scalar.muli v125 c8_i32_142
  let v138 : BitVec 32 := Scalar.addi v2 v137
  let c0_i32_143 : BitVec 32 := 0#32
  ![v138.toNat, 0]
def k0_off87 (i : grid0.Coords) (k0_t6 : Fin k0_t6_loop.trips) (c0_i32_129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_66 : BitVec 32 := 1#32
  let c1_i32_67 : BitVec 32 := 1#32
  let arg20 : BitVec 32 := Scf.iv c1_i32_66 c1_i32_67 k0_t6
  let c4_i32 : BitVec 32 := 4#32
  let v124 : BitVec 32 := Scalar.muli arg20 c4_i32
  let v125 : BitVec 32 := Scalar.addi v124 c0_i32_129
  let c4_i32_145 : BitVec 32 := 4#32
  let v141 : BitVec 32 := Scalar.addi v125 c4_i32_145
  let c8_i32_146 : BitVec 32 := 8#32
  let v142 : BitVec 32 := Scalar.muli v141 c8_i32_146
  let v143 : BitVec 32 := Scalar.addi v2 v142
  let c0_i32_147 : BitVec 32 := 0#32
  ![v143.toNat, 0]
@[reducible] def k0_t8_loop : Scf.Loop 32 :=
  let c0_i32_158 : BitVec 32 := 0#32
  let c8_i32_159 : BitVec 32 := 8#32
  let v156 : BitVec 32 := Scalar.addi c0_i32_158 c8_i32_159
  let c1_i32_160 : BitVec 32 := 1#32
  ⟨c0_i32_158, v156, c1_i32_160⟩
def k0_off88 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v211 : Index := Scalar.indexCast arg22
  let c0 : Index := 0#32
  ![v211.toNat, 0]

def k0_chk81 (v210 : IVec S16 32) (v214 : IVec S16 32) : Prop :=
  (∀ a x, ((![v210, v214] : Fin 2 → IVec S16 32) a x).toNat < S8x2048.size a)
instance k0_chk81.dec : ∀ (v210 : IVec S16 32) (v214 : IVec S16 32), Decidable (k0_chk81 v210 v214) := fun v210 v214 => decidable_of_iff' _ (Iff.of_eq (k0_chk81.eq_1 v210 v214))
theorem k0_idx81_inb : ∀ (v210 : IVec S16 32) (v214 : IVec S16 32) (k0_hw81 : k0_chk81 v210 v214), ∀ a x, ((![v210, v214] : Fin 2 → IVec S16 32) a x).toNat < S8x2048.size a := fun v210 v214 k0_hw81 => k0_hw81
def k0_off89 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v215 : Index := Scalar.indexCast arg22
  let c16 : Index := 16#32
  ![v215.toNat, 16]

def k0_chk82 (v210 : IVec S16 32) (v218 : IVec S16 32) : Prop :=
  (∀ a x, ((![v210, v218] : Fin 2 → IVec S16 32) a x).toNat < S8x2048.size a)
instance k0_chk82.dec : ∀ (v210 : IVec S16 32) (v218 : IVec S16 32), Decidable (k0_chk82 v210 v218) := fun v210 v218 => decidable_of_iff' _ (Iff.of_eq (k0_chk82.eq_1 v210 v218))
theorem k0_idx82_inb : ∀ (v210 : IVec S16 32) (v218 : IVec S16 32) (k0_hw82 : k0_chk82 v210 v218), ∀ a x, ((![v210, v218] : Fin 2 → IVec S16 32) a x).toNat < S8x2048.size a := fun v210 v218 k0_hw82 => k0_hw82
def k0_off90 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v219 : Index := Scalar.indexCast arg22
  let c32 : Index := 32#32
  ![v219.toNat, 32]

def k0_chk83 (v210 : IVec S16 32) (v222 : IVec S16 32) : Prop :=
  (∀ a x, ((![v210, v222] : Fin 2 → IVec S16 32) a x).toNat < S8x2048.size a)
instance k0_chk83.dec : ∀ (v210 : IVec S16 32) (v222 : IVec S16 32), Decidable (k0_chk83 v210 v222) := fun v210 v222 => decidable_of_iff' _ (Iff.of_eq (k0_chk83.eq_1 v210 v222))
theorem k0_idx83_inb : ∀ (v210 : IVec S16 32) (v222 : IVec S16 32) (k0_hw83 : k0_chk83 v210 v222), ∀ a x, ((![v210, v222] : Fin 2 → IVec S16 32) a x).toNat < S8x2048.size a := fun v210 v222 k0_hw83 => k0_hw83
def k0_off91 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v223 : Index := Scalar.indexCast arg22
  let c48 : Index := 48#32
  ![v223.toNat, 48]

def k0_chk84 (v210 : IVec S16 32) (v226 : IVec S16 32) : Prop :=
  (∀ a x, ((![v210, v226] : Fin 2 → IVec S16 32) a x).toNat < S8x2048.size a)
instance k0_chk84.dec : ∀ (v210 : IVec S16 32) (v226 : IVec S16 32), Decidable (k0_chk84 v210 v226) := fun v210 v226 => decidable_of_iff' _ (Iff.of_eq (k0_chk84.eq_1 v210 v226))
theorem k0_idx84_inb : ∀ (v210 : IVec S16 32) (v226 : IVec S16 32) (k0_hw84 : k0_chk84 v210 v226), ∀ a x, ((![v210, v226] : Fin 2 → IVec S16 32) a x).toNat < S8x2048.size a := fun v210 v226 k0_hw84 => k0_hw84
def k0_off92 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v227 : Index := Scalar.indexCast arg22
  let c64 : Index := 64#32
  ![v227.toNat, 64]

def k0_chk85 (v210 : IVec S16 32) (v230 : IVec S16 32) : Prop :=
  (∀ a x, ((![v210, v230] : Fin 2 → IVec S16 32) a x).toNat < S8x2048.size a)
instance k0_chk85.dec : ∀ (v210 : IVec S16 32) (v230 : IVec S16 32), Decidable (k0_chk85 v210 v230) := fun v210 v230 => decidable_of_iff' _ (Iff.of_eq (k0_chk85.eq_1 v210 v230))
theorem k0_idx85_inb : ∀ (v210 : IVec S16 32) (v230 : IVec S16 32) (k0_hw85 : k0_chk85 v210 v230), ∀ a x, ((![v210, v230] : Fin 2 → IVec S16 32) a x).toNat < S8x2048.size a := fun v210 v230 k0_hw85 => k0_hw85
def k0_off93 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v231 : Index := Scalar.indexCast arg22
  let c80 : Index := 80#32
  ![v231.toNat, 80]

def k0_chk86 (v210 : IVec S16 32) (v234 : IVec S16 32) : Prop :=
  (∀ a x, ((![v210, v234] : Fin 2 → IVec S16 32) a x).toNat < S8x2048.size a)
instance k0_chk86.dec : ∀ (v210 : IVec S16 32) (v234 : IVec S16 32), Decidable (k0_chk86 v210 v234) := fun v210 v234 => decidable_of_iff' _ (Iff.of_eq (k0_chk86.eq_1 v210 v234))
theorem k0_idx86_inb : ∀ (v210 : IVec S16 32) (v234 : IVec S16 32) (k0_hw86 : k0_chk86 v210 v234), ∀ a x, ((![v210, v234] : Fin 2 → IVec S16 32) a x).toNat < S8x2048.size a := fun v210 v234 k0_hw86 => k0_hw86
def k0_off94 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v235 : Index := Scalar.indexCast arg22
  let c96 : Index := 96#32
  ![v235.toNat, 96]

def k0_chk87 (v210 : IVec S16 32) (v238 : IVec S16 32) : Prop :=
  (∀ a x, ((![v210, v238] : Fin 2 → IVec S16 32) a x).toNat < S8x2048.size a)
instance k0_chk87.dec : ∀ (v210 : IVec S16 32) (v238 : IVec S16 32), Decidable (k0_chk87 v210 v238) := fun v210 v238 => decidable_of_iff' _ (Iff.of_eq (k0_chk87.eq_1 v210 v238))
theorem k0_idx87_inb : ∀ (v210 : IVec S16 32) (v238 : IVec S16 32) (k0_hw87 : k0_chk87 v210 v238), ∀ a x, ((![v210, v238] : Fin 2 → IVec S16 32) a x).toNat < S8x2048.size a := fun v210 v238 k0_hw87 => k0_hw87
def k0_off95 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v239 : Index := Scalar.indexCast arg22
  let c112 : Index := 112#32
  ![v239.toNat, 112]

def k0_chk88 (v210 : IVec S16 32) (v242 : IVec S16 32) : Prop :=
  (∀ a x, ((![v210, v242] : Fin 2 → IVec S16 32) a x).toNat < S8x2048.size a)
instance k0_chk88.dec : ∀ (v210 : IVec S16 32) (v242 : IVec S16 32), Decidable (k0_chk88 v210 v242) := fun v210 v242 => decidable_of_iff' _ (Iff.of_eq (k0_chk88.eq_1 v210 v242))
theorem k0_idx88_inb : ∀ (v210 : IVec S16 32) (v242 : IVec S16 32) (k0_hw88 : k0_chk88 v210 v242), ∀ a x, ((![v210, v242] : Fin 2 → IVec S16 32) a x).toNat < S8x2048.size a := fun v210 v242 k0_hw88 => k0_hw88
def k0_off96 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v243 : Index := Scalar.indexCast arg22
  let c128 : Index := 128#32
  ![v243.toNat, 128]

def k0_chk89 (v210 : IVec S16 32) (v246 : IVec S16 32) : Prop :=
  (∀ a x, ((![v210, v246] : Fin 2 → IVec S16 32) a x).toNat < S8x2048.size a)
instance k0_chk89.dec : ∀ (v210 : IVec S16 32) (v246 : IVec S16 32), Decidable (k0_chk89 v210 v246) := fun v210 v246 => decidable_of_iff' _ (Iff.of_eq (k0_chk89.eq_1 v210 v246))
theorem k0_idx89_inb : ∀ (v210 : IVec S16 32) (v246 : IVec S16 32) (k0_hw89 : k0_chk89 v210 v246), ∀ a x, ((![v210, v246] : Fin 2 → IVec S16 32) a x).toNat < S8x2048.size a := fun v210 v246 k0_hw89 => k0_hw89
def k0_off97 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v247 : Index := Scalar.indexCast arg22
  let c144 : Index := 144#32
  ![v247.toNat, 144]

def k0_chk90 (v210 : IVec S16 32) (v250 : IVec S16 32) : Prop :=
  (∀ a x, ((![v210, v250] : Fin 2 → IVec S16 32) a x).toNat < S8x2048.size a)
instance k0_chk90.dec : ∀ (v210 : IVec S16 32) (v250 : IVec S16 32), Decidable (k0_chk90 v210 v250) := fun v210 v250 => decidable_of_iff' _ (Iff.of_eq (k0_chk90.eq_1 v210 v250))
theorem k0_idx90_inb : ∀ (v210 : IVec S16 32) (v250 : IVec S16 32) (k0_hw90 : k0_chk90 v210 v250), ∀ a x, ((![v210, v250] : Fin 2 → IVec S16 32) a x).toNat < S8x2048.size a := fun v210 v250 k0_hw90 => k0_hw90
def k0_off98 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v251 : Index := Scalar.indexCast arg22
  let c160 : Index := 160#32
  ![v251.toNat, 160]

def k0_chk91 (v210 : IVec S16 32) (v254 : IVec S16 32) : Prop :=
  (∀ a x, ((![v210, v254] : Fin 2 → IVec S16 32) a x).toNat < S8x2048.size a)
instance k0_chk91.dec : ∀ (v210 : IVec S16 32) (v254 : IVec S16 32), Decidable (k0_chk91 v210 v254) := fun v210 v254 => decidable_of_iff' _ (Iff.of_eq (k0_chk91.eq_1 v210 v254))
theorem k0_idx91_inb : ∀ (v210 : IVec S16 32) (v254 : IVec S16 32) (k0_hw91 : k0_chk91 v210 v254), ∀ a x, ((![v210, v254] : Fin 2 → IVec S16 32) a x).toNat < S8x2048.size a := fun v210 v254 k0_hw91 => k0_hw91
def k0_off99 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v255 : Index := Scalar.indexCast arg22
  let c176 : Index := 176#32
  ![v255.toNat, 176]

def k0_chk92 (v210 : IVec S16 32) (v258 : IVec S16 32) : Prop :=
  (∀ a x, ((![v210, v258] : Fin 2 → IVec S16 32) a x).toNat < S8x2048.size a)
instance k0_chk92.dec : ∀ (v210 : IVec S16 32) (v258 : IVec S16 32), Decidable (k0_chk92 v210 v258) := fun v210 v258 => decidable_of_iff' _ (Iff.of_eq (k0_chk92.eq_1 v210 v258))
theorem k0_idx92_inb : ∀ (v210 : IVec S16 32) (v258 : IVec S16 32) (k0_hw92 : k0_chk92 v210 v258), ∀ a x, ((![v210, v258] : Fin 2 → IVec S16 32) a x).toNat < S8x2048.size a := fun v210 v258 k0_hw92 => k0_hw92
def k0_off100 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v259 : Index := Scalar.indexCast arg22
  let c192 : Index := 192#32
  ![v259.toNat, 192]

def k0_chk93 (v210 : IVec S16 32) (v262 : IVec S16 32) : Prop :=
  (∀ a x, ((![v210, v262] : Fin 2 → IVec S16 32) a x).toNat < S8x2048.size a)
instance k0_chk93.dec : ∀ (v210 : IVec S16 32) (v262 : IVec S16 32), Decidable (k0_chk93 v210 v262) := fun v210 v262 => decidable_of_iff' _ (Iff.of_eq (k0_chk93.eq_1 v210 v262))
theorem k0_idx93_inb : ∀ (v210 : IVec S16 32) (v262 : IVec S16 32) (k0_hw93 : k0_chk93 v210 v262), ∀ a x, ((![v210, v262] : Fin 2 → IVec S16 32) a x).toNat < S8x2048.size a := fun v210 v262 k0_hw93 => k0_hw93
def k0_off101 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v263 : Index := Scalar.indexCast arg22
  let c208 : Index := 208#32
  ![v263.toNat, 208]

def k0_chk94 (v210 : IVec S16 32) (v266 : IVec S16 32) : Prop :=
  (∀ a x, ((![v210, v266] : Fin 2 → IVec S16 32) a x).toNat < S8x2048.size a)
instance k0_chk94.dec : ∀ (v210 : IVec S16 32) (v266 : IVec S16 32), Decidable (k0_chk94 v210 v266) := fun v210 v266 => decidable_of_iff' _ (Iff.of_eq (k0_chk94.eq_1 v210 v266))
theorem k0_idx94_inb : ∀ (v210 : IVec S16 32) (v266 : IVec S16 32) (k0_hw94 : k0_chk94 v210 v266), ∀ a x, ((![v210, v266] : Fin 2 → IVec S16 32) a x).toNat < S8x2048.size a := fun v210 v266 k0_hw94 => k0_hw94
def k0_off102 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v267 : Index := Scalar.indexCast arg22
  let c224 : Index := 224#32
  ![v267.toNat, 224]

def k0_chk95 (v210 : IVec S16 32) (v270 : IVec S16 32) : Prop :=
  (∀ a x, ((![v210, v270] : Fin 2 → IVec S16 32) a x).toNat < S8x2048.size a)
instance k0_chk95.dec : ∀ (v210 : IVec S16 32) (v270 : IVec S16 32), Decidable (k0_chk95 v210 v270) := fun v210 v270 => decidable_of_iff' _ (Iff.of_eq (k0_chk95.eq_1 v210 v270))
theorem k0_idx95_inb : ∀ (v210 : IVec S16 32) (v270 : IVec S16 32) (k0_hw95 : k0_chk95 v210 v270), ∀ a x, ((![v210, v270] : Fin 2 → IVec S16 32) a x).toNat < S8x2048.size a := fun v210 v270 k0_hw95 => k0_hw95
def k0_off103 (k0_t8 : Fin k0_t8_loop.trips) : Fin 2 → Nat :=
  let c0_i32_158 : BitVec 32 := 0#32
  let c1_i32_160 : BitVec 32 := 1#32
  let arg22 : BitVec 32 := Scf.iv c0_i32_158 c1_i32_160 k0_t8
  let v271 : Index := Scalar.indexCast arg22
  let c240 : Index := 240#32
  ![v271.toNat, 240]

def k0_chk96 (v210 : IVec S16 32) (v274 : IVec S16 32) : Prop :=
  (∀ a x, ((![v210, v274] : Fin 2 → IVec S16 32) a x).toNat < S8x2048.size a)
instance k0_chk96.dec : ∀ (v210 : IVec S16 32) (v274 : IVec S16 32), Decidable (k0_chk96 v210 v274) := fun v210 v274 => decidable_of_iff' _ (Iff.of_eq (k0_chk96.eq_1 v210 v274))
theorem k0_idx96_inb : ∀ (v210 : IVec S16 32) (v274 : IVec S16 32) (k0_hw96 : k0_chk96 v210 v274), ∀ a x, ((![v210, v274] : Fin 2 → IVec S16 32) a x).toNat < S8x2048.size a := fun v210 v274 k0_hw96 => k0_hw96
@[reducible] def k0_t9_loop : Scf.Loop 32 :=
  let c0_i32_178 : BitVec 32 := 0#32
  let c8_i32_179 : BitVec 32 := 8#32
  let v177 : BitVec 32 := Scalar.addi c0_i32_178 c8_i32_179
  let c1_i32_180 : BitVec 32 := 1#32
  ⟨c0_i32_178, v177, c1_i32_180⟩
def k0_off104 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v211 : Index := Scalar.indexCast arg22
  let c0 : Index := 0#32
  ![v211.toNat, 0]

def k0_chk97 (v210 : IVec S16 32) (v214 : IVec S16 32) : Prop :=
  (∀ a x, ((![v210, v214] : Fin 2 → IVec S16 32) a x).toNat < S8x2048.size a)
instance k0_chk97.dec : ∀ (v210 : IVec S16 32) (v214 : IVec S16 32), Decidable (k0_chk97 v210 v214) := fun v210 v214 => decidable_of_iff' _ (Iff.of_eq (k0_chk97.eq_1 v210 v214))
theorem k0_idx97_inb : ∀ (v210 : IVec S16 32) (v214 : IVec S16 32) (k0_hw97 : k0_chk97 v210 v214), ∀ a x, ((![v210, v214] : Fin 2 → IVec S16 32) a x).toNat < S8x2048.size a := fun v210 v214 k0_hw97 => k0_hw97
def k0_off105 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v215 : Index := Scalar.indexCast arg22
  let c16 : Index := 16#32
  ![v215.toNat, 16]

def k0_chk98 (v210 : IVec S16 32) (v218 : IVec S16 32) : Prop :=
  (∀ a x, ((![v210, v218] : Fin 2 → IVec S16 32) a x).toNat < S8x2048.size a)
instance k0_chk98.dec : ∀ (v210 : IVec S16 32) (v218 : IVec S16 32), Decidable (k0_chk98 v210 v218) := fun v210 v218 => decidable_of_iff' _ (Iff.of_eq (k0_chk98.eq_1 v210 v218))
theorem k0_idx98_inb : ∀ (v210 : IVec S16 32) (v218 : IVec S16 32) (k0_hw98 : k0_chk98 v210 v218), ∀ a x, ((![v210, v218] : Fin 2 → IVec S16 32) a x).toNat < S8x2048.size a := fun v210 v218 k0_hw98 => k0_hw98
def k0_off106 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v219 : Index := Scalar.indexCast arg22
  let c32 : Index := 32#32
  ![v219.toNat, 32]

def k0_chk99 (v210 : IVec S16 32) (v222 : IVec S16 32) : Prop :=
  (∀ a x, ((![v210, v222] : Fin 2 → IVec S16 32) a x).toNat < S8x2048.size a)
instance k0_chk99.dec : ∀ (v210 : IVec S16 32) (v222 : IVec S16 32), Decidable (k0_chk99 v210 v222) := fun v210 v222 => decidable_of_iff' _ (Iff.of_eq (k0_chk99.eq_1 v210 v222))
theorem k0_idx99_inb : ∀ (v210 : IVec S16 32) (v222 : IVec S16 32) (k0_hw99 : k0_chk99 v210 v222), ∀ a x, ((![v210, v222] : Fin 2 → IVec S16 32) a x).toNat < S8x2048.size a := fun v210 v222 k0_hw99 => k0_hw99
def k0_off107 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v223 : Index := Scalar.indexCast arg22
  let c48 : Index := 48#32
  ![v223.toNat, 48]

def k0_chk100 (v210 : IVec S16 32) (v226 : IVec S16 32) : Prop :=
  (∀ a x, ((![v210, v226] : Fin 2 → IVec S16 32) a x).toNat < S8x2048.size a)
instance k0_chk100.dec : ∀ (v210 : IVec S16 32) (v226 : IVec S16 32), Decidable (k0_chk100 v210 v226) := fun v210 v226 => decidable_of_iff' _ (Iff.of_eq (k0_chk100.eq_1 v210 v226))
theorem k0_idx100_inb : ∀ (v210 : IVec S16 32) (v226 : IVec S16 32) (k0_hw100 : k0_chk100 v210 v226), ∀ a x, ((![v210, v226] : Fin 2 → IVec S16 32) a x).toNat < S8x2048.size a := fun v210 v226 k0_hw100 => k0_hw100
def k0_off108 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v227 : Index := Scalar.indexCast arg22
  let c64 : Index := 64#32
  ![v227.toNat, 64]

def k0_chk101 (v210 : IVec S16 32) (v230 : IVec S16 32) : Prop :=
  (∀ a x, ((![v210, v230] : Fin 2 → IVec S16 32) a x).toNat < S8x2048.size a)
instance k0_chk101.dec : ∀ (v210 : IVec S16 32) (v230 : IVec S16 32), Decidable (k0_chk101 v210 v230) := fun v210 v230 => decidable_of_iff' _ (Iff.of_eq (k0_chk101.eq_1 v210 v230))
theorem k0_idx101_inb : ∀ (v210 : IVec S16 32) (v230 : IVec S16 32) (k0_hw101 : k0_chk101 v210 v230), ∀ a x, ((![v210, v230] : Fin 2 → IVec S16 32) a x).toNat < S8x2048.size a := fun v210 v230 k0_hw101 => k0_hw101
def k0_off109 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v231 : Index := Scalar.indexCast arg22
  let c80 : Index := 80#32
  ![v231.toNat, 80]

def k0_chk102 (v210 : IVec S16 32) (v234 : IVec S16 32) : Prop :=
  (∀ a x, ((![v210, v234] : Fin 2 → IVec S16 32) a x).toNat < S8x2048.size a)
instance k0_chk102.dec : ∀ (v210 : IVec S16 32) (v234 : IVec S16 32), Decidable (k0_chk102 v210 v234) := fun v210 v234 => decidable_of_iff' _ (Iff.of_eq (k0_chk102.eq_1 v210 v234))
theorem k0_idx102_inb : ∀ (v210 : IVec S16 32) (v234 : IVec S16 32) (k0_hw102 : k0_chk102 v210 v234), ∀ a x, ((![v210, v234] : Fin 2 → IVec S16 32) a x).toNat < S8x2048.size a := fun v210 v234 k0_hw102 => k0_hw102
def k0_off110 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v235 : Index := Scalar.indexCast arg22
  let c96 : Index := 96#32
  ![v235.toNat, 96]

def k0_chk103 (v210 : IVec S16 32) (v238 : IVec S16 32) : Prop :=
  (∀ a x, ((![v210, v238] : Fin 2 → IVec S16 32) a x).toNat < S8x2048.size a)
instance k0_chk103.dec : ∀ (v210 : IVec S16 32) (v238 : IVec S16 32), Decidable (k0_chk103 v210 v238) := fun v210 v238 => decidable_of_iff' _ (Iff.of_eq (k0_chk103.eq_1 v210 v238))
theorem k0_idx103_inb : ∀ (v210 : IVec S16 32) (v238 : IVec S16 32) (k0_hw103 : k0_chk103 v210 v238), ∀ a x, ((![v210, v238] : Fin 2 → IVec S16 32) a x).toNat < S8x2048.size a := fun v210 v238 k0_hw103 => k0_hw103
def k0_off111 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v239 : Index := Scalar.indexCast arg22
  let c112 : Index := 112#32
  ![v239.toNat, 112]

def k0_chk104 (v210 : IVec S16 32) (v242 : IVec S16 32) : Prop :=
  (∀ a x, ((![v210, v242] : Fin 2 → IVec S16 32) a x).toNat < S8x2048.size a)
instance k0_chk104.dec : ∀ (v210 : IVec S16 32) (v242 : IVec S16 32), Decidable (k0_chk104 v210 v242) := fun v210 v242 => decidable_of_iff' _ (Iff.of_eq (k0_chk104.eq_1 v210 v242))
theorem k0_idx104_inb : ∀ (v210 : IVec S16 32) (v242 : IVec S16 32) (k0_hw104 : k0_chk104 v210 v242), ∀ a x, ((![v210, v242] : Fin 2 → IVec S16 32) a x).toNat < S8x2048.size a := fun v210 v242 k0_hw104 => k0_hw104
def k0_off112 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v243 : Index := Scalar.indexCast arg22
  let c128 : Index := 128#32
  ![v243.toNat, 128]

def k0_chk105 (v210 : IVec S16 32) (v246 : IVec S16 32) : Prop :=
  (∀ a x, ((![v210, v246] : Fin 2 → IVec S16 32) a x).toNat < S8x2048.size a)
instance k0_chk105.dec : ∀ (v210 : IVec S16 32) (v246 : IVec S16 32), Decidable (k0_chk105 v210 v246) := fun v210 v246 => decidable_of_iff' _ (Iff.of_eq (k0_chk105.eq_1 v210 v246))
theorem k0_idx105_inb : ∀ (v210 : IVec S16 32) (v246 : IVec S16 32) (k0_hw105 : k0_chk105 v210 v246), ∀ a x, ((![v210, v246] : Fin 2 → IVec S16 32) a x).toNat < S8x2048.size a := fun v210 v246 k0_hw105 => k0_hw105
def k0_off113 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v247 : Index := Scalar.indexCast arg22
  let c144 : Index := 144#32
  ![v247.toNat, 144]

def k0_chk106 (v210 : IVec S16 32) (v250 : IVec S16 32) : Prop :=
  (∀ a x, ((![v210, v250] : Fin 2 → IVec S16 32) a x).toNat < S8x2048.size a)
instance k0_chk106.dec : ∀ (v210 : IVec S16 32) (v250 : IVec S16 32), Decidable (k0_chk106 v210 v250) := fun v210 v250 => decidable_of_iff' _ (Iff.of_eq (k0_chk106.eq_1 v210 v250))
theorem k0_idx106_inb : ∀ (v210 : IVec S16 32) (v250 : IVec S16 32) (k0_hw106 : k0_chk106 v210 v250), ∀ a x, ((![v210, v250] : Fin 2 → IVec S16 32) a x).toNat < S8x2048.size a := fun v210 v250 k0_hw106 => k0_hw106
def k0_off114 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v251 : Index := Scalar.indexCast arg22
  let c160 : Index := 160#32
  ![v251.toNat, 160]

def k0_chk107 (v210 : IVec S16 32) (v254 : IVec S16 32) : Prop :=
  (∀ a x, ((![v210, v254] : Fin 2 → IVec S16 32) a x).toNat < S8x2048.size a)
instance k0_chk107.dec : ∀ (v210 : IVec S16 32) (v254 : IVec S16 32), Decidable (k0_chk107 v210 v254) := fun v210 v254 => decidable_of_iff' _ (Iff.of_eq (k0_chk107.eq_1 v210 v254))
theorem k0_idx107_inb : ∀ (v210 : IVec S16 32) (v254 : IVec S16 32) (k0_hw107 : k0_chk107 v210 v254), ∀ a x, ((![v210, v254] : Fin 2 → IVec S16 32) a x).toNat < S8x2048.size a := fun v210 v254 k0_hw107 => k0_hw107
def k0_off115 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v255 : Index := Scalar.indexCast arg22
  let c176 : Index := 176#32
  ![v255.toNat, 176]

def k0_chk108 (v210 : IVec S16 32) (v258 : IVec S16 32) : Prop :=
  (∀ a x, ((![v210, v258] : Fin 2 → IVec S16 32) a x).toNat < S8x2048.size a)
instance k0_chk108.dec : ∀ (v210 : IVec S16 32) (v258 : IVec S16 32), Decidable (k0_chk108 v210 v258) := fun v210 v258 => decidable_of_iff' _ (Iff.of_eq (k0_chk108.eq_1 v210 v258))
theorem k0_idx108_inb : ∀ (v210 : IVec S16 32) (v258 : IVec S16 32) (k0_hw108 : k0_chk108 v210 v258), ∀ a x, ((![v210, v258] : Fin 2 → IVec S16 32) a x).toNat < S8x2048.size a := fun v210 v258 k0_hw108 => k0_hw108
def k0_off116 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v259 : Index := Scalar.indexCast arg22
  let c192 : Index := 192#32
  ![v259.toNat, 192]

def k0_chk109 (v210 : IVec S16 32) (v262 : IVec S16 32) : Prop :=
  (∀ a x, ((![v210, v262] : Fin 2 → IVec S16 32) a x).toNat < S8x2048.size a)
instance k0_chk109.dec : ∀ (v210 : IVec S16 32) (v262 : IVec S16 32), Decidable (k0_chk109 v210 v262) := fun v210 v262 => decidable_of_iff' _ (Iff.of_eq (k0_chk109.eq_1 v210 v262))
theorem k0_idx109_inb : ∀ (v210 : IVec S16 32) (v262 : IVec S16 32) (k0_hw109 : k0_chk109 v210 v262), ∀ a x, ((![v210, v262] : Fin 2 → IVec S16 32) a x).toNat < S8x2048.size a := fun v210 v262 k0_hw109 => k0_hw109
def k0_off117 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v263 : Index := Scalar.indexCast arg22
  let c208 : Index := 208#32
  ![v263.toNat, 208]

def k0_chk110 (v210 : IVec S16 32) (v266 : IVec S16 32) : Prop :=
  (∀ a x, ((![v210, v266] : Fin 2 → IVec S16 32) a x).toNat < S8x2048.size a)
instance k0_chk110.dec : ∀ (v210 : IVec S16 32) (v266 : IVec S16 32), Decidable (k0_chk110 v210 v266) := fun v210 v266 => decidable_of_iff' _ (Iff.of_eq (k0_chk110.eq_1 v210 v266))
theorem k0_idx110_inb : ∀ (v210 : IVec S16 32) (v266 : IVec S16 32) (k0_hw110 : k0_chk110 v210 v266), ∀ a x, ((![v210, v266] : Fin 2 → IVec S16 32) a x).toNat < S8x2048.size a := fun v210 v266 k0_hw110 => k0_hw110
def k0_off118 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v267 : Index := Scalar.indexCast arg22
  let c224 : Index := 224#32
  ![v267.toNat, 224]

def k0_chk111 (v210 : IVec S16 32) (v270 : IVec S16 32) : Prop :=
  (∀ a x, ((![v210, v270] : Fin 2 → IVec S16 32) a x).toNat < S8x2048.size a)
instance k0_chk111.dec : ∀ (v210 : IVec S16 32) (v270 : IVec S16 32), Decidable (k0_chk111 v210 v270) := fun v210 v270 => decidable_of_iff' _ (Iff.of_eq (k0_chk111.eq_1 v210 v270))
theorem k0_idx111_inb : ∀ (v210 : IVec S16 32) (v270 : IVec S16 32) (k0_hw111 : k0_chk111 v210 v270), ∀ a x, ((![v210, v270] : Fin 2 → IVec S16 32) a x).toNat < S8x2048.size a := fun v210 v270 k0_hw111 => k0_hw111
def k0_off119 (k0_t9 : Fin k0_t9_loop.trips) : Fin 2 → Nat :=
  let c0_i32_178 : BitVec 32 := 0#32
  let c1_i32_180 : BitVec 32 := 1#32
  let arg22 : BitVec 32 := Scf.iv c0_i32_178 c1_i32_180 k0_t9
  let v271 : Index := Scalar.indexCast arg22
  let c240 : Index := 240#32
  ![v271.toNat, 240]

def k0_chk112 (v210 : IVec S16 32) (v274 : IVec S16 32) : Prop :=
  (∀ a x, ((![v210, v274] : Fin 2 → IVec S16 32) a x).toNat < S8x2048.size a)
instance k0_chk112.dec : ∀ (v210 : IVec S16 32) (v274 : IVec S16 32), Decidable (k0_chk112 v210 v274) := fun v210 v274 => decidable_of_iff' _ (Iff.of_eq (k0_chk112.eq_1 v210 v274))
theorem k0_idx112_inb : ∀ (v210 : IVec S16 32) (v274 : IVec S16 32) (k0_hw112 : k0_chk112 v210 v274), ∀ a x, ((![v210, v274] : Fin 2 → IVec S16 32) a x).toNat < S8x2048.size a := fun v210 v274 k0_hw112 => k0_hw112
@[reducible] def k0_t10_loop : Scf.Loop 32 :=
  let c0_i32_197 : BitVec 32 := 0#32
  let c8_i32_198 : BitVec 32 := 8#32
  let v198 : BitVec 32 := Scalar.addi c0_i32_197 c8_i32_198
  let c1_i32_199 : BitVec 32 := 1#32
  ⟨c0_i32_197, v198, c1_i32_199⟩
def k0_off120 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v211 : Index := Scalar.indexCast arg22
  let c0 : Index := 0#32
  ![v211.toNat, 0]

def k0_chk113 (v210 : IVec S16 32) (v214 : IVec S16 32) : Prop :=
  (∀ a x, ((![v210, v214] : Fin 2 → IVec S16 32) a x).toNat < S8x2048.size a)
instance k0_chk113.dec : ∀ (v210 : IVec S16 32) (v214 : IVec S16 32), Decidable (k0_chk113 v210 v214) := fun v210 v214 => decidable_of_iff' _ (Iff.of_eq (k0_chk113.eq_1 v210 v214))
theorem k0_idx113_inb : ∀ (v210 : IVec S16 32) (v214 : IVec S16 32) (k0_hw113 : k0_chk113 v210 v214), ∀ a x, ((![v210, v214] : Fin 2 → IVec S16 32) a x).toNat < S8x2048.size a := fun v210 v214 k0_hw113 => k0_hw113
def k0_off121 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v215 : Index := Scalar.indexCast arg22
  let c16 : Index := 16#32
  ![v215.toNat, 16]

def k0_chk114 (v210 : IVec S16 32) (v218 : IVec S16 32) : Prop :=
  (∀ a x, ((![v210, v218] : Fin 2 → IVec S16 32) a x).toNat < S8x2048.size a)
instance k0_chk114.dec : ∀ (v210 : IVec S16 32) (v218 : IVec S16 32), Decidable (k0_chk114 v210 v218) := fun v210 v218 => decidable_of_iff' _ (Iff.of_eq (k0_chk114.eq_1 v210 v218))
theorem k0_idx114_inb : ∀ (v210 : IVec S16 32) (v218 : IVec S16 32) (k0_hw114 : k0_chk114 v210 v218), ∀ a x, ((![v210, v218] : Fin 2 → IVec S16 32) a x).toNat < S8x2048.size a := fun v210 v218 k0_hw114 => k0_hw114
def k0_off122 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v219 : Index := Scalar.indexCast arg22
  let c32 : Index := 32#32
  ![v219.toNat, 32]

def k0_chk115 (v210 : IVec S16 32) (v222 : IVec S16 32) : Prop :=
  (∀ a x, ((![v210, v222] : Fin 2 → IVec S16 32) a x).toNat < S8x2048.size a)
instance k0_chk115.dec : ∀ (v210 : IVec S16 32) (v222 : IVec S16 32), Decidable (k0_chk115 v210 v222) := fun v210 v222 => decidable_of_iff' _ (Iff.of_eq (k0_chk115.eq_1 v210 v222))
theorem k0_idx115_inb : ∀ (v210 : IVec S16 32) (v222 : IVec S16 32) (k0_hw115 : k0_chk115 v210 v222), ∀ a x, ((![v210, v222] : Fin 2 → IVec S16 32) a x).toNat < S8x2048.size a := fun v210 v222 k0_hw115 => k0_hw115
def k0_off123 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v223 : Index := Scalar.indexCast arg22
  let c48 : Index := 48#32
  ![v223.toNat, 48]

def k0_chk116 (v210 : IVec S16 32) (v226 : IVec S16 32) : Prop :=
  (∀ a x, ((![v210, v226] : Fin 2 → IVec S16 32) a x).toNat < S8x2048.size a)
instance k0_chk116.dec : ∀ (v210 : IVec S16 32) (v226 : IVec S16 32), Decidable (k0_chk116 v210 v226) := fun v210 v226 => decidable_of_iff' _ (Iff.of_eq (k0_chk116.eq_1 v210 v226))
theorem k0_idx116_inb : ∀ (v210 : IVec S16 32) (v226 : IVec S16 32) (k0_hw116 : k0_chk116 v210 v226), ∀ a x, ((![v210, v226] : Fin 2 → IVec S16 32) a x).toNat < S8x2048.size a := fun v210 v226 k0_hw116 => k0_hw116
def k0_off124 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v227 : Index := Scalar.indexCast arg22
  let c64 : Index := 64#32
  ![v227.toNat, 64]

def k0_chk117 (v210 : IVec S16 32) (v230 : IVec S16 32) : Prop :=
  (∀ a x, ((![v210, v230] : Fin 2 → IVec S16 32) a x).toNat < S8x2048.size a)
instance k0_chk117.dec : ∀ (v210 : IVec S16 32) (v230 : IVec S16 32), Decidable (k0_chk117 v210 v230) := fun v210 v230 => decidable_of_iff' _ (Iff.of_eq (k0_chk117.eq_1 v210 v230))
theorem k0_idx117_inb : ∀ (v210 : IVec S16 32) (v230 : IVec S16 32) (k0_hw117 : k0_chk117 v210 v230), ∀ a x, ((![v210, v230] : Fin 2 → IVec S16 32) a x).toNat < S8x2048.size a := fun v210 v230 k0_hw117 => k0_hw117
def k0_off125 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v231 : Index := Scalar.indexCast arg22
  let c80 : Index := 80#32
  ![v231.toNat, 80]

def k0_chk118 (v210 : IVec S16 32) (v234 : IVec S16 32) : Prop :=
  (∀ a x, ((![v210, v234] : Fin 2 → IVec S16 32) a x).toNat < S8x2048.size a)
instance k0_chk118.dec : ∀ (v210 : IVec S16 32) (v234 : IVec S16 32), Decidable (k0_chk118 v210 v234) := fun v210 v234 => decidable_of_iff' _ (Iff.of_eq (k0_chk118.eq_1 v210 v234))
theorem k0_idx118_inb : ∀ (v210 : IVec S16 32) (v234 : IVec S16 32) (k0_hw118 : k0_chk118 v210 v234), ∀ a x, ((![v210, v234] : Fin 2 → IVec S16 32) a x).toNat < S8x2048.size a := fun v210 v234 k0_hw118 => k0_hw118
def k0_off126 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v235 : Index := Scalar.indexCast arg22
  let c96 : Index := 96#32
  ![v235.toNat, 96]

def k0_chk119 (v210 : IVec S16 32) (v238 : IVec S16 32) : Prop :=
  (∀ a x, ((![v210, v238] : Fin 2 → IVec S16 32) a x).toNat < S8x2048.size a)
instance k0_chk119.dec : ∀ (v210 : IVec S16 32) (v238 : IVec S16 32), Decidable (k0_chk119 v210 v238) := fun v210 v238 => decidable_of_iff' _ (Iff.of_eq (k0_chk119.eq_1 v210 v238))
theorem k0_idx119_inb : ∀ (v210 : IVec S16 32) (v238 : IVec S16 32) (k0_hw119 : k0_chk119 v210 v238), ∀ a x, ((![v210, v238] : Fin 2 → IVec S16 32) a x).toNat < S8x2048.size a := fun v210 v238 k0_hw119 => k0_hw119
def k0_off127 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v239 : Index := Scalar.indexCast arg22
  let c112 : Index := 112#32
  ![v239.toNat, 112]

def k0_chk120 (v210 : IVec S16 32) (v242 : IVec S16 32) : Prop :=
  (∀ a x, ((![v210, v242] : Fin 2 → IVec S16 32) a x).toNat < S8x2048.size a)
instance k0_chk120.dec : ∀ (v210 : IVec S16 32) (v242 : IVec S16 32), Decidable (k0_chk120 v210 v242) := fun v210 v242 => decidable_of_iff' _ (Iff.of_eq (k0_chk120.eq_1 v210 v242))
theorem k0_idx120_inb : ∀ (v210 : IVec S16 32) (v242 : IVec S16 32) (k0_hw120 : k0_chk120 v210 v242), ∀ a x, ((![v210, v242] : Fin 2 → IVec S16 32) a x).toNat < S8x2048.size a := fun v210 v242 k0_hw120 => k0_hw120
def k0_off128 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v243 : Index := Scalar.indexCast arg22
  let c128 : Index := 128#32
  ![v243.toNat, 128]

def k0_chk121 (v210 : IVec S16 32) (v246 : IVec S16 32) : Prop :=
  (∀ a x, ((![v210, v246] : Fin 2 → IVec S16 32) a x).toNat < S8x2048.size a)
instance k0_chk121.dec : ∀ (v210 : IVec S16 32) (v246 : IVec S16 32), Decidable (k0_chk121 v210 v246) := fun v210 v246 => decidable_of_iff' _ (Iff.of_eq (k0_chk121.eq_1 v210 v246))
theorem k0_idx121_inb : ∀ (v210 : IVec S16 32) (v246 : IVec S16 32) (k0_hw121 : k0_chk121 v210 v246), ∀ a x, ((![v210, v246] : Fin 2 → IVec S16 32) a x).toNat < S8x2048.size a := fun v210 v246 k0_hw121 => k0_hw121
def k0_off129 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v247 : Index := Scalar.indexCast arg22
  let c144 : Index := 144#32
  ![v247.toNat, 144]

def k0_chk122 (v210 : IVec S16 32) (v250 : IVec S16 32) : Prop :=
  (∀ a x, ((![v210, v250] : Fin 2 → IVec S16 32) a x).toNat < S8x2048.size a)
instance k0_chk122.dec : ∀ (v210 : IVec S16 32) (v250 : IVec S16 32), Decidable (k0_chk122 v210 v250) := fun v210 v250 => decidable_of_iff' _ (Iff.of_eq (k0_chk122.eq_1 v210 v250))
theorem k0_idx122_inb : ∀ (v210 : IVec S16 32) (v250 : IVec S16 32) (k0_hw122 : k0_chk122 v210 v250), ∀ a x, ((![v210, v250] : Fin 2 → IVec S16 32) a x).toNat < S8x2048.size a := fun v210 v250 k0_hw122 => k0_hw122
def k0_off130 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v251 : Index := Scalar.indexCast arg22
  let c160 : Index := 160#32
  ![v251.toNat, 160]

def k0_chk123 (v210 : IVec S16 32) (v254 : IVec S16 32) : Prop :=
  (∀ a x, ((![v210, v254] : Fin 2 → IVec S16 32) a x).toNat < S8x2048.size a)
instance k0_chk123.dec : ∀ (v210 : IVec S16 32) (v254 : IVec S16 32), Decidable (k0_chk123 v210 v254) := fun v210 v254 => decidable_of_iff' _ (Iff.of_eq (k0_chk123.eq_1 v210 v254))
theorem k0_idx123_inb : ∀ (v210 : IVec S16 32) (v254 : IVec S16 32) (k0_hw123 : k0_chk123 v210 v254), ∀ a x, ((![v210, v254] : Fin 2 → IVec S16 32) a x).toNat < S8x2048.size a := fun v210 v254 k0_hw123 => k0_hw123
def k0_off131 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v255 : Index := Scalar.indexCast arg22
  let c176 : Index := 176#32
  ![v255.toNat, 176]

def k0_chk124 (v210 : IVec S16 32) (v258 : IVec S16 32) : Prop :=
  (∀ a x, ((![v210, v258] : Fin 2 → IVec S16 32) a x).toNat < S8x2048.size a)
instance k0_chk124.dec : ∀ (v210 : IVec S16 32) (v258 : IVec S16 32), Decidable (k0_chk124 v210 v258) := fun v210 v258 => decidable_of_iff' _ (Iff.of_eq (k0_chk124.eq_1 v210 v258))
theorem k0_idx124_inb : ∀ (v210 : IVec S16 32) (v258 : IVec S16 32) (k0_hw124 : k0_chk124 v210 v258), ∀ a x, ((![v210, v258] : Fin 2 → IVec S16 32) a x).toNat < S8x2048.size a := fun v210 v258 k0_hw124 => k0_hw124
def k0_off132 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v259 : Index := Scalar.indexCast arg22
  let c192 : Index := 192#32
  ![v259.toNat, 192]

def k0_chk125 (v210 : IVec S16 32) (v262 : IVec S16 32) : Prop :=
  (∀ a x, ((![v210, v262] : Fin 2 → IVec S16 32) a x).toNat < S8x2048.size a)
instance k0_chk125.dec : ∀ (v210 : IVec S16 32) (v262 : IVec S16 32), Decidable (k0_chk125 v210 v262) := fun v210 v262 => decidable_of_iff' _ (Iff.of_eq (k0_chk125.eq_1 v210 v262))
theorem k0_idx125_inb : ∀ (v210 : IVec S16 32) (v262 : IVec S16 32) (k0_hw125 : k0_chk125 v210 v262), ∀ a x, ((![v210, v262] : Fin 2 → IVec S16 32) a x).toNat < S8x2048.size a := fun v210 v262 k0_hw125 => k0_hw125
def k0_off133 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v263 : Index := Scalar.indexCast arg22
  let c208 : Index := 208#32
  ![v263.toNat, 208]

def k0_chk126 (v210 : IVec S16 32) (v266 : IVec S16 32) : Prop :=
  (∀ a x, ((![v210, v266] : Fin 2 → IVec S16 32) a x).toNat < S8x2048.size a)
instance k0_chk126.dec : ∀ (v210 : IVec S16 32) (v266 : IVec S16 32), Decidable (k0_chk126 v210 v266) := fun v210 v266 => decidable_of_iff' _ (Iff.of_eq (k0_chk126.eq_1 v210 v266))
theorem k0_idx126_inb : ∀ (v210 : IVec S16 32) (v266 : IVec S16 32) (k0_hw126 : k0_chk126 v210 v266), ∀ a x, ((![v210, v266] : Fin 2 → IVec S16 32) a x).toNat < S8x2048.size a := fun v210 v266 k0_hw126 => k0_hw126
def k0_off134 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v267 : Index := Scalar.indexCast arg22
  let c224 : Index := 224#32
  ![v267.toNat, 224]

def k0_chk127 (v210 : IVec S16 32) (v270 : IVec S16 32) : Prop :=
  (∀ a x, ((![v210, v270] : Fin 2 → IVec S16 32) a x).toNat < S8x2048.size a)
instance k0_chk127.dec : ∀ (v210 : IVec S16 32) (v270 : IVec S16 32), Decidable (k0_chk127 v210 v270) := fun v210 v270 => decidable_of_iff' _ (Iff.of_eq (k0_chk127.eq_1 v210 v270))
theorem k0_idx127_inb : ∀ (v210 : IVec S16 32) (v270 : IVec S16 32) (k0_hw127 : k0_chk127 v210 v270), ∀ a x, ((![v210, v270] : Fin 2 → IVec S16 32) a x).toNat < S8x2048.size a := fun v210 v270 k0_hw127 => k0_hw127
def k0_off135 (k0_t10 : Fin k0_t10_loop.trips) : Fin 2 → Nat :=
  let c0_i32_197 : BitVec 32 := 0#32
  let c1_i32_199 : BitVec 32 := 1#32
  let arg22 : BitVec 32 := Scf.iv c0_i32_197 c1_i32_199 k0_t10
  let v271 : Index := Scalar.indexCast arg22
  let c240 : Index := 240#32
  ![v271.toNat, 240]

def k0_chk128 (v210 : IVec S16 32) (v274 : IVec S16 32) : Prop :=
  (∀ a x, ((![v210, v274] : Fin 2 → IVec S16 32) a x).toNat < S8x2048.size a)
instance k0_chk128.dec : ∀ (v210 : IVec S16 32) (v274 : IVec S16 32), Decidable (k0_chk128 v210 v274) := fun v210 v274 => decidable_of_iff' _ (Iff.of_eq (k0_chk128.eq_1 v210 v274))
theorem k0_idx128_inb : ∀ (v210 : IVec S16 32) (v274 : IVec S16 32) (k0_hw128 : k0_chk128 v210 v274), ∀ a x, ((![v210, v274] : Fin 2 → IVec S16 32) a x).toNat < S8x2048.size a := fun v210 v274 k0_hw128 => k0_hw128
@[reducible] def k0_t11_loop : Scf.Loop 32 :=
  let c0_i32_74 : BitVec 32 := 0#32
  let c8_i32_75 : BitVec 32 := 8#32
  let v74 : BitVec 32 := Scalar.addi c0_i32_74 c8_i32_75
  let c1_i32_76 : BitVec 32 := 1#32
  ⟨c0_i32_74, v74, c1_i32_76⟩
def k0_off136 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v126 : Index := Scalar.indexCast arg20
  let c0 : Index := 0#32
  ![v126.toNat, 0]

def k0_chk129 (v125 : IVec S16 32) (v129 : IVec S16 32) : Prop :=
  (∀ a x, ((![v125, v129] : Fin 2 → IVec S16 32) a x).toNat < S8x2048.size a)
instance k0_chk129.dec : ∀ (v125 : IVec S16 32) (v129 : IVec S16 32), Decidable (k0_chk129 v125 v129) := fun v125 v129 => decidable_of_iff' _ (Iff.of_eq (k0_chk129.eq_1 v125 v129))
theorem k0_idx129_inb : ∀ (v125 : IVec S16 32) (v129 : IVec S16 32) (k0_hw129 : k0_chk129 v125 v129), ∀ a x, ((![v125, v129] : Fin 2 → IVec S16 32) a x).toNat < S8x2048.size a := fun v125 v129 k0_hw129 => k0_hw129
def k0_off137 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v130 : Index := Scalar.indexCast arg20
  let c16 : Index := 16#32
  ![v130.toNat, 16]

def k0_chk130 (v125 : IVec S16 32) (v133 : IVec S16 32) : Prop :=
  (∀ a x, ((![v125, v133] : Fin 2 → IVec S16 32) a x).toNat < S8x2048.size a)
instance k0_chk130.dec : ∀ (v125 : IVec S16 32) (v133 : IVec S16 32), Decidable (k0_chk130 v125 v133) := fun v125 v133 => decidable_of_iff' _ (Iff.of_eq (k0_chk130.eq_1 v125 v133))
theorem k0_idx130_inb : ∀ (v125 : IVec S16 32) (v133 : IVec S16 32) (k0_hw130 : k0_chk130 v125 v133), ∀ a x, ((![v125, v133] : Fin 2 → IVec S16 32) a x).toNat < S8x2048.size a := fun v125 v133 k0_hw130 => k0_hw130
def k0_off138 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v134 : Index := Scalar.indexCast arg20
  let c32 : Index := 32#32
  ![v134.toNat, 32]

def k0_chk131 (v125 : IVec S16 32) (v137 : IVec S16 32) : Prop :=
  (∀ a x, ((![v125, v137] : Fin 2 → IVec S16 32) a x).toNat < S8x2048.size a)
instance k0_chk131.dec : ∀ (v125 : IVec S16 32) (v137 : IVec S16 32), Decidable (k0_chk131 v125 v137) := fun v125 v137 => decidable_of_iff' _ (Iff.of_eq (k0_chk131.eq_1 v125 v137))
theorem k0_idx131_inb : ∀ (v125 : IVec S16 32) (v137 : IVec S16 32) (k0_hw131 : k0_chk131 v125 v137), ∀ a x, ((![v125, v137] : Fin 2 → IVec S16 32) a x).toNat < S8x2048.size a := fun v125 v137 k0_hw131 => k0_hw131
def k0_off139 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v138 : Index := Scalar.indexCast arg20
  let c48 : Index := 48#32
  ![v138.toNat, 48]

def k0_chk132 (v125 : IVec S16 32) (v141 : IVec S16 32) : Prop :=
  (∀ a x, ((![v125, v141] : Fin 2 → IVec S16 32) a x).toNat < S8x2048.size a)
instance k0_chk132.dec : ∀ (v125 : IVec S16 32) (v141 : IVec S16 32), Decidable (k0_chk132 v125 v141) := fun v125 v141 => decidable_of_iff' _ (Iff.of_eq (k0_chk132.eq_1 v125 v141))
theorem k0_idx132_inb : ∀ (v125 : IVec S16 32) (v141 : IVec S16 32) (k0_hw132 : k0_chk132 v125 v141), ∀ a x, ((![v125, v141] : Fin 2 → IVec S16 32) a x).toNat < S8x2048.size a := fun v125 v141 k0_hw132 => k0_hw132
def k0_off140 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v142 : Index := Scalar.indexCast arg20
  let c64 : Index := 64#32
  ![v142.toNat, 64]

def k0_chk133 (v125 : IVec S16 32) (v145 : IVec S16 32) : Prop :=
  (∀ a x, ((![v125, v145] : Fin 2 → IVec S16 32) a x).toNat < S8x2048.size a)
instance k0_chk133.dec : ∀ (v125 : IVec S16 32) (v145 : IVec S16 32), Decidable (k0_chk133 v125 v145) := fun v125 v145 => decidable_of_iff' _ (Iff.of_eq (k0_chk133.eq_1 v125 v145))
theorem k0_idx133_inb : ∀ (v125 : IVec S16 32) (v145 : IVec S16 32) (k0_hw133 : k0_chk133 v125 v145), ∀ a x, ((![v125, v145] : Fin 2 → IVec S16 32) a x).toNat < S8x2048.size a := fun v125 v145 k0_hw133 => k0_hw133
def k0_off141 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v146 : Index := Scalar.indexCast arg20
  let c80 : Index := 80#32
  ![v146.toNat, 80]

def k0_chk134 (v125 : IVec S16 32) (v149 : IVec S16 32) : Prop :=
  (∀ a x, ((![v125, v149] : Fin 2 → IVec S16 32) a x).toNat < S8x2048.size a)
instance k0_chk134.dec : ∀ (v125 : IVec S16 32) (v149 : IVec S16 32), Decidable (k0_chk134 v125 v149) := fun v125 v149 => decidable_of_iff' _ (Iff.of_eq (k0_chk134.eq_1 v125 v149))
theorem k0_idx134_inb : ∀ (v125 : IVec S16 32) (v149 : IVec S16 32) (k0_hw134 : k0_chk134 v125 v149), ∀ a x, ((![v125, v149] : Fin 2 → IVec S16 32) a x).toNat < S8x2048.size a := fun v125 v149 k0_hw134 => k0_hw134
def k0_off142 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v150 : Index := Scalar.indexCast arg20
  let c96 : Index := 96#32
  ![v150.toNat, 96]

def k0_chk135 (v125 : IVec S16 32) (v153 : IVec S16 32) : Prop :=
  (∀ a x, ((![v125, v153] : Fin 2 → IVec S16 32) a x).toNat < S8x2048.size a)
instance k0_chk135.dec : ∀ (v125 : IVec S16 32) (v153 : IVec S16 32), Decidable (k0_chk135 v125 v153) := fun v125 v153 => decidable_of_iff' _ (Iff.of_eq (k0_chk135.eq_1 v125 v153))
theorem k0_idx135_inb : ∀ (v125 : IVec S16 32) (v153 : IVec S16 32) (k0_hw135 : k0_chk135 v125 v153), ∀ a x, ((![v125, v153] : Fin 2 → IVec S16 32) a x).toNat < S8x2048.size a := fun v125 v153 k0_hw135 => k0_hw135
def k0_off143 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v154 : Index := Scalar.indexCast arg20
  let c112 : Index := 112#32
  ![v154.toNat, 112]

def k0_chk136 (v125 : IVec S16 32) (v157 : IVec S16 32) : Prop :=
  (∀ a x, ((![v125, v157] : Fin 2 → IVec S16 32) a x).toNat < S8x2048.size a)
instance k0_chk136.dec : ∀ (v125 : IVec S16 32) (v157 : IVec S16 32), Decidable (k0_chk136 v125 v157) := fun v125 v157 => decidable_of_iff' _ (Iff.of_eq (k0_chk136.eq_1 v125 v157))
theorem k0_idx136_inb : ∀ (v125 : IVec S16 32) (v157 : IVec S16 32) (k0_hw136 : k0_chk136 v125 v157), ∀ a x, ((![v125, v157] : Fin 2 → IVec S16 32) a x).toNat < S8x2048.size a := fun v125 v157 k0_hw136 => k0_hw136
def k0_off144 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v158 : Index := Scalar.indexCast arg20
  let c128 : Index := 128#32
  ![v158.toNat, 128]

def k0_chk137 (v125 : IVec S16 32) (v161 : IVec S16 32) : Prop :=
  (∀ a x, ((![v125, v161] : Fin 2 → IVec S16 32) a x).toNat < S8x2048.size a)
instance k0_chk137.dec : ∀ (v125 : IVec S16 32) (v161 : IVec S16 32), Decidable (k0_chk137 v125 v161) := fun v125 v161 => decidable_of_iff' _ (Iff.of_eq (k0_chk137.eq_1 v125 v161))
theorem k0_idx137_inb : ∀ (v125 : IVec S16 32) (v161 : IVec S16 32) (k0_hw137 : k0_chk137 v125 v161), ∀ a x, ((![v125, v161] : Fin 2 → IVec S16 32) a x).toNat < S8x2048.size a := fun v125 v161 k0_hw137 => k0_hw137
def k0_off145 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v162 : Index := Scalar.indexCast arg20
  let c144 : Index := 144#32
  ![v162.toNat, 144]

def k0_chk138 (v125 : IVec S16 32) (v165 : IVec S16 32) : Prop :=
  (∀ a x, ((![v125, v165] : Fin 2 → IVec S16 32) a x).toNat < S8x2048.size a)
instance k0_chk138.dec : ∀ (v125 : IVec S16 32) (v165 : IVec S16 32), Decidable (k0_chk138 v125 v165) := fun v125 v165 => decidable_of_iff' _ (Iff.of_eq (k0_chk138.eq_1 v125 v165))
theorem k0_idx138_inb : ∀ (v125 : IVec S16 32) (v165 : IVec S16 32) (k0_hw138 : k0_chk138 v125 v165), ∀ a x, ((![v125, v165] : Fin 2 → IVec S16 32) a x).toNat < S8x2048.size a := fun v125 v165 k0_hw138 => k0_hw138
def k0_off146 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v166 : Index := Scalar.indexCast arg20
  let c160 : Index := 160#32
  ![v166.toNat, 160]

def k0_chk139 (v125 : IVec S16 32) (v169 : IVec S16 32) : Prop :=
  (∀ a x, ((![v125, v169] : Fin 2 → IVec S16 32) a x).toNat < S8x2048.size a)
instance k0_chk139.dec : ∀ (v125 : IVec S16 32) (v169 : IVec S16 32), Decidable (k0_chk139 v125 v169) := fun v125 v169 => decidable_of_iff' _ (Iff.of_eq (k0_chk139.eq_1 v125 v169))
theorem k0_idx139_inb : ∀ (v125 : IVec S16 32) (v169 : IVec S16 32) (k0_hw139 : k0_chk139 v125 v169), ∀ a x, ((![v125, v169] : Fin 2 → IVec S16 32) a x).toNat < S8x2048.size a := fun v125 v169 k0_hw139 => k0_hw139
def k0_off147 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v170 : Index := Scalar.indexCast arg20
  let c176 : Index := 176#32
  ![v170.toNat, 176]

def k0_chk140 (v125 : IVec S16 32) (v173 : IVec S16 32) : Prop :=
  (∀ a x, ((![v125, v173] : Fin 2 → IVec S16 32) a x).toNat < S8x2048.size a)
instance k0_chk140.dec : ∀ (v125 : IVec S16 32) (v173 : IVec S16 32), Decidable (k0_chk140 v125 v173) := fun v125 v173 => decidable_of_iff' _ (Iff.of_eq (k0_chk140.eq_1 v125 v173))
theorem k0_idx140_inb : ∀ (v125 : IVec S16 32) (v173 : IVec S16 32) (k0_hw140 : k0_chk140 v125 v173), ∀ a x, ((![v125, v173] : Fin 2 → IVec S16 32) a x).toNat < S8x2048.size a := fun v125 v173 k0_hw140 => k0_hw140
def k0_off148 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v174 : Index := Scalar.indexCast arg20
  let c192 : Index := 192#32
  ![v174.toNat, 192]

def k0_chk141 (v125 : IVec S16 32) (v177 : IVec S16 32) : Prop :=
  (∀ a x, ((![v125, v177] : Fin 2 → IVec S16 32) a x).toNat < S8x2048.size a)
instance k0_chk141.dec : ∀ (v125 : IVec S16 32) (v177 : IVec S16 32), Decidable (k0_chk141 v125 v177) := fun v125 v177 => decidable_of_iff' _ (Iff.of_eq (k0_chk141.eq_1 v125 v177))
theorem k0_idx141_inb : ∀ (v125 : IVec S16 32) (v177 : IVec S16 32) (k0_hw141 : k0_chk141 v125 v177), ∀ a x, ((![v125, v177] : Fin 2 → IVec S16 32) a x).toNat < S8x2048.size a := fun v125 v177 k0_hw141 => k0_hw141
def k0_off149 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v178 : Index := Scalar.indexCast arg20
  let c208 : Index := 208#32
  ![v178.toNat, 208]

def k0_chk142 (v125 : IVec S16 32) (v181 : IVec S16 32) : Prop :=
  (∀ a x, ((![v125, v181] : Fin 2 → IVec S16 32) a x).toNat < S8x2048.size a)
instance k0_chk142.dec : ∀ (v125 : IVec S16 32) (v181 : IVec S16 32), Decidable (k0_chk142 v125 v181) := fun v125 v181 => decidable_of_iff' _ (Iff.of_eq (k0_chk142.eq_1 v125 v181))
theorem k0_idx142_inb : ∀ (v125 : IVec S16 32) (v181 : IVec S16 32) (k0_hw142 : k0_chk142 v125 v181), ∀ a x, ((![v125, v181] : Fin 2 → IVec S16 32) a x).toNat < S8x2048.size a := fun v125 v181 k0_hw142 => k0_hw142
def k0_off150 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v182 : Index := Scalar.indexCast arg20
  let c224 : Index := 224#32
  ![v182.toNat, 224]

def k0_chk143 (v125 : IVec S16 32) (v185 : IVec S16 32) : Prop :=
  (∀ a x, ((![v125, v185] : Fin 2 → IVec S16 32) a x).toNat < S8x2048.size a)
instance k0_chk143.dec : ∀ (v125 : IVec S16 32) (v185 : IVec S16 32), Decidable (k0_chk143 v125 v185) := fun v125 v185 => decidable_of_iff' _ (Iff.of_eq (k0_chk143.eq_1 v125 v185))
theorem k0_idx143_inb : ∀ (v125 : IVec S16 32) (v185 : IVec S16 32) (k0_hw143 : k0_chk143 v125 v185), ∀ a x, ((![v125, v185] : Fin 2 → IVec S16 32) a x).toNat < S8x2048.size a := fun v125 v185 k0_hw143 => k0_hw143
def k0_off151 (k0_t11 : Fin k0_t11_loop.trips) : Fin 2 → Nat :=
  let c0_i32_74 : BitVec 32 := 0#32
  let c1_i32_76 : BitVec 32 := 1#32
  let arg20 : BitVec 32 := Scf.iv c0_i32_74 c1_i32_76 k0_t11
  let v186 : Index := Scalar.indexCast arg20
  let c240 : Index := 240#32
  ![v186.toNat, 240]

def k0_chk144 (v125 : IVec S16 32) (v189 : IVec S16 32) : Prop :=
  (∀ a x, ((![v125, v189] : Fin 2 → IVec S16 32) a x).toNat < S8x2048.size a)
instance k0_chk144.dec : ∀ (v125 : IVec S16 32) (v189 : IVec S16 32), Decidable (k0_chk144 v125 v189) := fun v125 v189 => decidable_of_iff' _ (Iff.of_eq (k0_chk144.eq_1 v125 v189))
theorem k0_idx144_inb : ∀ (v125 : IVec S16 32) (v189 : IVec S16 32) (k0_hw144 : k0_chk144 v125 v189), ∀ a x, ((![v125, v189] : Fin 2 → IVec S16 32) a x).toNat < S8x2048.size a := fun v125 v189 k0_hw144 => k0_hw144
@[reducible] def k0_t12_loop : Scf.Loop 32 :=
  let c0_i32_86 : BitVec 32 := 0#32
  let c8_i32_87 : BitVec 32 := 8#32
  let v85 : BitVec 32 := Scalar.addi c0_i32_86 c8_i32_87
  let c1_i32_88 : BitVec 32 := 1#32
  ⟨c0_i32_86, v85, c1_i32_88⟩
def k0_off152 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v126 : Index := Scalar.indexCast arg20
  let c0 : Index := 0#32
  ![v126.toNat, 0]

def k0_chk145 (v125 : IVec S16 32) (v129 : IVec S16 32) : Prop :=
  (∀ a x, ((![v125, v129] : Fin 2 → IVec S16 32) a x).toNat < S8x2048.size a)
instance k0_chk145.dec : ∀ (v125 : IVec S16 32) (v129 : IVec S16 32), Decidable (k0_chk145 v125 v129) := fun v125 v129 => decidable_of_iff' _ (Iff.of_eq (k0_chk145.eq_1 v125 v129))
theorem k0_idx145_inb : ∀ (v125 : IVec S16 32) (v129 : IVec S16 32) (k0_hw145 : k0_chk145 v125 v129), ∀ a x, ((![v125, v129] : Fin 2 → IVec S16 32) a x).toNat < S8x2048.size a := fun v125 v129 k0_hw145 => k0_hw145
def k0_off153 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v130 : Index := Scalar.indexCast arg20
  let c16 : Index := 16#32
  ![v130.toNat, 16]

def k0_chk146 (v125 : IVec S16 32) (v133 : IVec S16 32) : Prop :=
  (∀ a x, ((![v125, v133] : Fin 2 → IVec S16 32) a x).toNat < S8x2048.size a)
instance k0_chk146.dec : ∀ (v125 : IVec S16 32) (v133 : IVec S16 32), Decidable (k0_chk146 v125 v133) := fun v125 v133 => decidable_of_iff' _ (Iff.of_eq (k0_chk146.eq_1 v125 v133))
theorem k0_idx146_inb : ∀ (v125 : IVec S16 32) (v133 : IVec S16 32) (k0_hw146 : k0_chk146 v125 v133), ∀ a x, ((![v125, v133] : Fin 2 → IVec S16 32) a x).toNat < S8x2048.size a := fun v125 v133 k0_hw146 => k0_hw146
def k0_off154 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v134 : Index := Scalar.indexCast arg20
  let c32 : Index := 32#32
  ![v134.toNat, 32]

def k0_chk147 (v125 : IVec S16 32) (v137 : IVec S16 32) : Prop :=
  (∀ a x, ((![v125, v137] : Fin 2 → IVec S16 32) a x).toNat < S8x2048.size a)
instance k0_chk147.dec : ∀ (v125 : IVec S16 32) (v137 : IVec S16 32), Decidable (k0_chk147 v125 v137) := fun v125 v137 => decidable_of_iff' _ (Iff.of_eq (k0_chk147.eq_1 v125 v137))
theorem k0_idx147_inb : ∀ (v125 : IVec S16 32) (v137 : IVec S16 32) (k0_hw147 : k0_chk147 v125 v137), ∀ a x, ((![v125, v137] : Fin 2 → IVec S16 32) a x).toNat < S8x2048.size a := fun v125 v137 k0_hw147 => k0_hw147
def k0_off155 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v138 : Index := Scalar.indexCast arg20
  let c48 : Index := 48#32
  ![v138.toNat, 48]

def k0_chk148 (v125 : IVec S16 32) (v141 : IVec S16 32) : Prop :=
  (∀ a x, ((![v125, v141] : Fin 2 → IVec S16 32) a x).toNat < S8x2048.size a)
instance k0_chk148.dec : ∀ (v125 : IVec S16 32) (v141 : IVec S16 32), Decidable (k0_chk148 v125 v141) := fun v125 v141 => decidable_of_iff' _ (Iff.of_eq (k0_chk148.eq_1 v125 v141))
theorem k0_idx148_inb : ∀ (v125 : IVec S16 32) (v141 : IVec S16 32) (k0_hw148 : k0_chk148 v125 v141), ∀ a x, ((![v125, v141] : Fin 2 → IVec S16 32) a x).toNat < S8x2048.size a := fun v125 v141 k0_hw148 => k0_hw148
def k0_off156 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v142 : Index := Scalar.indexCast arg20
  let c64 : Index := 64#32
  ![v142.toNat, 64]

def k0_chk149 (v125 : IVec S16 32) (v145 : IVec S16 32) : Prop :=
  (∀ a x, ((![v125, v145] : Fin 2 → IVec S16 32) a x).toNat < S8x2048.size a)
instance k0_chk149.dec : ∀ (v125 : IVec S16 32) (v145 : IVec S16 32), Decidable (k0_chk149 v125 v145) := fun v125 v145 => decidable_of_iff' _ (Iff.of_eq (k0_chk149.eq_1 v125 v145))
theorem k0_idx149_inb : ∀ (v125 : IVec S16 32) (v145 : IVec S16 32) (k0_hw149 : k0_chk149 v125 v145), ∀ a x, ((![v125, v145] : Fin 2 → IVec S16 32) a x).toNat < S8x2048.size a := fun v125 v145 k0_hw149 => k0_hw149
def k0_off157 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v146 : Index := Scalar.indexCast arg20
  let c80 : Index := 80#32
  ![v146.toNat, 80]

def k0_chk150 (v125 : IVec S16 32) (v149 : IVec S16 32) : Prop :=
  (∀ a x, ((![v125, v149] : Fin 2 → IVec S16 32) a x).toNat < S8x2048.size a)
instance k0_chk150.dec : ∀ (v125 : IVec S16 32) (v149 : IVec S16 32), Decidable (k0_chk150 v125 v149) := fun v125 v149 => decidable_of_iff' _ (Iff.of_eq (k0_chk150.eq_1 v125 v149))
theorem k0_idx150_inb : ∀ (v125 : IVec S16 32) (v149 : IVec S16 32) (k0_hw150 : k0_chk150 v125 v149), ∀ a x, ((![v125, v149] : Fin 2 → IVec S16 32) a x).toNat < S8x2048.size a := fun v125 v149 k0_hw150 => k0_hw150
def k0_off158 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v150 : Index := Scalar.indexCast arg20
  let c96 : Index := 96#32
  ![v150.toNat, 96]

def k0_chk151 (v125 : IVec S16 32) (v153 : IVec S16 32) : Prop :=
  (∀ a x, ((![v125, v153] : Fin 2 → IVec S16 32) a x).toNat < S8x2048.size a)
instance k0_chk151.dec : ∀ (v125 : IVec S16 32) (v153 : IVec S16 32), Decidable (k0_chk151 v125 v153) := fun v125 v153 => decidable_of_iff' _ (Iff.of_eq (k0_chk151.eq_1 v125 v153))
theorem k0_idx151_inb : ∀ (v125 : IVec S16 32) (v153 : IVec S16 32) (k0_hw151 : k0_chk151 v125 v153), ∀ a x, ((![v125, v153] : Fin 2 → IVec S16 32) a x).toNat < S8x2048.size a := fun v125 v153 k0_hw151 => k0_hw151
def k0_off159 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v154 : Index := Scalar.indexCast arg20
  let c112 : Index := 112#32
  ![v154.toNat, 112]

def k0_chk152 (v125 : IVec S16 32) (v157 : IVec S16 32) : Prop :=
  (∀ a x, ((![v125, v157] : Fin 2 → IVec S16 32) a x).toNat < S8x2048.size a)
instance k0_chk152.dec : ∀ (v125 : IVec S16 32) (v157 : IVec S16 32), Decidable (k0_chk152 v125 v157) := fun v125 v157 => decidable_of_iff' _ (Iff.of_eq (k0_chk152.eq_1 v125 v157))
theorem k0_idx152_inb : ∀ (v125 : IVec S16 32) (v157 : IVec S16 32) (k0_hw152 : k0_chk152 v125 v157), ∀ a x, ((![v125, v157] : Fin 2 → IVec S16 32) a x).toNat < S8x2048.size a := fun v125 v157 k0_hw152 => k0_hw152
def k0_off160 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v158 : Index := Scalar.indexCast arg20
  let c128 : Index := 128#32
  ![v158.toNat, 128]

def k0_chk153 (v125 : IVec S16 32) (v161 : IVec S16 32) : Prop :=
  (∀ a x, ((![v125, v161] : Fin 2 → IVec S16 32) a x).toNat < S8x2048.size a)
instance k0_chk153.dec : ∀ (v125 : IVec S16 32) (v161 : IVec S16 32), Decidable (k0_chk153 v125 v161) := fun v125 v161 => decidable_of_iff' _ (Iff.of_eq (k0_chk153.eq_1 v125 v161))
theorem k0_idx153_inb : ∀ (v125 : IVec S16 32) (v161 : IVec S16 32) (k0_hw153 : k0_chk153 v125 v161), ∀ a x, ((![v125, v161] : Fin 2 → IVec S16 32) a x).toNat < S8x2048.size a := fun v125 v161 k0_hw153 => k0_hw153
def k0_off161 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v162 : Index := Scalar.indexCast arg20
  let c144 : Index := 144#32
  ![v162.toNat, 144]

def k0_chk154 (v125 : IVec S16 32) (v165 : IVec S16 32) : Prop :=
  (∀ a x, ((![v125, v165] : Fin 2 → IVec S16 32) a x).toNat < S8x2048.size a)
instance k0_chk154.dec : ∀ (v125 : IVec S16 32) (v165 : IVec S16 32), Decidable (k0_chk154 v125 v165) := fun v125 v165 => decidable_of_iff' _ (Iff.of_eq (k0_chk154.eq_1 v125 v165))
theorem k0_idx154_inb : ∀ (v125 : IVec S16 32) (v165 : IVec S16 32) (k0_hw154 : k0_chk154 v125 v165), ∀ a x, ((![v125, v165] : Fin 2 → IVec S16 32) a x).toNat < S8x2048.size a := fun v125 v165 k0_hw154 => k0_hw154
def k0_off162 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v166 : Index := Scalar.indexCast arg20
  let c160 : Index := 160#32
  ![v166.toNat, 160]

def k0_chk155 (v125 : IVec S16 32) (v169 : IVec S16 32) : Prop :=
  (∀ a x, ((![v125, v169] : Fin 2 → IVec S16 32) a x).toNat < S8x2048.size a)
instance k0_chk155.dec : ∀ (v125 : IVec S16 32) (v169 : IVec S16 32), Decidable (k0_chk155 v125 v169) := fun v125 v169 => decidable_of_iff' _ (Iff.of_eq (k0_chk155.eq_1 v125 v169))
theorem k0_idx155_inb : ∀ (v125 : IVec S16 32) (v169 : IVec S16 32) (k0_hw155 : k0_chk155 v125 v169), ∀ a x, ((![v125, v169] : Fin 2 → IVec S16 32) a x).toNat < S8x2048.size a := fun v125 v169 k0_hw155 => k0_hw155
def k0_off163 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v170 : Index := Scalar.indexCast arg20
  let c176 : Index := 176#32
  ![v170.toNat, 176]

def k0_chk156 (v125 : IVec S16 32) (v173 : IVec S16 32) : Prop :=
  (∀ a x, ((![v125, v173] : Fin 2 → IVec S16 32) a x).toNat < S8x2048.size a)
instance k0_chk156.dec : ∀ (v125 : IVec S16 32) (v173 : IVec S16 32), Decidable (k0_chk156 v125 v173) := fun v125 v173 => decidable_of_iff' _ (Iff.of_eq (k0_chk156.eq_1 v125 v173))
theorem k0_idx156_inb : ∀ (v125 : IVec S16 32) (v173 : IVec S16 32) (k0_hw156 : k0_chk156 v125 v173), ∀ a x, ((![v125, v173] : Fin 2 → IVec S16 32) a x).toNat < S8x2048.size a := fun v125 v173 k0_hw156 => k0_hw156
def k0_off164 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v174 : Index := Scalar.indexCast arg20
  let c192 : Index := 192#32
  ![v174.toNat, 192]

def k0_chk157 (v125 : IVec S16 32) (v177 : IVec S16 32) : Prop :=
  (∀ a x, ((![v125, v177] : Fin 2 → IVec S16 32) a x).toNat < S8x2048.size a)
instance k0_chk157.dec : ∀ (v125 : IVec S16 32) (v177 : IVec S16 32), Decidable (k0_chk157 v125 v177) := fun v125 v177 => decidable_of_iff' _ (Iff.of_eq (k0_chk157.eq_1 v125 v177))
theorem k0_idx157_inb : ∀ (v125 : IVec S16 32) (v177 : IVec S16 32) (k0_hw157 : k0_chk157 v125 v177), ∀ a x, ((![v125, v177] : Fin 2 → IVec S16 32) a x).toNat < S8x2048.size a := fun v125 v177 k0_hw157 => k0_hw157
def k0_off165 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v178 : Index := Scalar.indexCast arg20
  let c208 : Index := 208#32
  ![v178.toNat, 208]

def k0_chk158 (v125 : IVec S16 32) (v181 : IVec S16 32) : Prop :=
  (∀ a x, ((![v125, v181] : Fin 2 → IVec S16 32) a x).toNat < S8x2048.size a)
instance k0_chk158.dec : ∀ (v125 : IVec S16 32) (v181 : IVec S16 32), Decidable (k0_chk158 v125 v181) := fun v125 v181 => decidable_of_iff' _ (Iff.of_eq (k0_chk158.eq_1 v125 v181))
theorem k0_idx158_inb : ∀ (v125 : IVec S16 32) (v181 : IVec S16 32) (k0_hw158 : k0_chk158 v125 v181), ∀ a x, ((![v125, v181] : Fin 2 → IVec S16 32) a x).toNat < S8x2048.size a := fun v125 v181 k0_hw158 => k0_hw158
def k0_off166 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v182 : Index := Scalar.indexCast arg20
  let c224 : Index := 224#32
  ![v182.toNat, 224]

def k0_chk159 (v125 : IVec S16 32) (v185 : IVec S16 32) : Prop :=
  (∀ a x, ((![v125, v185] : Fin 2 → IVec S16 32) a x).toNat < S8x2048.size a)
instance k0_chk159.dec : ∀ (v125 : IVec S16 32) (v185 : IVec S16 32), Decidable (k0_chk159 v125 v185) := fun v125 v185 => decidable_of_iff' _ (Iff.of_eq (k0_chk159.eq_1 v125 v185))
theorem k0_idx159_inb : ∀ (v125 : IVec S16 32) (v185 : IVec S16 32) (k0_hw159 : k0_chk159 v125 v185), ∀ a x, ((![v125, v185] : Fin 2 → IVec S16 32) a x).toNat < S8x2048.size a := fun v125 v185 k0_hw159 => k0_hw159
def k0_off167 (k0_t12 : Fin k0_t12_loop.trips) : Fin 2 → Nat :=
  let c0_i32_86 : BitVec 32 := 0#32
  let c1_i32_88 : BitVec 32 := 1#32
  let arg20 : BitVec 32 := Scf.iv c0_i32_86 c1_i32_88 k0_t12
  let v186 : Index := Scalar.indexCast arg20
  let c240 : Index := 240#32
  ![v186.toNat, 240]

def k0_chk160 (v125 : IVec S16 32) (v189 : IVec S16 32) : Prop :=
  (∀ a x, ((![v125, v189] : Fin 2 → IVec S16 32) a x).toNat < S8x2048.size a)
instance k0_chk160.dec : ∀ (v125 : IVec S16 32) (v189 : IVec S16 32), Decidable (k0_chk160 v125 v189) := fun v125 v189 => decidable_of_iff' _ (Iff.of_eq (k0_chk160.eq_1 v125 v189))
theorem k0_idx160_inb : ∀ (v125 : IVec S16 32) (v189 : IVec S16 32) (k0_hw160 : k0_chk160 v125 v189), ∀ a x, ((![v125, v189] : Fin 2 → IVec S16 32) a x).toNat < S8x2048.size a := fun v125 v189 k0_hw160 => k0_hw160
@[reducible] def k0_t13_loop : Scf.Loop 32 :=
  let c0_i32_98 : BitVec 32 := 0#32
  let c8_i32_99 : BitVec 32 := 8#32
  let v96 : BitVec 32 := Scalar.addi c0_i32_98 c8_i32_99
  let c1_i32_100 : BitVec 32 := 1#32
  ⟨c0_i32_98, v96, c1_i32_100⟩
def k0_off168 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v126 : Index := Scalar.indexCast arg20
  let c0 : Index := 0#32
  ![v126.toNat, 0]

def k0_chk161 (v125 : IVec S16 32) (v129 : IVec S16 32) : Prop :=
  (∀ a x, ((![v125, v129] : Fin 2 → IVec S16 32) a x).toNat < S8x2048.size a)
instance k0_chk161.dec : ∀ (v125 : IVec S16 32) (v129 : IVec S16 32), Decidable (k0_chk161 v125 v129) := fun v125 v129 => decidable_of_iff' _ (Iff.of_eq (k0_chk161.eq_1 v125 v129))
theorem k0_idx161_inb : ∀ (v125 : IVec S16 32) (v129 : IVec S16 32) (k0_hw161 : k0_chk161 v125 v129), ∀ a x, ((![v125, v129] : Fin 2 → IVec S16 32) a x).toNat < S8x2048.size a := fun v125 v129 k0_hw161 => k0_hw161
def k0_off169 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v130 : Index := Scalar.indexCast arg20
  let c16 : Index := 16#32
  ![v130.toNat, 16]

def k0_chk162 (v125 : IVec S16 32) (v133 : IVec S16 32) : Prop :=
  (∀ a x, ((![v125, v133] : Fin 2 → IVec S16 32) a x).toNat < S8x2048.size a)
instance k0_chk162.dec : ∀ (v125 : IVec S16 32) (v133 : IVec S16 32), Decidable (k0_chk162 v125 v133) := fun v125 v133 => decidable_of_iff' _ (Iff.of_eq (k0_chk162.eq_1 v125 v133))
theorem k0_idx162_inb : ∀ (v125 : IVec S16 32) (v133 : IVec S16 32) (k0_hw162 : k0_chk162 v125 v133), ∀ a x, ((![v125, v133] : Fin 2 → IVec S16 32) a x).toNat < S8x2048.size a := fun v125 v133 k0_hw162 => k0_hw162
def k0_off170 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v134 : Index := Scalar.indexCast arg20
  let c32 : Index := 32#32
  ![v134.toNat, 32]

def k0_chk163 (v125 : IVec S16 32) (v137 : IVec S16 32) : Prop :=
  (∀ a x, ((![v125, v137] : Fin 2 → IVec S16 32) a x).toNat < S8x2048.size a)
instance k0_chk163.dec : ∀ (v125 : IVec S16 32) (v137 : IVec S16 32), Decidable (k0_chk163 v125 v137) := fun v125 v137 => decidable_of_iff' _ (Iff.of_eq (k0_chk163.eq_1 v125 v137))
theorem k0_idx163_inb : ∀ (v125 : IVec S16 32) (v137 : IVec S16 32) (k0_hw163 : k0_chk163 v125 v137), ∀ a x, ((![v125, v137] : Fin 2 → IVec S16 32) a x).toNat < S8x2048.size a := fun v125 v137 k0_hw163 => k0_hw163
def k0_off171 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v138 : Index := Scalar.indexCast arg20
  let c48 : Index := 48#32
  ![v138.toNat, 48]

def k0_chk164 (v125 : IVec S16 32) (v141 : IVec S16 32) : Prop :=
  (∀ a x, ((![v125, v141] : Fin 2 → IVec S16 32) a x).toNat < S8x2048.size a)
instance k0_chk164.dec : ∀ (v125 : IVec S16 32) (v141 : IVec S16 32), Decidable (k0_chk164 v125 v141) := fun v125 v141 => decidable_of_iff' _ (Iff.of_eq (k0_chk164.eq_1 v125 v141))
theorem k0_idx164_inb : ∀ (v125 : IVec S16 32) (v141 : IVec S16 32) (k0_hw164 : k0_chk164 v125 v141), ∀ a x, ((![v125, v141] : Fin 2 → IVec S16 32) a x).toNat < S8x2048.size a := fun v125 v141 k0_hw164 => k0_hw164
def k0_off172 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v142 : Index := Scalar.indexCast arg20
  let c64 : Index := 64#32
  ![v142.toNat, 64]

def k0_chk165 (v125 : IVec S16 32) (v145 : IVec S16 32) : Prop :=
  (∀ a x, ((![v125, v145] : Fin 2 → IVec S16 32) a x).toNat < S8x2048.size a)
instance k0_chk165.dec : ∀ (v125 : IVec S16 32) (v145 : IVec S16 32), Decidable (k0_chk165 v125 v145) := fun v125 v145 => decidable_of_iff' _ (Iff.of_eq (k0_chk165.eq_1 v125 v145))
theorem k0_idx165_inb : ∀ (v125 : IVec S16 32) (v145 : IVec S16 32) (k0_hw165 : k0_chk165 v125 v145), ∀ a x, ((![v125, v145] : Fin 2 → IVec S16 32) a x).toNat < S8x2048.size a := fun v125 v145 k0_hw165 => k0_hw165
def k0_off173 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v146 : Index := Scalar.indexCast arg20
  let c80 : Index := 80#32
  ![v146.toNat, 80]

def k0_chk166 (v125 : IVec S16 32) (v149 : IVec S16 32) : Prop :=
  (∀ a x, ((![v125, v149] : Fin 2 → IVec S16 32) a x).toNat < S8x2048.size a)
instance k0_chk166.dec : ∀ (v125 : IVec S16 32) (v149 : IVec S16 32), Decidable (k0_chk166 v125 v149) := fun v125 v149 => decidable_of_iff' _ (Iff.of_eq (k0_chk166.eq_1 v125 v149))
theorem k0_idx166_inb : ∀ (v125 : IVec S16 32) (v149 : IVec S16 32) (k0_hw166 : k0_chk166 v125 v149), ∀ a x, ((![v125, v149] : Fin 2 → IVec S16 32) a x).toNat < S8x2048.size a := fun v125 v149 k0_hw166 => k0_hw166
def k0_off174 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v150 : Index := Scalar.indexCast arg20
  let c96 : Index := 96#32
  ![v150.toNat, 96]

def k0_chk167 (v125 : IVec S16 32) (v153 : IVec S16 32) : Prop :=
  (∀ a x, ((![v125, v153] : Fin 2 → IVec S16 32) a x).toNat < S8x2048.size a)
instance k0_chk167.dec : ∀ (v125 : IVec S16 32) (v153 : IVec S16 32), Decidable (k0_chk167 v125 v153) := fun v125 v153 => decidable_of_iff' _ (Iff.of_eq (k0_chk167.eq_1 v125 v153))
theorem k0_idx167_inb : ∀ (v125 : IVec S16 32) (v153 : IVec S16 32) (k0_hw167 : k0_chk167 v125 v153), ∀ a x, ((![v125, v153] : Fin 2 → IVec S16 32) a x).toNat < S8x2048.size a := fun v125 v153 k0_hw167 => k0_hw167
def k0_off175 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v154 : Index := Scalar.indexCast arg20
  let c112 : Index := 112#32
  ![v154.toNat, 112]

def k0_chk168 (v125 : IVec S16 32) (v157 : IVec S16 32) : Prop :=
  (∀ a x, ((![v125, v157] : Fin 2 → IVec S16 32) a x).toNat < S8x2048.size a)
instance k0_chk168.dec : ∀ (v125 : IVec S16 32) (v157 : IVec S16 32), Decidable (k0_chk168 v125 v157) := fun v125 v157 => decidable_of_iff' _ (Iff.of_eq (k0_chk168.eq_1 v125 v157))
theorem k0_idx168_inb : ∀ (v125 : IVec S16 32) (v157 : IVec S16 32) (k0_hw168 : k0_chk168 v125 v157), ∀ a x, ((![v125, v157] : Fin 2 → IVec S16 32) a x).toNat < S8x2048.size a := fun v125 v157 k0_hw168 => k0_hw168
def k0_off176 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v158 : Index := Scalar.indexCast arg20
  let c128 : Index := 128#32
  ![v158.toNat, 128]

def k0_chk169 (v125 : IVec S16 32) (v161 : IVec S16 32) : Prop :=
  (∀ a x, ((![v125, v161] : Fin 2 → IVec S16 32) a x).toNat < S8x2048.size a)
instance k0_chk169.dec : ∀ (v125 : IVec S16 32) (v161 : IVec S16 32), Decidable (k0_chk169 v125 v161) := fun v125 v161 => decidable_of_iff' _ (Iff.of_eq (k0_chk169.eq_1 v125 v161))
theorem k0_idx169_inb : ∀ (v125 : IVec S16 32) (v161 : IVec S16 32) (k0_hw169 : k0_chk169 v125 v161), ∀ a x, ((![v125, v161] : Fin 2 → IVec S16 32) a x).toNat < S8x2048.size a := fun v125 v161 k0_hw169 => k0_hw169
def k0_off177 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v162 : Index := Scalar.indexCast arg20
  let c144 : Index := 144#32
  ![v162.toNat, 144]

def k0_chk170 (v125 : IVec S16 32) (v165 : IVec S16 32) : Prop :=
  (∀ a x, ((![v125, v165] : Fin 2 → IVec S16 32) a x).toNat < S8x2048.size a)
instance k0_chk170.dec : ∀ (v125 : IVec S16 32) (v165 : IVec S16 32), Decidable (k0_chk170 v125 v165) := fun v125 v165 => decidable_of_iff' _ (Iff.of_eq (k0_chk170.eq_1 v125 v165))
theorem k0_idx170_inb : ∀ (v125 : IVec S16 32) (v165 : IVec S16 32) (k0_hw170 : k0_chk170 v125 v165), ∀ a x, ((![v125, v165] : Fin 2 → IVec S16 32) a x).toNat < S8x2048.size a := fun v125 v165 k0_hw170 => k0_hw170
def k0_off178 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v166 : Index := Scalar.indexCast arg20
  let c160 : Index := 160#32
  ![v166.toNat, 160]

def k0_chk171 (v125 : IVec S16 32) (v169 : IVec S16 32) : Prop :=
  (∀ a x, ((![v125, v169] : Fin 2 → IVec S16 32) a x).toNat < S8x2048.size a)
instance k0_chk171.dec : ∀ (v125 : IVec S16 32) (v169 : IVec S16 32), Decidable (k0_chk171 v125 v169) := fun v125 v169 => decidable_of_iff' _ (Iff.of_eq (k0_chk171.eq_1 v125 v169))
theorem k0_idx171_inb : ∀ (v125 : IVec S16 32) (v169 : IVec S16 32) (k0_hw171 : k0_chk171 v125 v169), ∀ a x, ((![v125, v169] : Fin 2 → IVec S16 32) a x).toNat < S8x2048.size a := fun v125 v169 k0_hw171 => k0_hw171
def k0_off179 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v170 : Index := Scalar.indexCast arg20
  let c176 : Index := 176#32
  ![v170.toNat, 176]

def k0_chk172 (v125 : IVec S16 32) (v173 : IVec S16 32) : Prop :=
  (∀ a x, ((![v125, v173] : Fin 2 → IVec S16 32) a x).toNat < S8x2048.size a)
instance k0_chk172.dec : ∀ (v125 : IVec S16 32) (v173 : IVec S16 32), Decidable (k0_chk172 v125 v173) := fun v125 v173 => decidable_of_iff' _ (Iff.of_eq (k0_chk172.eq_1 v125 v173))
theorem k0_idx172_inb : ∀ (v125 : IVec S16 32) (v173 : IVec S16 32) (k0_hw172 : k0_chk172 v125 v173), ∀ a x, ((![v125, v173] : Fin 2 → IVec S16 32) a x).toNat < S8x2048.size a := fun v125 v173 k0_hw172 => k0_hw172
def k0_off180 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v174 : Index := Scalar.indexCast arg20
  let c192 : Index := 192#32
  ![v174.toNat, 192]

def k0_chk173 (v125 : IVec S16 32) (v177 : IVec S16 32) : Prop :=
  (∀ a x, ((![v125, v177] : Fin 2 → IVec S16 32) a x).toNat < S8x2048.size a)
instance k0_chk173.dec : ∀ (v125 : IVec S16 32) (v177 : IVec S16 32), Decidable (k0_chk173 v125 v177) := fun v125 v177 => decidable_of_iff' _ (Iff.of_eq (k0_chk173.eq_1 v125 v177))
theorem k0_idx173_inb : ∀ (v125 : IVec S16 32) (v177 : IVec S16 32) (k0_hw173 : k0_chk173 v125 v177), ∀ a x, ((![v125, v177] : Fin 2 → IVec S16 32) a x).toNat < S8x2048.size a := fun v125 v177 k0_hw173 => k0_hw173
def k0_off181 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v178 : Index := Scalar.indexCast arg20
  let c208 : Index := 208#32
  ![v178.toNat, 208]

def k0_chk174 (v125 : IVec S16 32) (v181 : IVec S16 32) : Prop :=
  (∀ a x, ((![v125, v181] : Fin 2 → IVec S16 32) a x).toNat < S8x2048.size a)
instance k0_chk174.dec : ∀ (v125 : IVec S16 32) (v181 : IVec S16 32), Decidable (k0_chk174 v125 v181) := fun v125 v181 => decidable_of_iff' _ (Iff.of_eq (k0_chk174.eq_1 v125 v181))
theorem k0_idx174_inb : ∀ (v125 : IVec S16 32) (v181 : IVec S16 32) (k0_hw174 : k0_chk174 v125 v181), ∀ a x, ((![v125, v181] : Fin 2 → IVec S16 32) a x).toNat < S8x2048.size a := fun v125 v181 k0_hw174 => k0_hw174
def k0_off182 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v182 : Index := Scalar.indexCast arg20
  let c224 : Index := 224#32
  ![v182.toNat, 224]

def k0_chk175 (v125 : IVec S16 32) (v185 : IVec S16 32) : Prop :=
  (∀ a x, ((![v125, v185] : Fin 2 → IVec S16 32) a x).toNat < S8x2048.size a)
instance k0_chk175.dec : ∀ (v125 : IVec S16 32) (v185 : IVec S16 32), Decidable (k0_chk175 v125 v185) := fun v125 v185 => decidable_of_iff' _ (Iff.of_eq (k0_chk175.eq_1 v125 v185))
theorem k0_idx175_inb : ∀ (v125 : IVec S16 32) (v185 : IVec S16 32) (k0_hw175 : k0_chk175 v125 v185), ∀ a x, ((![v125, v185] : Fin 2 → IVec S16 32) a x).toNat < S8x2048.size a := fun v125 v185 k0_hw175 => k0_hw175
def k0_off183 (k0_t13 : Fin k0_t13_loop.trips) : Fin 2 → Nat :=
  let c0_i32_98 : BitVec 32 := 0#32
  let c1_i32_100 : BitVec 32 := 1#32
  let arg20 : BitVec 32 := Scf.iv c0_i32_98 c1_i32_100 k0_t13
  let v186 : Index := Scalar.indexCast arg20
  let c240 : Index := 240#32
  ![v186.toNat, 240]

def k0_chk176 (v125 : IVec S16 32) (v189 : IVec S16 32) : Prop :=
  (∀ a x, ((![v125, v189] : Fin 2 → IVec S16 32) a x).toNat < S8x2048.size a)
instance k0_chk176.dec : ∀ (v125 : IVec S16 32) (v189 : IVec S16 32), Decidable (k0_chk176 v125 v189) := fun v125 v189 => decidable_of_iff' _ (Iff.of_eq (k0_chk176.eq_1 v125 v189))
theorem k0_idx176_inb : ∀ (v125 : IVec S16 32) (v189 : IVec S16 32) (k0_hw176 : k0_chk176 v125 v189), ∀ a x, ((![v125, v189] : Fin 2 → IVec S16 32) a x).toNat < S8x2048.size a := fun v125 v189 k0_hw176 => k0_hw176
@[reducible] def k0_t14_loop : Scf.Loop 32 :=
  let c0_i32_110 : BitVec 32 := 0#32
  let c8_i32_111 : BitVec 32 := 8#32
  let v107 : BitVec 32 := Scalar.addi c0_i32_110 c8_i32_111
  let c1_i32_112 : BitVec 32 := 1#32
  ⟨c0_i32_110, v107, c1_i32_112⟩
def k0_off184 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v126 : Index := Scalar.indexCast arg20
  let c0 : Index := 0#32
  ![v126.toNat, 0]

def k0_chk177 (v125 : IVec S16 32) (v129 : IVec S16 32) : Prop :=
  (∀ a x, ((![v125, v129] : Fin 2 → IVec S16 32) a x).toNat < S8x2048.size a)
instance k0_chk177.dec : ∀ (v125 : IVec S16 32) (v129 : IVec S16 32), Decidable (k0_chk177 v125 v129) := fun v125 v129 => decidable_of_iff' _ (Iff.of_eq (k0_chk177.eq_1 v125 v129))
theorem k0_idx177_inb : ∀ (v125 : IVec S16 32) (v129 : IVec S16 32) (k0_hw177 : k0_chk177 v125 v129), ∀ a x, ((![v125, v129] : Fin 2 → IVec S16 32) a x).toNat < S8x2048.size a := fun v125 v129 k0_hw177 => k0_hw177
def k0_off185 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v130 : Index := Scalar.indexCast arg20
  let c16 : Index := 16#32
  ![v130.toNat, 16]

def k0_chk178 (v125 : IVec S16 32) (v133 : IVec S16 32) : Prop :=
  (∀ a x, ((![v125, v133] : Fin 2 → IVec S16 32) a x).toNat < S8x2048.size a)
instance k0_chk178.dec : ∀ (v125 : IVec S16 32) (v133 : IVec S16 32), Decidable (k0_chk178 v125 v133) := fun v125 v133 => decidable_of_iff' _ (Iff.of_eq (k0_chk178.eq_1 v125 v133))
theorem k0_idx178_inb : ∀ (v125 : IVec S16 32) (v133 : IVec S16 32) (k0_hw178 : k0_chk178 v125 v133), ∀ a x, ((![v125, v133] : Fin 2 → IVec S16 32) a x).toNat < S8x2048.size a := fun v125 v133 k0_hw178 => k0_hw178
def k0_off186 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v134 : Index := Scalar.indexCast arg20
  let c32 : Index := 32#32
  ![v134.toNat, 32]

def k0_chk179 (v125 : IVec S16 32) (v137 : IVec S16 32) : Prop :=
  (∀ a x, ((![v125, v137] : Fin 2 → IVec S16 32) a x).toNat < S8x2048.size a)
instance k0_chk179.dec : ∀ (v125 : IVec S16 32) (v137 : IVec S16 32), Decidable (k0_chk179 v125 v137) := fun v125 v137 => decidable_of_iff' _ (Iff.of_eq (k0_chk179.eq_1 v125 v137))
theorem k0_idx179_inb : ∀ (v125 : IVec S16 32) (v137 : IVec S16 32) (k0_hw179 : k0_chk179 v125 v137), ∀ a x, ((![v125, v137] : Fin 2 → IVec S16 32) a x).toNat < S8x2048.size a := fun v125 v137 k0_hw179 => k0_hw179
def k0_off187 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v138 : Index := Scalar.indexCast arg20
  let c48 : Index := 48#32
  ![v138.toNat, 48]

def k0_chk180 (v125 : IVec S16 32) (v141 : IVec S16 32) : Prop :=
  (∀ a x, ((![v125, v141] : Fin 2 → IVec S16 32) a x).toNat < S8x2048.size a)
instance k0_chk180.dec : ∀ (v125 : IVec S16 32) (v141 : IVec S16 32), Decidable (k0_chk180 v125 v141) := fun v125 v141 => decidable_of_iff' _ (Iff.of_eq (k0_chk180.eq_1 v125 v141))
theorem k0_idx180_inb : ∀ (v125 : IVec S16 32) (v141 : IVec S16 32) (k0_hw180 : k0_chk180 v125 v141), ∀ a x, ((![v125, v141] : Fin 2 → IVec S16 32) a x).toNat < S8x2048.size a := fun v125 v141 k0_hw180 => k0_hw180
def k0_off188 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v142 : Index := Scalar.indexCast arg20
  let c64 : Index := 64#32
  ![v142.toNat, 64]

def k0_chk181 (v125 : IVec S16 32) (v145 : IVec S16 32) : Prop :=
  (∀ a x, ((![v125, v145] : Fin 2 → IVec S16 32) a x).toNat < S8x2048.size a)
instance k0_chk181.dec : ∀ (v125 : IVec S16 32) (v145 : IVec S16 32), Decidable (k0_chk181 v125 v145) := fun v125 v145 => decidable_of_iff' _ (Iff.of_eq (k0_chk181.eq_1 v125 v145))
theorem k0_idx181_inb : ∀ (v125 : IVec S16 32) (v145 : IVec S16 32) (k0_hw181 : k0_chk181 v125 v145), ∀ a x, ((![v125, v145] : Fin 2 → IVec S16 32) a x).toNat < S8x2048.size a := fun v125 v145 k0_hw181 => k0_hw181
def k0_off189 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v146 : Index := Scalar.indexCast arg20
  let c80 : Index := 80#32
  ![v146.toNat, 80]

def k0_chk182 (v125 : IVec S16 32) (v149 : IVec S16 32) : Prop :=
  (∀ a x, ((![v125, v149] : Fin 2 → IVec S16 32) a x).toNat < S8x2048.size a)
instance k0_chk182.dec : ∀ (v125 : IVec S16 32) (v149 : IVec S16 32), Decidable (k0_chk182 v125 v149) := fun v125 v149 => decidable_of_iff' _ (Iff.of_eq (k0_chk182.eq_1 v125 v149))
theorem k0_idx182_inb : ∀ (v125 : IVec S16 32) (v149 : IVec S16 32) (k0_hw182 : k0_chk182 v125 v149), ∀ a x, ((![v125, v149] : Fin 2 → IVec S16 32) a x).toNat < S8x2048.size a := fun v125 v149 k0_hw182 => k0_hw182
def k0_off190 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v150 : Index := Scalar.indexCast arg20
  let c96 : Index := 96#32
  ![v150.toNat, 96]

def k0_chk183 (v125 : IVec S16 32) (v153 : IVec S16 32) : Prop :=
  (∀ a x, ((![v125, v153] : Fin 2 → IVec S16 32) a x).toNat < S8x2048.size a)
instance k0_chk183.dec : ∀ (v125 : IVec S16 32) (v153 : IVec S16 32), Decidable (k0_chk183 v125 v153) := fun v125 v153 => decidable_of_iff' _ (Iff.of_eq (k0_chk183.eq_1 v125 v153))
theorem k0_idx183_inb : ∀ (v125 : IVec S16 32) (v153 : IVec S16 32) (k0_hw183 : k0_chk183 v125 v153), ∀ a x, ((![v125, v153] : Fin 2 → IVec S16 32) a x).toNat < S8x2048.size a := fun v125 v153 k0_hw183 => k0_hw183
def k0_off191 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v154 : Index := Scalar.indexCast arg20
  let c112 : Index := 112#32
  ![v154.toNat, 112]

def k0_chk184 (v125 : IVec S16 32) (v157 : IVec S16 32) : Prop :=
  (∀ a x, ((![v125, v157] : Fin 2 → IVec S16 32) a x).toNat < S8x2048.size a)
instance k0_chk184.dec : ∀ (v125 : IVec S16 32) (v157 : IVec S16 32), Decidable (k0_chk184 v125 v157) := fun v125 v157 => decidable_of_iff' _ (Iff.of_eq (k0_chk184.eq_1 v125 v157))
theorem k0_idx184_inb : ∀ (v125 : IVec S16 32) (v157 : IVec S16 32) (k0_hw184 : k0_chk184 v125 v157), ∀ a x, ((![v125, v157] : Fin 2 → IVec S16 32) a x).toNat < S8x2048.size a := fun v125 v157 k0_hw184 => k0_hw184
def k0_off192 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v158 : Index := Scalar.indexCast arg20
  let c128 : Index := 128#32
  ![v158.toNat, 128]

def k0_chk185 (v125 : IVec S16 32) (v161 : IVec S16 32) : Prop :=
  (∀ a x, ((![v125, v161] : Fin 2 → IVec S16 32) a x).toNat < S8x2048.size a)
instance k0_chk185.dec : ∀ (v125 : IVec S16 32) (v161 : IVec S16 32), Decidable (k0_chk185 v125 v161) := fun v125 v161 => decidable_of_iff' _ (Iff.of_eq (k0_chk185.eq_1 v125 v161))
theorem k0_idx185_inb : ∀ (v125 : IVec S16 32) (v161 : IVec S16 32) (k0_hw185 : k0_chk185 v125 v161), ∀ a x, ((![v125, v161] : Fin 2 → IVec S16 32) a x).toNat < S8x2048.size a := fun v125 v161 k0_hw185 => k0_hw185
def k0_off193 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v162 : Index := Scalar.indexCast arg20
  let c144 : Index := 144#32
  ![v162.toNat, 144]

def k0_chk186 (v125 : IVec S16 32) (v165 : IVec S16 32) : Prop :=
  (∀ a x, ((![v125, v165] : Fin 2 → IVec S16 32) a x).toNat < S8x2048.size a)
instance k0_chk186.dec : ∀ (v125 : IVec S16 32) (v165 : IVec S16 32), Decidable (k0_chk186 v125 v165) := fun v125 v165 => decidable_of_iff' _ (Iff.of_eq (k0_chk186.eq_1 v125 v165))
theorem k0_idx186_inb : ∀ (v125 : IVec S16 32) (v165 : IVec S16 32) (k0_hw186 : k0_chk186 v125 v165), ∀ a x, ((![v125, v165] : Fin 2 → IVec S16 32) a x).toNat < S8x2048.size a := fun v125 v165 k0_hw186 => k0_hw186
def k0_off194 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v166 : Index := Scalar.indexCast arg20
  let c160 : Index := 160#32
  ![v166.toNat, 160]

def k0_chk187 (v125 : IVec S16 32) (v169 : IVec S16 32) : Prop :=
  (∀ a x, ((![v125, v169] : Fin 2 → IVec S16 32) a x).toNat < S8x2048.size a)
instance k0_chk187.dec : ∀ (v125 : IVec S16 32) (v169 : IVec S16 32), Decidable (k0_chk187 v125 v169) := fun v125 v169 => decidable_of_iff' _ (Iff.of_eq (k0_chk187.eq_1 v125 v169))
theorem k0_idx187_inb : ∀ (v125 : IVec S16 32) (v169 : IVec S16 32) (k0_hw187 : k0_chk187 v125 v169), ∀ a x, ((![v125, v169] : Fin 2 → IVec S16 32) a x).toNat < S8x2048.size a := fun v125 v169 k0_hw187 => k0_hw187
def k0_off195 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v170 : Index := Scalar.indexCast arg20
  let c176 : Index := 176#32
  ![v170.toNat, 176]

def k0_chk188 (v125 : IVec S16 32) (v173 : IVec S16 32) : Prop :=
  (∀ a x, ((![v125, v173] : Fin 2 → IVec S16 32) a x).toNat < S8x2048.size a)
instance k0_chk188.dec : ∀ (v125 : IVec S16 32) (v173 : IVec S16 32), Decidable (k0_chk188 v125 v173) := fun v125 v173 => decidable_of_iff' _ (Iff.of_eq (k0_chk188.eq_1 v125 v173))
theorem k0_idx188_inb : ∀ (v125 : IVec S16 32) (v173 : IVec S16 32) (k0_hw188 : k0_chk188 v125 v173), ∀ a x, ((![v125, v173] : Fin 2 → IVec S16 32) a x).toNat < S8x2048.size a := fun v125 v173 k0_hw188 => k0_hw188
def k0_off196 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v174 : Index := Scalar.indexCast arg20
  let c192 : Index := 192#32
  ![v174.toNat, 192]

def k0_chk189 (v125 : IVec S16 32) (v177 : IVec S16 32) : Prop :=
  (∀ a x, ((![v125, v177] : Fin 2 → IVec S16 32) a x).toNat < S8x2048.size a)
instance k0_chk189.dec : ∀ (v125 : IVec S16 32) (v177 : IVec S16 32), Decidable (k0_chk189 v125 v177) := fun v125 v177 => decidable_of_iff' _ (Iff.of_eq (k0_chk189.eq_1 v125 v177))
theorem k0_idx189_inb : ∀ (v125 : IVec S16 32) (v177 : IVec S16 32) (k0_hw189 : k0_chk189 v125 v177), ∀ a x, ((![v125, v177] : Fin 2 → IVec S16 32) a x).toNat < S8x2048.size a := fun v125 v177 k0_hw189 => k0_hw189
def k0_off197 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v178 : Index := Scalar.indexCast arg20
  let c208 : Index := 208#32
  ![v178.toNat, 208]

def k0_chk190 (v125 : IVec S16 32) (v181 : IVec S16 32) : Prop :=
  (∀ a x, ((![v125, v181] : Fin 2 → IVec S16 32) a x).toNat < S8x2048.size a)
instance k0_chk190.dec : ∀ (v125 : IVec S16 32) (v181 : IVec S16 32), Decidable (k0_chk190 v125 v181) := fun v125 v181 => decidable_of_iff' _ (Iff.of_eq (k0_chk190.eq_1 v125 v181))
theorem k0_idx190_inb : ∀ (v125 : IVec S16 32) (v181 : IVec S16 32) (k0_hw190 : k0_chk190 v125 v181), ∀ a x, ((![v125, v181] : Fin 2 → IVec S16 32) a x).toNat < S8x2048.size a := fun v125 v181 k0_hw190 => k0_hw190
def k0_off198 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v182 : Index := Scalar.indexCast arg20
  let c224 : Index := 224#32
  ![v182.toNat, 224]

def k0_chk191 (v125 : IVec S16 32) (v185 : IVec S16 32) : Prop :=
  (∀ a x, ((![v125, v185] : Fin 2 → IVec S16 32) a x).toNat < S8x2048.size a)
instance k0_chk191.dec : ∀ (v125 : IVec S16 32) (v185 : IVec S16 32), Decidable (k0_chk191 v125 v185) := fun v125 v185 => decidable_of_iff' _ (Iff.of_eq (k0_chk191.eq_1 v125 v185))
theorem k0_idx191_inb : ∀ (v125 : IVec S16 32) (v185 : IVec S16 32) (k0_hw191 : k0_chk191 v125 v185), ∀ a x, ((![v125, v185] : Fin 2 → IVec S16 32) a x).toNat < S8x2048.size a := fun v125 v185 k0_hw191 => k0_hw191
def k0_off199 (k0_t14 : Fin k0_t14_loop.trips) : Fin 2 → Nat :=
  let c0_i32_110 : BitVec 32 := 0#32
  let c1_i32_112 : BitVec 32 := 1#32
  let arg20 : BitVec 32 := Scf.iv c0_i32_110 c1_i32_112 k0_t14
  let v186 : Index := Scalar.indexCast arg20
  let c240 : Index := 240#32
  ![v186.toNat, 240]

def k0_chk192 (v125 : IVec S16 32) (v189 : IVec S16 32) : Prop :=
  (∀ a x, ((![v125, v189] : Fin 2 → IVec S16 32) a x).toNat < S8x2048.size a)
instance k0_chk192.dec : ∀ (v125 : IVec S16 32) (v189 : IVec S16 32), Decidable (k0_chk192 v125 v189) := fun v125 v189 => decidable_of_iff' _ (Iff.of_eq (k0_chk192.eq_1 v125 v189))
theorem k0_idx192_inb : ∀ (v125 : IVec S16 32) (v189 : IVec S16 32) (k0_hw192 : k0_chk192 v125 v189), ∀ a x, ((![v125, v189] : Fin 2 → IVec S16 32) a x).toNat < S8x2048.size a := fun v125 v189 k0_hw192 => k0_hw192
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096x256_S16384x256 : S4x4096x256.ShapeCasts S16384x256
  iota_S16_d0_w32_scVector : S16.Iotas .scVector 32 [0]
  h_S1x16 : 0 < S1x16.numel
  shapeCasts_S1x16_S16 : S1x16.ShapeCasts S16
  shapeCasts_S16_S1x16 : S16.ShapeCasts S1x16
  h_S8x2048 : 0 < S8x2048.numel
  shapeCasts_S16384x2048_S4x4096x2048 : S16384x2048.ShapeCasts S4x4096x2048
  hcc0_scratch8 : 0 + S_.numel ≤ 8
  hcc0_scratch9 : 1 + S_.numel ≤ 8
  hcc0_scratch10 : 2 + S_.numel ≤ 8
  hcc0_scratch11 : 3 + S_.numel ≤ 8
  hcc0_scratch12 : 4 + S_.numel ≤ 8
  hcc0_scratch13 : 5 + S_.numel ≤ 8
  hcc0_scratch14 : 6 + S_.numel ≤ 8
  hcc0_scratch15 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 12), ∀ a, (k0_off1 i (k0_off1_at r)) a + S8x256.size a ≤ S16384x256.size a
  k0_t1_ok : k0_t1_loop.OK
  k0_off2_inb : ∀ k0_t1 : Fin k0_t1_loop.trips, ∀ a, (k0_off2 k0_t1) a + S1x16.size a ≤ S8x2048.size a
  k0_t2_ok : k0_t2_loop.OK
  k0_off3_inb : ∀ k0_t2 : Fin k0_t2_loop.trips, ∀ a, (k0_off3 k0_t2) a + S1x16.size a ≤ S8x256.size a
  k0_off4_inb : ∀ k0_t2 : Fin k0_t2_loop.trips, ∀ a, (k0_off4 k0_t2) a + S1x16.size a ≤ S8x256.size a
  k0_off5_inb : ∀ k0_t2 : Fin k0_t2_loop.trips, ∀ a, (k0_off5 k0_t2) a + S1x16.size a ≤ S8x256.size a
  k0_off6_inb : ∀ k0_t2 : Fin k0_t2_loop.trips, ∀ a, (k0_off6 k0_t2) a + S1x16.size a ≤ S8x256.size a
  k0_off7_inb : ∀ k0_t2 : Fin k0_t2_loop.trips, ∀ a, (k0_off7 k0_t2) a + S1x16.size a ≤ S8x256.size a
  k0_off8_inb : ∀ k0_t2 : Fin k0_t2_loop.trips, ∀ a, (k0_off8 k0_t2) a + S1x16.size a ≤ S8x256.size a
  k0_off9_inb : ∀ k0_t2 : Fin k0_t2_loop.trips, ∀ a, (k0_off9 k0_t2) a + S1x16.size a ≤ S8x256.size a
  k0_off10_inb : ∀ k0_t2 : Fin k0_t2_loop.trips, ∀ a, (k0_off10 k0_t2) a + S1x16.size a ≤ S8x256.size a
  k0_off11_inb : ∀ k0_t2 : Fin k0_t2_loop.trips, ∀ a, (k0_off11 k0_t2) a + S1x16.size a ≤ S8x256.size a
  k0_off12_inb : ∀ k0_t2 : Fin k0_t2_loop.trips, ∀ a, (k0_off12 k0_t2) a + S1x16.size a ≤ S8x256.size a
  k0_off13_inb : ∀ k0_t2 : Fin k0_t2_loop.trips, ∀ a, (k0_off13 k0_t2) a + S1x16.size a ≤ S8x256.size a
  k0_off14_inb : ∀ k0_t2 : Fin k0_t2_loop.trips, ∀ a, (k0_off14 k0_t2) a + S1x16.size a ≤ S8x256.size a
  k0_off15_inb : ∀ k0_t2 : Fin k0_t2_loop.trips, ∀ a, (k0_off15 k0_t2) a + S1x16.size a ≤ S8x256.size a
  k0_off16_inb : ∀ k0_t2 : Fin k0_t2_loop.trips, ∀ a, (k0_off16 k0_t2) a + S1x16.size a ≤ S8x256.size a
  k0_off17_inb : ∀ k0_t2 : Fin k0_t2_loop.trips, ∀ a, (k0_off17 k0_t2) a + S1x16.size a ≤ S8x256.size a
  k0_off18_inb : ∀ k0_t2 : Fin k0_t2_loop.trips, ∀ a, (k0_off18 k0_t2) a + S1x16.size a ≤ S8x256.size a
  k0_off19_inb : ∀ i : grid0.Coords, ∀ (r : Fin 12), ∀ a, (k0_off19 i (k0_off19_at r)) a + S8x2048.size a ≤ S16384x2048.size a
  k0_t3_ok : k0_t3_loop.OK
  k0_off20_inb : ∀ k0_t3 : Fin k0_t3_loop.trips, ∀ a, (k0_off20 k0_t3) a + S1x16.size a ≤ S8x256.size a
  k0_off21_inb : ∀ k0_t3 : Fin k0_t3_loop.trips, ∀ a, (k0_off21 k0_t3) a + S1x16.size a ≤ S8x256.size a
  k0_off22_inb : ∀ k0_t3 : Fin k0_t3_loop.trips, ∀ a, (k0_off22 k0_t3) a + S1x16.size a ≤ S8x256.size a
  k0_off23_inb : ∀ k0_t3 : Fin k0_t3_loop.trips, ∀ a, (k0_off23 k0_t3) a + S1x16.size a ≤ S8x256.size a
  k0_off24_inb : ∀ k0_t3 : Fin k0_t3_loop.trips, ∀ a, (k0_off24 k0_t3) a + S1x16.size a ≤ S8x256.size a
  k0_off25_inb : ∀ k0_t3 : Fin k0_t3_loop.trips, ∀ a, (k0_off25 k0_t3) a + S1x16.size a ≤ S8x256.size a
  k0_off26_inb : ∀ k0_t3 : Fin k0_t3_loop.trips, ∀ a, (k0_off26 k0_t3) a + S1x16.size a ≤ S8x256.size a
  k0_off27_inb : ∀ k0_t3 : Fin k0_t3_loop.trips, ∀ a, (k0_off27 k0_t3) a + S1x16.size a ≤ S8x256.size a
  k0_off28_inb : ∀ k0_t3 : Fin k0_t3_loop.trips, ∀ a, (k0_off28 k0_t3) a + S1x16.size a ≤ S8x256.size a
  k0_off29_inb : ∀ k0_t3 : Fin k0_t3_loop.trips, ∀ a, (k0_off29 k0_t3) a + S1x16.size a ≤ S8x256.size a
  k0_off30_inb : ∀ k0_t3 : Fin k0_t3_loop.trips, ∀ a, (k0_off30 k0_t3) a + S1x16.size a ≤ S8x256.size a
  k0_off31_inb : ∀ k0_t3 : Fin k0_t3_loop.trips, ∀ a, (k0_off31 k0_t3) a + S1x16.size a ≤ S8x256.size a
  k0_off32_inb : ∀ k0_t3 : Fin k0_t3_loop.trips, ∀ a, (k0_off32 k0_t3) a + S1x16.size a ≤ S8x256.size a
  k0_off33_inb : ∀ k0_t3 : Fin k0_t3_loop.trips, ∀ a, (k0_off33 k0_t3) a + S1x16.size a ≤ S8x256.size a
  k0_off34_inb : ∀ k0_t3 : Fin k0_t3_loop.trips, ∀ a, (k0_off34 k0_t3) a + S1x16.size a ≤ S8x256.size a
  k0_off35_inb : ∀ k0_t3 : Fin k0_t3_loop.trips, ∀ a, (k0_off35 k0_t3) a + S1x16.size a ≤ S8x256.size a
  k0_t4_ok : k0_t4_loop.OK
  k0_off36_inb : ∀ k0_t4 : Fin k0_t4_loop.trips, ∀ a, (k0_off36 k0_t4) a + S1x16.size a ≤ S8x256.size a
  k0_off37_inb : ∀ k0_t4 : Fin k0_t4_loop.trips, ∀ a, (k0_off37 k0_t4) a + S1x16.size a ≤ S8x256.size a
  k0_off38_inb : ∀ k0_t4 : Fin k0_t4_loop.trips, ∀ a, (k0_off38 k0_t4) a + S1x16.size a ≤ S8x256.size a
  k0_off39_inb : ∀ k0_t4 : Fin k0_t4_loop.trips, ∀ a, (k0_off39 k0_t4) a + S1x16.size a ≤ S8x256.size a
  k0_off40_inb : ∀ k0_t4 : Fin k0_t4_loop.trips, ∀ a, (k0_off40 k0_t4) a + S1x16.size a ≤ S8x256.size a
  k0_off41_inb : ∀ k0_t4 : Fin k0_t4_loop.trips, ∀ a, (k0_off41 k0_t4) a + S1x16.size a ≤ S8x256.size a
  k0_off42_inb : ∀ k0_t4 : Fin k0_t4_loop.trips, ∀ a, (k0_off42 k0_t4) a + S1x16.size a ≤ S8x256.size a
  k0_off43_inb : ∀ k0_t4 : Fin k0_t4_loop.trips, ∀ a, (k0_off43 k0_t4) a + S1x16.size a ≤ S8x256.size a
  k0_off44_inb : ∀ k0_t4 : Fin k0_t4_loop.trips, ∀ a, (k0_off44 k0_t4) a + S1x16.size a ≤ S8x256.size a
  k0_off45_inb : ∀ k0_t4 : Fin k0_t4_loop.trips, ∀ a, (k0_off45 k0_t4) a + S1x16.size a ≤ S8x256.size a
  k0_off46_inb : ∀ k0_t4 : Fin k0_t4_loop.trips, ∀ a, (k0_off46 k0_t4) a + S1x16.size a ≤ S8x256.size a
  k0_off47_inb : ∀ k0_t4 : Fin k0_t4_loop.trips, ∀ a, (k0_off47 k0_t4) a + S1x16.size a ≤ S8x256.size a
  k0_off48_inb : ∀ k0_t4 : Fin k0_t4_loop.trips, ∀ a, (k0_off48 k0_t4) a + S1x16.size a ≤ S8x256.size a
  k0_off49_inb : ∀ k0_t4 : Fin k0_t4_loop.trips, ∀ a, (k0_off49 k0_t4) a + S1x16.size a ≤ S8x256.size a
  k0_off50_inb : ∀ k0_t4 : Fin k0_t4_loop.trips, ∀ a, (k0_off50 k0_t4) a + S1x16.size a ≤ S8x256.size a
  k0_off51_inb : ∀ k0_t4 : Fin k0_t4_loop.trips, ∀ a, (k0_off51 k0_t4) a + S1x16.size a ≤ S8x256.size a
  k0_t5_ok : k0_t5_loop.OK
  k0_off52_inb : ∀ k0_t5 : Fin k0_t5_loop.trips, ∀ a, (k0_off52 k0_t5) a + S1x16.size a ≤ S8x256.size a
  k0_off53_inb : ∀ k0_t5 : Fin k0_t5_loop.trips, ∀ a, (k0_off53 k0_t5) a + S1x16.size a ≤ S8x256.size a
  k0_off54_inb : ∀ k0_t5 : Fin k0_t5_loop.trips, ∀ a, (k0_off54 k0_t5) a + S1x16.size a ≤ S8x256.size a
  k0_off55_inb : ∀ k0_t5 : Fin k0_t5_loop.trips, ∀ a, (k0_off55 k0_t5) a + S1x16.size a ≤ S8x256.size a
  k0_off56_inb : ∀ k0_t5 : Fin k0_t5_loop.trips, ∀ a, (k0_off56 k0_t5) a + S1x16.size a ≤ S8x256.size a
  k0_off57_inb : ∀ k0_t5 : Fin k0_t5_loop.trips, ∀ a, (k0_off57 k0_t5) a + S1x16.size a ≤ S8x256.size a
  k0_off58_inb : ∀ k0_t5 : Fin k0_t5_loop.trips, ∀ a, (k0_off58 k0_t5) a + S1x16.size a ≤ S8x256.size a
  k0_off59_inb : ∀ k0_t5 : Fin k0_t5_loop.trips, ∀ a, (k0_off59 k0_t5) a + S1x16.size a ≤ S8x256.size a
  k0_off60_inb : ∀ k0_t5 : Fin k0_t5_loop.trips, ∀ a, (k0_off60 k0_t5) a + S1x16.size a ≤ S8x256.size a
  k0_off61_inb : ∀ k0_t5 : Fin k0_t5_loop.trips, ∀ a, (k0_off61 k0_t5) a + S1x16.size a ≤ S8x256.size a
  k0_off62_inb : ∀ k0_t5 : Fin k0_t5_loop.trips, ∀ a, (k0_off62 k0_t5) a + S1x16.size a ≤ S8x256.size a
  k0_off63_inb : ∀ k0_t5 : Fin k0_t5_loop.trips, ∀ a, (k0_off63 k0_t5) a + S1x16.size a ≤ S8x256.size a
  k0_off64_inb : ∀ k0_t5 : Fin k0_t5_loop.trips, ∀ a, (k0_off64 k0_t5) a + S1x16.size a ≤ S8x256.size a
  k0_off65_inb : ∀ k0_t5 : Fin k0_t5_loop.trips, ∀ a, (k0_off65 k0_t5) a + S1x16.size a ≤ S8x256.size a
  k0_off66_inb : ∀ k0_t5 : Fin k0_t5_loop.trips, ∀ a, (k0_off66 k0_t5) a + S1x16.size a ≤ S8x256.size a
  k0_off67_inb : ∀ k0_t5 : Fin k0_t5_loop.trips, ∀ a, (k0_off67 k0_t5) a + S1x16.size a ≤ S8x256.size a
  k0_t6_ok : k0_t6_loop.OK
  k0_off68_inb : ∀ (i : grid0.Coords) (k0_t6 : Fin k0_t6_loop.trips), ∀ (r : Fin 4), ∀ a, (k0_off68 i k0_t6 (BitVec.ofNat 32 r.val)) a + S8x256.size a ≤ S16384x256.size a
  k0_off69_inb : ∀ (i : grid0.Coords) (k0_t6 : Fin k0_t6_loop.trips), ∀ (r : Fin 4), ∀ a, (k0_off69 i k0_t6 (BitVec.ofNat 32 r.val)) a + S8x2048.size a ≤ S16384x2048.size a
  k0_t7_ok : k0_t7_loop.OK
  k0_off70_inb : ∀ k0_t7 : Fin k0_t7_loop.trips, ∀ a, (k0_off70 k0_t7) a + S1x16.size a ≤ S8x256.size a
  k0_off71_inb : ∀ k0_t7 : Fin k0_t7_loop.trips, ∀ a, (k0_off71 k0_t7) a + S1x16.size a ≤ S8x256.size a
  k0_off72_inb : ∀ k0_t7 : Fin k0_t7_loop.trips, ∀ a, (k0_off72 k0_t7) a + S1x16.size a ≤ S8x256.size a
  k0_off73_inb : ∀ k0_t7 : Fin k0_t7_loop.trips, ∀ a, (k0_off73 k0_t7) a + S1x16.size a ≤ S8x256.size a
  k0_off74_inb : ∀ k0_t7 : Fin k0_t7_loop.trips, ∀ a, (k0_off74 k0_t7) a + S1x16.size a ≤ S8x256.size a
  k0_off75_inb : ∀ k0_t7 : Fin k0_t7_loop.trips, ∀ a, (k0_off75 k0_t7) a + S1x16.size a ≤ S8x256.size a
  k0_off76_inb : ∀ k0_t7 : Fin k0_t7_loop.trips, ∀ a, (k0_off76 k0_t7) a + S1x16.size a ≤ S8x256.size a
  k0_off77_inb : ∀ k0_t7 : Fin k0_t7_loop.trips, ∀ a, (k0_off77 k0_t7) a + S1x16.size a ≤ S8x256.size a
  k0_off78_inb : ∀ k0_t7 : Fin k0_t7_loop.trips, ∀ a, (k0_off78 k0_t7) a + S1x16.size a ≤ S8x256.size a
  k0_off79_inb : ∀ k0_t7 : Fin k0_t7_loop.trips, ∀ a, (k0_off79 k0_t7) a + S1x16.size a ≤ S8x256.size a
  k0_off80_inb : ∀ k0_t7 : Fin k0_t7_loop.trips, ∀ a, (k0_off80 k0_t7) a + S1x16.size a ≤ S8x256.size a
  k0_off81_inb : ∀ k0_t7 : Fin k0_t7_loop.trips, ∀ a, (k0_off81 k0_t7) a + S1x16.size a ≤ S8x256.size a
  k0_off82_inb : ∀ k0_t7 : Fin k0_t7_loop.trips, ∀ a, (k0_off82 k0_t7) a + S1x16.size a ≤ S8x256.size a
  k0_off83_inb : ∀ k0_t7 : Fin k0_t7_loop.trips, ∀ a, (k0_off83 k0_t7) a + S1x16.size a ≤ S8x256.size a
  k0_off84_inb : ∀ k0_t7 : Fin k0_t7_loop.trips, ∀ a, (k0_off84 k0_t7) a + S1x16.size a ≤ S8x256.size a
  k0_off85_inb : ∀ k0_t7 : Fin k0_t7_loop.trips, ∀ a, (k0_off85 k0_t7) a + S1x16.size a ≤ S8x256.size a
  k0_off86_inb : ∀ (i : grid0.Coords) (k0_t6 : Fin k0_t6_loop.trips), ∀ (r : Fin 4), ∀ a, (k0_off86 i k0_t6 (BitVec.ofNat 32 r.val)) a + S8x2048.size a ≤ S16384x2048.size a
  k0_off87_inb : ∀ (i : grid0.Coords) (k0_t6 : Fin k0_t6_loop.trips), ∀ (r : Fin 4), ∀ a, (k0_off87 i k0_t6 (BitVec.ofNat 32 r.val)) a + S8x256.size a ≤ S16384x256.size a
  k0_t8_ok : k0_t8_loop.OK
  k0_off88_inb : ∀ k0_t8 : Fin k0_t8_loop.trips, ∀ a, (k0_off88 k0_t8) a + S1x16.size a ≤ S8x256.size a
  k0_off89_inb : ∀ k0_t8 : Fin k0_t8_loop.trips, ∀ a, (k0_off89 k0_t8) a + S1x16.size a ≤ S8x256.size a
  k0_off90_inb : ∀ k0_t8 : Fin k0_t8_loop.trips, ∀ a, (k0_off90 k0_t8) a + S1x16.size a ≤ S8x256.size a
  k0_off91_inb : ∀ k0_t8 : Fin k0_t8_loop.trips, ∀ a, (k0_off91 k0_t8) a + S1x16.size a ≤ S8x256.size a
  k0_off92_inb : ∀ k0_t8 : Fin k0_t8_loop.trips, ∀ a, (k0_off92 k0_t8) a + S1x16.size a ≤ S8x256.size a
  k0_off93_inb : ∀ k0_t8 : Fin k0_t8_loop.trips, ∀ a, (k0_off93 k0_t8) a + S1x16.size a ≤ S8x256.size a
  k0_off94_inb : ∀ k0_t8 : Fin k0_t8_loop.trips, ∀ a, (k0_off94 k0_t8) a + S1x16.size a ≤ S8x256.size a
  k0_off95_inb : ∀ k0_t8 : Fin k0_t8_loop.trips, ∀ a, (k0_off95 k0_t8) a + S1x16.size a ≤ S8x256.size a
  k0_off96_inb : ∀ k0_t8 : Fin k0_t8_loop.trips, ∀ a, (k0_off96 k0_t8) a + S1x16.size a ≤ S8x256.size a
  k0_off97_inb : ∀ k0_t8 : Fin k0_t8_loop.trips, ∀ a, (k0_off97 k0_t8) a + S1x16.size a ≤ S8x256.size a
  k0_off98_inb : ∀ k0_t8 : Fin k0_t8_loop.trips, ∀ a, (k0_off98 k0_t8) a + S1x16.size a ≤ S8x256.size a
  k0_off99_inb : ∀ k0_t8 : Fin k0_t8_loop.trips, ∀ a, (k0_off99 k0_t8) a + S1x16.size a ≤ S8x256.size a
  k0_off100_inb : ∀ k0_t8 : Fin k0_t8_loop.trips, ∀ a, (k0_off100 k0_t8) a + S1x16.size a ≤ S8x256.size a
  k0_off101_inb : ∀ k0_t8 : Fin k0_t8_loop.trips, ∀ a, (k0_off101 k0_t8) a + S1x16.size a ≤ S8x256.size a
  k0_off102_inb : ∀ k0_t8 : Fin k0_t8_loop.trips, ∀ a, (k0_off102 k0_t8) a + S1x16.size a ≤ S8x256.size a
  k0_off103_inb : ∀ k0_t8 : Fin k0_t8_loop.trips, ∀ a, (k0_off103 k0_t8) a + S1x16.size a ≤ S8x256.size a
  k0_t9_ok : k0_t9_loop.OK
  k0_off104_inb : ∀ k0_t9 : Fin k0_t9_loop.trips, ∀ a, (k0_off104 k0_t9) a + S1x16.size a ≤ S8x256.size a
  k0_off105_inb : ∀ k0_t9 : Fin k0_t9_loop.trips, ∀ a, (k0_off105 k0_t9) a + S1x16.size a ≤ S8x256.size a
  k0_off106_inb : ∀ k0_t9 : Fin k0_t9_loop.trips, ∀ a, (k0_off106 k0_t9) a + S1x16.size a ≤ S8x256.size a
  k0_off107_inb : ∀ k0_t9 : Fin k0_t9_loop.trips, ∀ a, (k0_off107 k0_t9) a + S1x16.size a ≤ S8x256.size a
  k0_off108_inb : ∀ k0_t9 : Fin k0_t9_loop.trips, ∀ a, (k0_off108 k0_t9) a + S1x16.size a ≤ S8x256.size a
  k0_off109_inb : ∀ k0_t9 : Fin k0_t9_loop.trips, ∀ a, (k0_off109 k0_t9) a + S1x16.size a ≤ S8x256.size a
  k0_off110_inb : ∀ k0_t9 : Fin k0_t9_loop.trips, ∀ a, (k0_off110 k0_t9) a + S1x16.size a ≤ S8x256.size a
  k0_off111_inb : ∀ k0_t9 : Fin k0_t9_loop.trips, ∀ a, (k0_off111 k0_t9) a + S1x16.size a ≤ S8x256.size a
  k0_off112_inb : ∀ k0_t9 : Fin k0_t9_loop.trips, ∀ a, (k0_off112 k0_t9) a + S1x16.size a ≤ S8x256.size a
  k0_off113_inb : ∀ k0_t9 : Fin k0_t9_loop.trips, ∀ a, (k0_off113 k0_t9) a + S1x16.size a ≤ S8x256.size a
  k0_off114_inb : ∀ k0_t9 : Fin k0_t9_loop.trips, ∀ a, (k0_off114 k0_t9) a + S1x16.size a ≤ S8x256.size a
  k0_off115_inb : ∀ k0_t9 : Fin k0_t9_loop.trips, ∀ a, (k0_off115 k0_t9) a + S1x16.size a ≤ S8x256.size a
  k0_off116_inb : ∀ k0_t9 : Fin k0_t9_loop.trips, ∀ a, (k0_off116 k0_t9) a + S1x16.size a ≤ S8x256.size a
  k0_off117_inb : ∀ k0_t9 : Fin k0_t9_loop.trips, ∀ a, (k0_off117 k0_t9) a + S1x16.size a ≤ S8x256.size a
  k0_off118_inb : ∀ k0_t9 : Fin k0_t9_loop.trips, ∀ a, (k0_off118 k0_t9) a + S1x16.size a ≤ S8x256.size a
  k0_off119_inb : ∀ k0_t9 : Fin k0_t9_loop.trips, ∀ a, (k0_off119 k0_t9) a + S1x16.size a ≤ S8x256.size a
  k0_t10_ok : k0_t10_loop.OK
  k0_off120_inb : ∀ k0_t10 : Fin k0_t10_loop.trips, ∀ a, (k0_off120 k0_t10) a + S1x16.size a ≤ S8x256.size a
  k0_off121_inb : ∀ k0_t10 : Fin k0_t10_loop.trips, ∀ a, (k0_off121 k0_t10) a + S1x16.size a ≤ S8x256.size a
  k0_off122_inb : ∀ k0_t10 : Fin k0_t10_loop.trips, ∀ a, (k0_off122 k0_t10) a + S1x16.size a ≤ S8x256.size a
  k0_off123_inb : ∀ k0_t10 : Fin k0_t10_loop.trips, ∀ a, (k0_off123 k0_t10) a + S1x16.size a ≤ S8x256.size a
  k0_off124_inb : ∀ k0_t10 : Fin k0_t10_loop.trips, ∀ a, (k0_off124 k0_t10) a + S1x16.size a ≤ S8x256.size a
  k0_off125_inb : ∀ k0_t10 : Fin k0_t10_loop.trips, ∀ a, (k0_off125 k0_t10) a + S1x16.size a ≤ S8x256.size a
  k0_off126_inb : ∀ k0_t10 : Fin k0_t10_loop.trips, ∀ a, (k0_off126 k0_t10) a + S1x16.size a ≤ S8x256.size a
  k0_off127_inb : ∀ k0_t10 : Fin k0_t10_loop.trips, ∀ a, (k0_off127 k0_t10) a + S1x16.size a ≤ S8x256.size a
  k0_off128_inb : ∀ k0_t10 : Fin k0_t10_loop.trips, ∀ a, (k0_off128 k0_t10) a + S1x16.size a ≤ S8x256.size a
  k0_off129_inb : ∀ k0_t10 : Fin k0_t10_loop.trips, ∀ a, (k0_off129 k0_t10) a + S1x16.size a ≤ S8x256.size a
  k0_off130_inb : ∀ k0_t10 : Fin k0_t10_loop.trips, ∀ a, (k0_off130 k0_t10) a + S1x16.size a ≤ S8x256.size a
  k0_off131_inb : ∀ k0_t10 : Fin k0_t10_loop.trips, ∀ a, (k0_off131 k0_t10) a + S1x16.size a ≤ S8x256.size a
  k0_off132_inb : ∀ k0_t10 : Fin k0_t10_loop.trips, ∀ a, (k0_off132 k0_t10) a + S1x16.size a ≤ S8x256.size a
  k0_off133_inb : ∀ k0_t10 : Fin k0_t10_loop.trips, ∀ a, (k0_off133 k0_t10) a + S1x16.size a ≤ S8x256.size a
  k0_off134_inb : ∀ k0_t10 : Fin k0_t10_loop.trips, ∀ a, (k0_off134 k0_t10) a + S1x16.size a ≤ S8x256.size a
  k0_off135_inb : ∀ k0_t10 : Fin k0_t10_loop.trips, ∀ a, (k0_off135 k0_t10) a + S1x16.size a ≤ S8x256.size a
  k0_t11_ok : k0_t11_loop.OK
  k0_off136_inb : ∀ k0_t11 : Fin k0_t11_loop.trips, ∀ a, (k0_off136 k0_t11) a + S1x16.size a ≤ S8x256.size a
  k0_off137_inb : ∀ k0_t11 : Fin k0_t11_loop.trips, ∀ a, (k0_off137 k0_t11) a + S1x16.size a ≤ S8x256.size a
  k0_off138_inb : ∀ k0_t11 : Fin k0_t11_loop.trips, ∀ a, (k0_off138 k0_t11) a + S1x16.size a ≤ S8x256.size a
  k0_off139_inb : ∀ k0_t11 : Fin k0_t11_loop.trips, ∀ a, (k0_off139 k0_t11) a + S1x16.size a ≤ S8x256.size a
  k0_off140_inb : ∀ k0_t11 : Fin k0_t11_loop.trips, ∀ a, (k0_off140 k0_t11) a + S1x16.size a ≤ S8x256.size a
  k0_off141_inb : ∀ k0_t11 : Fin k0_t11_loop.trips, ∀ a, (k0_off141 k0_t11) a + S1x16.size a ≤ S8x256.size a
  k0_off142_inb : ∀ k0_t11 : Fin k0_t11_loop.trips, ∀ a, (k0_off142 k0_t11) a + S1x16.size a ≤ S8x256.size a
  k0_off143_inb : ∀ k0_t11 : Fin k0_t11_loop.trips, ∀ a, (k0_off143 k0_t11) a + S1x16.size a ≤ S8x256.size a
  k0_off144_inb : ∀ k0_t11 : Fin k0_t11_loop.trips, ∀ a, (k0_off144 k0_t11) a + S1x16.size a ≤ S8x256.size a
  k0_off145_inb : ∀ k0_t11 : Fin k0_t11_loop.trips, ∀ a, (k0_off145 k0_t11) a + S1x16.size a ≤ S8x256.size a
  k0_off146_inb : ∀ k0_t11 : Fin k0_t11_loop.trips, ∀ a, (k0_off146 k0_t11) a + S1x16.size a ≤ S8x256.size a
  k0_off147_inb : ∀ k0_t11 : Fin k0_t11_loop.trips, ∀ a, (k0_off147 k0_t11) a + S1x16.size a ≤ S8x256.size a
  k0_off148_inb : ∀ k0_t11 : Fin k0_t11_loop.trips, ∀ a, (k0_off148 k0_t11) a + S1x16.size a ≤ S8x256.size a
  k0_off149_inb : ∀ k0_t11 : Fin k0_t11_loop.trips, ∀ a, (k0_off149 k0_t11) a + S1x16.size a ≤ S8x256.size a
  k0_off150_inb : ∀ k0_t11 : Fin k0_t11_loop.trips, ∀ a, (k0_off150 k0_t11) a + S1x16.size a ≤ S8x256.size a
  k0_off151_inb : ∀ k0_t11 : Fin k0_t11_loop.trips, ∀ a, (k0_off151 k0_t11) a + S1x16.size a ≤ S8x256.size a
  k0_t12_ok : k0_t12_loop.OK
  k0_off152_inb : ∀ k0_t12 : Fin k0_t12_loop.trips, ∀ a, (k0_off152 k0_t12) a + S1x16.size a ≤ S8x256.size a
  k0_off153_inb : ∀ k0_t12 : Fin k0_t12_loop.trips, ∀ a, (k0_off153 k0_t12) a + S1x16.size a ≤ S8x256.size a
  k0_off154_inb : ∀ k0_t12 : Fin k0_t12_loop.trips, ∀ a, (k0_off154 k0_t12) a + S1x16.size a ≤ S8x256.size a
  k0_off155_inb : ∀ k0_t12 : Fin k0_t12_loop.trips, ∀ a, (k0_off155 k0_t12) a + S1x16.size a ≤ S8x256.size a
  k0_off156_inb : ∀ k0_t12 : Fin k0_t12_loop.trips, ∀ a, (k0_off156 k0_t12) a + S1x16.size a ≤ S8x256.size a
  k0_off157_inb : ∀ k0_t12 : Fin k0_t12_loop.trips, ∀ a, (k0_off157 k0_t12) a + S1x16.size a ≤ S8x256.size a
  k0_off158_inb : ∀ k0_t12 : Fin k0_t12_loop.trips, ∀ a, (k0_off158 k0_t12) a + S1x16.size a ≤ S8x256.size a
  k0_off159_inb : ∀ k0_t12 : Fin k0_t12_loop.trips, ∀ a, (k0_off159 k0_t12) a + S1x16.size a ≤ S8x256.size a
  k0_off160_inb : ∀ k0_t12 : Fin k0_t12_loop.trips, ∀ a, (k0_off160 k0_t12) a + S1x16.size a ≤ S8x256.size a
  k0_off161_inb : ∀ k0_t12 : Fin k0_t12_loop.trips, ∀ a, (k0_off161 k0_t12) a + S1x16.size a ≤ S8x256.size a
  k0_off162_inb : ∀ k0_t12 : Fin k0_t12_loop.trips, ∀ a, (k0_off162 k0_t12) a + S1x16.size a ≤ S8x256.size a
  k0_off163_inb : ∀ k0_t12 : Fin k0_t12_loop.trips, ∀ a, (k0_off163 k0_t12) a + S1x16.size a ≤ S8x256.size a
  k0_off164_inb : ∀ k0_t12 : Fin k0_t12_loop.trips, ∀ a, (k0_off164 k0_t12) a + S1x16.size a ≤ S8x256.size a
  k0_off165_inb : ∀ k0_t12 : Fin k0_t12_loop.trips, ∀ a, (k0_off165 k0_t12) a + S1x16.size a ≤ S8x256.size a
  k0_off166_inb : ∀ k0_t12 : Fin k0_t12_loop.trips, ∀ a, (k0_off166 k0_t12) a + S1x16.size a ≤ S8x256.size a
  k0_off167_inb : ∀ k0_t12 : Fin k0_t12_loop.trips, ∀ a, (k0_off167 k0_t12) a + S1x16.size a ≤ S8x256.size a
  k0_t13_ok : k0_t13_loop.OK
  k0_off168_inb : ∀ k0_t13 : Fin k0_t13_loop.trips, ∀ a, (k0_off168 k0_t13) a + S1x16.size a ≤ S8x256.size a
  k0_off169_inb : ∀ k0_t13 : Fin k0_t13_loop.trips, ∀ a, (k0_off169 k0_t13) a + S1x16.size a ≤ S8x256.size a
  k0_off170_inb : ∀ k0_t13 : Fin k0_t13_loop.trips, ∀ a, (k0_off170 k0_t13) a + S1x16.size a ≤ S8x256.size a
  k0_off171_inb : ∀ k0_t13 : Fin k0_t13_loop.trips, ∀ a, (k0_off171 k0_t13) a + S1x16.size a ≤ S8x256.size a
  k0_off172_inb : ∀ k0_t13 : Fin k0_t13_loop.trips, ∀ a, (k0_off172 k0_t13) a + S1x16.size a ≤ S8x256.size a
  k0_off173_inb : ∀ k0_t13 : Fin k0_t13_loop.trips, ∀ a, (k0_off173 k0_t13) a + S1x16.size a ≤ S8x256.size a
  k0_off174_inb : ∀ k0_t13 : Fin k0_t13_loop.trips, ∀ a, (k0_off174 k0_t13) a + S1x16.size a ≤ S8x256.size a
  k0_off175_inb : ∀ k0_t13 : Fin k0_t13_loop.trips, ∀ a, (k0_off175 k0_t13) a + S1x16.size a ≤ S8x256.size a
  k0_off176_inb : ∀ k0_t13 : Fin k0_t13_loop.trips, ∀ a, (k0_off176 k0_t13) a + S1x16.size a ≤ S8x256.size a
  k0_off177_inb : ∀ k0_t13 : Fin k0_t13_loop.trips, ∀ a, (k0_off177 k0_t13) a + S1x16.size a ≤ S8x256.size a
  k0_off178_inb : ∀ k0_t13 : Fin k0_t13_loop.trips, ∀ a, (k0_off178 k0_t13) a + S1x16.size a ≤ S8x256.size a
  k0_off179_inb : ∀ k0_t13 : Fin k0_t13_loop.trips, ∀ a, (k0_off179 k0_t13) a + S1x16.size a ≤ S8x256.size a
  k0_off180_inb : ∀ k0_t13 : Fin k0_t13_loop.trips, ∀ a, (k0_off180 k0_t13) a + S1x16.size a ≤ S8x256.size a
  k0_off181_inb : ∀ k0_t13 : Fin k0_t13_loop.trips, ∀ a, (k0_off181 k0_t13) a + S1x16.size a ≤ S8x256.size a
  k0_off182_inb : ∀ k0_t13 : Fin k0_t13_loop.trips, ∀ a, (k0_off182 k0_t13) a + S1x16.size a ≤ S8x256.size a
  k0_off183_inb : ∀ k0_t13 : Fin k0_t13_loop.trips, ∀ a, (k0_off183 k0_t13) a + S1x16.size a ≤ S8x256.size a
  k0_t14_ok : k0_t14_loop.OK
  k0_off184_inb : ∀ k0_t14 : Fin k0_t14_loop.trips, ∀ a, (k0_off184 k0_t14) a + S1x16.size a ≤ S8x256.size a
  k0_off185_inb : ∀ k0_t14 : Fin k0_t14_loop.trips, ∀ a, (k0_off185 k0_t14) a + S1x16.size a ≤ S8x256.size a
  k0_off186_inb : ∀ k0_t14 : Fin k0_t14_loop.trips, ∀ a, (k0_off186 k0_t14) a + S1x16.size a ≤ S8x256.size a
  k0_off187_inb : ∀ k0_t14 : Fin k0_t14_loop.trips, ∀ a, (k0_off187 k0_t14) a + S1x16.size a ≤ S8x256.size a
  k0_off188_inb : ∀ k0_t14 : Fin k0_t14_loop.trips, ∀ a, (k0_off188 k0_t14) a + S1x16.size a ≤ S8x256.size a
  k0_off189_inb : ∀ k0_t14 : Fin k0_t14_loop.trips, ∀ a, (k0_off189 k0_t14) a + S1x16.size a ≤ S8x256.size a
  k0_off190_inb : ∀ k0_t14 : Fin k0_t14_loop.trips, ∀ a, (k0_off190 k0_t14) a + S1x16.size a ≤ S8x256.size a
  k0_off191_inb : ∀ k0_t14 : Fin k0_t14_loop.trips, ∀ a, (k0_off191 k0_t14) a + S1x16.size a ≤ S8x256.size a
  k0_off192_inb : ∀ k0_t14 : Fin k0_t14_loop.trips, ∀ a, (k0_off192 k0_t14) a + S1x16.size a ≤ S8x256.size a
  k0_off193_inb : ∀ k0_t14 : Fin k0_t14_loop.trips, ∀ a, (k0_off193 k0_t14) a + S1x16.size a ≤ S8x256.size a
  k0_off194_inb : ∀ k0_t14 : Fin k0_t14_loop.trips, ∀ a, (k0_off194 k0_t14) a + S1x16.size a ≤ S8x256.size a
  k0_off195_inb : ∀ k0_t14 : Fin k0_t14_loop.trips, ∀ a, (k0_off195 k0_t14) a + S1x16.size a ≤ S8x256.size a
  k0_off196_inb : ∀ k0_t14 : Fin k0_t14_loop.trips, ∀ a, (k0_off196 k0_t14) a + S1x16.size a ≤ S8x256.size a
  k0_off197_inb : ∀ k0_t14 : Fin k0_t14_loop.trips, ∀ a, (k0_off197 k0_t14) a + S1x16.size a ≤ S8x256.size a
  k0_off198_inb : ∀ k0_t14 : Fin k0_t14_loop.trips, ∀ a, (k0_off198 k0_t14) a + S1x16.size a ≤ S8x256.size a
  k0_off199_inb : ∀ k0_t14 : Fin k0_t14_loop.trips, ∀ a, (k0_off199 k0_t14) a + S1x16.size a ≤ S8x256.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15

class Facts : Prop extends Facts₀ where

variable [Facts]
-- ==== ReferenceIdeal.lean ====
abbrev S4x4096x256 : Shape := ⟨3, ![4, 4096, 256]⟩
abbrev S4x4096x2048 : Shape := ⟨3, ![4, 4096, 2048]⟩
abbrev S256 : Shape := ⟨1, ![256]⟩
abbrev S_ : Shape := ⟨0, ![]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x2048, .f32⟩
  | .hbm, ⟨2, _⟩ => ⟨S256, .i32⟩
  | .hbm, ⟨3, _⟩ => ⟨S_, .f32⟩
  | .hbm, ⟨4, _⟩ => ⟨S4x4096x2048, .f32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S4x4096x2048, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4x4096x2048 : S_.BroadcastsInDim S4x4096x2048 (![] : Fin 0 → Fin S4x4096x2048.rank)
  bcast_S_S256 : S_.BroadcastsInDim S256 (![] : Fin 0 → Fin S256.rank)
  bcast_S256_S256x1_0 : S256.BroadcastsInDim S256x1 (![0] : Fin 1 → Fin S256x1.rank)
  scatter_S4x4096x2048_S256x1_S4x4096x256_01_2_2_1_wf : ScatterDims.WF S4x4096x2048 S256x1 S4x4096x256 [0, 1] [2] [2] 1

variable [Facts₀]

def scatter_S4x4096x2048_S256x1_S4x4096x256_01_2_2_1 : ScatterDims S4x4096x2048 S256x1 S4x4096x256 where
  updateWindowDims := [0, 1]
  insertedWindowDims := [2]
  scatterDimsToOperandDims := [2]
  indexVectorDim := 1
  wf := scatter_S4x4096x2048_S256x1_S4x4096x256_01_2_2_1_wf

class Facts : Prop extends Facts₀ where

variable [Facts]
-- ==== Proof.Spec.lean ====
/-
  What both programs compute, as one function of the argument array.

  The input `x` has 4·4096 rows of 256 columns; the result has the same rows with 2048 columns.
  Column `h` of a result row is column `h / 8` of the same input row when `8 ∣ h`, and a fixed fill
  value `z` otherwise: the 256 input columns are spread to every eighth column of the result, and
  everything in between is the fill. The same function is stated over the rows flattened to one
  axis of 16384, and the two statements are related by the row-major flattening `(b, s) ↦ 4096·b + s`.
-/
import Idealize.ShloMosaic.PureOps
import Idealize.ShloMosaic.Lib.ValueIdx
import Idealize.ShloMosaic.Lib.Pipeline.Value

namespace Cert.Spec

open Idealize.ShloMosaic Idealize.ShloMosaic.ValueIdx

abbrev SX3 : Shape := ⟨3, ![4, 4096, 256]⟩
abbrev SO3 : Shape := ⟨3, ![4, 4096, 2048]⟩
abbrev SX2 : Shape := ⟨2, ![16384, 256]⟩
abbrev SO2 : Shape := ⟨2, ![16384, 2048]⟩

/-- The input column a result column `h` reads when `8 ∣ h`. -/
def col (h : Fin 2048) : Fin 256 := ⟨h.val / 8, by have := h.isLt; omega⟩

/-- Rows indexed by (batch, position): column `h` is input column `h / 8` when `8 ∣ h`, else the fill. -/
def up3 {α : Type} (z : α) (x : SX3.Idx → α) : SO3.Idx → α := fun i =>
  if (i 2).val % 8 = 0 then x (ix3 (i 0) (i 1) (col (i 2))) else z

/-- The same over rows flattened to one axis. -/
def up2 {α : Type} (z : α) (x : SX2.Idx → α) : SO2.Idx → α := fun i =>
  if (i 1).val % 8 = 0 then x (ix2 (i 0) (col (i 1))) else z

end Cert.Spec
-- ==== Proof.KIDefs.lean ====
/-
  The setting of the kernel's run, shared by the modules that prove it.

  The kernel's @main flattens the rows of `x` to one axis (16384 rows of 256 columns), starts one
  task on each of the 32 vector subcores (2 cores × 16 subcores), and unflattens the 16384 × 2048
  result. Task `(c, s)` has number `w = 2·s + c` and owns the 512 rows `[512·w, 512·w + 512)` of both
  arrays, which it moves in 64 chunks of 8 rows: chunk `k` is the rows `[512·w + 8·k, 512·w + 8·k + 8)`.
  A task is handed, per chunk, that chunk of the flattened input at its launch contents and that
  chunk of the result at anything; it hands back the input chunk unchanged and the result chunk at
  the spread of the input (`Cert.Spec.up2`). The chunks of all tasks tile both arrays.
-/
import proofs.«217887_g14147622273102_retrytranche1_597_18_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217887_g14147622273102_retrytranche1_597_18_alg».proof.Proof.Gen.KernelIdeal
import proofs.«217887_g14147622273102_retrytranche1_597_18_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The two arguments, the flattened input, the flat result and the result, as locations of device `d`. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-- The fill value: the kernel's zero constant, as a word read at the instance. -/
abbrev zF : Elt F .f32 := Scalar.ofBits (F := F) .f32 0x00000000#32

/-- The flattened input as @main's first operation leaves it. -/
def X2 (d : Dev nD) : Buf (Elt F) (xLoc d) := shapeCast S16384x256 (m (aLoc d)) shapeCasts_S4x4096x256_S16384x256
/-- What the tasks together leave in the flat result: the spread of the flattened input. -/
def G2 (d : Dev nD) : Buf (Elt F) (oLoc d) := Cert.Spec.up2 (zF (F := F)) (X2 m d)

/-! ## Tasks and chunks -/

/-- The number of the task on core `c`, subcore `s`. -/
def wid (c : Fin 2) (s : Fin 16) : Fin 32 := ⟨2 * s.val + c.val, by omega⟩

theorem xr_inb (w : Fin 32) (k : Fin 64) : ∀ a, (![512 * w.val + 8 * k.val, 0] : Fin 2 → Nat) a + S8x256.size a ≤ S16384x256.size a := by
  intro a; have := w.isLt; have := k.isLt
  match a with
  | 0 => show 512 * w.val + 8 * k.val + 8 ≤ 16384; omega
  | 1 => show 0 + 256 ≤ 256; omega
theorem or_inb (w : Fin 32) (k : Fin 64) : ∀ a, (![512 * w.val + 8 * k.val, 0] : Fin 2 → Nat) a + S8x2048.size a ≤ S16384x2048.size a := by
  intro a; have := w.isLt; have := k.isLt
  match a with
  | 0 => show 512 * w.val + 8 * k.val + 8 ≤ 16384; omega
  | 1 => show 0 + 2048 ≤ 2048; omega

/-- Chunk `k` of task `w`: eight whole rows of the flattened input, and of the flat result. -/
abbrev xRect (w : Fin 32) (k : Fin 64) : Rect S16384x256 := Rect.unit (s := S16384x256) ![512 * w.val + 8 * k.val, 0] S8x256.size (xr_inb w k)
abbrev oRect (w : Fin 32) (k : Fin 64) : Rect S16384x2048 := Rect.unit (s := S16384x2048) ![512 * w.val + 8 * k.val, 0] S8x2048.size (or_inb w k)
abbrev xSet (w : Fin 32) (k : Fin 64) : Finset S16384x256.Idx := ((Memref.whole main_v0_scv : Memref sig .scVector .hbm S16384x256 .f32).view.slice (xRect w k)).set
abbrev oSet (w : Fin 32) (k : Fin 64) : Finset S16384x2048.Idx := ((Memref.whole main_v1_scv : Memref sig .scVector .hbm S16384x2048 .f32).view.slice (oRect w k)).set

/-- What task `w` is handed: each of its input chunks at the flattened input, each of its result chunks at anything. -/
def goRes (d : Dev nD) (w : Fin 32) : sProp 𝕄 :=
  bigSep Finset.univ fun k : Fin 64 => iprop((xLoc d ↦[xSet w k]{fullShare} X2 m d) ∗ ∃ f, oLoc d ↦[oSet w k]{fullShare} f)
/-- What task `w` hands back: its input chunks unchanged, its result chunks at the spread. -/
def tdRes (d : Dev nD) (w : Fin 32) : sProp 𝕄 :=
  bigSep Finset.univ fun k : Fin 64 => iprop((xLoc d ↦[xSet w k]{fullShare} X2 m d) ∗ oLoc d ↦[oSet w k]{fullShare} G2 m d)

/-- The one call: each core's sixteen tasks' chunks out, and back. -/
def P : (K (F := F)).Pay (nD := nD) (Val := Elt F) (Name := ℕ) (U := UU) where
  st := fun q d c => match q with | 0 => bigSep Finset.univ fun i : Fin 16 => goRes m d (wid (Fin.cast nCore_zero c) i)
  dn := fun q d c => match q with | 0 => bigSep Finset.univ fun i : Fin 16 => tdRes m d (wid (Fin.cast nCore_zero c) i)
  go := fun q d c i => match q with | 0 => goRes m d (wid (Fin.cast nCore_zero c) (Fin.cast nSub_zero i))
  td := fun q d c i => match q with | 0 => tdRes m d (wid (Fin.cast nCore_zero c) (Fin.cast nSub_zero i))
  x := fun _ _ => iprop(emp)

/-! ## A task's thread and its number, from its grid coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

/-- The kernel's memrefs, spelt as the body table passes them. -/
abbrev xW : Memref sig .scVector .hbm S16384x256 .f32 := Memref.whole main_v0_scv
abbrev oW : Memref sig .scVector .hbm S16384x2048 .f32 := Memref.whole main_v1_scv
abbrev sX0 : Memref sig .scVector .vmem S8x256 .f32 := Memref.whole cc0_scratch0
abbrev sX1 : Memref sig .scVector .vmem S8x256 .f32 := Memref.whole cc0_scratch1
abbrev sX2 : Memref sig .scVector .vmem S8x256 .f32 := Memref.whole cc0_scratch2
abbrev sX3 : Memref sig .scVector .vmem S8x256 .f32 := Memref.whole cc0_scratch3
abbrev sO0 : Memref sig .scVector .vmem S8x2048 .f32 := Memref.whole cc0_scratch4
abbrev sO1 : Memref sig .scVector .vmem S8x2048 .f32 := Memref.whole cc0_scratch5
abbrev sO2 : Memref sig .scVector .vmem S8x2048 .f32 := Memref.whole cc0_scratch6
abbrev sO3 : Memref sig .scVector .vmem S8x2048 .f32 := Memref.whole cc0_scratch7

/-- The task at grid point `L` of device `d`, as the launch theorem's obligation needs it: from the chunks it is
    handed, its own scratch and semaphores, and what it owes the launch, the body runs to the chunks handed back. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) oW (Memref.isWhole_whole _)
            sX0 (Memref.isWhole_whole _) sX1 (Memref.isWhole_whole _) sX2 (Memref.isWhole_whole _) sX3 (Memref.isWhole_whole _)
            sO0 (Memref.isWhole_whole _) sO1 (Memref.isWhole_whole _) sO2 (Memref.isWhole_whole _) sO3 (Memref.isWhole_whole _)
            cc0_scratch8 cc0_scratch9 cc0_scratch10 cc0_scratch11 cc0_scratch12 cc0_scratch13 cc0_scratch14 cc0_scratch15)
          fun _ => iprop(tdRes m d (wL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KIReshape.lean ====
/-
  Two facts about the arrays of the kernel's run that do not depend on how the run goes.

  The chunks tile both flat arrays: chunk `k` of task `w` is the eight rows from `512·w + 8·k`, the tasks are
  numbered `w = 2·i + c` over cores `c` and subcores `i`, so the chunks are the 2048 blocks of eight rows, each
  exactly once. Different chunks are separated on the row axis, and every element lies in the chunk its
  row names; hence a whole array held at some contents is the separating conjunction of its chunks at
  those contents, core by core, task by task, chunk by chunk.

  The result read back through the unflattening is the spread of the argument: the flat arrays' row
  `4096·b + s` is row `(b, s)` of the three-axis ones, columns untouched, so spreading the flattened
  input and unflattening gives the spread of the input.
-/
import proofs.«217887_g14147622273102_retrytranche1_597_18_alg».proof.Proof.KIDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks tile both arrays

A chunk is named by (core, subcore, chunk number); chunk `(c, i, k)` is the eight rows from
`512·(2i + c) + 8k`, so block number `128·i + 64·c + k` of the 2048 blocks of eight rows. -/

abbrev CIx : Type := Fin 2 × Fin 16 × Fin 64

theorem xSet_eq (w : Fin 32) (k : Fin 64) : xSet w k = (xRect w k).set := by
  show ((View.whole (main_v0_scv : Ref sig .scVector)).slice (xRect w k)).set = _
  rw [View.set_slice]; exact Finset.map_refl
theorem oSet_eq (w : Fin 32) (k : Fin 64) : oSet w k = (oRect w k).set := by
  show ((View.whole (main_v1_scv : Ref sig .scVector)).slice (oRect w k)).set = _
  rw [View.set_slice]; exact Finset.map_refl

/-- Different chunks have different block numbers. -/
theorem cix_ne {t t' : CIx} (h : t ≠ t') :
    64 * (wid t.1 t.2.1).val + t.2.2.val ≠ 64 * (wid t'.1 t'.2.1).val + t'.2.2.val := by
  intro e
  apply h
  obtain ⟨c, i, k⟩ := t; obtain ⟨c', i', k'⟩ := t'
  have e' : 64 * (2 * i.val + c.val) + k.val = 64 * (2 * i'.val + c'.val) + k'.val := e
  have := c.isLt; have := c'.isLt; have := i.isLt; have := i'.isLt; have := k.isLt; have := k'.isLt
  have hc : c.val = c'.val := by omega
  have hi : i.val = i'.val := by omega
  have hk : k.val = k'.val := by omega
  exact Prod.ext (Fin.ext hc) (Prod.ext (Fin.ext hi) (Fin.ext hk))

theorem xRect_disjoint {w w' : Fin 32} {k k' : Fin 64} (h : 64 * w.val + k.val ≠ 64 * w'.val + k'.val) :
    Disjoint (xRect w k).set (xRect w' k').set := by
  refine Rect.unit_disjoint 0 ?_
  show 512 * w.val + 8 * k.val + 8 ≤ 512 * w'.val + 8 * k'.val ∨ 512 * w'.val + 8 * k'.val + 8 ≤ 512 * w.val + 8 * k.val
  have := k.isLt; have := k'.isLt; omega
theorem oRect_disjoint {w w' : Fin 32} {k k' : Fin 64} (h : 64 * w.val + k.val ≠ 64 * w'.val + k'.val) :
    Disjoint (oRect w k).set (oRect w' k').set := by
  refine Rect.unit_disjoint 0 ?_
  show 512 * w.val + 8 * k.val + 8 ≤ 512 * w'.val + 8 * k'.val ∨ 512 * w'.val + 8 * k'.val + 8 ≤ 512 * w.val + 8 * k.val
  have := k.isLt; have := k'.isLt; omega

theorem xChunks_disjoint : ∀ t ∈ (Finset.univ : Finset CIx), ∀ t' ∈ (Finset.univ : Finset CIx), t ≠ t' →
    Disjoint (xSet (wid t.1 t.2.1) t.2.2) (xSet (wid t'.1 t'.2.1) t'.2.2) :=
  fun t _ t' _ h => by rw [xSet_eq, xSet_eq]; exact xRect_disjoint (cix_ne h)
theorem oChunks_disjoint : ∀ t ∈ (Finset.univ : Finset CIx), ∀ t' ∈ (Finset.univ : Finset CIx), t ≠ t' →
    Disjoint (oSet (wid t.1 t.2.1) t.2.2) (oSet (wid t'.1 t'.2.1) t'.2.2) :=
  fun t _ t' _ h => by rw [oSet_eq, oSet_eq]; exact oRect_disjoint (cix_ne h)

/-- Every element lies in the chunk its row names. -/
theorem xChunks_cover : (Finset.univ : Finset CIx).biUnion (fun t => xSet (wid t.1 t.2.1) t.2.2) = Finset.univ := by
  ext j
  simp only [Finset.mem_biUnion, Finset.mem_univ, true_and, iff_true]
  have hj0 : (j 0).val < 16384 := (j 0).isLt
  have hj1 : (j 1).val < 256 := (j 1).isLt
  refine ⟨(⟨(j 0).val / 512 % 2, by omega⟩, ⟨(j 0).val / 1024, by omega⟩, ⟨(j 0).val % 512 / 8, by omega⟩), ?_⟩
  rw [xSet_eq]
  refine Rect.mem_set_unit.mpr fun a => ?_
  match a with
  | 0 =>
    show 512 * (2 * ((j 0).val / 1024) + (j 0).val / 512 % 2) + 8 * ((j 0).val % 512 / 8) ≤ (j 0).val
      ∧ (j 0).val < 512 * (2 * ((j 0).val / 1024) + (j 0).val / 512 % 2) + 8 * ((j 0).val % 512 / 8) + 8
    omega
  | 1 => show 0 ≤ (j 1).val ∧ (j 1).val < 0 + 256; omega
theorem oChunks_cover : (Finset.univ : Finset CIx).biUnion (fun t => oSet (wid t.1 t.2.1) t.2.2) = Finset.univ := by
  ext j
  simp only [Finset.mem_biUnion, Finset.mem_univ, true_and, iff_true]
  have hj0 : (j 0).val < 16384 := (j 0).isLt
  have hj1 : (j 1).val < 2048 := (j 1).isLt
  refine ⟨(⟨(j 0).val / 512 % 2, by omega⟩, ⟨(j 0).val / 1024, by omega⟩, ⟨(j 0).val % 512 / 8, by omega⟩), ?_⟩
  rw [oSet_eq]
  refine Rect.mem_set_unit.mpr fun a => ?_
  match a with
  | 0 =>
    show 512 * (2 * ((j 0).val / 1024) + (j 0).val / 512 % 2) + 8 * ((j 0).val % 512 / 8) ≤ (j 0).val
      ∧ (j 0).val < 512 * (2 * ((j 0).val / 1024) + (j 0).val / 512 % 2) + 8 * ((j 0).val % 512 / 8) + 8
    omega
  | 1 => show 0 ≤ (j 1).val ∧ (j 1).val < 0 + 2048; omega

/-- A whole array is its chunks, task by task. -/
theorem xPts_chunks (d : Dev nD) (f : Buf (Elt F) (xLoc d)) :
    (xLoc d ↦{fullShare} f : sProp 𝕄)
      = bigSep Finset.univ fun c : Fin 2 => bigSep Finset.univ fun i : Fin 16 => bigSep Finset.univ fun k : Fin 64 =>
          xLoc d ↦[xSet (wid c i) k]{fullShare} f := by
  have h : (xLoc d ↦[(Finset.univ : Finset CIx).biUnion fun t => xSet (wid t.1 t.2.1) t.2.2]{fullShare} f : sProp 𝕄)
      = bigSep Finset.univ fun t : CIx => xLoc d ↦[xSet (wid t.1 t.2.1) t.2.2]{fullShare} f :=
    pointsTo_biUnion Finset.univ (ℓ := xLoc d) (fun t : CIx => xSet (wid t.1 t.2.1) t.2.2) xChunks_disjoint
  rw [xChunks_cover] at h
  refine h.trans ?_
  rw [bigSep_univ_prod]
  exact bigSep_congr fun c _ => bigSep_univ_prod _
theorem oPts_chunks (d : Dev nD) (f : Buf (Elt F) (oLoc d)) :
    (oLoc d ↦{fullShare} f : sProp 𝕄)
      = bigSep Finset.univ fun c : Fin 2 => bigSep Finset.univ fun i : Fin 16 => bigSep Finset.univ fun k : Fin 64 =>
          oLoc d ↦[oSet (wid c i) k]{fullShare} f := by
  have h : (oLoc d ↦[(Finset.univ : Finset CIx).biUnion fun t => oSet (wid t.1 t.2.1) t.2.2]{fullShare} f : sProp 𝕄)
      = bigSep Finset.univ fun t : CIx => oLoc d ↦[oSet (wid t.1 t.2.1) t.2.2]{fullShare} f :=
    pointsTo_biUnion Finset.univ (ℓ := oLoc d) (fun t : CIx => oSet (wid t.1 t.2.1) t.2.2) oChunks_disjoint
  rw [oChunks_cover] at h
  refine h.trans ?_
  rw [bigSep_univ_prod]
  exact bigSep_congr fun c _ => bigSep_univ_prod _

/-- Every rank-3 index is built from three coordinates of literal extent. -/
theorem exists_ix3 {n0 n1 n2 : Nat} (j : (⟨3, ![n0, n1, n2]⟩ : Shape).Idx) :
    ∃ (a : Fin n0) (b : Fin n1) (c : Fin n2), j = ix3 a b c := ⟨j 0, j 1, j 2, eq_ix3 j⟩

/-- Unflattening the spread of the flattened array is the spread of the array: row `(b, s)` of the
    three-axis arrays is row `4096·b + s` of the flat ones, and the columns are untouched. -/
theorem up_unflatten {α : Type} (z : α) (x : Cert.Spec.SX3.Idx → α)
    (h1 : Cert.Spec.SX3.ShapeCasts Cert.Spec.SX2) (h2 : Cert.Spec.SO2.ShapeCasts Cert.Spec.SO3) :
    shapeCast Cert.Spec.SO3 (Cert.Spec.up2 z (shapeCast Cert.Spec.SX2 x h1)) h2 = Cert.Spec.up3 z x := by
  funext i
  obtain ⟨b, s, c, rfl⟩ := exists_ix3 i
  have hb := b.isLt; have hs := s.isLt; have hc := c.isLt
  have e1 : shapeCast Cert.Spec.SO3 (Cert.Spec.up2 z (shapeCast Cert.Spec.SX2 x h1)) h2 (ix3 b s c)
      = Cert.Spec.up2 z (shapeCast Cert.Spec.SX2 x h1) (ix2 (⟨4096 * b.val + s.val, by omega⟩ : Fin 16384) c) := by
    refine shapeCast_apply _ h2 (ix3 b s c) (ix2 (⟨4096 * b.val + s.val, by omega⟩ : Fin 16384) c) ?_
    rw [Shape.rowMajor_val_two, Shape.rowMajor_val_three]
    show (4096 * b.val + s.val) * 2048 + c.val = (b.val * 4096 + s.val) * 2048 + c.val
    omega
  rw [e1]
  show (if c.val % 8 = 0 then shapeCast Cert.Spec.SX2 x h1 (ix2 (⟨4096 * b.val + s.val, by omega⟩ : Fin 16384) (Cert.Spec.col c)) else z)
    = if c.val % 8 = 0 then x (ix3 b s (Cert.Spec.col c)) else z
  by_cases h : c.val % 8 = 0
  · rw [if_pos h, if_pos h]
    refine shapeCast_apply x h1 _ (ix3 b s (Cert.Spec.col c)) ?_
    rw [Shape.rowMajor_val_two, Shape.rowMajor_val_three]
    show (b.val * 4096 + s.val) * 256 + (Cert.Spec.col c).val = (4096 * b.val + s.val) * 256 + (Cert.Spec.col c).val
    omega
  · rw [if_neg h, if_neg h]

variable (m : (ℓ : Loc nD τ sig) → Buf (Elt F) ℓ)
variable [FloatOps F]

/-- The result: the flat result unflattened. -/
def R3 (d : Dev nD) : Buf (Elt F) (rLoc d) := shapeCast S4x4096x2048 (G2 m d) shapeCasts_S16384x2048_S4x4096x2048

theorem R3_eq (d : Dev nD) : R3 m d = Cert.Spec.up3 (zF (F := F)) (m (aLoc d)) := by
  unfold R3 G2 X2
  exact up_unflatten (zF (F := F)) (m (aLoc d)) shapeCasts_S4x4096x256_S16384x256 shapeCasts_S16384x2048_S4x4096x2048

end Cert.Proof.KI

end
-- ==== Proof.KILaunch.lean ====
/-
  The kernel's run, from the statement of one task's body.

  @main flattens the rows of the first argument to one axis, starts one task on each of the 32 vector subcores,
  and unflattens the flat result. Given that every task, handed its 64 chunks of the flattened input at the launch
  contents and its 64 chunks of the flat result at anything, hands back the input chunks unchanged and the result
  chunks at the spread of the input, the whole run ends with the result at the unflattened spread of the first
  argument and both arguments unchanged.

  The argument: a core's operands are exactly its sixteen tasks' operands, so the split among tasks is the identity
  up to renaming the index type. The flattened input and the flat result, each held whole, are the separating
  conjunction of all tasks' chunks, because the chunks tile both arrays; so what the call takes is the two whole
  arrays, and what it hands back joins to the two whole arrays, the flat result now at the spread. The two reshapes
  are host operations on whole arrays: the first writes the flattened input from the argument, the second writes
  the result from the flat result, and neither touches any other array. The counters beside the handshakes' rounds
  play no part at the launch and are dropped.
-/
import proofs.«217887_g14147622273102_retrytranche1_597_18_alg».proof.Proof.KIReshape

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry, as equations -/

theorem P_st (d : Dev nD) (c : Fin ((K (F := F)).nCore 0)) :
    (P m).st 0 d c = bigSep Finset.univ fun i : Fin 16 => goRes m d (wid (Fin.cast nCore_zero c) i) := by unfold P; rfl
theorem P_dn (d : Dev nD) (c : Fin ((K (F := F)).nCore 0)) :
    (P m).dn 0 d c = bigSep Finset.univ fun i : Fin 16 => tdRes m d (wid (Fin.cast nCore_zero c) i) := by unfold P; rfl
theorem P_go (d : Dev nD) (c : Fin ((K (F := F)).nCore 0)) (i : Fin ((K (F := F)).nSub 0)) :
    (P m).go 0 d c i = goRes m d (wid (Fin.cast nCore_zero c) (Fin.cast nSub_zero i)) := by unfold P; rfl
theorem P_td (d : Dev nD) (c : Fin ((K (F := F)).nCore 0)) (i : Fin ((K (F := F)).nSub 0)) :
    (P m).td 0 d c i = tdRes m d (wid (Fin.cast nCore_zero c) (Fin.cast nSub_zero i)) := by unfold P; rfl

instance P_storable : (P (F := F) m).IsStorable where
  st q d c := match q with | 0 => by rw [P_st]; unfold goRes; infer_instance
  dn q d c := match q with | 0 => by rw [P_dn]; unfold tdRes; infer_instance
  go q d c i := match q with | 0 => by rw [P_go]; unfold goRes; infer_instance
  td q d c i := match q with | 0 => by rw [P_td]; unfold tdRes; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) xW (Memref.isWhole_whole _) oW (Memref.isWhole_whole _)
          sX0 (Memref.isWhole_whole _) sX1 (Memref.isWhole_whole _) sX2 (Memref.isWhole_whole _) sX3 (Memref.isWhole_whole _)
          sO0 (Memref.isWhole_whole _) sO1 (Memref.isWhole_whole _) sO2 (Memref.isWhole_whole _) sO3 (Memref.isWhole_whole _)
          cc0_scratch8 cc0_scratch9 cc0_scratch10 cc0_scratch11 cc0_scratch12 cc0_scratch13 cc0_scratch14 cc0_scratch15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each task's obligation is the tile body at the task's grid point. -/
theorem tileObl (h : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's operands are its sixteen tasks' operands, and its results theirs. -/
theorem vecSplit : (K (F := F)).VecSplit' (P m) 0 := by
  intro d c
  rw [P_st, P_dn]
  simp only [P_go, P_td]
  rw [bigSep_tasks (F := F) (fun i => goRes m d (wid (Fin.cast nCore_zero c) i)),
    bigSep_tasks (F := F) (fun i => tdRes m d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays split into all tasks' chunks, and joined back -/

omit [FloatOps F] in
theorem chunks_sep (Φ Ψ : Fin 2 → Fin 16 → Fin 64 → sProp 𝕄) :
    (bigSep Finset.univ fun c => bigSep Finset.univ fun i => bigSep Finset.univ fun k => iprop(Φ c i k ∗ Ψ c i k))
      = iprop((bigSep Finset.univ fun c => bigSep Finset.univ fun i => bigSep Finset.univ fun k => Φ c i k)
          ∗ bigSep Finset.univ fun c => bigSep Finset.univ fun i => bigSep Finset.univ fun k => Ψ c i k) := by
  rw [← bigSep_sep']
  refine bigSep_congr fun c _ => ?_
  rw [← bigSep_sep']
  exact bigSep_congr fun i _ => bigSep_sep' _ _ _

theorem st_all (d : Dev nD) :
    (bigSep Finset.univ fun c : Fin ((K (F := F)).nCore 0) => (P m).st 0 d c : sProp 𝕄)
      = bigSep Finset.univ fun c : Fin 2 => bigSep Finset.univ fun i : Fin 16 => goRes m d (wid c i) := by
  rw [bigSep_congr fun c _ => P_st m d c]
  exact bigSep_cores (F := F) (fun c' : Fin 2 => bigSep Finset.univ fun i : Fin 16 => goRes m d (wid c' i))
theorem dn_all (d : Dev nD) :
    (bigSep Finset.univ fun c : Fin ((K (F := F)).nCore 0) => (P m).dn 0 d c : sProp 𝕄)
      = bigSep Finset.univ fun c : Fin 2 => bigSep Finset.univ fun i : Fin 16 => tdRes m d (wid c i) := by
  rw [bigSep_congr fun c _ => P_dn m d c]
  exact bigSep_cores (F := F) (fun c' : Fin 2 => bigSep Finset.univ fun i : Fin 16 => tdRes m d (wid c' i))

/-- A chunk of the result held at some contents is that chunk held at anything. -/
theorem chunk_any (d : Dev nD) (w : Fin 32) (k : Fin 64) (f : Buf (Elt F) (oLoc d)) :
    iprop((xLoc d ↦[xSet w k]{fullShare} X2 m d) ∗ oLoc d ↦[oSet w k]{fullShare} f)
      ⊢ (iprop((xLoc d ↦[xSet w k]{fullShare} X2 m d) ∗ ∃ f, oLoc d ↦[oSet w k]{fullShare} f) : sProp 𝕄) := by
  iintro ⟨Hx, Ho⟩
  isplitl [Hx]; · iexact Hx
  iexists f; iexact Ho

/-- The flattened input whole and the flat result whole at anything are what the call takes. -/
theorem st_intro (d : Dev nD) (f : Buf (Elt F) (oLoc d)) :
    iprop((xLoc d ↦{fullShare} X2 m d) ∗ oLoc d ↦{fullShare} f)
      ⊢ (bigSep Finset.univ fun c : Fin ((K (F := F)).nCore 0) => (P m).st 0 d c : sProp 𝕄) := by
  rw [st_all]; unfold goRes
  rw [xPts_chunks, oPts_chunks, ← chunks_sep]
  exact bigSep_mono fun c _ => bigSep_mono fun i _ => bigSep_mono fun k _ => chunk_any m d (wid c i) k f

/-- What the call hands back is the flattened input whole, unchanged, and the flat result whole at the spread. -/
theorem dn_elim (d : Dev nD) :
    (bigSep Finset.univ fun c : Fin ((K (F := F)).nCore 0) => (P m).dn 0 d c : sProp 𝕄)
      ⊢ iprop((xLoc d ↦{fullShare} X2 m d) ∗ oLoc d ↦{fullShare} G2 m d) := by
  rw [dn_all]; unfold tdRes
  rw [chunks_sep, ← xPts_chunks, ← oPts_chunks]

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S4x4096x256_S16384x256
abbrev op2 : HloOp τ sig (Elt F) := StableHlo.reshape main_v1 main_v2 rfl shapeCasts_S16384x2048_S4x4096x2048

/-- The TensorCore's arrays, all unscoped. -/
abbrev S5 : Finset (DevRef τ sig) := {a', b', x', o', r'}

omit [FloatOps F] in
theorem held_S5 (d : Dev nD) (W : Valuation τ sig (Elt F)) :
    (held (T d) S5 W : sProp 𝕄) = iprop((aLoc d ↦{fullShare} W a') ∗ (bLoc d ↦{fullShare} W b') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the second reshape, the flattened input and the flat result at what the call left. -/
def V0 (d : Dev nD) : Valuation τ sig (Elt F) := fun b => m (d, b)
def V1 (d : Dev nD) : Valuation τ sig (Elt F) := Function.update (Function.update (V0 m d) x' (X2 m d)) o' (G2 m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := by
  unfold V1; rw [Function.update_of_ne (show a' ≠ o' by decide), Function.update_of_ne (show a' ≠ x' by decide)]; rfl
theorem V1_b (d : Dev nD) : V1 m d b' = m (bLoc d) := by
  unfold V1; rw [Function.update_of_ne (show b' ≠ o' by decide), Function.update_of_ne (show b' ≠ x' by decide)]; rfl
theorem V1_x (d : Dev nD) : V1 m d x' = X2 m d := by
  unfold V1; rw [Function.update_of_ne (show x' ≠ o' by decide), Function.update_self]
theorem V1_o (d : Dev nD) : V1 m d o' = G2 m d := by
  unfold V1; rw [Function.update_self]
theorem V1_r (d : Dev nD) : V1 m d r' = m (rLoc d) := by
  unfold V1; rw [Function.update_of_ne (show r' ≠ o' by decide), Function.update_of_ne (show r' ≠ x' by decide)]; rfl

theorem op1_x (W : Valuation τ sig (Elt F)) :
    (op1 (F := F)).result W x' = shapeCast S16384x256 (W a') shapeCasts_S4x4096x256_S16384x256 :=
  StableHlo.reshape_result main_arg0 main_v0 rfl shapeCasts_S4x4096x256_S16384x256 ⟨by decide, rfl⟩ ⟨by decide, rfl⟩ W
theorem op2_r (W : Valuation τ sig (Elt F)) :
    (op2 (F := F)).result W r' = shapeCast S4x4096x2048 (W o') shapeCasts_S16384x2048_S4x4096x2048 :=
  StableHlo.reshape_result main_v1 main_v2 rfl shapeCasts_S16384x2048_S4x4096x2048 ⟨by decide, rfl⟩ ⟨by decide, rfl⟩ W

theorem hop1 : (op1 (F := F)).bufs ⊆ S5 := show ({a', x'} : Finset (DevRef τ sig)) ⊆ S5 by decide
theorem hop2 : (op2 (F := F)).bufs ⊆ S5 := show ({o', r'} : Finset (DevRef τ sig)) ⊆ S5 by decide

/-- After the first reshape: the flattened input in place, everything else as launched. -/
theorem held_1 (d : Dev nD) :
    (held (T d) S5 ((op1 (F := F)).result (V0 m d)) : sProp 𝕄) = iprop((aLoc d ↦{fullShare} m (aLoc d)) ∗ (bLoc d ↦{fullShare} m (bLoc d))
      ∗ (xLoc d ↦{fullShare} X2 m d) ∗ (oLoc d ↦{fullShare} m (oLoc d)) ∗ rLoc d ↦{fullShare} m (rLoc d)) := by
  rw [held_S5, op1_x,
    (op1 (F := F)).result_of_not_mem (V0 m d) (b := a') (show a' ∉ ({x'} : Finset (DevRef τ sig)) by decide),
    (op1 (F := F)).result_of_not_mem (V0 m d) (b := b') (show b' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide)]
  rfl
theorem held_2 (d : Dev nD) :
    (held (T d) S5 (V1 m d) : sProp 𝕄) = iprop((aLoc d ↦{fullShare} m (aLoc d)) ∗ (bLoc d ↦{fullShare} m (bLoc d))
      ∗ (xLoc d ↦{fullShare} X2 m d) ∗ (oLoc d ↦{fullShare} G2 m d) ∗ rLoc d ↦{fullShare} m (rLoc d)) := by
  rw [held_S5, V1_a, V1_b, V1_x, V1_o, V1_r]
/-- After the second reshape: the result in place. -/
theorem held_3 (d : Dev nD) :
    (held (T d) S5 ((op2 (F := F)).result (V1 m d)) : sProp 𝕄) = iprop((aLoc d ↦{fullShare} m (aLoc d)) ∗ (bLoc d ↦{fullShare} m (bLoc d))
      ∗ (xLoc d ↦{fullShare} X2 m d) ∗ (oLoc d ↦{fullShare} G2 m d) ∗ rLoc d ↦{fullShare} R3 m d) := by
  rw [held_S5, op2_r,
    (op2 (F := F)).result_of_not_mem (V1 m d) (b := a') (show a' ∉ ({r'} : Finset (DevRef τ sig)) by decide),
    (op2 (F := F)).result_of_not_mem (V1 m d) (b := b') (show b' ∉ ({r'} : Finset (DevRef τ sig)) by decide),
    (op2 (F := F)).result_of_not_mem (V1 m d) (b := x') (show x' ∉ ({r'} : Finset (DevRef τ sig)) by decide),
    (op2 (F := F)).result_of_not_mem (V1 m d) (b := o') (show o' ∉ ({r'} : Finset (DevRef τ sig)) by decide),
    V1_a, V1_b, V1_x, V1_o]
  rfl

/-- What @main leaves the claim: the result at the unflattened spread, the two arguments at their launch contents. -/
abbrev FIN (d : Dev nD) : sProp 𝕄 :=
  iprop((rLoc d ↦{fullShare} R3 m d) ∗ (aLoc d ↦{fullShare} m (aLoc d)) ∗ bLoc d ↦{fullShare} m (bLoc d))

/-- @main on device `d`'s TensorCore: the flattening, the call from the flattened input and the flat result split
    into all tasks' chunks and joined back at the spread, the unflattening; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening, over the argument and the flattened input
  iapply (wp_hlo_within 𝒱 (SparseCore.T d) none Set.univ (op := op1) (S := S5) hop1 (V := V0 m d)) $$ [Hb Hheld]
  · isplitl [Hb]; · iexact Hb
    iexact Hheld
  iintro ⟨Hb, Hheld⟩
  ihave Hh := (Entails.of_eq (held_1 m d)) $$ Hheld
  icases Hh with ⟨Ha, Hbb, Hx, Ho, Hr⟩
  rw [wp_ret]; imodintro
  -- the call: every task's chunks out, and back
  iapply ((K (F := F)).wp_run (D (F := F)) 𝒱 (EH := EH) (P := P m) κ d 0) $$ [Hst Hx Ho Hb Ha Hbb Hr]
  isplitr; · iexact Hctx
  isplitl [Hst]; · iexact Hst
  isplitl [Hx Ho]
  · iapply (st_intro m d (m (oLoc d)))
    isplitl [Hx]; · iexact Hx
    iexact Ho
  iintro ⟨Hst, Hdn⟩
  ihave Hdn' := (dn_elim m d) $$ Hdn
  icases Hdn' with ⟨Hx, Ho⟩
  -- the unflattening, over the flat result and the result
  iapply (wp_hlo_within 𝒱 (SparseCore.T d) none Set.univ (op := op2) (S := S5) hop2 (V := V1 m d)) $$ [Hb Ha Hbb Hx Ho Hr]
  · isplitl [Hb]; · iexact Hb
    rw [held_2]
    isplitl [Ha]; · iexact Ha
    isplitl [Hbb]; · iexact Hbb
    isplitl [Hx]; · iexact Hx
    isplitl [Ho]; · iexact Ho
    iexact Hr
  iintro ⟨Hb, Hheld⟩
  ihave Hh := (Entails.of_eq (held_3 m d)) $$ Hheld
  icases Hh with ⟨Ha, Hbb, -, -, Hr⟩
  rw [wp_ret]; imodintro; imodintro
  isplitl [Hst]; · iexact Hst
  isplitl [Hr]; · iexact Hr
  isplitl [Ha]; · iexact Ha
  iexact Hbb

def fq (d : Dev nD) (s' : Phys nD τ sig (Elt F)) : Prop :=
  s'.mem.mem (rLoc d) = R3 m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hr, Ha, Hbb⟩, HSI⟩
  ihave H := (persistent_entails_right (SI_pointsTo_agree (st := s') (ℓ := rLoc d) (I := Finset.univ) (q := fullShare) (f := R3 m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := bLoc d) (I := Finset.univ) (q := fullShare) (f := m (bLoc d))) $$ [HSI Hbb]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (rLoc c) = R3 m c ∧ r.2.mem (aLoc c) = m (aLoc c) ∧ r.2.mem (bLoc c) = m (bLoc c)

/-- Every weakly fair execution of the device's threads from the launch memory ends with the result at the unflattened
    spread of the first argument and both arguments unchanged, given the tile body's statement. -/
theorem run_main [∀ e, Nonempty (Elt F e)] (h : TileBody (F := F) m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KITileRes.lean ====
import proofs.«217887_g14147622273102_retrytranche1_597_18_alg».proof.Proof.KIDefs

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## A task's own scratch and semaphores

Among a vector subcore's own semaphore cells are the kernel's eight DMA semaphores (one per bank and direction), and
among its own buffers the eight scratch buffers (four input banks of 8 × 256, four output banks of 8 × 2048). The
two lemmas below take them out of the subcore's "everything I own, at zero / at some contents", leaving the rest. -/

variable (d : Dev nD) (L : grid0.Coords)

abbrev thr : Thread nD τ := V d (cV L) (jV L)

abbrev cellOf (s : DmaSem sig) : GSem nD τ sig := (thr d L, .dma s)

omit [FloatOps F] in
theorem cell_ne {s s' : DmaSem sig} (h : s ≠ s') : cellOf d L s ≠ cellOf d L s' :=
  fun e => h (SemLoc.dma.inj (Prod.mk.inj e).2)

omit [FloatOps F] in
theorem cell_mem (s : DmaSem sig) (hs : (SemLoc.dma s : SemLoc sig).isScoped .scVector = true) : cellOf d L s ∈ ownCells (thr d L) :=
  (mem_ownCells (g := cellOf d L s)).mpr ⟨rfl, hs⟩

abbrev q0 : DmaSem sig := cc0_scratch8.sem
abbrev q1 : DmaSem sig := cc0_scratch9.sem
abbrev q2 : DmaSem sig := cc0_scratch10.sem
abbrev q3 : DmaSem sig := cc0_scratch11.sem
abbrev q4 : DmaSem sig := cc0_scratch12.sem
abbrev q5 : DmaSem sig := cc0_scratch13.sem
abbrev q6 : DmaSem sig := cc0_scratch14.sem
abbrev q7 : DmaSem sig := cc0_scratch15.sem

/-- The eight semaphore cells as one finite set. -/
def semCells : Finset (GSem nD τ sig) :=
  {cellOf d L q0, cellOf d L q1, cellOf d L q2, cellOf d L q3, cellOf d L q4, cellOf d L q5, cellOf d L q6, cellOf d L q7}

omit [FloatOps F] in
theorem semCells_sub : semCells d L ⊆ ownCells (thr d L) := by
  intro g hg
  simp only [semCells, Finset.mem_insert, Finset.mem_singleton] at hg
  rcases hg with rfl | rfl | rfl | rfl | rfl | rfl | rfl | rfl <;> exact cell_mem d L _ (by decide)

omit [FloatOps F] in
theorem ownSems0_V8 :
    (ownSems0 (thr d L) : sProp 𝕄)
      = iprop((semVal (cellOf d L q0) 0 ∗ semVal (cellOf d L q1) 0 ∗ semVal (cellOf d L q2) 0 ∗ semVal (cellOf d L q3) 0
          ∗ semVal (cellOf d L q4) 0 ∗ semVal (cellOf d L q5) 0 ∗ semVal (cellOf d L q6) 0 ∗ semVal (cellOf d L q7) 0)
          ∗ bigSep (ownCells (thr d L) \ semCells d L) fun g => semVal g 0) := by
  unfold SparseCore.Cfg.ownSems0
  rw [SparseCore.bigSep_sdiff_split' (semCells_sub d L)]
  congr 1
  unfold semCells
  have n01 : cellOf d L q0 ≠ cellOf d L q1 := cell_ne d L (by decide)
  rw [SparseCore.bigSep_insert' (by simp only [Finset.mem_insert, Finset.mem_singleton, not_or]; exact ⟨cell_ne d L (by decide), cell_ne d L (by decide), cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide)⟩),
    SparseCore.bigSep_insert' (by simp only [Finset.mem_insert, Finset.mem_singleton, not_or]; exact ⟨cell_ne d L (by decide), cell_ne d L (by decide)⟩),
    SparseCore.bigSep_insert' (by simp only [Finset.mem_singleton]; exact cell_ne d L (by decide)),
    bigSep_singleton]

/-! The scratch buffers. -/

abbrev refOf (b : Ref sig .scVector) : DevRef τ sig := (Proc.scVector (cV L) (jV L)).devRef b

omit [FloatOps F] in
theorem ref_ne {b b' : Ref sig .scVector} (h : b ≠ b') : refOf L b ≠ refOf L b' :=
  fun e => h (Proc.devRef_injective _ e)

/-- The eight scratch buffers as one finite set. -/
def bufRefs : Finset (DevRef τ sig) :=
  {refOf L cc0_scratch0, refOf L cc0_scratch1, refOf L cc0_scratch2, refOf L cc0_scratch3,
   refOf L cc0_scratch4, refOf L cc0_scratch5, refOf L cc0_scratch6, refOf L cc0_scratch7}

omit [FloatOps F] in
theorem bufRefs_sub : bufRefs L ⊆ ownRefs (τ := τ) (.scVector (cV L) (jV L)) := by
  intro g hg
  simp only [bufRefs, Finset.mem_insert, Finset.mem_singleton] at hg
  rcases hg with rfl | rfl | rfl | rfl | rfl | rfl | rfl | rfl <;>
    exact SparseCore.Cfg.mem_ownRefs_of_owner (p := Proc.scVector (cV L) (jV L)) rfl

omit [FloatOps F] in
theorem ownBufs_V8 :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f))
          ∗ bigSep (ownRefs (τ := τ) (.scVector (cV L) (jV L)) \ bufRefs L) fun b => iprop(∃ f, ((d, b) : Loc nD τ sig) ↦{fullShare} f)) := by
  unfold SparseCore.Cfg.ownBufs
  rw [SparseCore.bigSep_sdiff_split' (bufRefs_sub L)]
  congr 1
  unfold bufRefs
  rw [SparseCore.bigSep_insert' (by simp only [Finset.mem_insert, Finset.mem_singleton, not_or]; exact ⟨ref_ne L (by decide), ref_ne L (by decide), ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide)⟩),
    SparseCore.bigSep_insert' (by simp only [Finset.mem_insert, Finset.mem_singleton, not_or]; exact ⟨ref_ne L (by decide), ref_ne L (by decide)⟩),
    SparseCore.bigSep_insert' (by simp only [Finset.mem_singleton]; exact ref_ne L (by decide)),
    bigSep_singleton]

end Cert.Proof.KI
end
-- ==== Proof.KIZero.lean ====
/-
  The zero fill of the four output banks, as a loop invariant and one trip of the loop.

  Each bank is 8 rows of 2048 columns, taken as 1024 pieces of sixteen consecutive columns, 128 pieces to a
  row, numbered in row-major order. Trip `i` of the loop stores the zero vector over piece `i` of every
  bank. So before trip `k` the first `k` pieces of each bank are zero and the other elements are what the
  bank held when the loop was entered (`zfill`); nothing is known of that at entry, everything is zero at exit.
-/
import proofs.«217887_g14147622273102_retrytranche1_597_18_alg».proof.Proof.KITileRes

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## The zero fill of the four output banks

The loop runs 1024 trips. Trip `i` addresses, in each of the four 8 × 2048 banks, the sixteen-lane piece
`r = i / 128`, columns `[16·(i mod 128), 16·(i mod 128) + 16)`, and stores the zero vector there. In row-major
order of the pieces (128 to a row) that is piece number `i`: after `k` trips the first `k` pieces of every bank
hold the zero word's value and the rest what the bank held before; after all 1024 the whole bank is zero. -/

/-- A bank whose first `k` sixteen-lane pieces, in the loop's order, are zero and whose other elements are `H`'s. -/
def zfill (H : S8x2048.Idx → Elt F .f32) (k : Nat) : S8x2048.Idx → Elt F .f32 :=
  fun j => if 128 * (j 0).val + (j 1).val / 16 < k then zF (F := F) else H j

theorem zfill_zero (H : S8x2048.Idx → Elt F .f32) : zfill H 0 = H :=
  funext fun _ => if_neg (Nat.not_lt_zero _)

theorem zfill_full (H : S8x2048.Idx → Elt F .f32) : zfill H 1024 = fun _ => zF (F := F) :=
  funext fun j => by
    have h0 : (j 0).val < 8 := (j 0).isLt
    have h1 : (j 1).val < 2048 := (j 1).isLt
    exact if_pos (by omega)

/-- One more piece: the element is zero if it lies in piece `k`, and is as before otherwise. -/
theorem zfill_succ_apply (H : S8x2048.Idx → Elt F .f32) (k : Nat) (j : S8x2048.Idx) :
    zfill H (k + 1) j = if 128 * (j 0).val + (j 1).val / 16 = k then zF (F := F) else zfill H k j := by
  unfold zfill
  by_cases h : 128 * (j 0).val + (j 1).val / 16 = k
  · rw [if_pos h, if_pos (by omega)]
  · rw [if_neg h]
    by_cases h' : 128 * (j 0).val + (j 1).val / 16 < k
    · rw [if_pos h', if_pos (by omega)]
    · rw [if_neg h', if_neg (by omega)]

/-- The loop runs 1024 trips. -/
theorem k0_t1_trips : k0_t1_loop.trips = 1024 := by decide

/-- Trip `i`'s offsets: row `i / 128`, column `16·(i mod 128)`. -/
theorem k0_off2_closed : ∀ t : Fin k0_t1_loop.trips, k0_off2 t 0 = t.val / 128 ∧ k0_off2 t 1 = t.val % 128 * 16 := by
  decide +kernel

/-- Trip `i`'s rectangle is piece number `i`. -/
theorem mem_piece (t : Fin k0_t1_loop.trips) (inb : ∀ a, k0_off2 t a + S1x16.size a ≤ S8x2048.size a) (y : S8x2048.Idx) :
    y ∈ (Rect.unit (s := S8x2048) (k0_off2 t) S1x16.size inb).set ↔ 128 * (y 0).val + (y 1).val / 16 = t.val := by
  have ht : t.val < 1024 := k0_t1_trips ▸ t.isLt
  obtain ⟨e0, e1⟩ := k0_off2_closed t
  have h1 : (y 1).val < 2048 := (y 1).isLt
  rw [Rect.mem_set_unit]
  constructor
  · intro h
    have a0 := h 0
    have a1 := h 1
    rw [e0] at a0; rw [e1] at a1
    have s0 : S1x16.size 0 = 1 := rfl
    have s1 : S1x16.size 1 = 16 := rfl
    rw [s0] at a0; rw [s1] at a1
    omega
  · intro h a
    match a with
    | ⟨0, _⟩ =>
      show k0_off2 t 0 ≤ (y 0).val ∧ (y 0).val < k0_off2 t 0 + 1
      rw [e0]; omega
    | ⟨1, _⟩ =>
      show k0_off2 t 1 ≤ (y 1).val ∧ (y 1).val < k0_off2 t 1 + 16
      rw [e1]; omega

/-- The stored vector is the zero word's value in every lane. -/
theorem pay_zero (x : S1x16.Idx) : shapeCast S1x16 (k0_pay351 (F := F)) shapeCasts_S16_S1x16 x = zF (F := F) := rfl

/-- What trip `i`'s store leaves, read through any view of the bank's shape: zero on piece `i`, the rest as before. -/
theorem read_store {κ : Kind} {sp : Space} (v : View sig κ sp S8x2048 .f32) (f : v.ty.Contents (Elt F))
    (t : Fin k0_t1_loop.trips) (inb : ∀ a, k0_off2 t a + S1x16.size a ≤ S8x2048.size a)
    (w : S1x16.Idx → Elt F .f32) (hw : ∀ x, w x = zF (F := F)) (y : S8x2048.Idx) :
    v.read (Elt F) (v.writes (Elt F) f [⟨Rect.unit (s := S8x2048) (k0_off2 t) S1x16.size inb, w⟩]) y
      = if 128 * (y 0).val + (y 1).val / 16 = t.val then zF (F := F) else v.read (Elt F) f y := by
  by_cases h : 128 * (y 0).val + (y 1).val / 16 = t.val
  · rw [if_pos h]
    obtain ⟨x, rfl⟩ := (Rect.unit (s := S8x2048) (k0_off2 t) S1x16.size inb).exists_idx_of_mem ((mem_piece t inb y).mpr h)
    exact (View.read_writes_cons_emb v f _ w [] x).trans (hw x)
  · rw [if_neg h]
    exact View.read_writes_apply_of_forall_not_mem v f y _ fun p hp => by
      rw [List.mem_singleton.mp hp]
      exact fun hm => h ((mem_piece t inb y).mp hm)

/-- Trip `i`'s store into each bank turns "the first `i` pieces are zero" into "the first `i + 1` are". -/
theorem writes_zfill0 (H : S8x2048.Idx → Elt F .f32) (t : Fin k0_t1_loop.trips) :
    sO0.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO0.view (zfill H t.val) t _ _ pay_zero y).trans (zfill_succ_apply H t.val y).symm
theorem writes_zfill1 (H : S8x2048.Idx → Elt F .f32) (t : Fin k0_t1_loop.trips) :
    sO1.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO1.view (zfill H t.val) t _ _ pay_zero y).trans (zfill_succ_apply H t.val y).symm
theorem writes_zfill2 (H : S8x2048.Idx → Elt F .f32) (t : Fin k0_t1_loop.trips) :
    sO2.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO2.view (zfill H t.val) t _ _ pay_zero y).trans (zfill_succ_apply H t.val y).symm
theorem writes_zfill3 (H : S8x2048.Idx → Elt F .f32) (t : Fin k0_t1_loop.trips) :
    sO3.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO3.view (zfill H t.val) t _ _ pay_zero y).trans (zfill_succ_apply H t.val y).symm

/-- The loop's invariant: before trip `k` each of the four banks is whole, its first `k` pieces zero. -/
def zinv (d : Dev nD) (L : grid0.Coords) (H0 H1 H2 H3 : S8x2048.Idx → Elt F .f32) (k : Nat) (_ : BitVec 32) : sProp 𝕄 :=
  iprop((sO0.view.loc (thr d L) ↦{fullShare} zfill H0 k) ∗ (sO1.view.loc (thr d L) ↦{fullShare} zfill H1 k)
    ∗ (sO2.view.loc (thr d L) ↦{fullShare} zfill H2 k) ∗ (sO3.view.loc (thr d L) ↦{fullShare} zfill H3 k))

/-- One trip: four dead loads and four stores of the zero vector, one piece further in every bank. -/
theorem zero_trip (d : Dev nD) (L : grid0.Coords) (H0 H1 H2 H3 : S8x2048.Idx → Elt F .f32)
    (t : Fin k0_t1_loop.trips) (a : BitVec 32) :
    zinv d L H0 H1 H2 H3 t.val a ⊢ wp frame (wpE (defs₀ (F := F)) 𝒱₀ (thr d L) none) Set.univ
      (k0_t1_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 t a)
      (fun r => zinv d L H0 H1 H2 H3 (t.val + 1) r) := by
  unfold zinv
  iintro ⟨HO0, HO1, HO2, HO3⟩
  sl_exec
  sl_step
  irw [← writes_zfill0 H0 t, ← writes_zfill1 H1 t, ← writes_zfill2 H2 t, ← writes_zfill3 H3 t]
  isplitl [HO0]; · iexact HO0
  isplitl [HO1]; · iexact HO1
  isplitl [HO2]; · iexact HO2
  iexact HO3

/-- Before the first trip the banks hold what they held. -/
theorem zinv_init (d : Dev nD) (L : grid0.Coords) (H0 H1 H2 H3 : S8x2048.Idx → Elt F .f32) (a : BitVec 32) :
    (zinv d L H0 H1 H2 H3 0 a : sProp 𝕄)
      = iprop((sO0.view.loc (thr d L) ↦{fullShare} H0) ∗ (sO1.view.loc (thr d L) ↦{fullShare} H1)
          ∗ (sO2.view.loc (thr d L) ↦{fullShare} H2) ∗ (sO3.view.loc (thr d L) ↦{fullShare} H3)) := by
  unfold zinv; rw [zfill_zero, zfill_zero, zfill_zero, zfill_zero]

/-- After the last trip every element of the four banks is the zero word's value. -/
theorem zinv_done (d : Dev nD) (L : grid0.Coords) (H0 H1 H2 H3 : S8x2048.Idx → Elt F .f32) (a : BitVec 32) :
    (zinv d L H0 H1 H2 H3 (Scf.trips k0_t1_loop.lb k0_t1_loop.ub k0_t1_loop.st) a : sProp 𝕄)
      = iprop((sO0.view.loc (thr d L) ↦{fullShare} fun _ => zF (F := F)) ∗ (sO1.view.loc (thr d L) ↦{fullShare} fun _ => zF (F := F))
          ∗ (sO2.view.loc (thr d L) ↦{fullShare} fun _ => zF (F := F)) ∗ (sO3.view.loc (thr d L) ↦{fullShare} fun _ => zF (F := F))) := by
  rw [show Scf.trips k0_t1_loop.lb k0_t1_loop.ub k0_t1_loop.st = 1024 from k0_t1_trips]
  unfold zinv; rw [zfill_full, zfill_full, zfill_full, zfill_full]

end Cert.Proof.KI
end
-- ==== Proof.KIChunks.lean ====
/-
  The chunk slices of a task's body against the chunks of the flattened input and of the flat result.

  The body slices eight-row chunks out of the two flat arrays at offsets it computes in 32-bit words from the
  task's grid point and, inside the main loop, the trip and a bank number. As a number each offset is the first row
  `512·w + 8·k` of chunk `k` of the task's own number `w`; so each slice's rectangle is that chunk's rectangle, the
  slice holds exactly the chunk's elements, and what it reads off the flattened input is the chunk as an
  8 × 256 block. Writing the spread of that block through the matching slice of the flat result gives, on
  the chunk's elements, the spread of the flattened input: row `p` of the block is row `512·w + 8·k + p` of
  the array, and the spread acts on each row alone.
-/
import proofs.«217887_g14147622273102_retrytranche1_597_18_alg».proof.Proof.KITileRes

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
variable {F : FTy → Type} [FloatOps F]
local notation "𝕄" => MT nD τ sig (HIx 1) (Elt F) ℕ UU ℕ

/-! ## The chunk slices, as the program spells them -/

abbrev xSl1 (L : grid0.Coords) (r : Fin 12) : Memref sig .scVector .hbm S8x256 .f32 :=
  xW.slice (Rect.unit (s := S16384x256) (k0_off1 L (k0_off1_at r)) S8x256.size (k0_off1_inb L r)) (fun _ => rfl)
abbrev oSl19 (L : grid0.Coords) (r : Fin 12) : Memref sig .scVector .hbm S8x2048 .f32 :=
  oW.slice (Rect.unit (s := S16384x2048) (k0_off19 L (k0_off19_at r)) S8x2048.size (k0_off19_inb L r)) (fun _ => rfl)
abbrev xSl68 (L : grid0.Coords) (t : Fin k0_t6_loop.trips) (r : Fin 4) : Memref sig .scVector .hbm S8x256 .f32 :=
  xW.slice (Rect.unit (s := S16384x256) (k0_off68 L t (BitVec.ofNat 32 r.val)) S8x256.size (k0_off68_inb L t r)) (fun _ => rfl)
abbrev oSl69 (L : grid0.Coords) (t : Fin k0_t6_loop.trips) (r : Fin 4) : Memref sig .scVector .hbm S8x2048 .f32 :=
  oW.slice (Rect.unit (s := S16384x2048) (k0_off69 L t (BitVec.ofNat 32 r.val)) S8x2048.size (k0_off69_inb L t r)) (fun _ => rfl)
abbrev oSl86 (L : grid0.Coords) (t : Fin k0_t6_loop.trips) (r : Fin 4) : Memref sig .scVector .hbm S8x2048 .f32 :=
  oW.slice (Rect.unit (s := S16384x2048) (k0_off86 L t (BitVec.ofNat 32 r.val)) S8x2048.size (k0_off86_inb L t r)) (fun _ => rfl)
abbrev xSl87 (L : grid0.Coords) (t : Fin k0_t6_loop.trips) (r : Fin 4) : Memref sig .scVector .hbm S8x256 .f32 :=
  xW.slice (Rect.unit (s := S16384x256) (k0_off87 L t (BitVec.ofNat 32 r.val)) S8x256.size (k0_off87_inb L t r)) (fun _ => rfl)

variable (m : (ℓ : Loc nD τ sig) → Buf (Elt F) ℓ)

/-! ## Each printed offset is the first row of a chunk of the task

The program computes a slice's row as `(2·s + c)·512 + …` in 32-bit words; as a number it is
`512·w + 8·k` for the task's number `w` and the chunk `k` the slice is meant for. The two unrolled families
are finite tables, checked by evaluation; the four loop families have closed forms already. -/

theorem off1_eq : ∀ L : grid0.Coords, ∀ r : Fin 12,
    k0_off1 L (k0_off1_at r) = ![1024 * (L 1).val + 512 * (L 0).val + (k0_off1_at r).toNat, 0] := by decide +kernel
theorem off19_eq : ∀ L : grid0.Coords, ∀ r : Fin 12,
    k0_off19 L (k0_off19_at r) = ![1024 * (L 1).val + 512 * (L 0).val + (k0_off19_at r).toNat, 0] := by decide +kernel

omit [FloatOps F] in
theorem wL_val (L : grid0.Coords) : (wL L).val = 2 * (L 1).val + (L 0).val := rfl

theorem off1_row (L : grid0.Coords) (r : Fin 12) (k : Fin 64) (hk : (k0_off1_at r).toNat = 8 * k.val) :
    k0_off1 L (k0_off1_at r) = ![512 * (wL L).val + 8 * k.val, 0] := by
  rw [off1_eq, hk, wL_val]; funext a
  match a with
  | 0 => show 1024 * (L 1).val + 512 * (L 0).val + 8 * k.val = 512 * (2 * (L 1).val + (L 0).val) + 8 * k.val; omega
  | 1 => rfl
theorem off19_row (L : grid0.Coords) (r : Fin 12) (k : Fin 64) (hk : (k0_off19_at r).toNat = 8 * k.val) :
    k0_off19 L (k0_off19_at r) = ![512 * (wL L).val + 8 * k.val, 0] := by
  rw [off19_eq, hk, wL_val]; funext a
  match a with
  | 0 => show 1024 * (L 1).val + 512 * (L 0).val + 8 * k.val = 512 * (2 * (L 1).val + (L 0).val) + 8 * k.val; omega
  | 1 => rfl
theorem off68_row (L : grid0.Coords) (t : Fin k0_t6_loop.trips) (r : Fin 4) (k : Fin 64) (hk : k.val = 4 * (t.val + 1) + r.val) :
    k0_off68 L t (BitVec.ofNat 32 r.val) = ![512 * (wL L).val + 8 * k.val, 0] := by
  rw [k0_off68_eq, hk, wL_val]; funext a
  match a with
  | 0 => show 1024 * (L 1).val + 512 * (L 0).val + 32 * t.val + 8 * r.val + 32 = 512 * (2 * (L 1).val + (L 0).val) + 8 * (4 * (t.val + 1) + r.val); omega
  | 1 => rfl
theorem off69_row (L : grid0.Coords) (t : Fin k0_t6_loop.trips) (r : Fin 4) (k : Fin 64) (hk : k.val = 4 * t.val + r.val) :
    k0_off69 L t (BitVec.ofNat 32 r.val) = ![512 * (wL L).val + 8 * k.val, 0] := by
  rw [k0_off69_eq, hk, wL_val]; funext a
  match a with
  | 0 => show 1024 * (L 1).val + 512 * (L 0).val + 32 * t.val + 8 * r.val = 512 * (2 * (L 1).val + (L 0).val) + 8 * (4 * t.val + r.val); omega
  | 1 => rfl
theorem off86_row (L : grid0.Coords) (t : Fin k0_t6_loop.trips) (r : Fin 4) (k : Fin 64) (hk : k.val = 4 * (t.val + 1) + r.val) :
    k0_off86 L t (BitVec.ofNat 32 r.val) = ![512 * (wL L).val + 8 * k.val, 0] := by
  rw [k0_off86_eq, hk, wL_val]; funext a
  match a with
  | 0 => show 1024 * (L 1).val + 512 * (L 0).val + 32 * t.val + 8 * r.val + 32 = 512 * (2 * (L 1).val + (L 0).val) + 8 * (4 * (t.val + 1) + r.val); omega
  | 1 => rfl
theorem off87_row (L : grid0.Coords) (t : Fin k0_t6_loop.trips) (r : Fin 4) (k : Fin 64) (hk : k.val = 4 * (t.val + 2) + r.val) :
    k0_off87 L t (BitVec.ofNat 32 r.val) = ![512 * (wL L).val + 8 * k.val, 0] := by
  rw [k0_off87_eq, hk, wL_val]; funext a
  match a with
  | 0 => show 1024 * (L 1).val + 512 * (L 0).val + 32 * t.val + 8 * r.val + 64 = 512 * (2 * (L 1).val + (L 0).val) + 8 * (4 * (t.val + 2) + r.val); omega
  | 1 => rfl

/-! ## A slice at a chunk's first row is the chunk -/

omit [FloatOps F] in
theorem xRect_of_off (w : Fin 32) (k : Fin 64) {off : Fin 2 → Nat} (inb : ∀ a, off a + S8x256.size a ≤ S16384x256.size a)
    (e : off = ![512 * w.val + 8 * k.val, 0]) : Rect.unit (s := S16384x256) off S8x256.size inb = xRect w k := by
  subst e; rfl
omit [FloatOps F] in
theorem oRect_of_off (w : Fin 32) (k : Fin 64) {off : Fin 2 → Nat} (inb : ∀ a, off a + S8x2048.size a ≤ S16384x2048.size a)
    (e : off = ![512 * w.val + 8 * k.val, 0]) : Rect.unit (s := S16384x2048) off S8x2048.size inb = oRect w k := by
  subst e; rfl

theorem pts_x1 (d : Dev nD) (L : grid0.Coords) (r : Fin 12) (k : Fin 64) (hk : (k0_off1_at r).toNat = 8 * k.val) (f : Buf (Elt F) (xLoc d)) :
    (((xSl1 L r).view.loc (thr d L) ↦[(xSl1 L r).view.set]{fullShare} f : sProp 𝕄)) = (xLoc d ↦[xSet (wL L) k]{fullShare} f) := by
  show ((xLoc d) ↦[(xW.view.slice (Rect.unit (s := S16384x256) (k0_off1 L (k0_off1_at r)) S8x256.size (k0_off1_inb L r))).set]{fullShare} f : sProp 𝕄) = _
  rw [xRect_of_off (wL L) k _ (off1_row L r k hk)]
theorem pts_o19 (d : Dev nD) (L : grid0.Coords) (r : Fin 12) (k : Fin 64) (hk : (k0_off19_at r).toNat = 8 * k.val) (f : Buf (Elt F) (oLoc d)) :
    (((oSl19 L r).view.loc (thr d L) ↦[(oSl19 L r).view.set]{fullShare} f : sProp 𝕄)) = (oLoc d ↦[oSet (wL L) k]{fullShare} f) := by
  show ((oLoc d) ↦[(oW.view.slice (Rect.unit (s := S16384x2048) (k0_off19 L (k0_off19_at r)) S8x2048.size (k0_off19_inb L r))).set]{fullShare} f : sProp 𝕄) = _
  rw [oRect_of_off (wL L) k _ (off19_row L r k hk)]
theorem pts_x68 (d : Dev nD) (L : grid0.Coords) (t : Fin k0_t6_loop.trips) (r : Fin 4) (k : Fin 64) (hk : k.val = 4 * (t.val + 1) + r.val) (f : Buf (Elt F) (xLoc d)) :
    (((xSl68 L t r).view.loc (thr d L) ↦[(xSl68 L t r).view.set]{fullShare} f : sProp 𝕄)) = (xLoc d ↦[xSet (wL L) k]{fullShare} f) := by
  show ((xLoc d) ↦[(xW.view.slice (Rect.unit (s := S16384x256) (k0_off68 L t (BitVec.ofNat 32 r.val)) S8x256.size (k0_off68_inb L t r))).set]{fullShare} f : sProp 𝕄) = _
  rw [xRect_of_off (wL L) k _ (off68_row L t r k hk)]
theorem pts_o69 (d : Dev nD) (L : grid0.Coords) (t : Fin k0_t6_loop.trips) (r : Fin 4) (k : Fin 64) (hk : k.val = 4 * t.val + r.val) (f : Buf (Elt F) (oLoc d)) :
    (((oSl69 L t r).view.loc (thr d L) ↦[(oSl69 L t r).view.set]{fullShare} f : sProp 𝕄)) = (oLoc d ↦[oSet (wL L) k]{fullShare} f) := by
  show ((oLoc d) ↦[(oW.view.slice (Rect.unit (s := S16384x2048) (k0_off69 L t (BitVec.ofNat 32 r.val)) S8x2048.size (k0_off69_inb L t r))).set]{fullShare} f : sProp 𝕄) = _
  rw [oRect_of_off (wL L) k _ (off69_row L t r k hk)]
theorem pts_o86 (d : Dev nD) (L : grid0.Coords) (t : Fin k0_t6_loop.trips) (r : Fin 4) (k : Fin 64) (hk : k.val = 4 * (t.val + 1) + r.val) (f : Buf (Elt F) (oLoc d)) :
    (((oSl86 L t r).view.loc (thr d L) ↦[(oSl86 L t r).view.set]{fullShare} f : sProp 𝕄)) = (oLoc d ↦[oSet (wL L) k]{fullShare} f) := by
  show ((oLoc d) ↦[(oW.view.slice (Rect.unit (s := S16384x2048) (k0_off86 L t (BitVec.ofNat 32 r.val)) S8x2048.size (k0_off86_inb L t r))).set]{fullShare} f : sProp 𝕄) = _
  rw [oRect_of_off (wL L) k _ (off86_row L t r k hk)]
theorem pts_x87 (d : Dev nD) (L : grid0.Coords) (t : Fin k0_t6_loop.trips) (r : Fin 4) (k : Fin 64) (hk : k.val = 4 * (t.val + 2) + r.val) (f : Buf (Elt F) (xLoc d)) :
    (((xSl87 L t r).view.loc (thr d L) ↦[(xSl87 L t r).view.set]{fullShare} f : sProp 𝕄)) = (xLoc d ↦[xSet (wL L) k]{fullShare} f) := by
  show ((xLoc d) ↦[(xW.view.slice (Rect.unit (s := S16384x256) (k0_off87 L t (BitVec.ofNat 32 r.val)) S8x256.size (k0_off87_inb L t r))).set]{fullShare} f : sProp 𝕄) = _
  rw [xRect_of_off (wL L) k _ (off87_row L t r k hk)]

/-! ## What a slice reads off the flattened input -/

/-- Chunk `k` of task `w` of the flattened input, as an 8 × 256 block. -/
def chunkX (d : Dev nD) (w : Fin 32) (k : Fin 64) : S8x256.Idx → Elt F .f32 := (xW.view.slice (xRect w k)).read (Elt F) (X2 m d)

theorem read_of_off (d : Dev nD) (w : Fin 32) (k : Fin 64) {off : Fin 2 → Nat} (inb : ∀ a, off a + S8x256.size a ≤ S16384x256.size a)
    (e : off = ![512 * w.val + 8 * k.val, 0]) :
    (xW.view.slice (Rect.unit (s := S16384x256) off S8x256.size inb)).read (Elt F) (X2 m d) = chunkX m d w k := by
  subst e; rfl

theorem read_x1 (d : Dev nD) (L : grid0.Coords) (r : Fin 12) (k : Fin 64) (hk : (k0_off1_at r).toNat = 8 * k.val) :
    (xSl1 L r).view.read (Elt F) (X2 m d) = chunkX m d (wL L) k :=
  read_of_off m d (wL L) k (k0_off1_inb L r) (off1_row L r k hk)
theorem read_x68 (d : Dev nD) (L : grid0.Coords) (t : Fin k0_t6_loop.trips) (r : Fin 4) (k : Fin 64) (hk : k.val = 4 * (t.val + 1) + r.val) :
    (xSl68 L t r).view.read (Elt F) (X2 m d) = chunkX m d (wL L) k :=
  read_of_off m d (wL L) k (k0_off68_inb L t r) (off68_row L t r k hk)
theorem read_x87 (d : Dev nD) (L : grid0.Coords) (t : Fin k0_t6_loop.trips) (r : Fin 4) (k : Fin 64) (hk : k.val = 4 * (t.val + 2) + r.val) :
    (xSl87 L t r).view.read (Elt F) (X2 m d) = chunkX m d (wL L) k :=
  read_of_off m d (wL L) k (k0_off87_inb L t r) (off87_row L t r k hk)

/-! ## The spread of a chunk, written through the chunk's slice of the flat result -/

/-- Every rank-2 index is built from two coordinates of literal extent. -/
theorem exists_ix2 {n0 n1 : Nat} (j : (⟨2, ![n0, n1]⟩ : Shape).Idx) : ∃ (a : Fin n0) (b : Fin n1), j = ix2 a b := ⟨j 0, j 1, eq_ix2 j⟩

/-- The spread of an 8 × 256 block to 8 × 2048. -/
def spreadB (X : S8x256.Idx → Elt F .f32) : S8x2048.Idx → Elt F .f32 :=
  fun j => if (j 1).val % 8 = 0 then X (ix2 (j 0) (Cert.Spec.col (j 1))) else zF (F := F)

/-- Chunk `k` of task `w` of the flat result, as the 8 × 2048 slice a copy lands in. -/
abbrev oCh (w : Fin 32) (k : Fin 64) : Memref sig .scVector .hbm S8x2048 .f32 := oW.slice (oRect w k) (fun _ => rfl)

theorem out_value (d : Dev nD) (w : Fin 32) (k : Fin 64) (fo : Buf (Elt F) (oLoc d)) (Y : S8x2048.Idx → Elt F .f32)
    (hY : Y = spreadB (chunkX m d w k)) :
    ∀ i ∈ oSet w k, ((oCh w k).view.writes (Elt F) fo [⟨Rect.whole S8x2048, Y⟩]) i = G2 m d i := by
  intro i hi
  obtain ⟨y, -, rfl⟩ := Finset.mem_map.mp hi
  subst hY
  obtain ⟨p, c, rfl⟩ := exists_ix2 (n0 := 8) (n1 := 2048) y
  rw [View.writes_singleton]
  have e : ((oCh w k).view.slice (Rect.whole S8x2048)).emb (ix2 p c)
      = ((Memref.whole main_v1_scv : Memref sig .scVector .hbm S16384x2048 .f32).view.slice (oRect w k)).emb (ix2 p c) := by
    show ((Memref.whole main_v1_scv : Memref sig .scVector .hbm S16384x2048 .f32).view.slice (oRect w k)).emb ((Rect.whole S8x2048).emb (ix2 p c)) = _
    rw [Rect.emb_whole_apply]
  rw [← e, View.write_emb_of_mem _ _ (Finset.mem_univ _), e]
  -- the element's place in the array: row 512·w + 8·k + p, column c
  have E0 : ((((Memref.whole main_v1_scv : Memref sig .scVector .hbm S16384x2048 .f32).view.slice (oRect w k)).emb (ix2 p c)) 0).val
      = 512 * w.val + 8 * k.val + p.val := by
    show 512 * w.val + 8 * k.val + 1 * p.val = _; omega
  have E1 : ((((Memref.whole main_v1_scv : Memref sig .scVector .hbm S16384x2048 .f32).view.slice (oRect w k)).emb (ix2 p c)) 1).val = c.val := by
    show 0 + 1 * c.val = _; omega
  generalize ((Memref.whole main_v1_scv : Memref sig .scVector .hbm S16384x2048 .f32).view.slice (oRect w k)).emb (ix2 p c) = j at E0 E1 ⊢
  show (if c.val % 8 = 0 then chunkX m d w k (ix2 p (Cert.Spec.col c)) else zF (F := F))
    = if (j 1).val % 8 = 0 then X2 m d (ix2 (j 0) (Cert.Spec.col (j 1))) else zF (F := F)
  by_cases h : c.val % 8 = 0
  · rw [if_pos h, if_pos (by rw [E1]; exact h)]
    show X2 m d ((xW.view.slice (xRect w k)).emb (ix2 p (Cert.Spec.col c))) = X2 m d (ix2 (j 0) (Cert.Spec.col (j 1)))
    refine congrArg (X2 m d) (funext fun a => ?_)
    match a with
    | 0 => exact Fin.ext (by show 512 * w.val + 8 * k.val + 1 * p.val = (j 0).val; omega)
    | 1 => exact Fin.ext (by show 0 + 1 * (c.val / 8) = (j 1).val / 8; omega)
  · rw [if_neg h, if_neg (by rw [E1]; exact h)]

/-- The points-to form: the chunk of the flat result, held at the spread of the block written over anything, is the
    chunk held at the spread of the flattened input. -/
theorem out_pts (d : Dev nD) (w : Fin 32) (k : Fin 64) (fo : Buf (Elt F) (oLoc d)) (Y : S8x2048.Idx → Elt F .f32)
    (hY : Y = spreadB (chunkX m d w k)) :
    (oLoc d ↦[oSet w k]{fullShare} (oCh w k).view.writes (Elt F) fo [⟨Rect.whole S8x2048, Y⟩] : sProp 𝕄)
      = (oLoc d ↦[oSet w k]{fullShare} G2 m d) :=
  pointsTo_congr (out_value m d w k fo Y hY)

/-- An eight-row slice of the flat result at a given offset. -/
abbrev oAt (off : Fin 2 → Nat) (inb : ∀ a, off a + S8x2048.size a ≤ S16384x2048.size a) : Memref sig .scVector .hbm S8x2048 .f32 :=
  oW.slice (Rect.unit (s := S16384x2048) off S8x2048.size inb) (fun _ => rfl)

theorem out_pts_of_off (d : Dev nD) (L : grid0.Coords) (w : Fin 32) (k : Fin 64) {off : Fin 2 → Nat}
    (inb : ∀ a, off a + S8x2048.size a ≤ S16384x2048.size a) (e : off = ![512 * w.val + 8 * k.val, 0])
    (fo : Buf (Elt F) (oLoc d)) (Y : S8x2048.Idx → Elt F .f32) (hY : Y = spreadB (chunkX m d w k)) :
    (((oAt off inb).view.loc (thr d L) ↦[(oAt off inb).view.set]{fullShare}
        (oAt off inb).view.writes (Elt F) fo [⟨Rect.whole S8x2048, Y⟩] : sProp 𝕄))
      = (oLoc d ↦[oSet w k]{fullShare} G2 m d) := by
  subst e; exact out_pts m d w k fo Y hY

theorem out_pts19 (d : Dev nD) (L : grid0.Coords) (r : Fin 12) (k : Fin 64) (hk : (k0_off19_at r).toNat = 8 * k.val)
    (fo : Buf (Elt F) (oLoc d)) (Y : S8x2048.Idx → Elt F .f32) (hY : Y = spreadB (chunkX m d (wL L) k)) :
    (((oSl19 L r).view.loc (thr d L) ↦[(oSl19 L r).view.set]{fullShare}
        (oSl19 L r).view.writes (Elt F) fo [⟨Rect.whole S8x2048, Y⟩] : sProp 𝕄))
      = (oLoc d ↦[oSet (wL L) k]{fullShare} G2 m d) :=
  out_pts_of_off m d L (wL L) k (k0_off19_inb L r) (off19_row L r k hk) fo Y hY
theorem out_pts86 (d : Dev nD) (L : grid0.Coords) (t : Fin k0_t6_loop.trips) (r : Fin 4) (k : Fin 64) (hk : k.val = 4 * (t.val + 1) + r.val)
    (fo : Buf (Elt F) (oLoc d)) (Y : S8x2048.Idx → Elt F .f32) (hY : Y = spreadB (chunkX m d (wL L) k)) :
    (((oSl86 L t r).view.loc (thr d L) ↦[(oSl86 L t r).view.set]{fullShare}
        (oSl86 L t r).view.writes (Elt F) fo [⟨Rect.whole S8x2048, Y⟩] : sProp 𝕄))
      = (oLoc d ↦[oSet (wL L) k]{fullShare} G2 m d) :=
  out_pts_of_off m d L (wL L) k (k0_off86_inb L t r) (off86_row L t r k hk) fo Y hY

/-! ## What a copy out of an output bank carries

A bank is a whole 8 × 2048 buffer, so what its view reads, taken as it is, is the buffer's contents. -/

theorem payload_sO0 (d : Dev nD) (L : grid0.Coords) (H : Buf (Elt F) (sO0.view.loc (thr d L))) :
    ReadAs.same.apply (sO0.view.read (Elt F) H) = H := rfl
theorem payload_sO1 (d : Dev nD) (L : grid0.Coords) (H : Buf (Elt F) (sO1.view.loc (thr d L))) :
    ReadAs.same.apply (sO1.view.read (Elt F) H) = H := rfl
theorem payload_sO2 (d : Dev nD) (L : grid0.Coords) (H : Buf (Elt F) (sO2.view.loc (thr d L))) :
    ReadAs.same.apply (sO2.view.read (Elt F) H) = H := rfl
theorem payload_sO3 (d : Dev nD) (L : grid0.Coords) (H : Buf (Elt F) (sO3.view.loc (thr d L))) :
    ReadAs.same.apply (sO3.view.read (Elt F) H) = H := rfl

end Cert.Proof.KI

end
-- ==== Proof.ScatPure.lean ====
/-
  What one indexed store of a 16-lane vector leaves in an 8 × 2048 buffer when the row index vector is constant
  (every lane the row r) and the column index vector is the arithmetic progression c, c + 8, …, c + 120:
  lane l lands at (r, c + 8·l), every other entry keeps its old value. Pure: no program, no memory.
-/
import Idealize.ShloMosaic.PureOps
import Idealize.ShloMosaic.Lib.ValueIdx

namespace Cert.Proof.Scat

open Idealize.ShloMosaic Idealize.ShloMosaic.ValueIdx

abbrev S16 : Shape := ⟨1, ![16]⟩
abbrev S8x2048 : Shape := ⟨2, ![8, 2048]⟩

theorem iotas : S16.Iotas .scVector 32 [0] := by decide

/-- lane l ↦ the word 8·l -/
def V5 : IVec S16 32 := muli (iota .scVector S16 32 [0] iotas) (broadcast S16 8#32)
/-- every lane the word 1 -/
def V6 : IVec S16 32 := broadcast S16 1#32
/-- the row index vector: every lane the word 1 · r -/
def rowv (r : BitVec 32) : IVec S16 32 := muli V6 (broadcast S16 r)
/-- the column index vector: lane l the word 8·l + c -/
def colv (c : BitVec 32) : IVec S16 32 := addi V5 (broadcast S16 c)

/-- Every lane of the row index vector reads r. -/
theorem rowv_apply (r : BitVec 32) (x : S16.Idx) : (rowv r x).toNat = r.toNat := by
  show (IntOp.muli (1#32) r).toNat = r.toNat
  unfold IntOp.muli
  rw [BitVec.one_mul]

/-- Lane l of the column index vector reads 8·l + c: with c ≤ 1920 and l ≤ 15 nothing wraps. -/
theorem colv_apply (c : BitVec 32) (hc : c.toNat ≤ 1920) (x : S16.Idx) :
    (colv c x).toNat = 8 * (x 0).val + c.toNat := by
  have hx : (x 0).val < 16 := (x 0).isLt
  show (IntOp.addi (IntOp.muli (BitVec.ofNat 32 (0 * S16.size 0 + (x 0).val)) (8#32)) c).toNat = _
  unfold IntOp.addi IntOp.muli
  rw [BitVec.toNat_add, BitVec.toNat_mul, BitVec.toNat_ofNat]
  have h8 : (8#32).toNat = 8 := rfl
  rw [h8]
  omega

/-- Both index vectors stay inside the 8 × 2048 buffer. -/
theorem chk (r c : BitVec 32) (hr : r.toNat < 8) (hc : c.toNat ≤ 1920) :
    ∀ a x, ((![rowv r, colv c] : Fin 2 → IVec S16 32) a x).toNat < S8x2048.size a := by
  intro a x
  have hx : (x 0).val < 16 := (x 0).isLt
  match a with
  | ⟨0, _⟩ =>
    show (rowv r x).toNat < 8
    rw [rowv_apply]; exact hr
  | ⟨1, _⟩ =>
    show (colv c x).toNat < 2048
    rw [colv_apply c hc]; omega

/-! ### A left fold of pointwise overwrites, read at one point

The indexed store is a left fold over the lanes; each step overwrites the point the lane names and leaves every
other point alone. Two facts about any such fold, by induction on the list of lanes. -/

section Fold
variable {ι α β : Type}

/-- A point no lane of the list names keeps its value through the whole fold. -/
theorem foldl_miss (φ : (α → β) → ι → (α → β)) (I : ι → α)
    (hmiss : ∀ g k j, j ≠ I k → φ g k j = g j) (l : List ι) (f : α → β) (j : α)
    (hj : ∀ k ∈ l, j ≠ I k) : l.foldl φ f j = f j := by
  induction l generalizing f with
  | nil => rfl
  | cons k l ih =>
    rw [List.foldl_cons, ih (φ f k) (fun k' hk' => hj k' (List.mem_cons_of_mem _ hk')),
      hmiss f k j (hj k (by simp))]

/-- If the lanes of the list name pairwise distinct points, the point lane k names ends with lane k's value:
    lane k's step writes it and no later step touches it. -/
theorem foldl_hit (φ : (α → β) → ι → (α → β)) (I : ι → α) (val : ι → β)
    (hmiss : ∀ g k j, j ≠ I k → φ g k j = g j) (hhit : ∀ g k, φ g k (I k) = val k)
    (l : List ι) (hl : l.Pairwise (fun k k' => I k ≠ I k')) (f : α → β) (k : ι) (hk : k ∈ l) :
    l.foldl φ f (I k) = val k := by
  induction l generalizing f with
  | nil => cases hk
  | cons k0 l ih =>
    rw [List.foldl_cons]
    rw [List.pairwise_cons] at hl
    rcases List.mem_cons.mp hk with rfl | hk'
    · rw [foldl_miss φ I hmiss l (φ f k) (I k) (fun k' hk' => hl.1 k' hk'), hhit]
    · exact ih hl.2 (φ f k0) hk'

end Fold

/-! ### The indexed store, unmasked and not adding, at pairwise distinct indices (any shapes) -/

section General
variable {F : FTy → Type} [FloatOps F] {s : Shape} {e : EltTy} {d : Fin 1 → Nat}

/-- An unmasked, non-adding indexed store whose lanes name pairwise distinct indices: the index lane k names
    holds lane k's value afterwards. -/
theorem storeIdx_hit (f : Vec F s e) (idxs : Fin s.rank → IVec ⟨1, d⟩ 32) (v : Vec F ⟨1, d⟩ e)
    (mask : IVec ⟨1, d⟩ 1) (hm : ∀ x, mask x = 1) (h : ∀ a x, (idxs a x).toNat < s.size a)
    (hinj : ∀ k k' : Fin (d 0), idxAt idxs h (Shape.ofLane k) = idxAt idxs h (Shape.ofLane k') → k = k')
    (k : Fin (d 0)) :
    storeIdx f idxs v mask false h (idxAt idxs h (Shape.ofLane k)) = v (Shape.ofLane k) := by
  unfold storeIdx
  refine foldl_hit _ (fun k => idxAt idxs h (Shape.ofLane k)) (fun k => v (Shape.ofLane k)) ?_ ?_ _ ?_ f k
    (List.mem_finRange k)
  · intro g k j hj
    dsimp only
    rw [if_pos (hm _), if_neg (fun hall => hj (funext fun a => Fin.ext (hall a)))]
  · intro g k
    dsimp only
    rw [if_pos (hm _), if_pos (fun _ => rfl)]
    rfl
  · exact List.Pairwise.imp (fun hne heq => hne (hinj _ _ heq)) (List.nodup_finRange _)

/-- An unmasked indexed store leaves every index no lane names as it was. -/
theorem storeIdx_miss (f : Vec F s e) (idxs : Fin s.rank → IVec ⟨1, d⟩ 32) (v : Vec F ⟨1, d⟩ e)
    (mask : IVec ⟨1, d⟩ 1) (add : Bool) (h : ∀ a x, (idxs a x).toNat < s.size a) (j : s.Idx)
    (hj : ∀ k : Fin (d 0), j ≠ idxAt idxs h (Shape.ofLane k)) :
    storeIdx f idxs v mask add h j = f j := by
  unfold storeIdx
  refine foldl_miss _ (fun k => idxAt idxs h (Shape.ofLane k)) ?_ _ f j (fun k _ => hj k)
  intro g k j hj
  dsimp only
  by_cases hmk : mask (Shape.ofLane k) = 1
  · rw [if_pos hmk]
    exact if_neg (fun hall => hj (funext fun a => Fin.ext (hall a)))
  · rw [if_neg hmk]

end General

/-! ### One store of this kernel: row r, columns c, c + 8, …, c + 120 -/

section Kernel
variable {F : FTy → Type} [FloatOps F]

/-- Lane k of the 16-lane shape is the index whose one coordinate is k. -/
theorem ofLane_eq_ix1 (k : Fin 16) : (Shape.ofLane (d := ![16]) k : S16.Idx) = ix1 k := by
  funext a
  match a with
  | ⟨0, _⟩ => rfl

/-- The index lane k names: (r, 8·k + c). -/
theorem idxAt_lane (r c : BitVec 32) (hr : r.toNat < 8) (hc : c.toNat ≤ 1920)
    (h : ∀ a x, ((![rowv r, colv c] : Fin 2 → IVec S16 32) a x).toNat < S8x2048.size a) (k : Fin 16) :
    idxAt (s := S8x2048) ![rowv r, colv c] h (Shape.ofLane (d := ![16]) k)
      = (ix2 (⟨r.toNat, hr⟩ : Fin 8) (⟨8 * k.val + c.toNat, by omega⟩ : Fin 2048) : S8x2048.Idx) := by
  funext a
  match a with
  | ⟨0, _⟩ => exact Fin.ext (rowv_apply r _)
  | ⟨1, _⟩ => exact Fin.ext (colv_apply c hc _)

/-- ONE STORE, read at (p, q): lane (q − c) / 8's value where p = r and q is one of c, c + 8, …, c + 120; the old
    value everywhere else. -/
theorem store_apply (r c : BitVec 32) (hr : r.toNat < 8) (hc : c.toNat ≤ 1920)
    (h : ∀ a x, ((![rowv r, colv c] : Fin 2 → IVec S16 32) a x).toNat < S8x2048.size a)
    (f : Vec F S8x2048 .f32) (v : Vec F S16 .f32) (p : Fin 8) (q : Fin 2048) :
    storeIdx f ![rowv r, colv c] v (fun _ => 1#1) false h (ix2 p q)
      = if hit : p.val = r.toNat ∧ c.toNat ≤ q.val ∧ q.val < c.toNat + 128 ∧ (q.val - c.toNat) % 8 = 0
        then v (ix1 ⟨(q.val - c.toNat) / 8, by omega⟩) else f (ix2 p q) := by
  by_cases hit : p.val = r.toNat ∧ c.toNat ≤ q.val ∧ q.val < c.toNat + 128 ∧ (q.val - c.toNat) % 8 = 0
  · rw [dif_pos hit]
    obtain ⟨h1, h2, h3, h4⟩ := hit
    have hk16 : (q.val - c.toNat) / 8 < 16 := by omega
    obtain ⟨k0, hk0⟩ : ∃ k0 : Fin 16, k0.val = (q.val - c.toNat) / 8 := ⟨⟨_, hk16⟩, rfl⟩
    -- (p, q) is the index lane k0 = (q − c) / 8 names
    have e0 : p = (⟨r.toNat, hr⟩ : Fin 8) := Fin.ext h1
    have e1 : q = (⟨8 * k0.val + c.toNat, by omega⟩ : Fin 2048) := Fin.ext (by show q.val = 8 * k0.val + c.toNat; omega)
    have hk : (ix2 p q : S8x2048.Idx)
        = idxAt (s := S8x2048) ![rowv r, colv c] h (Shape.ofLane (d := ![16]) k0) :=
      (congrArg₂ ix2 e0 e1).trans (idxAt_lane r c hr hc h k0).symm
    -- distinct lanes name distinct columns
    have hinj : ∀ k k' : Fin 16, idxAt (s := S8x2048) ![rowv r, colv c] h (Shape.ofLane (d := ![16]) k)
        = idxAt (s := S8x2048) ![rowv r, colv c] h (Shape.ofLane (d := ![16]) k') → k = k' := by
      intro k k' heq
      rw [idxAt_lane r c hr hc h, idxAt_lane r c hr hc h] at heq
      have h1' : 8 * k.val + c.toNat = 8 * k'.val + c.toNat :=
        congrArg (fun j : S8x2048.Idx => (j ⟨1, Nat.one_lt_two⟩).val) heq
      exact Fin.ext (by omega)
    calc storeIdx f ![rowv r, colv c] v (fun _ => 1#1) false h (ix2 p q)
        = storeIdx f ![rowv r, colv c] v (fun _ => 1#1) false h
            (idxAt (s := S8x2048) ![rowv r, colv c] h (Shape.ofLane (d := ![16]) k0)) :=
          congrArg _ hk
      _ = v (Shape.ofLane (d := ![16]) k0) :=
          storeIdx_hit f _ v _ (fun _ => rfl) h hinj k0
      _ = v (ix1 k0) := congrArg v (ofLane_eq_ix1 k0)
      _ = v (ix1 ⟨(q.val - c.toNat) / 8, hk16⟩) := congrArg (fun k : Fin 16 => v (ix1 k)) (Fin.ext hk0)
  · rw [dif_neg hit]
    refine storeIdx_miss f _ v _ false h _ ?_
    intro k heq
    have hk : k.val < 16 := k.isLt
    have heq' := heq.trans (idxAt_lane r c hr hc h k)
    have h0 : p.val = r.toNat := congrArg (fun j : S8x2048.Idx => (j ⟨0, Nat.zero_lt_two⟩).val) heq'
    have h1 : q.val = 8 * k.val + c.toNat := congrArg (fun j : S8x2048.Idx => (j ⟨1, Nat.one_lt_two⟩).val) heq'
    exact hit ⟨h0, by omega, by omega, by omega⟩

end Kernel

/-! ### The sixteen stores of one row: vector n at base column 128·n -/

section Row
variable {F : FTy → Type} [FloatOps F]

/-- The word 128·n reads 128·n for n ≤ 15. -/
theorem base_toNat (n : Nat) (hn : n < 16) : (BitVec.ofNat 32 (128 * n)).toNat = 128 * n := by
  rw [BitVec.toNat_ofNat]; omega

/-- After the first n stores of row r (vector m at base column 128·m, m < n), the columns 8·k below 128·n of row r
    hold lane k % 16 of vector k / 16; every other entry is as at the start. -/
theorem row_prefix (r : BitVec 32) (hr : r.toNat < 8) (vs : Fin 16 → Vec F S16 .f32)
    (acc : Nat → Vec F S8x2048 .f32)
    (hstep : ∀ n (hn : n < 16), ∃ h, acc (n + 1)
      = storeIdx (acc n) ![rowv r, colv (BitVec.ofNat 32 (128 * n))] (vs ⟨n, hn⟩) (fun _ => 1#1) false h)
    (p : Fin 8) (q : Fin 2048) (n : Nat) (hn : n ≤ 16) :
    acc n (ix2 p q) = if p.val = r.toNat ∧ q.val % 8 = 0 ∧ q.val < 128 * n
      then vs ⟨q.val / 128, by omega⟩ (ix1 ⟨(q.val % 128) / 8, by omega⟩) else acc 0 (ix2 p q) := by
  induction n with
  | zero =>
    have hno : ¬(p.val = r.toNat ∧ q.val % 8 = 0 ∧ q.val < 128 * 0) := by omega
    rw [if_neg hno]
  | succ n ih =>
    have hn' : n < 16 := by omega
    obtain ⟨h, hs⟩ := hstep n hn'
    have hcn := base_toNat n hn'
    have hc : (BitVec.ofNat 32 (128 * n)).toNat ≤ 1920 := by omega
    rw [hs, store_apply r (BitVec.ofNat 32 (128 * n)) hr hc h]
    by_cases hit : p.val = r.toNat ∧ (BitVec.ofNat 32 (128 * n)).toNat ≤ q.val
        ∧ q.val < (BitVec.ofNat 32 (128 * n)).toNat + 128 ∧ (q.val - (BitVec.ofNat 32 (128 * n)).toNat) % 8 = 0
    · -- column q is written by store n
      have hyes : p.val = r.toNat ∧ q.val % 8 = 0 ∧ q.val < 128 * (n + 1) := by omega
      rw [dif_pos hit, if_pos hyes]
      have e1 : (⟨n, hn'⟩ : Fin 16) = ⟨q.val / 128, by omega⟩ := Fin.ext (by show n = q.val / 128; omega)
      have e2 : (⟨(q.val - (BitVec.ofNat 32 (128 * n)).toNat) / 8, by omega⟩ : Fin 16) = ⟨(q.val % 128) / 8, by omega⟩ :=
        Fin.ext (by show (q.val - (BitVec.ofNat 32 (128 * n)).toNat) / 8 = (q.val % 128) / 8; omega)
      rw [e1, e2]
    · -- store n leaves column q alone
      rw [dif_neg hit, ih (by omega)]
      by_cases hcnd : p.val = r.toNat ∧ q.val % 8 = 0 ∧ q.val < 128 * n
      · have hyes : p.val = r.toNat ∧ q.val % 8 = 0 ∧ q.val < 128 * (n + 1) := by omega
        rw [if_pos hcnd, if_pos hyes]
      · have hno : ¬(p.val = r.toNat ∧ q.val % 8 = 0 ∧ q.val < 128 * (n + 1)) := by omega
        rw [if_neg hcnd, if_neg hno]

/-- THE ROW: after the sixteen stores of row r, column 8·k of row r holds lane k % 16 of vector k / 16, and every
    other entry of the buffer is as before the first store. -/
theorem row_apply (r : BitVec 32) (hr : r.toNat < 8) (vs : Fin 16 → Vec F S16 .f32)
    (acc : Nat → Vec F S8x2048 .f32)
    (hstep : ∀ n (hn : n < 16), ∃ h, acc (n + 1)
      = storeIdx (acc n) ![rowv r, colv (BitVec.ofNat 32 (128 * n))] (vs ⟨n, hn⟩) (fun _ => 1#1) false h)
    (p : Fin 8) (q : Fin 2048) :
    acc 16 (ix2 p q) = if p.val = r.toNat ∧ q.val % 8 = 0
      then vs ⟨q.val / 128, by omega⟩ (ix1 ⟨(q.val % 128) / 8, by omega⟩) else acc 0 (ix2 p q) := by
  rw [row_prefix r hr vs acc hstep p q 16 (Nat.le_refl _)]
  by_cases hcnd : p.val = r.toNat ∧ q.val % 8 = 0
  · have hyes : p.val = r.toNat ∧ q.val % 8 = 0 ∧ q.val < 128 * 16 := ⟨hcnd.1, hcnd.2, by omega⟩
    rw [if_pos hcnd, if_pos hyes]
  · have hno : ¬(p.val = r.toNat ∧ q.val % 8 = 0 ∧ q.val < 128 * 16) := fun h' => hcnd ⟨h'.1, h'.2.1⟩
    rw [if_neg hcnd, if_neg hno]

end Row

end Cert.Proof.Scat
-- ==== Proof.ScatRow.lean ====
/-
  One trip of the scatter loop, program-free: for n = 0, …, 15 the sixteen lanes X[t, 16·n .. 16·n + 16) of an 8 × 256
  buffer X are stored by one indexed store at row r (the word of t), columns 128·n + 8·l. After the sixteen stores, row t
  of the 8 × 2048 buffer holds X[t, q / 8] at every column q with 8 ∣ q; every other entry is as before.
-/
import proofs.«217887_g14147622273102_retrytranche1_597_18_alg».proof.Proof.ScatPure
import proofs.«217887_g14147622273102_retrytranche1_597_18_alg».proof.Proof.Spec
import Idealize.ShloMosaic.Lib.Pipeline.Value

namespace Cert.Proof.Scat

open Idealize.ShloMosaic Idealize.ShloMosaic.ValueIdx

abbrev S8x256 : Shape := ⟨2, ![8, 256]⟩
abbrev S1x16 : Shape := ⟨2, ![1, 16]⟩

/-- A 1 × 16 rectangle has the sixteen elements of a 16-vector. -/
theorem casts : S1x16.ShapeCasts S16 := by decide

/-- The 1 × 16 rectangle at (t, 16·n) lies inside the 8 × 256 buffer. -/
theorem ld_inb (t : Fin 8) (n : Fin 16) :
    ∀ a, (![t.val, 16 * n.val] : Fin 2 → Nat) a + S1x16.size a ≤ S8x256.size a := by
  intro a
  match a with
  | ⟨0, _⟩ => show t.val + 1 ≤ 8; omega
  | ⟨1, _⟩ => show 16 * n.val + 16 ≤ 256; omega

section
variable {F : FTy → Type} [FloatOps F]

/-- The n-th load of trip t: the elements of the 1 × 16 rectangle at (t, 16·n) of X, cast to 16 lanes. -/
def vsX (X : S8x256.Idx → Elt F .f32) (t : Fin 8) (n : Fin 16) : Vec F S16 .f32 :=
  shapeCast S16 (fun x : S1x16.Idx =>
    X ((Rect.unit (s := S8x256) ![t.val, 16 * n.val] S1x16.size (ld_inb t n)).toLoadRect.idx x)) casts

/-- Lane l of the n-th load of trip t is X[t, 16·n + l]: lane l is position l of the rectangle, its element (0, l),
    which the unit-stride rectangle places at (t + 0, 16·n + l). -/
theorem vsX_apply (X : S8x256.Idx → Elt F .f32) (t : Fin 8) (n l : Fin 16) :
    vsX X t n (ix1 l) = X (ix2 t ⟨16 * n.val + l.val, by omega⟩) := by
  unfold vsX
  have hk : (S1x16.rowMajor (ix2 (0 : Fin 1) l)).val = (S16.rowMajor (ix1 l)).val := by
    rw [Shape.rowMajor_val_two, Shape.rowMajor_val_one]
    show 0 * 16 + l.val = l.val
    omega
  rw [shapeCast_apply _ casts (ix1 l) (ix2 (0 : Fin 1) l) hk]
  refine congrArg X (funext fun a => ?_)
  match a with
  | ⟨0, _⟩ => exact Fin.ext (by show t.val + 1 * 0 = t.val; omega)
  | ⟨1, _⟩ => exact Fin.ext (by show 16 * n.val + 1 * l.val = 16 * n.val + l.val; omega)

/-- The buffer after the first n stores of trip t (n ≤ 16), from the buffer Hc before the first. -/
def accRec (r : BitVec 32) (hr : r.toNat < 8) (X : S8x256.Idx → Elt F .f32) (t : Fin 8)
    (Hc : Vec F S8x2048 .f32) : Nat → Vec F S8x2048 .f32
  | 0 => Hc
  | n + 1 =>
    if hn : n < 16 then
      storeIdx (accRec r hr X t Hc n) ![rowv r, colv (BitVec.ofNat 32 (128 * n))] (vsX X t ⟨n, hn⟩) (fun _ => 1#1) false
        (chk r _ hr (by rw [base_toNat n hn]; omega))
    else accRec r hr X t Hc n

/-- ONE TRIP: after the sixteen stores, row t holds X[t, q / 8] at every column q divisible by 8 — column
    q = 128·n + 8·l got lane l of load n, which is X[t, 16·n + l], and 16·n + l = q / 8 —; every other entry of the
    buffer is as before. -/
theorem accRec_row (r : BitVec 32) (hr : r.toNat < 8) (t : Fin 8) (hrt : r.toNat = t.val)
    (X : S8x256.Idx → Elt F .f32) (Hc : Vec F S8x2048 .f32) (p : Fin 8) (q : Fin 2048) :
    accRec r hr X t Hc 16 (ix2 p q)
      = if p.val = t.val ∧ q.val % 8 = 0 then X (ix2 t (Cert.Spec.col q)) else Hc (ix2 p q) := by
  have hstep : ∀ n (hn : n < 16), ∃ h, accRec r hr X t Hc (n + 1)
      = storeIdx (accRec r hr X t Hc n) ![rowv r, colv (BitVec.ofNat 32 (128 * n))] (vsX X t ⟨n, hn⟩)
          (fun _ => 1#1) false h := by
    intro n hn
    refine ⟨chk r _ hr (by rw [base_toNat n hn]; omega), ?_⟩
    rw [accRec, dif_pos hn]
  rw [row_apply r hr (vsX X t) (accRec r hr X t Hc) hstep p q]
  by_cases hc : p.val = t.val ∧ q.val % 8 = 0
  · have hc' : p.val = r.toNat ∧ q.val % 8 = 0 := ⟨hc.1.trans hrt.symm, hc.2⟩
    rw [if_pos hc', if_pos hc, vsX_apply]
    refine congrArg (fun b : Fin 256 => X (ix2 t b)) (Fin.ext ?_)
    show 16 * (q.val / 128) + (q.val % 128) / 8 = q.val / 8
    omega
  · have hc' : ¬(p.val = r.toNat ∧ q.val % 8 = 0) := fun h' => hc ⟨h'.1.trans hrt, h'.2⟩
    rw [if_neg hc', if_neg hc]
    rfl

end

end Cert.Proof.Scat
-- ==== Proof.KIScat0.lean ====
import proofs.«217887_g14147622273102_retrytranche1_597_18_alg».proof.Proof.KIChunks
import proofs.«217887_g14147622273102_retrytranche1_597_18_alg».proof.Proof.ScatRow

set_option maxHeartbeats 1000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 0

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone0 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv0 (d : Dev nD) (L : grid0.Coords) (X : S8x256.Idx → Elt F .f32) (Hc : S8x2048.Idx → Elt F .f32) (k : Nat) (_ : BitVec 32) : sProp 𝕄 :=
  iprop((sX0.view.loc (thr d L) ↦{fullShare} X) ∗ ∃ H, (sO0.view.loc (thr d L) ↦{fullShare} H) ∗ ⌜RowsDone0 X Hc k H⌝)

omit [FloatOps F] in
theorem pts_acc0 (d : Dev nD) (L : grid0.Coords) (f : Buf (Elt F) ((thr d L).loc cc0_scratch4)) :
    (((sO0.access (Rect.whole S8x2048)).loc (thr d L) ↦[(sO0.access (Rect.whole S8x2048)).set]{fullShare} f : sProp 𝕄))
      = (sO0.view.loc (thr d L) ↦{fullShare} f) := by
  rw [show (sO0.access (Rect.whole S8x2048)).set = Finset.univ from Memref.set_access_whole (cc0_scratch4 : Ref sig .scVector)]
omit [FloatOps F] in
theorem pts_step0 (d : Dev nD) (L : grid0.Coords) (f w : Buf (Elt F) ((thr d L).loc cc0_scratch4)) :
    (((sO0.access (Rect.whole S8x2048)).loc (thr d L) ↦[(sO0.access (Rect.whole S8x2048)).set]{fullShare}
        (View.write (Elt F) (sO0.access (Rect.whole S8x2048)) f w Finset.univ) : sProp 𝕄))
      = (sO0.view.loc (thr d L) ↦{fullShare} w) := by
  rw [show (sO0.access (Rect.whole S8x2048)).set = Finset.univ from Memref.set_access_whole (cc0_scratch4 : Ref sig .scVector),
    show View.write (Elt F) (sO0.access (Rect.whole S8x2048)) f w Finset.univ = w from Memref.write_access_whole_univ (Elt F) (cc0_scratch4 : Ref sig .scVector) f w]

theorem trips_t2_0 : k0_t2_loop.trips = 8 := by decide
theorem iv_t2_0 : ∀ t : Fin k0_t2_loop.trips, (Scf.iv 0#32 1#32 t.val).toNat = t.val := by decide +kernel

set_option hygiene false in
macro "scat_step0" c:num : tactic => `(tactic| (
  sl_exec (disch := exact hchk (BitVec.ofNat 32 $c) (by decide))
  ihave HO := (Entails.of_eq (pts_acc0 d L _).symm) $$ HO
  iapply (SparseCore.wp_vectorStoreIdx 𝒱₀ (thr d L) none Set.univ (base := sO0)) $$ HO
  iintro HO
  ihave HO := (Entails.of_eq (pts_step0 d L _ _)) $$ HO))

/-- One trip: row `t` is spread. -/
theorem trip0 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv0 d L X Hc t.val a21
      ⊢ wp frame (wpE (defs₀ (F := F)) 𝒱₀ (thr d L) none) Set.univ
          (k0_t2_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv0 d L X Hc (t.val + 1) r) := by
  have ht8 : t.val < 8 := trips_t2_0 ▸ t.isLt
  have hr : (Scf.iv 0#32 1#32 t.val).toNat = t.val := iv_t2_0 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch4), View.read (Elt F) (sO0.access (Rect.whole S8x2048)) f = f :=
    fun f => Memref.read_access_whole (Elt F) (cc0_scratch4 : Ref sig .scVector) f
  unfold sinv0 k0_t2_body
  iintro ⟨HX, %H0, HO, %hH0⟩
  scat_step0 0
  scat_step0 128
  scat_step0 256
  scat_step0 384
  scat_step0 512
  scat_step0 640
  scat_step0 768
  scat_step0 896
  scat_step0 1024
  scat_step0 1152
  scat_step0 1280
  scat_step0 1408
  scat_step0 1536
  scat_step0 1664
  scat_step0 1792
  scat_step0 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch0 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone0_zero (X : S8x256.Idx → Elt F .f32) (Hc : S8x2048.Idx → Elt F .f32) : RowsDone0 X Hc 0 Hc :=
  fun p q => (if_neg (fun h => absurd h.1 (Nat.not_lt_zero _))).symm

/-- After the eighth trip, over a buffer whose other columns are the fill, the buffer is the spread of `X`. -/
theorem rowsDone0_full (X : S8x256.Idx → Elt F .f32) (Hc H : S8x2048.Idx → Elt F .f32) (h : RowsDone0 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KI
end
-- ==== Proof.KIScat1.lean ====
import proofs.«217887_g14147622273102_retrytranche1_597_18_alg».proof.Proof.KIChunks
import proofs.«217887_g14147622273102_retrytranche1_597_18_alg».proof.Proof.ScatRow

set_option maxHeartbeats 1000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 1

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone1 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv1 (d : Dev nD) (L : grid0.Coords) (X : S8x256.Idx → Elt F .f32) (Hc : S8x2048.Idx → Elt F .f32) (k : Nat) (_ : BitVec 32) : sProp 𝕄 :=
  iprop((sX1.view.loc (thr d L) ↦{fullShare} X) ∗ ∃ H, (sO1.view.loc (thr d L) ↦{fullShare} H) ∗ ⌜RowsDone1 X Hc k H⌝)

omit [FloatOps F] in
theorem pts_acc1 (d : Dev nD) (L : grid0.Coords) (f : Buf (Elt F) ((thr d L).loc cc0_scratch5)) :
    (((sO1.access (Rect.whole S8x2048)).loc (thr d L) ↦[(sO1.access (Rect.whole S8x2048)).set]{fullShare} f : sProp 𝕄))
      = (sO1.view.loc (thr d L) ↦{fullShare} f) := by
  rw [show (sO1.access (Rect.whole S8x2048)).set = Finset.univ from Memref.set_access_whole (cc0_scratch5 : Ref sig .scVector)]
omit [FloatOps F] in
theorem pts_step1 (d : Dev nD) (L : grid0.Coords) (f w : Buf (Elt F) ((thr d L).loc cc0_scratch5)) :
    (((sO1.access (Rect.whole S8x2048)).loc (thr d L) ↦[(sO1.access (Rect.whole S8x2048)).set]{fullShare}
        (View.write (Elt F) (sO1.access (Rect.whole S8x2048)) f w Finset.univ) : sProp 𝕄))
      = (sO1.view.loc (thr d L) ↦{fullShare} w) := by
  rw [show (sO1.access (Rect.whole S8x2048)).set = Finset.univ from Memref.set_access_whole (cc0_scratch5 : Ref sig .scVector),
    show View.write (Elt F) (sO1.access (Rect.whole S8x2048)) f w Finset.univ = w from Memref.write_access_whole_univ (Elt F) (cc0_scratch5 : Ref sig .scVector) f w]

theorem trips_t2_1 : k0_t2_loop.trips = 8 := by decide
theorem iv_t2_1 : ∀ t : Fin k0_t2_loop.trips, (Scf.iv 0#32 1#32 t.val).toNat = t.val := by decide +kernel

set_option hygiene false in
macro "scat_step1" c:num : tactic => `(tactic| (
  sl_exec (disch := exact hchk (BitVec.ofNat 32 $c) (by decide))
  ihave HO := (Entails.of_eq (pts_acc1 d L _).symm) $$ HO
  iapply (SparseCore.wp_vectorStoreIdx 𝒱₀ (thr d L) none Set.univ (base := sO1)) $$ HO
  iintro HO
  ihave HO := (Entails.of_eq (pts_step1 d L _ _)) $$ HO))

/-- One trip: row `t` is spread. -/
theorem trip1 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv1 d L X Hc t.val a21
      ⊢ wp frame (wpE (defs₀ (F := F)) 𝒱₀ (thr d L) none) Set.univ
          (k0_t2_body L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv1 d L X Hc (t.val + 1) r) := by
  have ht8 : t.val < 8 := trips_t2_1 ▸ t.isLt
  have hr : (Scf.iv 0#32 1#32 t.val).toNat = t.val := iv_t2_1 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch5), View.read (Elt F) (sO1.access (Rect.whole S8x2048)) f = f :=
    fun f => Memref.read_access_whole (Elt F) (cc0_scratch5 : Ref sig .scVector) f
  unfold sinv1 k0_t2_body
  iintro ⟨HX, %H0, HO, %hH0⟩
  scat_step1 0
  scat_step1 128
  scat_step1 256
  scat_step1 384
  scat_step1 512
  scat_step1 640
  scat_step1 768
  scat_step1 896
  scat_step1 1024
  scat_step1 1152
  scat_step1 1280
  scat_step1 1408
  scat_step1 1536
  scat_step1 1664
  scat_step1 1792
  scat_step1 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch1 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone1_zero (X : S8x256.Idx → Elt F .f32) (Hc : S8x2048.Idx → Elt F .f32) : RowsDone1 X Hc 0 Hc :=
  fun p q => (if_neg (fun h => absurd h.1 (Nat.not_lt_zero _))).symm

/-- After the eighth trip, over a buffer whose other columns are the fill, the buffer is the spread of `X`. -/
theorem rowsDone1_full (X : S8x256.Idx → Elt F .f32) (Hc H : S8x2048.Idx → Elt F .f32) (h : RowsDone1 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KI
end
-- ==== Proof.KIScat2.lean ====
import proofs.«217887_g14147622273102_retrytranche1_597_18_alg».proof.Proof.KIChunks
import proofs.«217887_g14147622273102_retrytranche1_597_18_alg».proof.Proof.ScatRow

set_option maxHeartbeats 1000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 2

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone2 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv2 (d : Dev nD) (L : grid0.Coords) (X : S8x256.Idx → Elt F .f32) (Hc : S8x2048.Idx → Elt F .f32) (k : Nat) (_ : BitVec 32) : sProp 𝕄 :=
  iprop((sX2.view.loc (thr d L) ↦{fullShare} X) ∗ ∃ H, (sO2.view.loc (thr d L) ↦{fullShare} H) ∗ ⌜RowsDone2 X Hc k H⌝)

omit [FloatOps F] in
theorem pts_acc2 (d : Dev nD) (L : grid0.Coords) (f : Buf (Elt F) ((thr d L).loc cc0_scratch6)) :
    (((sO2.access (Rect.whole S8x2048)).loc (thr d L) ↦[(sO2.access (Rect.whole S8x2048)).set]{fullShare} f : sProp 𝕄))
      = (sO2.view.loc (thr d L) ↦{fullShare} f) := by
  rw [show (sO2.access (Rect.whole S8x2048)).set = Finset.univ from Memref.set_access_whole (cc0_scratch6 : Ref sig .scVector)]
omit [FloatOps F] in
theorem pts_step2 (d : Dev nD) (L : grid0.Coords) (f w : Buf (Elt F) ((thr d L).loc cc0_scratch6)) :
    (((sO2.access (Rect.whole S8x2048)).loc (thr d L) ↦[(sO2.access (Rect.whole S8x2048)).set]{fullShare}
        (View.write (Elt F) (sO2.access (Rect.whole S8x2048)) f w Finset.univ) : sProp 𝕄))
      = (sO2.view.loc (thr d L) ↦{fullShare} w) := by
  rw [show (sO2.access (Rect.whole S8x2048)).set = Finset.univ from Memref.set_access_whole (cc0_scratch6 : Ref sig .scVector),
    show View.write (Elt F) (sO2.access (Rect.whole S8x2048)) f w Finset.univ = w from Memref.write_access_whole_univ (Elt F) (cc0_scratch6 : Ref sig .scVector) f w]

theorem trips_t2_2 : k0_t2_loop.trips = 8 := by decide
theorem iv_t2_2 : ∀ t : Fin k0_t2_loop.trips, (Scf.iv 0#32 1#32 t.val).toNat = t.val := by decide +kernel

set_option hygiene false in
macro "scat_step2" c:num : tactic => `(tactic| (
  sl_exec (disch := exact hchk (BitVec.ofNat 32 $c) (by decide))
  ihave HO := (Entails.of_eq (pts_acc2 d L _).symm) $$ HO
  iapply (SparseCore.wp_vectorStoreIdx 𝒱₀ (thr d L) none Set.univ (base := sO2)) $$ HO
  iintro HO
  ihave HO := (Entails.of_eq (pts_step2 d L _ _)) $$ HO))

/-- One trip: row `t` is spread. -/
theorem trip2 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv2 d L X Hc t.val a21
      ⊢ wp frame (wpE (defs₀ (F := F)) 𝒱₀ (thr d L) none) Set.univ
          (k0_t2_body L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv2 d L X Hc (t.val + 1) r) := by
  have ht8 : t.val < 8 := trips_t2_2 ▸ t.isLt
  have hr : (Scf.iv 0#32 1#32 t.val).toNat = t.val := iv_t2_2 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch6), View.read (Elt F) (sO2.access (Rect.whole S8x2048)) f = f :=
    fun f => Memref.read_access_whole (Elt F) (cc0_scratch6 : Ref sig .scVector) f
  unfold sinv2 k0_t2_body
  iintro ⟨HX, %H0, HO, %hH0⟩
  scat_step2 0
  scat_step2 128
  scat_step2 256
  scat_step2 384
  scat_step2 512
  scat_step2 640
  scat_step2 768
  scat_step2 896
  scat_step2 1024
  scat_step2 1152
  scat_step2 1280
  scat_step2 1408
  scat_step2 1536
  scat_step2 1664
  scat_step2 1792
  scat_step2 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch2 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone2_zero (X : S8x256.Idx → Elt F .f32) (Hc : S8x2048.Idx → Elt F .f32) : RowsDone2 X Hc 0 Hc :=
  fun p q => (if_neg (fun h => absurd h.1 (Nat.not_lt_zero _))).symm

/-- After the eighth trip, over a buffer whose other columns are the fill, the buffer is the spread of `X`. -/
theorem rowsDone2_full (X : S8x256.Idx → Elt F .f32) (Hc H : S8x2048.Idx → Elt F .f32) (h : RowsDone2 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KI
end
-- ==== Proof.KIScat3.lean ====
import proofs.«217887_g14147622273102_retrytranche1_597_18_alg».proof.Proof.KIChunks
import proofs.«217887_g14147622273102_retrytranche1_597_18_alg».proof.Proof.ScatRow

set_option maxHeartbeats 1000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 3

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone3 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv3 (d : Dev nD) (L : grid0.Coords) (X : S8x256.Idx → Elt F .f32) (Hc : S8x2048.Idx → Elt F .f32) (k : Nat) (_ : BitVec 32) : sProp 𝕄 :=
  iprop((sX3.view.loc (thr d L) ↦{fullShare} X) ∗ ∃ H, (sO3.view.loc (thr d L) ↦{fullShare} H) ∗ ⌜RowsDone3 X Hc k H⌝)

omit [FloatOps F] in
theorem pts_acc3 (d : Dev nD) (L : grid0.Coords) (f : Buf (Elt F) ((thr d L).loc cc0_scratch7)) :
    (((sO3.access (Rect.whole S8x2048)).loc (thr d L) ↦[(sO3.access (Rect.whole S8x2048)).set]{fullShare} f : sProp 𝕄))
      = (sO3.view.loc (thr d L) ↦{fullShare} f) := by
  rw [show (sO3.access (Rect.whole S8x2048)).set = Finset.univ from Memref.set_access_whole (cc0_scratch7 : Ref sig .scVector)]
omit [FloatOps F] in
theorem pts_step3 (d : Dev nD) (L : grid0.Coords) (f w : Buf (Elt F) ((thr d L).loc cc0_scratch7)) :
    (((sO3.access (Rect.whole S8x2048)).loc (thr d L) ↦[(sO3.access (Rect.whole S8x2048)).set]{fullShare}
        (View.write (Elt F) (sO3.access (Rect.whole S8x2048)) f w Finset.univ) : sProp 𝕄))
      = (sO3.view.loc (thr d L) ↦{fullShare} w) := by
  rw [show (sO3.access (Rect.whole S8x2048)).set = Finset.univ from Memref.set_access_whole (cc0_scratch7 : Ref sig .scVector),
    show View.write (Elt F) (sO3.access (Rect.whole S8x2048)) f w Finset.univ = w from Memref.write_access_whole_univ (Elt F) (cc0_scratch7 : Ref sig .scVector) f w]

theorem trips_t2_3 : k0_t2_loop.trips = 8 := by decide
theorem iv_t2_3 : ∀ t : Fin k0_t2_loop.trips, (Scf.iv 0#32 1#32 t.val).toNat = t.val := by decide +kernel

set_option hygiene false in
macro "scat_step3" c:num : tactic => `(tactic| (
  sl_exec (disch := exact hchk (BitVec.ofNat 32 $c) (by decide))
  ihave HO := (Entails.of_eq (pts_acc3 d L _).symm) $$ HO
  iapply (SparseCore.wp_vectorStoreIdx 𝒱₀ (thr d L) none Set.univ (base := sO3)) $$ HO
  iintro HO
  ihave HO := (Entails.of_eq (pts_step3 d L _ _)) $$ HO))

/-- One trip: row `t` is spread. -/
theorem trip3 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv3 d L X Hc t.val a21
      ⊢ wp frame (wpE (defs₀ (F := F)) 𝒱₀ (thr d L) none) Set.univ
          (k0_t2_body L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv3 d L X Hc (t.val + 1) r) := by
  have ht8 : t.val < 8 := trips_t2_3 ▸ t.isLt
  have hr : (Scf.iv 0#32 1#32 t.val).toNat = t.val := iv_t2_3 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch7), View.read (Elt F) (sO3.access (Rect.whole S8x2048)) f = f :=
    fun f => Memref.read_access_whole (Elt F) (cc0_scratch7 : Ref sig .scVector) f
  unfold sinv3 k0_t2_body
  iintro ⟨HX, %H0, HO, %hH0⟩
  scat_step3 0
  scat_step3 128
  scat_step3 256
  scat_step3 384
  scat_step3 512
  scat_step3 640
  scat_step3 768
  scat_step3 896
  scat_step3 1024
  scat_step3 1152
  scat_step3 1280
  scat_step3 1408
  scat_step3 1536
  scat_step3 1664
  scat_step3 1792
  scat_step3 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch3 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone3_zero (X : S8x256.Idx → Elt F .f32) (Hc : S8x2048.Idx → Elt F .f32) : RowsDone3 X Hc 0 Hc :=
  fun p q => (if_neg (fun h => absurd h.1 (Nat.not_lt_zero _))).symm

/-- After the eighth trip, over a buffer whose other columns are the fill, the buffer is the spread of `X`. -/
theorem rowsDone3_full (X : S8x256.Idx → Elt F .f32) (Hc H : S8x2048.Idx → Elt F .f32) (h : RowsDone3 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KI
end
-- ==== Proof.KIPerm.lean ====
/-
  The twelve scatter loops have one trip.

  The kernel spreads its four input banks into its four output banks in twelve counted loops: four before the
  main loop, four inside it and four after it, one per bank each time. Every one of them runs the same trip —
  read sixteen lanes of the input bank, store them at every eighth column of the output bank — and differs from
  the first loop's only in which bank's two buffers it addresses. Each equation below says so for one loop: its
  trip, at the buffers the tile holds, is the first loop's trip with bank `j`'s input and output buffer in the
  first bank's places. The values a loop is handed but does not read stay universally quantified.
-/
import proofs.«217887_g14147622273102_retrytranche1_597_18_alg».proof.Proof.KITileRes

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-- Loop `k0_t3`'s trip (bank 1) is loop `k0_t2`'s trip at bank 1's two buffers. -/
theorem body3_eq (L : grid0.Coords) (v2 : BitVec 32) (v5 v6 : IVec S16 32) (c16 c17 c18 : BitVec 32) :
    k0_t3_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 c17 c18
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t4`'s trip (bank 2) is loop `k0_t2`'s trip at bank 2's two buffers. -/
theorem body4_eq (L : grid0.Coords) (v2 : BitVec 32) (v5 v6 : IVec S16 32) (c16 c17 c18 : BitVec 32) :
    k0_t4_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 c17 c18
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t5`'s trip (bank 3) is loop `k0_t2`'s trip at bank 3's two buffers. -/
theorem body5_eq (c16 c18 : BitVec 32) (L : grid0.Coords) (v2 : BitVec 32) (v5 v6 : IVec S16 32) :
    k0_t5_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t7`'s trip (bank 0) is loop `k0_t2`'s trip at bank 0's two buffers. -/
theorem body7_eq (c16 c18 : BitVec 32) (L : grid0.Coords) (v2 : BitVec 32) (v5 v6 : IVec S16 32) (c66 c67 : BitVec 32) (k6 : Fin k0_t6_loop.trips) :
    k0_t7_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c66 c67 k6
      = k0_t2_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t8`'s trip (bank 1) is loop `k0_t2`'s trip at bank 1's two buffers. -/
theorem body8_eq (c16 c18 : BitVec 32) (L : grid0.Coords) (v2 : BitVec 32) (v5 v6 : IVec S16 32) (k6 : Fin k0_t6_loop.trips) (v124 v146 v151 : BitVec 32) :
    k0_t8_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v146 v151
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t9`'s trip (bank 2) is loop `k0_t2`'s trip at bank 2's two buffers. -/
theorem body9_eq (c16 c18 : BitVec 32) (L : grid0.Coords) (v2 : BitVec 32) (v5 v6 : IVec S16 32) (k6 : Fin k0_t6_loop.trips) (v124 v146 v151 : BitVec 32) :
    k0_t9_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v146 v151
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t10`'s trip (bank 3) is loop `k0_t2`'s trip at bank 3's two buffers. -/
theorem body10_eq (c16 c18 : BitVec 32) (L : grid0.Coords) (v2 : BitVec 32) (v5 v6 : IVec S16 32) (k6 : Fin k0_t6_loop.trips) (v124 v167 : BitVec 32) :
    k0_t10_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v167
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t11`'s trip (bank 0) is loop `k0_t2`'s trip at bank 0's two buffers. -/
theorem body11_eq (c16 c18 : BitVec 32) (L : grid0.Coords) (v2 : BitVec 32) (v5 v6 : IVec S16 32) :
    k0_t11_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t12`'s trip (bank 1) is loop `k0_t2`'s trip at bank 1's two buffers. -/
theorem body12_eq (c16 c18 : BitVec 32) (L : grid0.Coords) (v2 : BitVec 32) (v5 v6 : IVec S16 32) :
    k0_t12_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t13`'s trip (bank 2) is loop `k0_t2`'s trip at bank 2's two buffers. -/
theorem body13_eq (c16 c18 : BitVec 32) (L : grid0.Coords) (v2 : BitVec 32) (v5 v6 : IVec S16 32) (c97 : BitVec 32) :
    k0_t13_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c97
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t14`'s trip (bank 3) is loop `k0_t2`'s trip at bank 3's two buffers. -/
theorem body14_eq (c16 c18 : BitVec 32) (L : grid0.Coords) (v2 : BitVec 32) (v5 v6 : IVec S16 32) (c97 : BitVec 32) :
    k0_t14_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c97
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

end Cert.Proof.KI
end
-- ==== Proof.Pieces.lean ====
/-
  Bookkeeping of 64 numbered pieces handled four at a time in 16 stages, as EQUALITIES of iterated separating
  conjunctions: stage s handles pieces 4s, …, 4s + 3. Four index sets — the input pieces in hand at the start of stage s
  (all but 4s … 4s + 3), the same with the next four also removed, the result pieces done (below 4(s − 1)) and
  the result pieces still to do (from 4s on) — and how each changes when four pieces are taken out or put back.
-/
import Idealize.SL.ProofMode.BigOp

namespace Cert.Proof.Pieces

open Idealize.SL
open Idealize.SL.BI (sProp bigSep bigSep_insert bigSep_congr bigSep_map)
open scoped Idealize.SL.BI
open Idealize.SL.BI.BIBase Idealize.SL.BI.Laws
open Idealize.SL.RA Idealize.SL.ProofMode

/-- All 64 pieces but 4s, …, 4s + 3. -/
def inHand (s : ℕ) : Finset ℕ := (Finset.range 64).filter fun n => ¬ (4 * s ≤ n ∧ n < 4 * s + 4)
/-- All 64 pieces but 4s, …, 4s + 7. -/
def inRest (s : ℕ) : Finset ℕ := (Finset.range 64).filter fun n => ¬ (4 * s ≤ n ∧ n < 4 * s + 8)
/-- The pieces below 4(s − 1), written without subtraction. -/
def «done» (s : ℕ) : Finset ℕ := (Finset.range 64).filter fun n => n + 4 < 4 * s
/-- The pieces from 4s on. -/
def todo (s : ℕ) : Finset ℕ := (Finset.range 64).filter fun n => 4 * s ≤ n

theorem mem_inHand {s n : ℕ} : n ∈ inHand s ↔ n < 64 ∧ ¬ (4 * s ≤ n ∧ n < 4 * s + 4) := by
  unfold inHand; rw [Finset.mem_filter, Finset.mem_range]
theorem mem_inRest {s n : ℕ} : n ∈ inRest s ↔ n < 64 ∧ ¬ (4 * s ≤ n ∧ n < 4 * s + 8) := by
  unfold inRest; rw [Finset.mem_filter, Finset.mem_range]
theorem mem_done {s n : ℕ} : n ∈ Pieces.done s ↔ n < 64 ∧ n + 4 < 4 * s := by
  unfold Pieces.done; rw [Finset.mem_filter, Finset.mem_range]
theorem mem_todo {s n : ℕ} : n ∈ todo s ↔ n < 64 ∧ 4 * s ≤ n := by
  unfold todo; rw [Finset.mem_filter, Finset.mem_range]

/-! ### The two ends -/

theorem todo_16 : todo 16 = ∅ := by
  ext n
  constructor
  · intro h; rw [mem_todo] at h; omega
  · intro h; exact absurd h (Finset.notMem_empty n)
theorem done_1 : Pieces.done 1 = ∅ := by
  ext n
  constructor
  · intro h; rw [mem_done] at h; omega
  · intro h; exact absurd h (Finset.notMem_empty n)
theorem done_17 : Pieces.done 17 = Finset.range 64 := by
  ext n; rw [mem_done, Finset.mem_range]; omega
/-- At the very end nothing is lent. -/
theorem inHand_16 : inHand 16 = Finset.range 64 := by
  ext n; rw [mem_inHand, Finset.mem_range]; omega
theorem todo_0 : todo 0 = Finset.range 64 := by
  ext n; rw [mem_todo, Finset.mem_range]; omega

section
variable {M : Type} [URA M] {Φ : ℕ → sProp M}

/-- Four distinct pieces a, b, c, d outside T, and S the set T with the four added: the conjunction over S is the four
    pieces' assertions and the conjunction over T. -/
theorem take4 {S T : Finset ℕ} {a b c d : ℕ} (hab : a ≠ b) (hac : a ≠ c) (had : a ≠ d) (hbc : b ≠ c) (hbd : b ≠ d)
    (hcd : c ≠ d) (haT : a ∉ T) (hbT : b ∉ T) (hcT : c ∉ T) (hdT : d ∉ T)
    (hS : S = insert a (insert b (insert c (insert d T)))) :
    bigSep S Φ = iprop(Φ a ∗ Φ b ∗ Φ c ∗ Φ d ∗ bigSep T Φ) := by
  subst hS
  have h3 : c ∉ insert d T := by
    rw [Finset.mem_insert, not_or]; exact ⟨hcd, hcT⟩
  have h2 : b ∉ insert c (insert d T) := by
    rw [Finset.mem_insert, Finset.mem_insert, not_or, not_or]; exact ⟨hbc, hbd, hbT⟩
  have h1 : a ∉ insert b (insert c (insert d T)) := by
    rw [Finset.mem_insert, Finset.mem_insert, Finset.mem_insert, not_or, not_or, not_or]; exact ⟨hab, hac, had, haT⟩
  rw [bigSep_insert h1, bigSep_insert h2, bigSep_insert h3, bigSep_insert hdT] <;> rfl

/-- Stage s (s ≤ 14) takes the next four input pieces 4s + 4, …, 4s + 7 out of the hand. -/
theorem inHand_take (s : ℕ) (hs : s ≤ 14) :
    bigSep (inHand s) Φ = iprop(Φ (4*s+4) ∗ Φ (4*s+5) ∗ Φ (4*s+6) ∗ Φ (4*s+7) ∗ bigSep (inRest s) Φ) := by
  refine take4 (by omega) (by omega) (by omega) (by omega) (by omega) (by omega) ?_ ?_ ?_ ?_ ?_
  · rw [mem_inRest]; omega
  · rw [mem_inRest]; omega
  · rw [mem_inRest]; omega
  · rw [mem_inRest]; omega
  · ext n
    rw [mem_inHand, Finset.mem_insert, Finset.mem_insert, Finset.mem_insert, Finset.mem_insert, mem_inRest]
    omega

/-- Stage s (s ≤ 14) gets its own four input pieces 4s, …, 4s + 3 back: the hand at the start of stage s + 1. -/
theorem inHand_give (s : ℕ) (hs : s ≤ 14) :
    iprop(Φ (4*s) ∗ Φ (4*s+1) ∗ Φ (4*s+2) ∗ Φ (4*s+3) ∗ bigSep (inRest s) Φ) = bigSep (inHand (s+1)) Φ := by
  refine (take4 (by omega) (by omega) (by omega) (by omega) (by omega) (by omega) ?_ ?_ ?_ ?_ ?_).symm
  · rw [mem_inRest]; omega
  · rw [mem_inRest]; omega
  · rw [mem_inRest]; omega
  · rw [mem_inRest]; omega
  · ext n
    rw [mem_inHand, Finset.mem_insert, Finset.mem_insert, Finset.mem_insert, Finset.mem_insert, mem_inRest]
    omega

/-- Stage s (s ≤ 15) takes its four result pieces 4s, …, 4s + 3 from the pieces still to do. -/
theorem todo_take (s : ℕ) (hs : s ≤ 15) :
    bigSep (todo s) Φ = iprop(Φ (4*s) ∗ Φ (4*s+1) ∗ Φ (4*s+2) ∗ Φ (4*s+3) ∗ bigSep (todo (s+1)) Φ) := by
  refine take4 (by omega) (by omega) (by omega) (by omega) (by omega) (by omega) ?_ ?_ ?_ ?_ ?_
  · rw [mem_todo]; omega
  · rw [mem_todo]; omega
  · rw [mem_todo]; omega
  · rw [mem_todo]; omega
  · ext n
    rw [mem_todo, Finset.mem_insert, Finset.mem_insert, Finset.mem_insert, Finset.mem_insert, mem_todo]
    omega

/-- Stage s (1 ≤ s ≤ 16) puts the previous stage's four result pieces 4s − 4, …, 4s − 1 with the pieces done. -/
theorem done_give (s : ℕ) (hs : 1 ≤ s) (hs' : s ≤ 16) :
    iprop(Φ (4*s-4) ∗ Φ (4*s-3) ∗ Φ (4*s-2) ∗ Φ (4*s-1) ∗ bigSep (Pieces.done s) Φ) = bigSep (Pieces.done (s+1)) Φ := by
  refine (take4 (by omega) (by omega) (by omega) (by omega) (by omega) (by omega) ?_ ?_ ?_ ?_ ?_).symm
  · rw [mem_done]; omega
  · rw [mem_done]; omega
  · rw [mem_done]; omega
  · rw [mem_done]; omega
  · ext n
    rw [mem_done, Finset.mem_insert, Finset.mem_insert, Finset.mem_insert, Finset.mem_insert, mem_done]
    omega

/-- At the start the first four input pieces are taken out of all 64: what is left is the hand of stage 0. -/
theorem range_start :
    bigSep (Finset.range 64) Φ = iprop(Φ 0 ∗ Φ 1 ∗ Φ 2 ∗ Φ 3 ∗ bigSep (inHand 0) Φ) := by
  refine take4 (by omega) (by omega) (by omega) (by omega) (by omega) (by omega) ?_ ?_ ?_ ?_ ?_
  · rw [mem_inHand]; omega
  · rw [mem_inHand]; omega
  · rw [mem_inHand]; omega
  · rw [mem_inHand]; omega
  · ext n
    rw [Finset.mem_range, Finset.mem_insert, Finset.mem_insert, Finset.mem_insert, Finset.mem_insert, mem_inHand]
    omega

/-- At the end the last four input pieces 60, …, 63 come back to the hand of stage 15: all 64. -/
theorem inHand_last :
    iprop(Φ 60 ∗ Φ 61 ∗ Φ 62 ∗ Φ 63 ∗ bigSep (inHand 15) Φ) = bigSep (Finset.range 64) Φ := by
  refine (take4 (by omega) (by omega) (by omega) (by omega) (by omega) (by omega) ?_ ?_ ?_ ?_ ?_).symm
  · rw [mem_inHand]; omega
  · rw [mem_inHand]; omega
  · rw [mem_inHand]; omega
  · rw [mem_inHand]; omega
  · ext n
    rw [Finset.mem_range, Finset.mem_insert, Finset.mem_insert, Finset.mem_insert, Finset.mem_insert, mem_inHand]
    omega

/-- A conjunction over the 64 indices as elements of Fin 64 is the conjunction over the numbers below 64. -/
theorem fin64 {Ψ : Fin 64 → sProp M} :
    bigSep (Finset.univ : Finset (Fin 64)) Ψ
      = bigSep (Finset.range 64) (fun n => if h : n < 64 then Ψ ⟨n, h⟩ else iprop(emp)) := by
  have hmap : (Finset.univ : Finset (Fin 64)).map Fin.valEmbedding = Finset.range 64 := by
    ext n
    constructor
    · intro hn
      obtain ⟨i, _, rfl⟩ := Finset.mem_map.mp hn
      exact Finset.mem_range.mpr i.isLt
    · intro hn
      exact Finset.mem_map.mpr ⟨⟨n, Finset.mem_range.mp hn⟩, Finset.mem_univ _, rfl⟩
  rw [← hmap, bigSep_map]
  refine bigSep_congr (fun i _ => ?_)
  show Ψ i = (if h : i.val < 64 then Ψ ⟨i.val, h⟩ else iprop(emp))
  rw [dif_pos i.isLt]

/-- The summand of that conjunction at an index in range. -/
theorem pick (n : ℕ) (h : n < 64) {Ψ : Fin 64 → sProp M} :
    (fun n => if h : n < 64 then Ψ ⟨n, h⟩ else iprop(emp)) n = Ψ ⟨n, h⟩ := dif_pos h

end

end Cert.Proof.Pieces
-- ==== Proof.KIInvDefs.lean ====
import proofs.«217887_g14147622273102_retrytranche1_597_18_alg».proof.Proof.KIChunks
import proofs.«217887_g14147622273102_retrytranche1_597_18_alg».proof.Proof.Pieces

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## The pipeline's invariant: chunk pieces and transfers in flight

A task moves its 64 chunks in 16 stages of four banks; stage `s` handles chunks `4·s + b`. Between stages the
input chunks of the coming stage are in flight into the bank buffers, the result chunks of the stage just done are in
flight out of them, every other input chunk is in hand at the flattened input's contents, the result chunks of earlier
stages hold the spread, and the later ones anything. -/

variable (m : (ℓ : Loc nD τ sig) → Buf (Elt F) ℓ) (d : Dev nD) (L : grid0.Coords)

/-- Input chunk `n` of this task, in hand at the flattened input's contents (nothing past 63). -/
def XP (n : ℕ) : sProp 𝕄 := if h : n < 64 then (xLoc d ↦[xSet (wL L) ⟨n, h⟩]{fullShare} X2 m d) else iprop(emp)
/-- Result chunk `n` at anything. -/
def OE (n : ℕ) : sProp 𝕄 := if h : n < 64 then iprop(∃ f, oLoc d ↦[oSet (wL L) ⟨n, h⟩]{fullShare} f) else iprop(emp)
/-- Result chunk `n` at the spread. -/
def OG (n : ℕ) : sProp 𝕄 := if h : n < 64 then (oLoc d ↦[oSet (wL L) ⟨n, h⟩]{fullShare} G2 m d) else iprop(emp)
/-- Input chunk `n` as an 8 × 256 block. -/
def CX (n : ℕ) : S8x256.Idx → Elt F .f32 := if h : n < 64 then chunkX m d (wL L) ⟨n, h⟩ else fun _ => zF (F := F)

theorem XP_eq (n : ℕ) (h : n < 64) : XP m d L n = (xLoc d ↦[xSet (wL L) ⟨n, h⟩]{fullShare} X2 m d) := dif_pos h
theorem OE_eq (n : ℕ) (h : n < 64) : OE (F := F) d L n = iprop(∃ f, oLoc d ↦[oSet (wL L) ⟨n, h⟩]{fullShare} f) := dif_pos h
theorem OG_eq (n : ℕ) (h : n < 64) : OG m d L n = (oLoc d ↦[oSet (wL L) ⟨n, h⟩]{fullShare} G2 m d) := dif_pos h
theorem CX_eq (n : ℕ) (h : n < 64) : CX m d L n = chunkX m d (wL L) ⟨n, h⟩ := dif_pos h

/-- Input chunk `n` in flight into bank `J`'s input buffer on semaphore `q`: when it lands the buffer holds the chunk and the chunk is in hand again. -/
def FlIn (q : DmaSem sig) : Fin 4 → ℕ → sProp 𝕄
  | 0, n => Transfers.Flight countersEmb (thr d L) (SemLoc.dma q) default 65536
      iprop((sX0.view.loc (thr d L) ↦{fullShare} CX m d L n) ∗ XP m d L n)
  | 1, n => Transfers.Flight countersEmb (thr d L) (SemLoc.dma q) default 65536
      iprop((sX1.view.loc (thr d L) ↦{fullShare} CX m d L n) ∗ XP m d L n)
  | 2, n => Transfers.Flight countersEmb (thr d L) (SemLoc.dma q) default 65536
      iprop((sX2.view.loc (thr d L) ↦{fullShare} CX m d L n) ∗ XP m d L n)
  | 3, n => Transfers.Flight countersEmb (thr d L) (SemLoc.dma q) default 65536
      iprop((sX3.view.loc (thr d L) ↦{fullShare} CX m d L n) ∗ XP m d L n)
/-- Result chunk `n` in flight out of bank `J`'s output buffer on semaphore `q`: when it lands the chunk holds the spread and the buffer is back, at the spread of input chunk `n`. -/
def FlOut (q : DmaSem sig) : Fin 4 → ℕ → sProp 𝕄
  | 0, n => Transfers.Flight countersEmb (thr d L) (SemLoc.dma q) default 524288
      iprop(OG m d L n ∗ (sO0.view.loc (thr d L) ↦{fullShare} spreadB (CX m d L n)))
  | 1, n => Transfers.Flight countersEmb (thr d L) (SemLoc.dma q) default 524288
      iprop(OG m d L n ∗ (sO1.view.loc (thr d L) ↦{fullShare} spreadB (CX m d L n)))
  | 2, n => Transfers.Flight countersEmb (thr d L) (SemLoc.dma q) default 524288
      iprop(OG m d L n ∗ (sO2.view.loc (thr d L) ↦{fullShare} spreadB (CX m d L n)))
  | 3, n => Transfers.Flight countersEmb (thr d L) (SemLoc.dma q) default 524288
      iprop(OG m d L n ∗ (sO3.view.loc (thr d L) ↦{fullShare} spreadB (CX m d L n)))
theorem FlIn_0 (q : DmaSem sig) (n : ℕ) : FlIn m d L q 0 n = Transfers.Flight countersEmb (thr d L) (SemLoc.dma q) default 65536
    iprop((sX0.view.loc (thr d L) ↦{fullShare} CX m d L n) ∗ XP m d L n) := rfl
theorem FlOut_0 (q : DmaSem sig) (n : ℕ) : FlOut m d L q 0 n = Transfers.Flight countersEmb (thr d L) (SemLoc.dma q) default 524288
    iprop(OG m d L n ∗ (sO0.view.loc (thr d L) ↦{fullShare} spreadB (CX m d L n))) := rfl
theorem FlIn_1 (q : DmaSem sig) (n : ℕ) : FlIn m d L q 1 n = Transfers.Flight countersEmb (thr d L) (SemLoc.dma q) default 65536
    iprop((sX1.view.loc (thr d L) ↦{fullShare} CX m d L n) ∗ XP m d L n) := rfl
theorem FlOut_1 (q : DmaSem sig) (n : ℕ) : FlOut m d L q 1 n = Transfers.Flight countersEmb (thr d L) (SemLoc.dma q) default 524288
    iprop(OG m d L n ∗ (sO1.view.loc (thr d L) ↦{fullShare} spreadB (CX m d L n))) := rfl
theorem FlIn_2 (q : DmaSem sig) (n : ℕ) : FlIn m d L q 2 n = Transfers.Flight countersEmb (thr d L) (SemLoc.dma q) default 65536
    iprop((sX2.view.loc (thr d L) ↦{fullShare} CX m d L n) ∗ XP m d L n) := rfl
theorem FlOut_2 (q : DmaSem sig) (n : ℕ) : FlOut m d L q 2 n = Transfers.Flight countersEmb (thr d L) (SemLoc.dma q) default 524288
    iprop(OG m d L n ∗ (sO2.view.loc (thr d L) ↦{fullShare} spreadB (CX m d L n))) := rfl
theorem FlIn_3 (q : DmaSem sig) (n : ℕ) : FlIn m d L q 3 n = Transfers.Flight countersEmb (thr d L) (SemLoc.dma q) default 65536
    iprop((sX3.view.loc (thr d L) ↦{fullShare} CX m d L n) ∗ XP m d L n) := rfl
theorem FlOut_3 (q : DmaSem sig) (n : ℕ) : FlOut m d L q 3 n = Transfers.Flight countersEmb (thr d L) (SemLoc.dma q) default 524288
    iprop(OG m d L n ∗ (sO3.view.loc (thr d L) ↦{fullShare} spreadB (CX m d L n))) := rfl

open Cert.Proof.Pieces in
/-- Before trip `t` of the main loop (stage `t + 1`). -/
def minv (O : CellTallies nD τ sig (HIx 1)) (W : Waits sig (HIx 1)) (t : ℕ) (_ : BitVec 32) : sProp 𝕄 :=
  iprop(Transfers.MayWaits (thr d L) none O
    ∗ bigSep (inHand (t + 1)) (XP m d L) ∗ bigSep (Cert.Proof.Pieces.done (t + 1)) (OG m d L) ∗ bigSep (todo (t + 1)) (OE (F := F) d L)
    ∗ FlIn m d L q0 0 (4 * (t + 1)) ∗ FlIn m d L q1 1 (4 * (t + 1) + 1) ∗ FlIn m d L q2 2 (4 * (t + 1) + 2) ∗ FlIn m d L q3 3 (4 * (t + 1) + 3)
    ∗ FlOut m d L q4 0 (4 * t) ∗ FlOut m d L q5 1 (4 * t + 1) ∗ FlOut m d L q6 2 (4 * t + 2) ∗ FlOut m d L q7 3 (4 * t + 3)
    ∗ ∃ W', ⌜∀ p ∈ W', p ∈ W ∨ p.2 = none⌝ ∗ owes (thr d L) O W')

end Cert.Proof.KI
end
-- ==== Proof.KIInv.lean ====
/-
  The pipeline's vocabulary, made usable: what a copy into an input bank and a copy out of an output bank leave in
  flight are the chunk-in-flight assertions of the invariant, and the task's hand-over and hand-back are the
  conjunctions of the per-chunk assertions over the 64 chunk numbers.
-/
import proofs.«217887_g14147622273102_retrytranche1_597_18_alg».proof.Proof.KIInvDefs

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

variable (m : (ℓ : Loc nD τ sig) → Buf (Elt F) ℓ) (d : Dev nD) (L : grid0.Coords)

/-! ## The two canonicalisations

What an in-copy leaves in flight — the bank written whole with the payload, beside the source's assertion P — is
the chunk in flight into the bank, once P is the chunk of the flattened input and the payload is the chunk's block;
likewise what an out-copy leaves — the destination's assertion P beside the bank on its own element set — is the
result chunk in flight out of the bank, once P is the chunk of the flat result at the spread of the flattened input. A
whole buffer's view writes over everything and covers every element. -/

theorem flIn_of0 (q : DmaSem sig) (n : ℕ) (h : n < 64) (P : sProp 𝕄)
    (hP : P = (xLoc d ↦[xSet (wL L) ⟨n, h⟩]{fullShare} X2 m d))
    (bprev : Buf (Elt F) (sX0.view.loc (thr d L))) (pay : S8x256.Idx → Elt F .f32)
    (hpay : pay = chunkX m d (wL L) ⟨n, h⟩) :
    (Transfers.Flight countersEmb (thr d L) (SemLoc.dma q) default 65536
        iprop((sX0.view.loc (thr d L) ↦{fullShare} sX0.view.write (Elt F) bprev pay Finset.univ) ∗ P) : sProp 𝕄)
      ⊢ FlIn m d L q 0 n := by
  subst hP hpay
  have hw : sX0.view.write (Elt F) bprev (chunkX m d (wL L) ⟨n, h⟩) Finset.univ = chunkX m d (wL L) ⟨n, h⟩ :=
    View.write_whole_univ cc0_scratch0 bprev _
  rw [FlIn_0, CX_eq m d L n h, XP_eq m d L n h, hw]

theorem flIn_of1 (q : DmaSem sig) (n : ℕ) (h : n < 64) (P : sProp 𝕄)
    (hP : P = (xLoc d ↦[xSet (wL L) ⟨n, h⟩]{fullShare} X2 m d))
    (bprev : Buf (Elt F) (sX1.view.loc (thr d L))) (pay : S8x256.Idx → Elt F .f32)
    (hpay : pay = chunkX m d (wL L) ⟨n, h⟩) :
    (Transfers.Flight countersEmb (thr d L) (SemLoc.dma q) default 65536
        iprop((sX1.view.loc (thr d L) ↦{fullShare} sX1.view.write (Elt F) bprev pay Finset.univ) ∗ P) : sProp 𝕄)
      ⊢ FlIn m d L q 1 n := by
  subst hP hpay
  have hw : sX1.view.write (Elt F) bprev (chunkX m d (wL L) ⟨n, h⟩) Finset.univ = chunkX m d (wL L) ⟨n, h⟩ :=
    View.write_whole_univ cc0_scratch1 bprev _
  rw [FlIn_1, CX_eq m d L n h, XP_eq m d L n h, hw]

theorem flIn_of2 (q : DmaSem sig) (n : ℕ) (h : n < 64) (P : sProp 𝕄)
    (hP : P = (xLoc d ↦[xSet (wL L) ⟨n, h⟩]{fullShare} X2 m d))
    (bprev : Buf (Elt F) (sX2.view.loc (thr d L))) (pay : S8x256.Idx → Elt F .f32)
    (hpay : pay = chunkX m d (wL L) ⟨n, h⟩) :
    (Transfers.Flight countersEmb (thr d L) (SemLoc.dma q) default 65536
        iprop((sX2.view.loc (thr d L) ↦{fullShare} sX2.view.write (Elt F) bprev pay Finset.univ) ∗ P) : sProp 𝕄)
      ⊢ FlIn m d L q 2 n := by
  subst hP hpay
  have hw : sX2.view.write (Elt F) bprev (chunkX m d (wL L) ⟨n, h⟩) Finset.univ = chunkX m d (wL L) ⟨n, h⟩ :=
    View.write_whole_univ cc0_scratch2 bprev _
  rw [FlIn_2, CX_eq m d L n h, XP_eq m d L n h, hw]

theorem flIn_of3 (q : DmaSem sig) (n : ℕ) (h : n < 64) (P : sProp 𝕄)
    (hP : P = (xLoc d ↦[xSet (wL L) ⟨n, h⟩]{fullShare} X2 m d))
    (bprev : Buf (Elt F) (sX3.view.loc (thr d L))) (pay : S8x256.Idx → Elt F .f32)
    (hpay : pay = chunkX m d (wL L) ⟨n, h⟩) :
    (Transfers.Flight countersEmb (thr d L) (SemLoc.dma q) default 65536
        iprop((sX3.view.loc (thr d L) ↦{fullShare} sX3.view.write (Elt F) bprev pay Finset.univ) ∗ P) : sProp 𝕄)
      ⊢ FlIn m d L q 3 n := by
  subst hP hpay
  have hw : sX3.view.write (Elt F) bprev (chunkX m d (wL L) ⟨n, h⟩) Finset.univ = chunkX m d (wL L) ⟨n, h⟩ :=
    View.write_whole_univ cc0_scratch3 bprev _
  rw [FlIn_3, CX_eq m d L n h, XP_eq m d L n h, hw]

theorem flOut_of0 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO0.view.loc (thr d L) ↦[sO0.view.set]{fullShare} spreadB X)) : sProp 𝕄)
      ⊢ FlOut m d L q 0 n := by
  subst hP hX
  rw [FlOut_0, OG_eq m d L n h, show sO0.view.set = Finset.univ from View.set_whole cc0_scratch4]

theorem flOut_of1 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO1.view.loc (thr d L) ↦[sO1.view.set]{fullShare} spreadB X)) : sProp 𝕄)
      ⊢ FlOut m d L q 1 n := by
  subst hP hX
  rw [FlOut_1, OG_eq m d L n h, show sO1.view.set = Finset.univ from View.set_whole cc0_scratch5]

theorem flOut_of2 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO2.view.loc (thr d L) ↦[sO2.view.set]{fullShare} spreadB X)) : sProp 𝕄)
      ⊢ FlOut m d L q 2 n := by
  subst hP hX
  rw [FlOut_2, OG_eq m d L n h, show sO2.view.set = Finset.univ from View.set_whole cc0_scratch6]

theorem flOut_of3 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO3.view.loc (thr d L) ↦[sO3.view.set]{fullShare} spreadB X)) : sProp 𝕄)
      ⊢ FlOut m d L q 3 n := by
  subst hP hX
  rw [FlOut_3, OG_eq m d L n h, show sO3.view.set = Finset.univ from View.set_whole cc0_scratch7]

/-! ## The ends: what the task is handed, and what it hands back, chunk family by chunk family -/

theorem goRes_split :
    goRes m d (wL L) = iprop(bigSep (Finset.range 64) (XP m d L) ∗ bigSep (Finset.range 64) (OE (F := F) d L)) := by
  unfold goRes
  rw [Cert.Proof.Pieces.fin64, ← bigSep_sep']
  refine bigSep_congr (fun n hn => ?_)
  have h : n < 64 := Finset.mem_range.mp hn
  simp only [dif_pos h, XP_eq m d L n h, OE_eq d L n h]

theorem tdRes_join :
    iprop(bigSep (Finset.range 64) (XP m d L) ∗ bigSep (Finset.range 64) (OG m d L)) = tdRes m d (wL L) := by
  unfold tdRes
  rw [Cert.Proof.Pieces.fin64, ← bigSep_sep']
  refine bigSep_congr (fun n hn => ?_)
  have h : n < 64 := Finset.mem_range.mp hn
  simp only [dif_pos h, XP_eq m d L n h, OG_eq m d L n h]

end Cert.Proof.KI
end
-- ==== Proof.KIMain.lean ====
import proofs.«217887_g14147622273102_retrytranche1_597_18_alg».proof.Proof.KIInv
import proofs.«217887_g14147622273102_retrytranche1_597_18_alg».proof.Proof.KIScat0
import proofs.«217887_g14147622273102_retrytranche1_597_18_alg».proof.Proof.KIScat1
import proofs.«217887_g14147622273102_retrytranche1_597_18_alg».proof.Proof.KIScat2
import proofs.«217887_g14147622273102_retrytranche1_597_18_alg».proof.Proof.KIScat3
import proofs.«217887_g14147622273102_retrytranche1_597_18_alg».proof.Proof.KIPerm

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
variable (m : (ℓ : Loc nD τ sig) → Buf (Elt F) ℓ)
open Cert.Proof.Pieces
local notation "𝕄" => MT nD τ sig (HIx 1) (Elt F) ℕ UU ℕ

/-! ## One trip of the main loop

Trip `t` is stage `s = t + 1` of the pipeline. For each bank `b` in turn: the in-copy of input chunk `4·s + b` is
waited for (the bank's input buffer then holds that chunk, and the chunk is in hand again); the out-copy of result chunk
`4·(s − 1) + b` is waited for (that chunk then holds the spread, and the bank's output buffer is back, still at the
spread of the previous input chunk, so that every column not divisible by 8 is the fill); the eight-trip scatter loop
spreads the new input chunk over the output buffer; the buffer is sent out to result chunk `4·s + b` and input chunk
`4·(s + 1) + b` is fetched into the input buffer. Each bank has its own pair of semaphores, one copy at a time on each,
and a buffer is read or written only between the wait of the copy that used it and the issue of the next one.
The chunk bookkeeping is `Pieces`: four input chunks leave the hand and four come back, four result chunks leave the
to-do pile and four join the done pile. -/

theorem trips6 : k0_t6_loop.trips = 14 := by decide
theorem trips7 : Scf.trips k0_t7_loop.lb k0_t7_loop.ub k0_t7_loop.st = 8 := by decide
theorem trips8 : Scf.trips k0_t8_loop.lb k0_t8_loop.ub k0_t8_loop.st = 8 := by decide
theorem trips9 : Scf.trips k0_t9_loop.lb k0_t9_loop.ub k0_t9_loop.st = 8 := by decide
theorem trips10 : Scf.trips k0_t10_loop.lb k0_t10_loop.ub k0_t10_loop.st = 8 := by decide

theorem main_trip (d : Dev nD) (L : grid0.Coords) (O : CellTallies nD τ sig (HIx 1)) (W : Waits sig (HIx 1)) (v2 : BitVec 32) (t : Fin k0_t6_loop.trips) (a : BitVec 32) :
    minv m d L O W t.val a ⊢ wp frame (wpE (defs₀ (F := F)) 𝒱₀ (thr d L) none) Set.univ
      (k0_t6_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 t a)
      (fun r => minv m d L O W (t.val + 1) r) := by
  have ht : t.val < 14 := trips6 ▸ t.isLt
  have hn0 : 4 * (t.val + 1) < 64 := by omega
  have hn1 : 4 * (t.val + 1) + 1 < 64 := by omega
  have hn2 : 4 * (t.val + 1) + 2 < 64 := by omega
  have hn3 : 4 * (t.val + 1) + 3 < 64 := by omega
  have hx0 : 4 * (t.val + 1) + 4 < 64 := by omega
  have hx1 : 4 * (t.val + 1) + 5 < 64 := by omega
  have hx2 : 4 * (t.val + 1) + 6 < 64 := by omega
  have hx3 : 4 * (t.val + 1) + 7 < 64 := by omega
  unfold minv k0_t6_body
  rw [Pieces.inHand_take (t.val + 1) (by omega), Pieces.todo_take (t.val + 1) (by omega)]
  rw [FlIn_0, FlIn_1, FlIn_2, FlIn_3, FlOut_0, FlOut_1, FlOut_2, FlOut_3]
  iintro ⟨Hmw, ⟨Hx8, Hx9, Hx10, Hx11, Hxr⟩, Hdone, ⟨Ho4, Ho5, Ho6, Ho7, Htodo⟩, HFi0, HFi1, HFi2, HFi3, HFo0, HFo1, HFo2, HFo3, %W', %hW', HO⟩
  ihave HFi0 := (Entails.of_eq (congrArg (fun P : sProp 𝕄 => Transfers.Flight countersEmb (thr d L) (SemLoc.dma q0) default 65536
      iprop((View.loc (thr d L) sX0.view ↦{fullShare} CX m d L (4 * (t.val + 1))) ∗ P))
    ((XP_eq m d L (4 * (t.val + 1)) hn0).trans (pts_x68 (F := F) d L t 0 ⟨(4 * (t.val + 1)), hn0⟩ (by simp) (X2 m d)).symm))) $$ HFi0
  ihave HFi1 := (Entails.of_eq (congrArg (fun P : sProp 𝕄 => Transfers.Flight countersEmb (thr d L) (SemLoc.dma q1) default 65536
      iprop((View.loc (thr d L) sX1.view ↦{fullShare} CX m d L (4 * (t.val + 1) + 1)) ∗ P))
    ((XP_eq m d L (4 * (t.val + 1) + 1) hn1).trans (pts_x68 (F := F) d L t 1 ⟨(4 * (t.val + 1) + 1), hn1⟩ (by simp) (X2 m d)).symm))) $$ HFi1
  ihave HFi2 := (Entails.of_eq (congrArg (fun P : sProp 𝕄 => Transfers.Flight countersEmb (thr d L) (SemLoc.dma q2) default 65536
      iprop((View.loc (thr d L) sX2.view ↦{fullShare} CX m d L (4 * (t.val + 1) + 2)) ∗ P))
    ((XP_eq m d L (4 * (t.val + 1) + 2) hn2).trans (pts_x68 (F := F) d L t 2 ⟨(4 * (t.val + 1) + 2), hn2⟩ (by simp) (X2 m d)).symm))) $$ HFi2
  ihave HFi3 := (Entails.of_eq (congrArg (fun P : sProp 𝕄 => Transfers.Flight countersEmb (thr d L) (SemLoc.dma q3) default 65536
      iprop((View.loc (thr d L) sX3.view ↦{fullShare} CX m d L (4 * (t.val + 1) + 3)) ∗ P))
    ((XP_eq m d L (4 * (t.val + 1) + 3) hn3).trans (pts_x68 (F := F) d L t 3 ⟨(4 * (t.val + 1) + 3), hn3⟩ (by simp) (X2 m d)).symm))) $$ HFi3
  sl_exec
  -- bank 0: the chunk that landed is spread over the buffer whose out-copy has just returned, goes out, and the next chunk is fetched
  sl_for (sinv0 d L (CX m d L (4 * (t.val + 1))) (spreadB (CX m d L (4 * t.val)))) $$ [HFi0_dst HFo0_src]
  case region => exact fun k acc => trip0 d L v2 0#32 8#32 (CX m d L (4 * (t.val + 1))) (spreadB (CX m d L (4 * t.val))) k acc
  · unfold sinv0
    isplitl [HFi0_dst]; · iexact HFi0_dst
    iexists _; isplitl [HFo0_src]; · iexact HFo0_src
    ipureintro; exact rowsDone0_zero _ _
  iintro %acc0 HI
  unfold sinv0
  icases HI with ⟨HX0, %H0', HS0, %hH0'⟩
  rw [trips7] at hH0'
  have eH0 : H0' = spreadB (CX m d L (4 * (t.val + 1))) := rowsDone0_full _ _ H0' hH0' (fun p q hq => if_neg hq)
  subst eH0
  ihave Ho4 := (Entails.of_eq (OE_eq (F := F) d L (4 * (t.val + 1)) hn0)) $$ Ho4
  icases Ho4 with ⟨%fo0, Ho4⟩
  ihave Ho4 := (Entails.of_eq (pts_o86 (F := F) d L t 0 ⟨(4 * (t.val + 1)), hn0⟩ (by simp) _).symm) $$ Ho4
  ihave Hx8 := (Entails.of_eq ((XP_eq m d L (4 * (t.val + 1) + 4) hx0).trans (pts_x87 (F := F) d L t 0 ⟨(4 * (t.val + 1) + 4), hx0⟩ (by first | (simp; done) | (simp; omega) | omega) (X2 m d)).symm)) $$ Hx8
  sl_exec
  -- bank 1: the chunk that landed is spread over the buffer whose out-copy has just returned, goes out, and the next chunk is fetched
  sl_for (sinv1 d L (CX m d L (4 * (t.val + 1) + 1)) (spreadB (CX m d L (4 * t.val + 1)))) $$ [HFi1_dst HFo1_src]
  case region => exact fun k acc => trip1 d L v2 0#32 8#32 (CX m d L (4 * (t.val + 1) + 1)) (spreadB (CX m d L (4 * t.val + 1))) k acc
  · unfold sinv1
    isplitl [HFi1_dst]; · iexact HFi1_dst
    iexists _; isplitl [HFo1_src]; · iexact HFo1_src
    ipureintro; exact rowsDone1_zero _ _
  iintro %acc1 HI
  unfold sinv1
  icases HI with ⟨HX1, %H1', HS1, %hH1'⟩
  rw [trips8] at hH1'
  have eH1 : H1' = spreadB (CX m d L (4 * (t.val + 1) + 1)) := rowsDone1_full _ _ H1' hH1' (fun p q hq => if_neg hq)
  subst eH1
  ihave Ho5 := (Entails.of_eq (OE_eq (F := F) d L (4 * (t.val + 1) + 1) hn1)) $$ Ho5
  icases Ho5 with ⟨%fo1, Ho5⟩
  ihave Ho5 := (Entails.of_eq (pts_o86 (F := F) d L t 1 ⟨(4 * (t.val + 1) + 1), hn1⟩ (by simp) _).symm) $$ Ho5
  ihave Hx9 := (Entails.of_eq ((XP_eq m d L (4 * (t.val + 1) + 5) hx1).trans (pts_x87 (F := F) d L t 1 ⟨(4 * (t.val + 1) + 5), hx1⟩ (by first | (simp; done) | (simp; omega) | omega) (X2 m d)).symm)) $$ Hx9
  sl_exec
  -- bank 2: the chunk that landed is spread over the buffer whose out-copy has just returned, goes out, and the next chunk is fetched
  sl_for (sinv2 d L (CX m d L (4 * (t.val + 1) + 2)) (spreadB (CX m d L (4 * t.val + 2)))) $$ [HFi2_dst HFo2_src]
  case region => exact fun k acc => trip2 d L v2 0#32 8#32 (CX m d L (4 * (t.val + 1) + 2)) (spreadB (CX m d L (4 * t.val + 2))) k acc
  · unfold sinv2
    isplitl [HFi2_dst]; · iexact HFi2_dst
    iexists _; isplitl [HFo2_src]; · iexact HFo2_src
    ipureintro; exact rowsDone2_zero _ _
  iintro %acc2 HI
  unfold sinv2
  icases HI with ⟨HX2, %H2', HS2, %hH2'⟩
  rw [trips9] at hH2'
  have eH2 : H2' = spreadB (CX m d L (4 * (t.val + 1) + 2)) := rowsDone2_full _ _ H2' hH2' (fun p q hq => if_neg hq)
  subst eH2
  ihave Ho6 := (Entails.of_eq (OE_eq (F := F) d L (4 * (t.val + 1) + 2) hn2)) $$ Ho6
  icases Ho6 with ⟨%fo2, Ho6⟩
  ihave Ho6 := (Entails.of_eq (pts_o86 (F := F) d L t 2 ⟨(4 * (t.val + 1) + 2), hn2⟩ (by simp) _).symm) $$ Ho6
  ihave Hx10 := (Entails.of_eq ((XP_eq m d L (4 * (t.val + 1) + 6) hx2).trans (pts_x87 (F := F) d L t 2 ⟨(4 * (t.val + 1) + 6), hx2⟩ (by first | (simp; done) | (simp; omega) | omega) (X2 m d)).symm)) $$ Hx10
  sl_exec
  -- bank 3: the chunk that landed is spread over the buffer whose out-copy has just returned, goes out, and the next chunk is fetched
  sl_for (sinv3 d L (CX m d L (4 * (t.val + 1) + 3)) (spreadB (CX m d L (4 * t.val + 3)))) $$ [HFi3_dst HFo3_src]
  case region => exact fun k acc => trip3 d L v2 0#32 8#32 (CX m d L (4 * (t.val + 1) + 3)) (spreadB (CX m d L (4 * t.val + 3))) k acc
  · unfold sinv3
    isplitl [HFi3_dst]; · iexact HFi3_dst
    iexists _; isplitl [HFo3_src]; · iexact HFo3_src
    ipureintro; exact rowsDone3_zero _ _
  iintro %acc3 HI
  unfold sinv3
  icases HI with ⟨HX3, %H3', HS3, %hH3'⟩
  rw [trips10] at hH3'
  have eH3 : H3' = spreadB (CX m d L (4 * (t.val + 1) + 3)) := rowsDone3_full _ _ H3' hH3' (fun p q hq => if_neg hq)
  subst eH3
  ihave Ho7 := (Entails.of_eq (OE_eq (F := F) d L (4 * (t.val + 1) + 3) hn3)) $$ Ho7
  icases Ho7 with ⟨%fo3, Ho7⟩
  ihave Ho7 := (Entails.of_eq (pts_o86 (F := F) d L t 3 ⟨(4 * (t.val + 1) + 3), hn3⟩ (by simp) _).symm) $$ Ho7
  ihave Hx11 := (Entails.of_eq ((XP_eq m d L (4 * (t.val + 1) + 7) hx3).trans (pts_x87 (F := F) d L t 3 ⟨(4 * (t.val + 1) + 7), hx3⟩ (by first | (simp; done) | (simp; omega) | omega) (X2 m d)).symm)) $$ Hx11
  sl_exec
  sl_step
  -- the state before the next trip
  isplitl [Hmw]; · iexact Hmw
  isplitl [HFi0_src HFi1_src HFi2_src HFi3_src Hxr]
  · rw [← Pieces.inHand_give (t.val + 1) (by omega)]
    isplitl [HFi0_src]; · iapply (Entails.of_eq ((XP_eq m d L (4 * (t.val + 1)) hn0).trans (pts_x68 (F := F) d L t 0 ⟨4 * (t.val + 1), hn0⟩ (by simp) (X2 m d)).symm).symm); iexact HFi0_src
    isplitl [HFi1_src]; · iapply (Entails.of_eq ((XP_eq m d L (4 * (t.val + 1) + 1) hn1).trans (pts_x68 (F := F) d L t 1 ⟨4 * (t.val + 1) + 1, hn1⟩ (by simp) (X2 m d)).symm).symm); iexact HFi1_src
    isplitl [HFi2_src]; · iapply (Entails.of_eq ((XP_eq m d L (4 * (t.val + 1) + 2) hn2).trans (pts_x68 (F := F) d L t 2 ⟨4 * (t.val + 1) + 2, hn2⟩ (by simp) (X2 m d)).symm).symm); iexact HFi2_src
    isplitl [HFi3_src]; · iapply (Entails.of_eq ((XP_eq m d L (4 * (t.val + 1) + 3) hn3).trans (pts_x68 (F := F) d L t 3 ⟨4 * (t.val + 1) + 3, hn3⟩ (by simp) (X2 m d)).symm).symm); iexact HFi3_src
    iexact Hxr
  isplitl [HFo0_dst HFo1_dst HFo2_dst HFo3_dst Hdone]
  · rw [← Pieces.done_give (t.val + 1) (by omega) (by omega),
      show 4 * (t.val + 1) - 4 = 4 * t.val from by omega, show 4 * (t.val + 1) - 3 = 4 * t.val + 1 from by omega,
      show 4 * (t.val + 1) - 2 = 4 * t.val + 2 from by omega, show 4 * (t.val + 1) - 1 = 4 * t.val + 3 from by omega]
    isplitl [HFo0_dst]; · iexact HFo0_dst
    isplitl [HFo1_dst]; · iexact HFo1_dst
    isplitl [HFo2_dst]; · iexact HFo2_dst
    isplitl [HFo3_dst]; · iexact HFo3_dst
    iexact Hdone
  isplitl [Htodo]; · iexact Htodo
  isplitl [HFi0]
  · iapply (Entails.of_eq (congrArg (FlIn m d L q0 0) (show 4 * (t.val + 1) + 4 = 4 * (t.val + 1 + 1) from by omega)))
    iapply (flIn_of0 m d L q0 (4 * (t.val + 1) + 4) hx0 _ (pts_x87 (F := F) d L t 0 ⟨(4 * (t.val + 1) + 4), hx0⟩ (by first | (simp; done) | (simp; omega) | omega) (X2 m d)) _ _ (read_x87 m d L t 0 ⟨(4 * (t.val + 1) + 4), hx0⟩ (by first | (simp; done) | (simp; omega) | omega)))
    iexact HFi0
  isplitl [HFi1]
  · iapply (Entails.of_eq (congrArg (FlIn m d L q1 1) (show 4 * (t.val + 1) + 5 = 4 * (t.val + 1 + 1) + 1 from by omega)))
    iapply (flIn_of1 m d L q1 (4 * (t.val + 1) + 5) hx1 _ (pts_x87 (F := F) d L t 1 ⟨(4 * (t.val + 1) + 5), hx1⟩ (by first | (simp; done) | (simp; omega) | omega) (X2 m d)) _ _ (read_x87 m d L t 1 ⟨(4 * (t.val + 1) + 5), hx1⟩ (by first | (simp; done) | (simp; omega) | omega)))
    iexact HFi1
  isplitl [HFi2]
  · iapply (Entails.of_eq (congrArg (FlIn m d L q2 2) (show 4 * (t.val + 1) + 6 = 4 * (t.val + 1 + 1) + 2 from by omega)))
    iapply (flIn_of2 m d L q2 (4 * (t.val + 1) + 6) hx2 _ (pts_x87 (F := F) d L t 2 ⟨(4 * (t.val + 1) + 6), hx2⟩ (by first | (simp; done) | (simp; omega) | omega) (X2 m d)) _ _ (read_x87 m d L t 2 ⟨(4 * (t.val + 1) + 6), hx2⟩ (by first | (simp; done) | (simp; omega) | omega)))
    iexact HFi2
  isplitl [HFi3]
  · iapply (Entails.of_eq (congrArg (FlIn m d L q3 3) (show 4 * (t.val + 1) + 7 = 4 * (t.val + 1 + 1) + 3 from by omega)))
    iapply (flIn_of3 m d L q3 (4 * (t.val + 1) + 7) hx3 _ (pts_x87 (F := F) d L t 3 ⟨(4 * (t.val + 1) + 7), hx3⟩ (by first | (simp; done) | (simp; omega) | omega) (X2 m d)) _ _ (read_x87 m d L t 3 ⟨(4 * (t.val + 1) + 7), hx3⟩ (by first | (simp; done) | (simp; omega) | omega)))
    iexact HFi3
  isplitl [HFo0]
  · iapply (flOut_of0 m d L q4 (4 * (t.val + 1)) hn0 (CX m d L (4 * (t.val + 1))) rfl _ (out_pts86 m d L t 0 ⟨(4 * (t.val + 1)), hn0⟩ (by simp) fo0 _ (by rw [← CX_eq m d L (4 * (t.val + 1)) hn0])))
    iexact HFo0
  isplitl [HFo1]
  · iapply (flOut_of1 m d L q5 (4 * (t.val + 1) + 1) hn1 (CX m d L (4 * (t.val + 1) + 1)) rfl _ (out_pts86 m d L t 1 ⟨(4 * (t.val + 1) + 1), hn1⟩ (by simp) fo1 _ (by rw [← CX_eq m d L (4 * (t.val + 1) + 1) hn1])))
    iexact HFo1
  isplitl [HFo2]
  · iapply (flOut_of2 m d L q6 (4 * (t.val + 1) + 2) hn2 (CX m d L (4 * (t.val + 1) + 2)) rfl _ (out_pts86 m d L t 2 ⟨(4 * (t.val + 1) + 2), hn2⟩ (by simp) fo2 _ (by rw [← CX_eq m d L (4 * (t.val + 1) + 2) hn2])))
    iexact HFo2
  isplitl [HFo3]
  · iapply (flOut_of3 m d L q7 (4 * (t.val + 1) + 3) hn3 (CX m d L (4 * (t.val + 1) + 3)) rfl _ (out_pts86 m d L t 3 ⟨(4 * (t.val + 1) + 3), hn3⟩ (by simp) fo3 _ (by rw [← CX_eq m d L (4 * (t.val + 1) + 3) hn3])))
    iexact HFo3
  iexists _; isplitr
  swap
  · iexact HO
  · ipureintro
    intro p hp
    simp only [Finset.mem_insert] at hp
    rcases hp with rfl | rfl | rfl | rfl | rfl | rfl | rfl | rfl | hp
    all_goals first | exact hW' p hp | exact .inr rfl

end Cert.Proof.KI
end
-- ==== Proof.KITile.lean ====
/-
  One task's body, from the statements of its loops.

  A task moves its 64 chunks through four banks in 16 stages; stage s handles chunks 4·s + b, one per bank b. The body
  first fetches chunks 0 to 3 into the four input banks and fills the four output banks with the fill value. In
  stage 0, for each bank in turn, it waits for the bank's input chunk, spreads it over the output bank (every eighth
  column; the others stay the fill), sends the output bank to the result chunk of the same number and fetches the input
  chunk four further on. Stages 1 to 14 are the trips of the main loop, each of which does the same and first waits
  for the bank's previous result chunk to have left; its statement is the invariant of the pipeline: the input chunks
  of the coming stage in flight into the banks, the result chunks of the stage just done in flight out of them, every
  other input chunk in hand at the flattened input, earlier result chunks at the spread, later ones at anything. Stage
  15 does the same without fetching, and the body ends by waiting for its four result chunks.

  Each copy has its own semaphore per bank and direction, and a bank is read or written only between the wait of the
  copy that last used it and the issue of the next one, so every wait hands back exactly what its copy was given, the
  destination at what the source held. The pieces are counted with the four index sets of the bookkeeping module: at
  the start all 64 input chunks are in hand and all 64 result chunks are to do; at the end all 64 input chunks are in
  hand again, unchanged, and all 64 result chunks hold the spread of the flattened input. The scratch buffers and the
  semaphores go back as they came: each buffer whole at some contents, each semaphore at zero, and every wait the body
  recorded is an unnamed one.
-/
import proofs.«217887_g14147622273102_retrytranche1_597_18_alg».proof.Proof.KIZero
import proofs.«217887_g14147622273102_retrytranche1_597_18_alg».proof.Proof.KIScat0
import proofs.«217887_g14147622273102_retrytranche1_597_18_alg».proof.Proof.KIScat1
import proofs.«217887_g14147622273102_retrytranche1_597_18_alg».proof.Proof.KIScat2
import proofs.«217887_g14147622273102_retrytranche1_597_18_alg».proof.Proof.KIScat3
import proofs.«217887_g14147622273102_retrytranche1_597_18_alg».proof.Proof.KIPerm
import proofs.«217887_g14147622273102_retrytranche1_597_18_alg».proof.Proof.KIInv
import proofs.«217887_g14147622273102_retrytranche1_597_18_alg».proof.Proof.KIMain
set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pieces
variable {F : FTy → Type} [FloatOps F]
variable (m : (ℓ : Loc nD τ sig) → Buf (Elt F) ℓ)
local notation "𝕄" => MT nD τ sig (HIx 1) (Elt F) ℕ UU ℕ

/-! ## The pieces at the two ends -/

omit [FloatOps F] in
/-- All 64 pieces: the first eight, and the rest of the hand of stage 0. -/
theorem range_first8 {Φ : ℕ → sProp 𝕄} :
    bigSep (Finset.range 64) Φ = iprop(Φ 0 ∗ Φ 1 ∗ Φ 2 ∗ Φ 3 ∗ Φ 4 ∗ Φ 5 ∗ Φ 6 ∗ Φ 7 ∗ bigSep (inRest 0) Φ) := by
  rw [range_start, inHand_take 0 (by omega)]
omit [FloatOps F] in
/-- All 64 pieces: the first four, and the pieces from the fourth on. -/
theorem range_first4 {Φ : ℕ → sProp 𝕄} :
    bigSep (Finset.range 64) Φ = iprop(Φ 0 ∗ Φ 1 ∗ Φ 2 ∗ Φ 3 ∗ bigSep (todo 1) Φ) := by
  rw [← todo_0, todo_take 0 (by omega)]

omit [FloatOps F] in
/-- A wait's record added to a set of waits that only holds the launch's waits and unnamed ones keeps it so. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact Or.inr rfl
  · exact h p hp

theorem trips_t2 : Scf.trips k0_t2_loop.lb k0_t2_loop.ub k0_t2_loop.st = 8 := by decide
theorem trips_t3 : Scf.trips k0_t3_loop.lb k0_t3_loop.ub k0_t3_loop.st = 8 := by decide
theorem trips_t4 : Scf.trips k0_t4_loop.lb k0_t4_loop.ub k0_t4_loop.st = 8 := by decide
theorem trips_t5 : Scf.trips k0_t5_loop.lb k0_t5_loop.ub k0_t5_loop.st = 8 := by decide
theorem trips_t11 : Scf.trips k0_t11_loop.lb k0_t11_loop.ub k0_t11_loop.st = 8 := by decide
theorem trips_t12 : Scf.trips k0_t12_loop.lb k0_t12_loop.ub k0_t12_loop.st = 8 := by decide
theorem trips_t13 : Scf.trips k0_t13_loop.lb k0_t13_loop.ub k0_t13_loop.st = 8 := by decide
theorem trips_t14 : Scf.trips k0_t14_loop.lb k0_t14_loop.ub k0_t14_loop.st = 8 := by decide

variable (d : Dev nD) (L : grid0.Coords)

/-! ## Chunk pieces in the spelling of the copies that move them -/

/-- An eight-row slice of the flattened input at a given offset. -/
abbrev xAt (off : Fin 2 → Nat) (inb : ∀ a, off a + S8x256.size a ≤ S16384x256.size a) : Memref sig .scVector .hbm S8x256 .f32 :=
  xW.slice (Rect.unit (s := S16384x256) off S8x256.size inb) (fun _ => rfl)

/-- Input chunk `n`, in hand, is the slice at the chunk's first row, at the flattened input. -/
theorem xp_at {off : Fin 2 → Nat} (inb : ∀ a, off a + S8x256.size a ≤ S16384x256.size a) (n : ℕ) (h : n < 64)
    (e : off = ![512 * (wL L).val + 8 * n, 0]) :
    XP m d L n = ((xAt off inb).view.loc (thr d L) ↦[(xAt off inb).view.set]{fullShare} X2 m d : sProp 𝕄) := by
  rw [XP_eq m d L n h]
  show _ = ((xLoc d) ↦[(xW.view.slice (Rect.unit (s := S16384x256) off S8x256.size inb)).set]{fullShare} X2 m d : sProp 𝕄)
  rw [xRect_of_off (wL L) ⟨n, h⟩ inb e]
/-- Result chunk `n` at anything is the slice at the chunk's first row, at anything. -/
theorem oe_at {off : Fin 2 → Nat} (inb : ∀ a, off a + S8x2048.size a ≤ S16384x2048.size a) (n : ℕ) (h : n < 64)
    (e : off = ![512 * (wL L).val + 8 * n, 0]) :
    OE (F := F) d L n = iprop(∃ f, ((oAt off inb).view.loc (thr d L) ↦[(oAt off inb).view.set]{fullShare} f : sProp 𝕄)) := by
  rw [OE_eq d L n h]
  show _ = iprop(∃ f, ((oLoc d) ↦[(oW.view.slice (Rect.unit (s := S16384x2048) off S8x2048.size inb)).set]{fullShare} f : sProp 𝕄))
  rw [oRect_of_off (wL L) ⟨n, h⟩ inb e]
/-- The slice at result chunk `n`'s first row, after the spread of input chunk `n` is written over it, is the chunk at the spread. -/
theorem og_at {off : Fin 2 → Nat} (inb : ∀ a, off a + S8x2048.size a ≤ S16384x2048.size a) (n : ℕ) (h : n < 64)
    (e : off = ![512 * (wL L).val + 8 * n, 0]) (fo : Buf (Elt F) (oLoc d)) (pay : S8x2048.Idx → Elt F .f32)
    (hpay : pay = spreadB (CX m d L n)) :
    (((oAt off inb).view.loc (thr d L) ↦[(oAt off inb).view.set]{fullShare}
        (oAt off inb).view.writes (Elt F) fo [⟨Rect.whole S8x2048, pay⟩] : sProp 𝕄)) = OG m d L n := by
  rw [OG_eq m d L n h]
  exact out_pts_of_off m d L (wL L) ⟨n, h⟩ inb e fo pay (by rw [hpay, CX_eq m d L n h])
/-- What the slice at input chunk `n`'s first row reads off the flattened input is the chunk's block. -/
theorem cx_at {off : Fin 2 → Nat} (inb : ∀ a, off a + S8x256.size a ≤ S16384x256.size a) (n : ℕ) (h : n < 64)
    (e : off = ![512 * (wL L).val + 8 * n, 0]) :
    ReadAs.same.apply ((xAt off inb).view.read (Elt F) (X2 m d)) = CX m d L n := by
  rw [CX_eq m d L n h]; exact read_of_off m d (wL L) ⟨n, h⟩ inb e

/-- What lands in input bank 0 is the chunk's block. -/
theorem landed0 (n : ℕ) (bprev : Buf (Elt F) (sX0.view.loc (thr d L))) (pay : S8x256.Idx → Elt F .f32) (hpay : pay = CX m d L n) :
    (sX0.view.loc (thr d L) ↦{fullShare} sX0.view.write (Elt F) bprev pay Finset.univ : sProp 𝕄)
      = (sX0.view.loc (thr d L) ↦{fullShare} CX m d L n) := by
  subst hpay; rw [View.write_whole_univ cc0_scratch0 bprev _]
/-- A copy of input chunk `n` into bank 0, as issued, is the chunk in flight into the bank. -/
theorem flin0 (q : DmaSem sig) (n : ℕ) (h : n < 64) (bprev : Buf (Elt F) (sX0.view.loc (thr d L)))
    (pay : S8x256.Idx → Elt F .f32) (hpay : pay = CX m d L n) (P : sProp 𝕄) (hP : P = XP m d L n) :
    (Transfers.Flight countersEmb (thr d L) (SemLoc.dma q) default 65536
        iprop((sX0.view.loc (thr d L) ↦{fullShare} sX0.view.write (Elt F) bprev pay Finset.univ) ∗ P) : sProp 𝕄)
      ⊢ FlIn m d L q 0 n :=
  flIn_of0 m d L q n h P (hP.trans (XP_eq m d L n h)) bprev pay (hpay.trans (CX_eq m d L n h))
/-- A copy of the spread of input chunk `n` out of bank 0, as issued, is result chunk `n` in flight out of the bank. -/
theorem flout0 (q : DmaSem sig) (n : ℕ) (h : n < 64) (P : sProp 𝕄) (hP : P = OG m d L n) :
    (Transfers.Flight countersEmb (thr d L) (SemLoc.dma q) default 524288
        iprop(P ∗ (sO0.view.loc (thr d L) ↦[sO0.view.set]{fullShare} spreadB (CX m d L n))) : sProp 𝕄)
      ⊢ FlOut m d L q 0 n :=
  flOut_of0 m d L q n h (CX m d L n) rfl P (hP.trans (OG_eq m d L n h))
theorem pay_sO0 (H : Buf (Elt F) (sO0.view.loc (thr d L))) : ReadAs.same.apply (sO0.view.read (Elt F) H) = H := rfl

/-- What lands in input bank 1 is the chunk's block. -/
theorem landed1 (n : ℕ) (bprev : Buf (Elt F) (sX1.view.loc (thr d L))) (pay : S8x256.Idx → Elt F .f32) (hpay : pay = CX m d L n) :
    (sX1.view.loc (thr d L) ↦{fullShare} sX1.view.write (Elt F) bprev pay Finset.univ : sProp 𝕄)
      = (sX1.view.loc (thr d L) ↦{fullShare} CX m d L n) := by
  subst hpay; rw [View.write_whole_univ cc0_scratch1 bprev _]
/-- A copy of input chunk `n` into bank 1, as issued, is the chunk in flight into the bank. -/
theorem flin1 (q : DmaSem sig) (n : ℕ) (h : n < 64) (bprev : Buf (Elt F) (sX1.view.loc (thr d L)))
    (pay : S8x256.Idx → Elt F .f32) (hpay : pay = CX m d L n) (P : sProp 𝕄) (hP : P = XP m d L n) :
    (Transfers.Flight countersEmb (thr d L) (SemLoc.dma q) default 65536
        iprop((sX1.view.loc (thr d L) ↦{fullShare} sX1.view.write (Elt F) bprev pay Finset.univ) ∗ P) : sProp 𝕄)
      ⊢ FlIn m d L q 1 n :=
  flIn_of1 m d L q n h P (hP.trans (XP_eq m d L n h)) bprev pay (hpay.trans (CX_eq m d L n h))
/-- A copy of the spread of input chunk `n` out of bank 1, as issued, is result chunk `n` in flight out of the bank. -/
theorem flout1 (q : DmaSem sig) (n : ℕ) (h : n < 64) (P : sProp 𝕄) (hP : P = OG m d L n) :
    (Transfers.Flight countersEmb (thr d L) (SemLoc.dma q) default 524288
        iprop(P ∗ (sO1.view.loc (thr d L) ↦[sO1.view.set]{fullShare} spreadB (CX m d L n))) : sProp 𝕄)
      ⊢ FlOut m d L q 1 n :=
  flOut_of1 m d L q n h (CX m d L n) rfl P (hP.trans (OG_eq m d L n h))
theorem pay_sO1 (H : Buf (Elt F) (sO1.view.loc (thr d L))) : ReadAs.same.apply (sO1.view.read (Elt F) H) = H := rfl

/-- What lands in input bank 2 is the chunk's block. -/
theorem landed2 (n : ℕ) (bprev : Buf (Elt F) (sX2.view.loc (thr d L))) (pay : S8x256.Idx → Elt F .f32) (hpay : pay = CX m d L n) :
    (sX2.view.loc (thr d L) ↦{fullShare} sX2.view.write (Elt F) bprev pay Finset.univ : sProp 𝕄)
      = (sX2.view.loc (thr d L) ↦{fullShare} CX m d L n) := by
  subst hpay; rw [View.write_whole_univ cc0_scratch2 bprev _]
/-- A copy of input chunk `n` into bank 2, as issued, is the chunk in flight into the bank. -/
theorem flin2 (q : DmaSem sig) (n : ℕ) (h : n < 64) (bprev : Buf (Elt F) (sX2.view.loc (thr d L)))
    (pay : S8x256.Idx → Elt F .f32) (hpay : pay = CX m d L n) (P : sProp 𝕄) (hP : P = XP m d L n) :
    (Transfers.Flight countersEmb (thr d L) (SemLoc.dma q) default 65536
        iprop((sX2.view.loc (thr d L) ↦{fullShare} sX2.view.write (Elt F) bprev pay Finset.univ) ∗ P) : sProp 𝕄)
      ⊢ FlIn m d L q 2 n :=
  flIn_of2 m d L q n h P (hP.trans (XP_eq m d L n h)) bprev pay (hpay.trans (CX_eq m d L n h))
/-- A copy of the spread of input chunk `n` out of bank 2, as issued, is result chunk `n` in flight out of the bank. -/
theorem flout2 (q : DmaSem sig) (n : ℕ) (h : n < 64) (P : sProp 𝕄) (hP : P = OG m d L n) :
    (Transfers.Flight countersEmb (thr d L) (SemLoc.dma q) default 524288
        iprop(P ∗ (sO2.view.loc (thr d L) ↦[sO2.view.set]{fullShare} spreadB (CX m d L n))) : sProp 𝕄)
      ⊢ FlOut m d L q 2 n :=
  flOut_of2 m d L q n h (CX m d L n) rfl P (hP.trans (OG_eq m d L n h))
theorem pay_sO2 (H : Buf (Elt F) (sO2.view.loc (thr d L))) : ReadAs.same.apply (sO2.view.read (Elt F) H) = H := rfl

/-- What lands in input bank 3 is the chunk's block. -/
theorem landed3 (n : ℕ) (bprev : Buf (Elt F) (sX3.view.loc (thr d L))) (pay : S8x256.Idx → Elt F .f32) (hpay : pay = CX m d L n) :
    (sX3.view.loc (thr d L) ↦{fullShare} sX3.view.write (Elt F) bprev pay Finset.univ : sProp 𝕄)
      = (sX3.view.loc (thr d L) ↦{fullShare} CX m d L n) := by
  subst hpay; rw [View.write_whole_univ cc0_scratch3 bprev _]
/-- A copy of input chunk `n` into bank 3, as issued, is the chunk in flight into the bank. -/
theorem flin3 (q : DmaSem sig) (n : ℕ) (h : n < 64) (bprev : Buf (Elt F) (sX3.view.loc (thr d L)))
    (pay : S8x256.Idx → Elt F .f32) (hpay : pay = CX m d L n) (P : sProp 𝕄) (hP : P = XP m d L n) :
    (Transfers.Flight countersEmb (thr d L) (SemLoc.dma q) default 65536
        iprop((sX3.view.loc (thr d L) ↦{fullShare} sX3.view.write (Elt F) bprev pay Finset.univ) ∗ P) : sProp 𝕄)
      ⊢ FlIn m d L q 3 n :=
  flIn_of3 m d L q n h P (hP.trans (XP_eq m d L n h)) bprev pay (hpay.trans (CX_eq m d L n h))
/-- A copy of the spread of input chunk `n` out of bank 3, as issued, is result chunk `n` in flight out of the bank. -/
theorem flout3 (q : DmaSem sig) (n : ℕ) (h : n < 64) (P : sProp 𝕄) (hP : P = OG m d L n) :
    (Transfers.Flight countersEmb (thr d L) (SemLoc.dma q) default 524288
        iprop(P ∗ (sO3.view.loc (thr d L) ↦[sO3.view.set]{fullShare} spreadB (CX m d L n))) : sProp 𝕄)
      ⊢ FlOut m d L q 3 n :=
  flOut_of3 m d L q n h (CX m d L n) rfl P (hP.trans (OG_eq m d L n h))
theorem pay_sO3 (H : Buf (Elt F) (sO3.view.loc (thr d L))) : ReadAs.same.apply (sO3.view.read (Elt F) H) = H := rfl

/-! ## The main loop's invariant at its two ends -/

/-- Before the first trip. -/
theorem minv_zero (O : CellTallies nD τ sig (HIx 1)) (W : Waits sig (HIx 1)) (a : BitVec 32) :
    minv m d L O W 0 a = iprop(Transfers.MayWaits (thr d L) none O
      ∗ bigSep (inHand 1) (XP m d L) ∗ bigSep (Pieces.done 1) (OG m d L) ∗ bigSep (todo 1) (OE (F := F) d L)
      ∗ FlIn m d L q0 0 4 ∗ FlIn m d L q1 1 5 ∗ FlIn m d L q2 2 6 ∗ FlIn m d L q3 3 7
      ∗ FlOut m d L q4 0 0 ∗ FlOut m d L q5 1 1 ∗ FlOut m d L q6 2 2 ∗ FlOut m d L q7 3 3
      ∗ ∃ W', ⌜∀ p ∈ W', p ∈ W ∨ p.2 = none⌝ ∗ owes (thr d L) O W') := rfl

/-- After the last trip, each chunk in flight spelt as the wait that ends it names it. -/
theorem minv_last (O : CellTallies nD τ sig (HIx 1)) (W : Waits sig (HIx 1)) (a : BitVec 32) :
    minv m d L O W (Scf.trips k0_t6_loop.lb k0_t6_loop.ub k0_t6_loop.st) a = iprop(Transfers.MayWaits (thr d L) none O
      ∗ bigSep (inHand 15) (XP m d L) ∗ bigSep (Pieces.done 15) (OG m d L) ∗ bigSep (todo 15) (OE (F := F) d L)
      ∗ Transfers.Flight countersEmb (thr d L) (SemLoc.dma q0) default 65536
      iprop((sX0.view.loc (thr d L) ↦{fullShare} CX m d L 60)
        ∗ ((xAt (k0_off1 L 480#32) (k0_off1_inb L 8)).view.loc (thr d L) ↦[(xAt (k0_off1 L 480#32) (k0_off1_inb L 8)).view.set]{fullShare} X2 m d))
      ∗ Transfers.Flight countersEmb (thr d L) (SemLoc.dma q1) default 65536
      iprop((sX1.view.loc (thr d L) ↦{fullShare} CX m d L 61)
        ∗ ((xAt (k0_off1 L 488#32) (k0_off1_inb L 9)).view.loc (thr d L) ↦[(xAt (k0_off1 L 488#32) (k0_off1_inb L 9)).view.set]{fullShare} X2 m d))
      ∗ Transfers.Flight countersEmb (thr d L) (SemLoc.dma q2) default 65536
      iprop((sX2.view.loc (thr d L) ↦{fullShare} CX m d L 62)
        ∗ ((xAt (k0_off1 L 496#32) (k0_off1_inb L 10)).view.loc (thr d L) ↦[(xAt (k0_off1 L 496#32) (k0_off1_inb L 10)).view.set]{fullShare} X2 m d))
      ∗ Transfers.Flight countersEmb (thr d L) (SemLoc.dma q3) default 65536
      iprop((sX3.view.loc (thr d L) ↦{fullShare} CX m d L 63)
        ∗ ((xAt (k0_off1 L 504#32) (k0_off1_inb L 11)).view.loc (thr d L) ↦[(xAt (k0_off1 L 504#32) (k0_off1_inb L 11)).view.set]{fullShare} X2 m d))
      ∗ Transfers.Flight countersEmb (thr d L) (SemLoc.dma q4) default 524288
      iprop(OG m d L 56 ∗ (sO0.view.loc (thr d L) ↦{fullShare} spreadB (CX m d L 56)))
      ∗ Transfers.Flight countersEmb (thr d L) (SemLoc.dma q5) default 524288
      iprop(OG m d L 57 ∗ (sO1.view.loc (thr d L) ↦{fullShare} spreadB (CX m d L 57)))
      ∗ Transfers.Flight countersEmb (thr d L) (SemLoc.dma q6) default 524288
      iprop(OG m d L 58 ∗ (sO2.view.loc (thr d L) ↦{fullShare} spreadB (CX m d L 58)))
      ∗ Transfers.Flight countersEmb (thr d L) (SemLoc.dma q7) default 524288
      iprop(OG m d L 59 ∗ (sO3.view.loc (thr d L) ↦{fullShare} spreadB (CX m d L 59)))
      ∗ ∃ W', ⌜∀ p ∈ W', p ∈ W ∨ p.2 = none⌝ ∗ owes (thr d L) O W') := by
  rw [show Scf.trips k0_t6_loop.lb k0_t6_loop.ub k0_t6_loop.st = 14 from by decide,
    ← xp_at m d L (off := k0_off1 L 480#32) (k0_off1_inb L 8) 60 (by omega) (off1_row L 8 ⟨60, by omega⟩ (by decide)), ← xp_at m d L (off := k0_off1 L 488#32) (k0_off1_inb L 9) 61 (by omega) (off1_row L 9 ⟨61, by omega⟩ (by decide)),
    ← xp_at m d L (off := k0_off1 L 496#32) (k0_off1_inb L 10) 62 (by omega) (off1_row L 10 ⟨62, by omega⟩ (by decide)), ← xp_at m d L (off := k0_off1 L 504#32) (k0_off1_inb L 11) 63 (by omega) (off1_row L 11 ⟨63, by omega⟩ (by decide))]
  rfl

omit [FloatOps F] in
theorem todo15 {Φ : ℕ → sProp 𝕄} : bigSep (todo 15) Φ = iprop(Φ 60 ∗ Φ 61 ∗ Φ 62 ∗ Φ 63 ∗ bigSep (todo 16) Φ) := todo_take 15 (by omega)
omit [FloatOps F] in
theorem done15 {Φ : ℕ → sProp 𝕄} : iprop(Φ 56 ∗ Φ 57 ∗ Φ 58 ∗ Φ 59 ∗ bigSep (Pieces.done 15) Φ) = bigSep (Pieces.done 16) Φ :=
  done_give 15 (by omega) (by omega)
omit [FloatOps F] in
theorem done16 {Φ : ℕ → sProp 𝕄} : iprop(Φ 60 ∗ Φ 61 ∗ Φ 62 ∗ Φ 63 ∗ bigSep (Pieces.done 16) Φ) = bigSep (Finset.range 64) Φ :=
  (done_give 16 (by omega) (by omega)).trans (by rw [done_17])
omit [FloatOps F] in
theorem hand0 {Φ : ℕ → sProp 𝕄} : iprop(Φ 0 ∗ Φ 1 ∗ Φ 2 ∗ Φ 3 ∗ bigSep (inRest 0) Φ) = bigSep (inHand 1) Φ := inHand_give 0 (by omega)
omit [FloatOps F] in
theorem done1 {Φ : ℕ → sProp 𝕄} : (iprop(emp) : sProp 𝕄) = bigSep (Pieces.done 1) Φ := by rw [done_1, bigSep_empty]; rfl

omit [FloatOps F] in
/-- An output bank held on its own element set is the bank held whole. -/
theorem whole_back0 (f : Buf (Elt F) (sO0.view.loc (thr d L))) :
    (sO0.view.loc (thr d L) ↦[sO0.view.set]{fullShare} f : sProp 𝕄) ⊢ iprop(∃ g, (thr d L).loc cc0_scratch4 ↦{fullShare} g) := by
  rw [show sO0.view.set = Finset.univ from View.set_whole cc0_scratch4]
  iintro H; iexists f; iexact H
omit [FloatOps F] in
/-- An output bank held on its own element set is the bank held whole. -/
theorem whole_back1 (f : Buf (Elt F) (sO1.view.loc (thr d L))) :
    (sO1.view.loc (thr d L) ↦[sO1.view.set]{fullShare} f : sProp 𝕄) ⊢ iprop(∃ g, (thr d L).loc cc0_scratch5 ↦{fullShare} g) := by
  rw [show sO1.view.set = Finset.univ from View.set_whole cc0_scratch5]
  iintro H; iexists f; iexact H
omit [FloatOps F] in
/-- An output bank held on its own element set is the bank held whole. -/
theorem whole_back2 (f : Buf (Elt F) (sO2.view.loc (thr d L))) :
    (sO2.view.loc (thr d L) ↦[sO2.view.set]{fullShare} f : sProp 𝕄) ⊢ iprop(∃ g, (thr d L).loc cc0_scratch6 ↦{fullShare} g) := by
  rw [show sO2.view.set = Finset.univ from View.set_whole cc0_scratch6]
  iintro H; iexists f; iexact H
omit [FloatOps F] in
/-- An output bank held on its own element set is the bank held whole. -/
theorem whole_back3 (f : Buf (Elt F) (sO3.view.loc (thr d L))) :
    (sO3.view.loc (thr d L) ↦[sO3.view.set]{fullShare} f : sProp 𝕄) ⊢ iprop(∃ g, (thr d L).loc cc0_scratch7 ↦{fullShare} g) := by
  rw [show sO3.view.set = Finset.univ from View.set_whole cc0_scratch7]
  iintro H; iexists f; iexact H

theorem tile_body_thr (O : CellTallies nD τ sig (HIx 1)) (W : Waits sig (HIx 1)) (hO : ∀ g, O g none = 0) :
    (iprop(levAts (K (F := F)).L (K (F := F)).lev ∗ emp ∗ goRes m d (wL L)
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15)
          fun _ => iprop(tdRes m d (wL L) ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V facts d (cV L) (jV L), SparseCore.Cfg.scopedSems0_V (Val := Elt F) d (cV L) (jV L), ownSems0_V8, ownBufs_V8,
    goRes_split m d L, range_first8 (Φ := XP m d L), range_first4 (Φ := OE (F := F) d L)]
  iintro ⟨#Hlv, -, ⟨⟨Hx0, Hx1, Hx2, Hx3, Hx4, Hx5, Hx6, Hx7, Hxr⟩, Ho0, Ho1, Ho2, Ho3, Hor⟩,
    ⟨⟨⟨%b0, HB0⟩, ⟨%b1, HB1⟩, ⟨%b2, HB2⟩, ⟨%b3, HB3⟩, ⟨%b4, HB4⟩, ⟨%b5, HB5⟩, ⟨%b6, HB6⟩, ⟨%b7, HB7⟩⟩, Hbufs⟩,
    ⟨⟨Hq0, Hq1, Hq2, Hq3, Hq4, Hq5, Hq6, Hq7⟩, Hsems⟩, HO⟩
  ihave Hmw := ((K (F := F)).mayWaits_none (thr := thr d L) hO) $$ Hlv
  ihave Hx0 := (Entails.of_eq (xp_at m d L (off := k0_off1 L 0#32) (k0_off1_inb L 0) 0 (by omega) (off1_row L 0 ⟨0, by omega⟩ (by decide)))) $$ Hx0
  ihave Hx1 := (Entails.of_eq (xp_at m d L (off := k0_off1 L 8#32) (k0_off1_inb L 1) 1 (by omega) (off1_row L 1 ⟨1, by omega⟩ (by decide)))) $$ Hx1
  ihave Hx2 := (Entails.of_eq (xp_at m d L (off := k0_off1 L 16#32) (k0_off1_inb L 2) 2 (by omega) (off1_row L 2 ⟨2, by omega⟩ (by decide)))) $$ Hx2
  ihave Hx3 := (Entails.of_eq (xp_at m d L (off := k0_off1 L 24#32) (k0_off1_inb L 3) 3 (by omega) (off1_row L 3 ⟨3, by omega⟩ (by decide)))) $$ Hx3
  ihave HB0 := (Entails.of_eq (show ((thr d L).loc cc0_scratch0 ↦{fullShare} b0 : sProp 𝕄) = (sX0.view.loc (thr d L) ↦{fullShare} b0) from rfl)) $$ HB0
  ihave HB1 := (Entails.of_eq (show ((thr d L).loc cc0_scratch1 ↦{fullShare} b1 : sProp 𝕄) = (sX1.view.loc (thr d L) ↦{fullShare} b1) from rfl)) $$ HB1
  ihave HB2 := (Entails.of_eq (show ((thr d L).loc cc0_scratch2 ↦{fullShare} b2 : sProp 𝕄) = (sX2.view.loc (thr d L) ↦{fullShare} b2) from rfl)) $$ HB2
  ihave HB3 := (Entails.of_eq (show ((thr d L).loc cc0_scratch3 ↦{fullShare} b3 : sProp 𝕄) = (sX3.view.loc (thr d L) ↦{fullShare} b3) from rfl)) $$ HB3
  ihave HB4 := (Entails.of_eq (show ((thr d L).loc cc0_scratch4 ↦{fullShare} b4 : sProp 𝕄) = (sO0.view.loc (thr d L) ↦{fullShare} b4) from rfl)) $$ HB4
  ihave HB5 := (Entails.of_eq (show ((thr d L).loc cc0_scratch5 ↦{fullShare} b5 : sProp 𝕄) = (sO1.view.loc (thr d L) ↦{fullShare} b5) from rfl)) $$ HB5
  ihave HB6 := (Entails.of_eq (show ((thr d L).loc cc0_scratch6 ↦{fullShare} b6 : sProp 𝕄) = (sO2.view.loc (thr d L) ↦{fullShare} b6) from rfl)) $$ HB6
  ihave HB7 := (Entails.of_eq (show ((thr d L).loc cc0_scratch7 ↦{fullShare} b7 : sProp 𝕄) = (sO3.view.loc (thr d L) ↦{fullShare} b7) from rfl)) $$ HB7
  sl_exec
  sl_for (zinv d L b4 b5 b6 b7) $$ [HB4 HB5 HB6 HB7]
  case region => exact fun k acc => zero_trip d L b4 b5 b6 b7 k acc
  · rw [zinv_init]; isplitl [HB4]; · iexact HB4
    isplitl [HB5]; · iexact HB5
    isplitl [HB6]; · iexact HB6
    iexact HB7
  iintro %acc HI
  ihave HI' := (Entails.of_eq (zinv_done d L b4 b5 b6 b7 acc)) $$ HI
  icases HI' with ⟨HB4, HB5, HB6, HB7⟩
  sl_exec
  -- bank 0: chunk 0 has landed
  ihave HB0 := (Entails.of_eq (landed0 m d L 0 _ _ (by exact cx_at m d L (off := k0_off1 L 0#32) (k0_off1_inb L 0) 0 (by omega) (off1_row L 0 ⟨0, by omega⟩ (by decide))))) $$ HB0
  ihave Hx0 := (Entails.of_eq (xp_at m d L (off := k0_off1 L 0#32) (k0_off1_inb L 0) 0 (by omega) (off1_row L 0 ⟨0, by omega⟩ (by decide))).symm) $$ Hx0
  -- bank 0: the block in the input bank is spread over the output bank
  sl_for (sinv0 d L (CX m d L 0) (fun _ => zF (F := F))) $$ [HB0 HB4]
  case region => exact fun k acc => trip0 d L (tile_body_thr.sl.v2 L) 0#32 8#32 (CX m d L 0) (fun _ => zF (F := F)) k acc
  · unfold sinv0
    isplitl [HB0]; · iexact HB0
    iexists _; isplitl [HB4]; · iexact HB4
    ipureintro; exact rowsDone0_zero _ _
  iintro %acc2 HI
  unfold sinv0
  icases HI with ⟨HB0, %H2', HB4, %hH2'⟩
  rw [trips_t2] at hH2'
  have eH2 : H2' = spreadB (CX m d L 0) := rowsDone0_full _ _ H2' hH2' (fun _ _ _ => rfl)
  subst eH2
  ihave Ho0 := (Entails.of_eq (oe_at d L (off := k0_off19 L 0#32) (k0_off19_inb L 0) 0 (by omega) (off19_row L 0 ⟨0, by omega⟩ (by decide)))) $$ Ho0
  icases Ho0 with ⟨%fo0, Ho0⟩
  ihave Hx4 := (Entails.of_eq (xp_at m d L (off := k0_off1 L 32#32) (k0_off1_inb L 4) 4 (by omega) (off1_row L 4 ⟨4, by omega⟩ (by decide)))) $$ Hx4
  sl_exec
  iclear HB4
  ihave HB1 := (Entails.of_eq (landed1 m d L 1 _ _ (by exact cx_at m d L (off := k0_off1 L 8#32) (k0_off1_inb L 1) 1 (by omega) (off1_row L 1 ⟨1, by omega⟩ (by decide))))) $$ HB1
  ihave Hx1 := (Entails.of_eq (xp_at m d L (off := k0_off1 L 8#32) (k0_off1_inb L 1) 1 (by omega) (off1_row L 1 ⟨1, by omega⟩ (by decide))).symm) $$ Hx1
  -- bank 1: the block in the input bank is spread over the output bank
  sl_for (sinv1 d L (CX m d L 1) (fun _ => zF (F := F))) $$ [HB1 HB5]
  case region => exact fun k acc => trip1 d L (tile_body_thr.sl.v2 L) 0#32 8#32 (CX m d L 1) (fun _ => zF (F := F)) k acc
  · unfold sinv1
    isplitl [HB1]; · iexact HB1
    iexists _; isplitl [HB5]; · iexact HB5
    ipureintro; exact rowsDone1_zero _ _
  iintro %acc3 HI
  unfold sinv1
  icases HI with ⟨HB1, %H3', HB5, %hH3'⟩
  rw [trips_t3] at hH3'
  have eH3 : H3' = spreadB (CX m d L 1) := rowsDone1_full _ _ H3' hH3' (fun _ _ _ => rfl)
  subst eH3
  ihave Ho1 := (Entails.of_eq (oe_at d L (off := k0_off19 L 8#32) (k0_off19_inb L 1) 1 (by omega) (off19_row L 1 ⟨1, by omega⟩ (by decide)))) $$ Ho1
  icases Ho1 with ⟨%fo1, Ho1⟩
  ihave Hx5 := (Entails.of_eq (xp_at m d L (off := k0_off1 L 40#32) (k0_off1_inb L 5) 5 (by omega) (off1_row L 5 ⟨5, by omega⟩ (by decide)))) $$ Hx5
  sl_exec
  iclear HB5
  ihave HB2 := (Entails.of_eq (landed2 m d L 2 _ _ (by exact cx_at m d L (off := k0_off1 L 16#32) (k0_off1_inb L 2) 2 (by omega) (off1_row L 2 ⟨2, by omega⟩ (by decide))))) $$ HB2
  ihave Hx2 := (Entails.of_eq (xp_at m d L (off := k0_off1 L 16#32) (k0_off1_inb L 2) 2 (by omega) (off1_row L 2 ⟨2, by omega⟩ (by decide))).symm) $$ Hx2
  -- bank 2: the block in the input bank is spread over the output bank
  sl_for (sinv2 d L (CX m d L 2) (fun _ => zF (F := F))) $$ [HB2 HB6]
  case region => exact fun k acc => trip2 d L (tile_body_thr.sl.v2 L) 0#32 8#32 (CX m d L 2) (fun _ => zF (F := F)) k acc
  · unfold sinv2
    isplitl [HB2]; · iexact HB2
    iexists _; isplitl [HB6]; · iexact HB6
    ipureintro; exact rowsDone2_zero _ _
  iintro %acc4 HI
  unfold sinv2
  icases HI with ⟨HB2, %H4', HB6, %hH4'⟩
  rw [trips_t4] at hH4'
  have eH4 : H4' = spreadB (CX m d L 2) := rowsDone2_full _ _ H4' hH4' (fun _ _ _ => rfl)
  subst eH4
  ihave Ho2 := (Entails.of_eq (oe_at d L (off := k0_off19 L 16#32) (k0_off19_inb L 2) 2 (by omega) (off19_row L 2 ⟨2, by omega⟩ (by decide)))) $$ Ho2
  icases Ho2 with ⟨%fo2, Ho2⟩
  ihave Hx6 := (Entails.of_eq (xp_at m d L (off := k0_off1 L 48#32) (k0_off1_inb L 6) 6 (by omega) (off1_row L 6 ⟨6, by omega⟩ (by decide)))) $$ Hx6
  sl_exec
  iclear HB6
  ihave HB3 := (Entails.of_eq (landed3 m d L 3 _ _ (by exact cx_at m d L (off := k0_off1 L 24#32) (k0_off1_inb L 3) 3 (by omega) (off1_row L 3 ⟨3, by omega⟩ (by decide))))) $$ HB3
  ihave Hx3 := (Entails.of_eq (xp_at m d L (off := k0_off1 L 24#32) (k0_off1_inb L 3) 3 (by omega) (off1_row L 3 ⟨3, by omega⟩ (by decide))).symm) $$ Hx3
  -- bank 3: the block in the input bank is spread over the output bank
  sl_for (sinv3 d L (CX m d L 3) (fun _ => zF (F := F))) $$ [HB3 HB7]
  case region => exact fun k acc => trip3 d L (tile_body_thr.sl.v2 L) 0#32 8#32 (CX m d L 3) (fun _ => zF (F := F)) k acc
  · unfold sinv3
    isplitl [HB3]; · iexact HB3
    iexists _; isplitl [HB7]; · iexact HB7
    ipureintro; exact rowsDone3_zero _ _
  iintro %acc5 HI
  unfold sinv3
  icases HI with ⟨HB3, %H5', HB7, %hH5'⟩
  rw [trips_t5] at hH5'
  have eH5 : H5' = spreadB (CX m d L 3) := rowsDone3_full _ _ H5' hH5' (fun _ _ _ => rfl)
  subst eH5
  ihave Ho3 := (Entails.of_eq (oe_at d L (off := k0_off19 L 24#32) (k0_off19_inb L 3) 3 (by omega) (off19_row L 3 ⟨3, by omega⟩ (by decide)))) $$ Ho3
  icases Ho3 with ⟨%fo3, Ho3⟩
  ihave Hx7 := (Entails.of_eq (xp_at m d L (off := k0_off1 L 56#32) (k0_off1_inb L 7) 7 (by omega) (off1_row L 7 ⟨7, by omega⟩ (by decide)))) $$ Hx7
  sl_exec
  iclear HB7
  -- the main loop
  sl_for (minv m d L O W) $$ [Hx0 Hx1 Hx2 Hx3 Hxr Hor Hq0 Hq1 Hq2 Hq3 Hq4 Hq5 Hq6 Hq7 HO]
  case region => exact fun k acc => main_trip m d L O W (tile_body_thr.sl.v2 L) k acc
  · iapply (Entails.of_eq (minv_zero m d L O W _).symm)
    isplitr; · iexact Hmw
    isplitl [Hx0 Hx1 Hx2 Hx3 Hxr]
    · iapply (Entails.of_eq (hand0 (Φ := XP m d L)))
      isplitl [Hx0]; · iexact Hx0
      isplitl [Hx1]; · iexact Hx1
      isplitl [Hx2]; · iexact Hx2
      isplitl [Hx3]; · iexact Hx3
      iexact Hxr
    isplitr
    · iapply (Entails.of_eq (done1 (Φ := OG m d L))); iempintro
    isplitl [Hor]; · iexact Hor
    isplitl [Hq0]
    · iapply (flin0 m d L q0 4 (by omega) _ _ (cx_at m d L (off := k0_off1 L 32#32) (k0_off1_inb L 4) 4 (by omega) (off1_row L 4 ⟨4, by omega⟩ (by decide))) _ (xp_at m d L (off := k0_off1 L 32#32) (k0_off1_inb L 4) 4 (by omega) (off1_row L 4 ⟨4, by omega⟩ (by decide))).symm)
      iexact Hq0
    isplitl [Hq1]
    · iapply (flin1 m d L q1 5 (by omega) _ _ (cx_at m d L (off := k0_off1 L 40#32) (k0_off1_inb L 5) 5 (by omega) (off1_row L 5 ⟨5, by omega⟩ (by decide))) _ (xp_at m d L (off := k0_off1 L 40#32) (k0_off1_inb L 5) 5 (by omega) (off1_row L 5 ⟨5, by omega⟩ (by decide))).symm)
      iexact Hq1
    isplitl [Hq2]
    · iapply (flin2 m d L q2 6 (by omega) _ _ (cx_at m d L (off := k0_off1 L 48#32) (k0_off1_inb L 6) 6 (by omega) (off1_row L 6 ⟨6, by omega⟩ (by decide))) _ (xp_at m d L (off := k0_off1 L 48#32) (k0_off1_inb L 6) 6 (by omega) (off1_row L 6 ⟨6, by omega⟩ (by decide))).symm)
      iexact Hq2
    isplitl [Hq3]
    · iapply (flin3 m d L q3 7 (by omega) _ _ (cx_at m d L (off := k0_off1 L 56#32) (k0_off1_inb L 7) 7 (by omega) (off1_row L 7 ⟨7, by omega⟩ (by decide))) _ (xp_at m d L (off := k0_off1 L 56#32) (k0_off1_inb L 7) 7 (by omega) (off1_row L 7 ⟨7, by omega⟩ (by decide))).symm)
      iexact Hq3
    isplitl [Hq4]
    · iapply (flout0 m d L q4 0 (by omega) _ (og_at m d L (off := k0_off19 L 0#32) (k0_off19_inb L 0) 0 (by omega) (off19_row L 0 ⟨0, by omega⟩ (by decide)) fo0 _ (pay_sO0 d L _)))
      iexact Hq4
    isplitl [Hq5]
    · iapply (flout1 m d L q5 1 (by omega) _ (og_at m d L (off := k0_off19 L 8#32) (k0_off19_inb L 1) 1 (by omega) (off19_row L 1 ⟨1, by omega⟩ (by decide)) fo1 _ (pay_sO1 d L _)))
      iexact Hq5
    isplitl [Hq6]
    · iapply (flout2 m d L q6 2 (by omega) _ (og_at m d L (off := k0_off19 L 16#32) (k0_off19_inb L 2) 2 (by omega) (off19_row L 2 ⟨2, by omega⟩ (by decide)) fo2 _ (pay_sO2 d L _)))
      iexact Hq6
    isplitl [Hq7]
    · iapply (flout3 m d L q7 3 (by omega) _ (og_at m d L (off := k0_off19 L 24#32) (k0_off19_inb L 3) 3 (by omega) (off19_row L 3 ⟨3, by omega⟩ (by decide)) fo3 _ (pay_sO3 d L _)))
      iexact Hq7
    iexists _; isplitr
    swap
    · iexact HO
    · ipureintro
      exact waits_insert (waits_insert (waits_insert (waits_insert (fun p hp => Or.inl hp) _) _) _) _
  iintro %accM HI
  ihave HI := (Entails.of_eq (minv_last m d L O W accM)) $$ HI
  icases HI with ⟨-, Hxh, Hdone, Htodo, HFi0, HFi1, HFi2, HFi3, HFo0, HFo1, HFo2, HFo3, %W', %hW', HO⟩
  ihave Htodo := (Entails.of_eq (todo15 (Φ := OE (F := F) d L))) $$ Htodo
  icases Htodo with ⟨Ho0, Ho1, Ho2, Ho3, -⟩
  sl_exec
  -- bank 0: the block in the input bank is spread over the output bank
  sl_for (sinv0 d L (CX m d L 60) (spreadB (CX m d L 56))) $$ [HFi0_dst HFo0_src]
  case region => exact fun k acc => trip0 d L (tile_body_thr.sl.v2 L) 0#32 8#32 (CX m d L 60) (spreadB (CX m d L 56)) k acc
  · unfold sinv0
    isplitl [HFi0_dst]; · iexact HFi0_dst
    iexists _; isplitl [HFo0_src]; · iexact HFo0_src
    ipureintro; exact rowsDone0_zero _ _
  iintro %acc11 HI
  unfold sinv0
  icases HI with ⟨HB0, %H11', HB4, %hH11'⟩
  rw [trips_t11] at hH11'
  have eH11 : H11' = spreadB (CX m d L 60) := rowsDone0_full _ _ H11' hH11' (fun p q hq => if_neg hq)
  subst eH11
  ihave Ho0 := (Entails.of_eq (oe_at d L (off := k0_off19 L 480#32) (k0_off19_inb L 5) 60 (by omega) (off19_row L 5 ⟨60, by omega⟩ (by decide)))) $$ Ho0
  icases Ho0 with ⟨%fo60, Ho0⟩
  sl_exec
  iclear HB4
  -- bank 1: the block in the input bank is spread over the output bank
  sl_for (sinv1 d L (CX m d L 61) (spreadB (CX m d L 57))) $$ [HFi1_dst HFo1_src]
  case region => exact fun k acc => trip1 d L (tile_body_thr.sl.v2 L) 0#32 8#32 (CX m d L 61) (spreadB (CX m d L 57)) k acc
  · unfold sinv1
    isplitl [HFi1_dst]; · iexact HFi1_dst
    iexists _; isplitl [HFo1_src]; · iexact HFo1_src
    ipureintro; exact rowsDone1_zero _ _
  iintro %acc12 HI
  unfold sinv1
  icases HI with ⟨HB1, %H12', HB5, %hH12'⟩
  rw [trips_t12] at hH12'
  have eH12 : H12' = spreadB (CX m d L 61) := rowsDone1_full _ _ H12' hH12' (fun p q hq => if_neg hq)
  subst eH12
  ihave Ho1 := (Entails.of_eq (oe_at d L (off := k0_off19 L 488#32) (k0_off19_inb L 7) 61 (by omega) (off19_row L 7 ⟨61, by omega⟩ (by decide)))) $$ Ho1
  icases Ho1 with ⟨%fo61, Ho1⟩
  sl_exec
  iclear HB5
  -- bank 2: the block in the input bank is spread over the output bank
  sl_for (sinv2 d L (CX m d L 62) (spreadB (CX m d L 58))) $$ [HFi2_dst HFo2_src]
  case region => exact fun k acc => trip2 d L (tile_body_thr.sl.v2 L) 0#32 8#32 (CX m d L 62) (spreadB (CX m d L 58)) k acc
  · unfold sinv2
    isplitl [HFi2_dst]; · iexact HFi2_dst
    iexists _; isplitl [HFo2_src]; · iexact HFo2_src
    ipureintro; exact rowsDone2_zero _ _
  iintro %acc13 HI
  unfold sinv2
  icases HI with ⟨HB2, %H13', HB6, %hH13'⟩
  rw [trips_t13] at hH13'
  have eH13 : H13' = spreadB (CX m d L 62) := rowsDone2_full _ _ H13' hH13' (fun p q hq => if_neg hq)
  subst eH13
  ihave Ho2 := (Entails.of_eq (oe_at d L (off := k0_off19 L 496#32) (k0_off19_inb L 9) 62 (by omega) (off19_row L 9 ⟨62, by omega⟩ (by decide)))) $$ Ho2
  icases Ho2 with ⟨%fo62, Ho2⟩
  sl_exec
  iclear HB6
  -- bank 3: the block in the input bank is spread over the output bank
  sl_for (sinv3 d L (CX m d L 63) (spreadB (CX m d L 59))) $$ [HFi3_dst HFo3_src]
  case region => exact fun k acc => trip3 d L (tile_body_thr.sl.v2 L) 0#32 8#32 (CX m d L 63) (spreadB (CX m d L 59)) k acc
  · unfold sinv3
    isplitl [HFi3_dst]; · iexact HFi3_dst
    iexists _; isplitl [HFo3_src]; · iexact HFo3_src
    ipureintro; exact rowsDone3_zero _ _
  iintro %acc14 HI
  unfold sinv3
  icases HI with ⟨HB3, %H14', HB7, %hH14'⟩
  rw [trips_t14] at hH14'
  have eH14 : H14' = spreadB (CX m d L 63) := rowsDone3_full _ _ H14' hH14' (fun p q hq => if_neg hq)
  subst eH14
  ihave Ho3 := (Entails.of_eq (oe_at d L (off := k0_off19 L 504#32) (k0_off19_inb L 11) 63 (by omega) (off19_row L 11 ⟨63, by omega⟩ (by decide)))) $$ Ho3
  icases Ho3 with ⟨%fo63, Ho3⟩
  sl_exec
  -- the four last result chunks hold the spread; the four last input chunks are back in hand
  ihave Ho0 := (Entails.of_eq (og_at m d L (off := k0_off19 L 480#32) (k0_off19_inb L 5) 60 (by omega) (off19_row L 5 ⟨60, by omega⟩ (by decide)) _ _ (by exact pay_sO0 (F := F) d L _))) $$ Ho0
  ihave HFi0_src := (Entails.of_eq (xp_at m d L (off := k0_off1 L 480#32) (k0_off1_inb L 8) 60 (by omega) (off1_row L 8 ⟨60, by omega⟩ (by decide))).symm) $$ HFi0_src
  ihave Ho1 := (Entails.of_eq (og_at m d L (off := k0_off19 L 488#32) (k0_off19_inb L 7) 61 (by omega) (off19_row L 7 ⟨61, by omega⟩ (by decide)) _ _ (by exact pay_sO1 (F := F) d L _))) $$ Ho1
  ihave HFi1_src := (Entails.of_eq (xp_at m d L (off := k0_off1 L 488#32) (k0_off1_inb L 9) 61 (by omega) (off1_row L 9 ⟨61, by omega⟩ (by decide))).symm) $$ HFi1_src
  ihave Ho2 := (Entails.of_eq (og_at m d L (off := k0_off19 L 496#32) (k0_off19_inb L 9) 62 (by omega) (off19_row L 9 ⟨62, by omega⟩ (by decide)) _ _ (by exact pay_sO2 (F := F) d L _))) $$ Ho2
  ihave HFi2_src := (Entails.of_eq (xp_at m d L (off := k0_off1 L 496#32) (k0_off1_inb L 10) 62 (by omega) (off1_row L 10 ⟨62, by omega⟩ (by decide))).symm) $$ HFi2_src
  ihave Ho3 := (Entails.of_eq (og_at m d L (off := k0_off19 L 504#32) (k0_off19_inb L 11) 63 (by omega) (off19_row L 11 ⟨63, by omega⟩ (by decide)) _ _ (by exact pay_sO3 (F := F) d L _))) $$ Ho3
  ihave HFi3_src := (Entails.of_eq (xp_at m d L (off := k0_off1 L 504#32) (k0_off1_inb L 11) 63 (by omega) (off1_row L 11 ⟨63, by omega⟩ (by decide))).symm) $$ HFi3_src
  sl_step
  isplitl [Hxh HFi0_src HFi1_src HFi2_src HFi3_src Hdone HFo0_dst HFo1_dst HFo2_dst HFo3_dst Ho0 Ho1 Ho2 Ho3]
  · iapply (Entails.of_eq (tdRes_join m d L))
    isplitl [Hxh HFi0_src HFi1_src HFi2_src HFi3_src]
    · iapply (Entails.of_eq (inHand_last (Φ := XP m d L)))
      isplitl [HFi0_src]; · iexact HFi0_src
      isplitl [HFi1_src]; · iexact HFi1_src
      isplitl [HFi2_src]; · iexact HFi2_src
      isplitl [HFi3_src]; · iexact HFi3_src
      iexact Hxh
    · iapply (Entails.of_eq (done16 (Φ := OG m d L)))
      isplitl [Ho0]; · iexact Ho0
      isplitl [Ho1]; · iexact Ho1
      isplitl [Ho2]; · iexact Ho2
      isplitl [Ho3]; · iexact Ho3
      iapply (Entails.of_eq (done15 (Φ := OG m d L)))
      isplitl [HFo0_dst]; · iexact HFo0_dst
      isplitl [HFo1_dst]; · iexact HFo1_dst
      isplitl [HFo2_dst]; · iexact HFo2_dst
      isplitl [HFo3_dst]; · iexact HFo3_dst
      iexact Hdone
  isplitl [HB0 HB1 HB2 HB3 HB4 HB5 HB6 HB7 Hbufs]
  · isplitr [Hbufs]
    · isplitl [HB0]; · iexists _; iexact HB0
      isplitl [HB1]; · iexists _; iexact HB1
      isplitl [HB2]; · iexists _; iexact HB2
      isplitl [HB3]; · iexists _; iexact HB3
      isplitl [HB4]; · iapply (whole_back0 d L _); iexact HB4
      isplitl [HB5]; · iapply (whole_back1 d L _); iexact HB5
      isplitl [HB6]; · iapply (whole_back2 d L _); iexact HB6
      first | (iexists _; iexact HB7) | (iapply (whole_back3 d L _); iexact HB7)
    · iexact Hbufs
  isplitl [HFi0 HFi1 HFi2 HFi3 HFo0 HFo1 HFo2 HFo3 Hsems]
  · isplitr [Hsems]
    · isplitl [HFi0]; · iexact HFi0
      isplitl [HFi1]; · iexact HFi1
      isplitl [HFi2]; · iexact HFi2
      isplitl [HFi3]; · iexact HFi3
      isplitl [HFo0]; · iexact HFo0
      isplitl [HFo1]; · iexact HFo1
      isplitl [HFo2]; · iexact HFo2
      iexact HFo3
    · iexact Hsems
  iexists _; isplitr
  swap
  · iexact HO
  · ipureintro
    intro p hp
    simp only [Finset.mem_insert] at hp
    rcases hp with rfl | rfl | rfl | rfl | rfl | rfl | rfl | rfl | rfl | rfl | rfl | rfl | hp
    all_goals first | exact hW' p hp | exact .inr rfl

/-- The tile body's statement, at the thread as the launch spells it. -/
theorem tile_body : TileBody (F := F) m := fun d L O W hO => tile_body_thr m d L O W hO

end Cert.Proof.KI
end
-- ==== Proof.KBDefs.lean ====
/-
  The setting of the kernel's run, shared by the modules that prove it.

  The kernel's @main flattens the rows of `x` to one axis (16384 rows of 256 columns), starts one
  task on each of the 32 vector subcores (2 cores × 16 subcores), and unflattens the 16384 × 2048
  result. Task `(c, s)` has number `w = 2·s + c` and owns the 512 rows `[512·w, 512·w + 512)` of both
  arrays, which it moves in 64 chunks of 8 rows: chunk `k` is the rows `[512·w + 8·k, 512·w + 8·k + 8)`.
  A task is handed, per chunk, that chunk of the flattened input at its launch contents and that
  chunk of the result at anything; it hands back the input chunk unchanged and the result chunk at
  the spread of the input (`Cert.Spec.up2`). The chunks of all tasks tile both arrays.
-/
import proofs.«217887_g14147622273102_retrytranche1_597_18_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217887_g14147622273102_retrytranche1_597_18_alg».proof.Proof.Gen.Kernel
import proofs.«217887_g14147622273102_retrytranche1_597_18_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The two arguments, the flattened input, the flat result and the result, as locations of device `d`. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-- The fill value: the kernel's zero constant, as a word read at the instance. -/
abbrev zF : Elt F .f32 := Scalar.ofBits (F := F) .f32 0x00000000#32

/-- The flattened input as @main's first operation leaves it. -/
def X2 (d : Dev nD) : Buf (Elt F) (xLoc d) := shapeCast S16384x256 (m (aLoc d)) shapeCasts_S4x4096x256_S16384x256
/-- What the tasks together leave in the flat result: the spread of the flattened input. -/
def G2 (d : Dev nD) : Buf (Elt F) (oLoc d) := Cert.Spec.up2 (zF (F := F)) (X2 m d)

/-! ## Tasks and chunks -/

/-- The number of the task on core `c`, subcore `s`. -/
def wid (c : Fin 2) (s : Fin 16) : Fin 32 := ⟨2 * s.val + c.val, by omega⟩

theorem xr_inb (w : Fin 32) (k : Fin 64) : ∀ a, (![512 * w.val + 8 * k.val, 0] : Fin 2 → Nat) a + S8x256.size a ≤ S16384x256.size a := by
  intro a; have := w.isLt; have := k.isLt
  match a with
  | 0 => show 512 * w.val + 8 * k.val + 8 ≤ 16384; omega
  | 1 => show 0 + 256 ≤ 256; omega
theorem or_inb (w : Fin 32) (k : Fin 64) : ∀ a, (![512 * w.val + 8 * k.val, 0] : Fin 2 → Nat) a + S8x2048.size a ≤ S16384x2048.size a := by
  intro a; have := w.isLt; have := k.isLt
  match a with
  | 0 => show 512 * w.val + 8 * k.val + 8 ≤ 16384; omega
  | 1 => show 0 + 2048 ≤ 2048; omega

/-- Chunk `k` of task `w`: eight whole rows of the flattened input, and of the flat result. -/
abbrev xRect (w : Fin 32) (k : Fin 64) : Rect S16384x256 := Rect.unit (s := S16384x256) ![512 * w.val + 8 * k.val, 0] S8x256.size (xr_inb w k)
abbrev oRect (w : Fin 32) (k : Fin 64) : Rect S16384x2048 := Rect.unit (s := S16384x2048) ![512 * w.val + 8 * k.val, 0] S8x2048.size (or_inb w k)
abbrev xSet (w : Fin 32) (k : Fin 64) : Finset S16384x256.Idx := ((Memref.whole main_v0_scv : Memref sig .scVector .hbm S16384x256 .f32).view.slice (xRect w k)).set
abbrev oSet (w : Fin 32) (k : Fin 64) : Finset S16384x2048.Idx := ((Memref.whole main_v1_scv : Memref sig .scVector .hbm S16384x2048 .f32).view.slice (oRect w k)).set

/-- What task `w` is handed: each of its input chunks at the flattened input, each of its result chunks at anything. -/
def goRes (d : Dev nD) (w : Fin 32) : sProp 𝕄 :=
  bigSep Finset.univ fun k : Fin 64 => iprop((xLoc d ↦[xSet w k]{fullShare} X2 m d) ∗ ∃ f, oLoc d ↦[oSet w k]{fullShare} f)
/-- What task `w` hands back: its input chunks unchanged, its result chunks at the spread. -/
def tdRes (d : Dev nD) (w : Fin 32) : sProp 𝕄 :=
  bigSep Finset.univ fun k : Fin 64 => iprop((xLoc d ↦[xSet w k]{fullShare} X2 m d) ∗ oLoc d ↦[oSet w k]{fullShare} G2 m d)

/-- The one call: each core's sixteen tasks' chunks out, and back. -/
def P : (K (F := F)).Pay (nD := nD) (Val := Elt F) (Name := ℕ) (U := UU) where
  st := fun q d c => match q with | 0 => bigSep Finset.univ fun i : Fin 16 => goRes m d (wid (Fin.cast nCore_zero c) i)
  dn := fun q d c => match q with | 0 => bigSep Finset.univ fun i : Fin 16 => tdRes m d (wid (Fin.cast nCore_zero c) i)
  go := fun q d c i => match q with | 0 => goRes m d (wid (Fin.cast nCore_zero c) (Fin.cast nSub_zero i))
  td := fun q d c i => match q with | 0 => tdRes m d (wid (Fin.cast nCore_zero c) (Fin.cast nSub_zero i))
  x := fun _ _ => iprop(emp)

/-! ## A task's thread and its number, from its grid coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

/-- The kernel's memrefs, spelt as the body table passes them. -/
abbrev xW : Memref sig .scVector .hbm S16384x256 .f32 := Memref.whole main_v0_scv
abbrev oW : Memref sig .scVector .hbm S16384x2048 .f32 := Memref.whole main_v1_scv
abbrev sX0 : Memref sig .scVector .vmem S8x256 .f32 := Memref.whole cc0_scratch0
abbrev sX1 : Memref sig .scVector .vmem S8x256 .f32 := Memref.whole cc0_scratch1
abbrev sX2 : Memref sig .scVector .vmem S8x256 .f32 := Memref.whole cc0_scratch2
abbrev sX3 : Memref sig .scVector .vmem S8x256 .f32 := Memref.whole cc0_scratch3
abbrev sO0 : Memref sig .scVector .vmem S8x2048 .f32 := Memref.whole cc0_scratch4
abbrev sO1 : Memref sig .scVector .vmem S8x2048 .f32 := Memref.whole cc0_scratch5
abbrev sO2 : Memref sig .scVector .vmem S8x2048 .f32 := Memref.whole cc0_scratch6
abbrev sO3 : Memref sig .scVector .vmem S8x2048 .f32 := Memref.whole cc0_scratch7

/-- The task at grid point `L` of device `d`, as the launch theorem's obligation needs it: from the chunks it is
    handed, its own scratch and semaphores, and what it owes the launch, the body runs to the chunks handed back. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) oW (Memref.isWhole_whole _)
            sX0 (Memref.isWhole_whole _) sX1 (Memref.isWhole_whole _) sX2 (Memref.isWhole_whole _) sX3 (Memref.isWhole_whole _)
            sO0 (Memref.isWhole_whole _) sO1 (Memref.isWhole_whole _) sO2 (Memref.isWhole_whole _) sO3 (Memref.isWhole_whole _)
            cc0_scratch8 cc0_scratch9 cc0_scratch10 cc0_scratch11 cc0_scratch12 cc0_scratch13 cc0_scratch14 cc0_scratch15)
          fun _ => iprop(tdRes m d (wL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KBReshape.lean ====
/-
  Two facts about the arrays of the kernel's run that do not depend on how the run goes.

  The chunks tile both flat arrays: chunk `k` of task `w` is the eight rows from `512·w + 8·k`, the tasks are
  numbered `w = 2·i + c` over cores `c` and subcores `i`, so the chunks are the 2048 blocks of eight rows, each
  exactly once. Different chunks are separated on the row axis, and every element lies in the chunk its
  row names; hence a whole array held at some contents is the separating conjunction of its chunks at
  those contents, core by core, task by task, chunk by chunk.

  The result read back through the unflattening is the spread of the argument: the flat arrays' row
  `4096·b + s` is row `(b, s)` of the three-axis ones, columns untouched, so spreading the flattened
  input and unflattening gives the spread of the input.
-/
import proofs.«217887_g14147622273102_retrytranche1_597_18_alg».proof.Proof.KBDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks tile both arrays

A chunk is named by (core, subcore, chunk number); chunk `(c, i, k)` is the eight rows from
`512·(2i + c) + 8k`, so block number `128·i + 64·c + k` of the 2048 blocks of eight rows. -/

abbrev CIx : Type := Fin 2 × Fin 16 × Fin 64

theorem xSet_eq (w : Fin 32) (k : Fin 64) : xSet w k = (xRect w k).set := by
  show ((View.whole (main_v0_scv : Ref sig .scVector)).slice (xRect w k)).set = _
  rw [View.set_slice]; exact Finset.map_refl
theorem oSet_eq (w : Fin 32) (k : Fin 64) : oSet w k = (oRect w k).set := by
  show ((View.whole (main_v1_scv : Ref sig .scVector)).slice (oRect w k)).set = _
  rw [View.set_slice]; exact Finset.map_refl

/-- Different chunks have different block numbers. -/
theorem cix_ne {t t' : CIx} (h : t ≠ t') :
    64 * (wid t.1 t.2.1).val + t.2.2.val ≠ 64 * (wid t'.1 t'.2.1).val + t'.2.2.val := by
  intro e
  apply h
  obtain ⟨c, i, k⟩ := t; obtain ⟨c', i', k'⟩ := t'
  have e' : 64 * (2 * i.val + c.val) + k.val = 64 * (2 * i'.val + c'.val) + k'.val := e
  have := c.isLt; have := c'.isLt; have := i.isLt; have := i'.isLt; have := k.isLt; have := k'.isLt
  have hc : c.val = c'.val := by omega
  have hi : i.val = i'.val := by omega
  have hk : k.val = k'.val := by omega
  exact Prod.ext (Fin.ext hc) (Prod.ext (Fin.ext hi) (Fin.ext hk))

theorem xRect_disjoint {w w' : Fin 32} {k k' : Fin 64} (h : 64 * w.val + k.val ≠ 64 * w'.val + k'.val) :
    Disjoint (xRect w k).set (xRect w' k').set := by
  refine Rect.unit_disjoint 0 ?_
  show 512 * w.val + 8 * k.val + 8 ≤ 512 * w'.val + 8 * k'.val ∨ 512 * w'.val + 8 * k'.val + 8 ≤ 512 * w.val + 8 * k.val
  have := k.isLt; have := k'.isLt; omega
theorem oRect_disjoint {w w' : Fin 32} {k k' : Fin 64} (h : 64 * w.val + k.val ≠ 64 * w'.val + k'.val) :
    Disjoint (oRect w k).set (oRect w' k').set := by
  refine Rect.unit_disjoint 0 ?_
  show 512 * w.val + 8 * k.val + 8 ≤ 512 * w'.val + 8 * k'.val ∨ 512 * w'.val + 8 * k'.val + 8 ≤ 512 * w.val + 8 * k.val
  have := k.isLt; have := k'.isLt; omega

theorem xChunks_disjoint : ∀ t ∈ (Finset.univ : Finset CIx), ∀ t' ∈ (Finset.univ : Finset CIx), t ≠ t' →
    Disjoint (xSet (wid t.1 t.2.1) t.2.2) (xSet (wid t'.1 t'.2.1) t'.2.2) :=
  fun t _ t' _ h => by rw [xSet_eq, xSet_eq]; exact xRect_disjoint (cix_ne h)
theorem oChunks_disjoint : ∀ t ∈ (Finset.univ : Finset CIx), ∀ t' ∈ (Finset.univ : Finset CIx), t ≠ t' →
    Disjoint (oSet (wid t.1 t.2.1) t.2.2) (oSet (wid t'.1 t'.2.1) t'.2.2) :=
  fun t _ t' _ h => by rw [oSet_eq, oSet_eq]; exact oRect_disjoint (cix_ne h)

/-- Every element lies in the chunk its row names. -/
theorem xChunks_cover : (Finset.univ : Finset CIx).biUnion (fun t => xSet (wid t.1 t.2.1) t.2.2) = Finset.univ := by
  ext j
  simp only [Finset.mem_biUnion, Finset.mem_univ, true_and, iff_true]
  have hj0 : (j 0).val < 16384 := (j 0).isLt
  have hj1 : (j 1).val < 256 := (j 1).isLt
  refine ⟨(⟨(j 0).val / 512 % 2, by omega⟩, ⟨(j 0).val / 1024, by omega⟩, ⟨(j 0).val % 512 / 8, by omega⟩), ?_⟩
  rw [xSet_eq]
  refine Rect.mem_set_unit.mpr fun a => ?_
  match a with
  | 0 =>
    show 512 * (2 * ((j 0).val / 1024) + (j 0).val / 512 % 2) + 8 * ((j 0).val % 512 / 8) ≤ (j 0).val
      ∧ (j 0).val < 512 * (2 * ((j 0).val / 1024) + (j 0).val / 512 % 2) + 8 * ((j 0).val % 512 / 8) + 8
    omega
  | 1 => show 0 ≤ (j 1).val ∧ (j 1).val < 0 + 256; omega
theorem oChunks_cover : (Finset.univ : Finset CIx).biUnion (fun t => oSet (wid t.1 t.2.1) t.2.2) = Finset.univ := by
  ext j
  simp only [Finset.mem_biUnion, Finset.mem_univ, true_and, iff_true]
  have hj0 : (j 0).val < 16384 := (j 0).isLt
  have hj1 : (j 1).val < 2048 := (j 1).isLt
  refine ⟨(⟨(j 0).val / 512 % 2, by omega⟩, ⟨(j 0).val / 1024, by omega⟩, ⟨(j 0).val % 512 / 8, by omega⟩), ?_⟩
  rw [oSet_eq]
  refine Rect.mem_set_unit.mpr fun a => ?_
  match a with
  | 0 =>
    show 512 * (2 * ((j 0).val / 1024) + (j 0).val / 512 % 2) + 8 * ((j 0).val % 512 / 8) ≤ (j 0).val
      ∧ (j 0).val < 512 * (2 * ((j 0).val / 1024) + (j 0).val / 512 % 2) + 8 * ((j 0).val % 512 / 8) + 8
    omega
  | 1 => show 0 ≤ (j 1).val ∧ (j 1).val < 0 + 2048; omega

/-- A whole array is its chunks, task by task. -/
theorem xPts_chunks (d : Dev nD) (f : Buf (Elt F) (xLoc d)) :
    (xLoc d ↦{fullShare} f : sProp 𝕄)
      = bigSep Finset.univ fun c : Fin 2 => bigSep Finset.univ fun i : Fin 16 => bigSep Finset.univ fun k : Fin 64 =>
          xLoc d ↦[xSet (wid c i) k]{fullShare} f := by
  have h : (xLoc d ↦[(Finset.univ : Finset CIx).biUnion fun t => xSet (wid t.1 t.2.1) t.2.2]{fullShare} f : sProp 𝕄)
      = bigSep Finset.univ fun t : CIx => xLoc d ↦[xSet (wid t.1 t.2.1) t.2.2]{fullShare} f :=
    pointsTo_biUnion Finset.univ (ℓ := xLoc d) (fun t : CIx => xSet (wid t.1 t.2.1) t.2.2) xChunks_disjoint
  rw [xChunks_cover] at h
  refine h.trans ?_
  rw [bigSep_univ_prod]
  exact bigSep_congr fun c _ => bigSep_univ_prod _
theorem oPts_chunks (d : Dev nD) (f : Buf (Elt F) (oLoc d)) :
    (oLoc d ↦{fullShare} f : sProp 𝕄)
      = bigSep Finset.univ fun c : Fin 2 => bigSep Finset.univ fun i : Fin 16 => bigSep Finset.univ fun k : Fin 64 =>
          oLoc d ↦[oSet (wid c i) k]{fullShare} f := by
  have h : (oLoc d ↦[(Finset.univ : Finset CIx).biUnion fun t => oSet (wid t.1 t.2.1) t.2.2]{fullShare} f : sProp 𝕄)
      = bigSep Finset.univ fun t : CIx => oLoc d ↦[oSet (wid t.1 t.2.1) t.2.2]{fullShare} f :=
    pointsTo_biUnion Finset.univ (ℓ := oLoc d) (fun t : CIx => oSet (wid t.1 t.2.1) t.2.2) oChunks_disjoint
  rw [oChunks_cover] at h
  refine h.trans ?_
  rw [bigSep_univ_prod]
  exact bigSep_congr fun c _ => bigSep_univ_prod _

/-- Every rank-3 index is built from three coordinates of literal extent. -/
theorem exists_ix3 {n0 n1 n2 : Nat} (j : (⟨3, ![n0, n1, n2]⟩ : Shape).Idx) :
    ∃ (a : Fin n0) (b : Fin n1) (c : Fin n2), j = ix3 a b c := ⟨j 0, j 1, j 2, eq_ix3 j⟩

/-- Unflattening the spread of the flattened array is the spread of the array: row `(b, s)` of the
    three-axis arrays is row `4096·b + s` of the flat ones, and the columns are untouched. -/
theorem up_unflatten {α : Type} (z : α) (x : Cert.Spec.SX3.Idx → α)
    (h1 : Cert.Spec.SX3.ShapeCasts Cert.Spec.SX2) (h2 : Cert.Spec.SO2.ShapeCasts Cert.Spec.SO3) :
    shapeCast Cert.Spec.SO3 (Cert.Spec.up2 z (shapeCast Cert.Spec.SX2 x h1)) h2 = Cert.Spec.up3 z x := by
  funext i
  obtain ⟨b, s, c, rfl⟩ := exists_ix3 i
  have hb := b.isLt; have hs := s.isLt; have hc := c.isLt
  have e1 : shapeCast Cert.Spec.SO3 (Cert.Spec.up2 z (shapeCast Cert.Spec.SX2 x h1)) h2 (ix3 b s c)
      = Cert.Spec.up2 z (shapeCast Cert.Spec.SX2 x h1) (ix2 (⟨4096 * b.val + s.val, by omega⟩ : Fin 16384) c) := by
    refine shapeCast_apply _ h2 (ix3 b s c) (ix2 (⟨4096 * b.val + s.val, by omega⟩ : Fin 16384) c) ?_
    rw [Shape.rowMajor_val_two, Shape.rowMajor_val_three]
    show (4096 * b.val + s.val) * 2048 + c.val = (b.val * 4096 + s.val) * 2048 + c.val
    omega
  rw [e1]
  show (if c.val % 8 = 0 then shapeCast Cert.Spec.SX2 x h1 (ix2 (⟨4096 * b.val + s.val, by omega⟩ : Fin 16384) (Cert.Spec.col c)) else z)
    = if c.val % 8 = 0 then x (ix3 b s (Cert.Spec.col c)) else z
  by_cases h : c.val % 8 = 0
  · rw [if_pos h, if_pos h]
    refine shapeCast_apply x h1 _ (ix3 b s (Cert.Spec.col c)) ?_
    rw [Shape.rowMajor_val_two, Shape.rowMajor_val_three]
    show (b.val * 4096 + s.val) * 256 + (Cert.Spec.col c).val = (4096 * b.val + s.val) * 256 + (Cert.Spec.col c).val
    omega
  · rw [if_neg h, if_neg h]

variable (m : (ℓ : Loc nD τ sig) → Buf (Elt F) ℓ)
variable [FloatOps F]

/-- The result: the flat result unflattened. -/
def R3 (d : Dev nD) : Buf (Elt F) (rLoc d) := shapeCast S4x4096x2048 (G2 m d) shapeCasts_S16384x2048_S4x4096x2048

theorem R3_eq (d : Dev nD) : R3 m d = Cert.Spec.up3 (zF (F := F)) (m (aLoc d)) := by
  unfold R3 G2 X2
  exact up_unflatten (zF (F := F)) (m (aLoc d)) shapeCasts_S4x4096x256_S16384x256 shapeCasts_S16384x2048_S4x4096x2048

end Cert.Proof.KB

end
-- ==== Proof.KBLaunch.lean ====
/-
  The kernel's run, from the statement of one task's body.

  @main flattens the rows of the first argument to one axis, starts one task on each of the 32 vector subcores,
  and unflattens the flat result. Given that every task, handed its 64 chunks of the flattened input at the launch
  contents and its 64 chunks of the flat result at anything, hands back the input chunks unchanged and the result
  chunks at the spread of the input, the whole run ends with the result at the unflattened spread of the first
  argument and both arguments unchanged.

  The argument: a core's operands are exactly its sixteen tasks' operands, so the split among tasks is the identity
  up to renaming the index type. The flattened input and the flat result, each held whole, are the separating
  conjunction of all tasks' chunks, because the chunks tile both arrays; so what the call takes is the two whole
  arrays, and what it hands back joins to the two whole arrays, the flat result now at the spread. The two reshapes
  are host operations on whole arrays: the first writes the flattened input from the argument, the second writes
  the result from the flat result, and neither touches any other array. The counters beside the handshakes' rounds
  play no part at the launch and are dropped.
-/
import proofs.«217887_g14147622273102_retrytranche1_597_18_alg».proof.Proof.KBReshape

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry, as equations -/

theorem P_st (d : Dev nD) (c : Fin ((K (F := F)).nCore 0)) :
    (P m).st 0 d c = bigSep Finset.univ fun i : Fin 16 => goRes m d (wid (Fin.cast nCore_zero c) i) := by unfold P; rfl
theorem P_dn (d : Dev nD) (c : Fin ((K (F := F)).nCore 0)) :
    (P m).dn 0 d c = bigSep Finset.univ fun i : Fin 16 => tdRes m d (wid (Fin.cast nCore_zero c) i) := by unfold P; rfl
theorem P_go (d : Dev nD) (c : Fin ((K (F := F)).nCore 0)) (i : Fin ((K (F := F)).nSub 0)) :
    (P m).go 0 d c i = goRes m d (wid (Fin.cast nCore_zero c) (Fin.cast nSub_zero i)) := by unfold P; rfl
theorem P_td (d : Dev nD) (c : Fin ((K (F := F)).nCore 0)) (i : Fin ((K (F := F)).nSub 0)) :
    (P m).td 0 d c i = tdRes m d (wid (Fin.cast nCore_zero c) (Fin.cast nSub_zero i)) := by unfold P; rfl

instance P_storable : (P (F := F) m).IsStorable where
  st q d c := match q with | 0 => by rw [P_st]; unfold goRes; infer_instance
  dn q d c := match q with | 0 => by rw [P_dn]; unfold tdRes; infer_instance
  go q d c i := match q with | 0 => by rw [P_go]; unfold goRes; infer_instance
  td q d c i := match q with | 0 => by rw [P_td]; unfold tdRes; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) xW (Memref.isWhole_whole _) oW (Memref.isWhole_whole _)
          sX0 (Memref.isWhole_whole _) sX1 (Memref.isWhole_whole _) sX2 (Memref.isWhole_whole _) sX3 (Memref.isWhole_whole _)
          sO0 (Memref.isWhole_whole _) sO1 (Memref.isWhole_whole _) sO2 (Memref.isWhole_whole _) sO3 (Memref.isWhole_whole _)
          cc0_scratch8 cc0_scratch9 cc0_scratch10 cc0_scratch11 cc0_scratch12 cc0_scratch13 cc0_scratch14 cc0_scratch15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each task's obligation is the tile body at the task's grid point. -/
theorem tileObl (h : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's operands are its sixteen tasks' operands, and its results theirs. -/
theorem vecSplit : (K (F := F)).VecSplit' (P m) 0 := by
  intro d c
  rw [P_st, P_dn]
  simp only [P_go, P_td]
  rw [bigSep_tasks (F := F) (fun i => goRes m d (wid (Fin.cast nCore_zero c) i)),
    bigSep_tasks (F := F) (fun i => tdRes m d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays split into all tasks' chunks, and joined back -/

omit [FloatOps F] in
theorem chunks_sep (Φ Ψ : Fin 2 → Fin 16 → Fin 64 → sProp 𝕄) :
    (bigSep Finset.univ fun c => bigSep Finset.univ fun i => bigSep Finset.univ fun k => iprop(Φ c i k ∗ Ψ c i k))
      = iprop((bigSep Finset.univ fun c => bigSep Finset.univ fun i => bigSep Finset.univ fun k => Φ c i k)
          ∗ bigSep Finset.univ fun c => bigSep Finset.univ fun i => bigSep Finset.univ fun k => Ψ c i k) := by
  rw [← bigSep_sep']
  refine bigSep_congr fun c _ => ?_
  rw [← bigSep_sep']
  exact bigSep_congr fun i _ => bigSep_sep' _ _ _

theorem st_all (d : Dev nD) :
    (bigSep Finset.univ fun c : Fin ((K (F := F)).nCore 0) => (P m).st 0 d c : sProp 𝕄)
      = bigSep Finset.univ fun c : Fin 2 => bigSep Finset.univ fun i : Fin 16 => goRes m d (wid c i) := by
  rw [bigSep_congr fun c _ => P_st m d c]
  exact bigSep_cores (F := F) (fun c' : Fin 2 => bigSep Finset.univ fun i : Fin 16 => goRes m d (wid c' i))
theorem dn_all (d : Dev nD) :
    (bigSep Finset.univ fun c : Fin ((K (F := F)).nCore 0) => (P m).dn 0 d c : sProp 𝕄)
      = bigSep Finset.univ fun c : Fin 2 => bigSep Finset.univ fun i : Fin 16 => tdRes m d (wid c i) := by
  rw [bigSep_congr fun c _ => P_dn m d c]
  exact bigSep_cores (F := F) (fun c' : Fin 2 => bigSep Finset.univ fun i : Fin 16 => tdRes m d (wid c' i))

/-- A chunk of the result held at some contents is that chunk held at anything. -/
theorem chunk_any (d : Dev nD) (w : Fin 32) (k : Fin 64) (f : Buf (Elt F) (oLoc d)) :
    iprop((xLoc d ↦[xSet w k]{fullShare} X2 m d) ∗ oLoc d ↦[oSet w k]{fullShare} f)
      ⊢ (iprop((xLoc d ↦[xSet w k]{fullShare} X2 m d) ∗ ∃ f, oLoc d ↦[oSet w k]{fullShare} f) : sProp 𝕄) := by
  iintro ⟨Hx, Ho⟩
  isplitl [Hx]; · iexact Hx
  iexists f; iexact Ho

/-- The flattened input whole and the flat result whole at anything are what the call takes. -/
theorem st_intro (d : Dev nD) (f : Buf (Elt F) (oLoc d)) :
    iprop((xLoc d ↦{fullShare} X2 m d) ∗ oLoc d ↦{fullShare} f)
      ⊢ (bigSep Finset.univ fun c : Fin ((K (F := F)).nCore 0) => (P m).st 0 d c : sProp 𝕄) := by
  rw [st_all]; unfold goRes
  rw [xPts_chunks, oPts_chunks, ← chunks_sep]
  exact bigSep_mono fun c _ => bigSep_mono fun i _ => bigSep_mono fun k _ => chunk_any m d (wid c i) k f

/-- What the call hands back is the flattened input whole, unchanged, and the flat result whole at the spread. -/
theorem dn_elim (d : Dev nD) :
    (bigSep Finset.univ fun c : Fin ((K (F := F)).nCore 0) => (P m).dn 0 d c : sProp 𝕄)
      ⊢ iprop((xLoc d ↦{fullShare} X2 m d) ∗ oLoc d ↦{fullShare} G2 m d) := by
  rw [dn_all]; unfold tdRes
  rw [chunks_sep, ← xPts_chunks, ← oPts_chunks]

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S4x4096x256_S16384x256
abbrev op2 : HloOp τ sig (Elt F) := StableHlo.reshape main_v1 main_v2 rfl shapeCasts_S16384x2048_S4x4096x2048

/-- The TensorCore's arrays, all unscoped. -/
abbrev S5 : Finset (DevRef τ sig) := {a', b', x', o', r'}

omit [FloatOps F] in
theorem held_S5 (d : Dev nD) (W : Valuation τ sig (Elt F)) :
    (held (T d) S5 W : sProp 𝕄) = iprop((aLoc d ↦{fullShare} W a') ∗ (bLoc d ↦{fullShare} W b') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the second reshape, the flattened input and the flat result at what the call left. -/
def V0 (d : Dev nD) : Valuation τ sig (Elt F) := fun b => m (d, b)
def V1 (d : Dev nD) : Valuation τ sig (Elt F) := Function.update (Function.update (V0 m d) x' (X2 m d)) o' (G2 m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := by
  unfold V1; rw [Function.update_of_ne (show a' ≠ o' by decide), Function.update_of_ne (show a' ≠ x' by decide)]; rfl
theorem V1_b (d : Dev nD) : V1 m d b' = m (bLoc d) := by
  unfold V1; rw [Function.update_of_ne (show b' ≠ o' by decide), Function.update_of_ne (show b' ≠ x' by decide)]; rfl
theorem V1_x (d : Dev nD) : V1 m d x' = X2 m d := by
  unfold V1; rw [Function.update_of_ne (show x' ≠ o' by decide), Function.update_self]
theorem V1_o (d : Dev nD) : V1 m d o' = G2 m d := by
  unfold V1; rw [Function.update_self]
theorem V1_r (d : Dev nD) : V1 m d r' = m (rLoc d) := by
  unfold V1; rw [Function.update_of_ne (show r' ≠ o' by decide), Function.update_of_ne (show r' ≠ x' by decide)]; rfl

theorem op1_x (W : Valuation τ sig (Elt F)) :
    (op1 (F := F)).result W x' = shapeCast S16384x256 (W a') shapeCasts_S4x4096x256_S16384x256 :=
  StableHlo.reshape_result main_arg0 main_v0 rfl shapeCasts_S4x4096x256_S16384x256 ⟨by decide, rfl⟩ ⟨by decide, rfl⟩ W
theorem op2_r (W : Valuation τ sig (Elt F)) :
    (op2 (F := F)).result W r' = shapeCast S4x4096x2048 (W o') shapeCasts_S16384x2048_S4x4096x2048 :=
  StableHlo.reshape_result main_v1 main_v2 rfl shapeCasts_S16384x2048_S4x4096x2048 ⟨by decide, rfl⟩ ⟨by decide, rfl⟩ W

theorem hop1 : (op1 (F := F)).bufs ⊆ S5 := show ({a', x'} : Finset (DevRef τ sig)) ⊆ S5 by decide
theorem hop2 : (op2 (F := F)).bufs ⊆ S5 := show ({o', r'} : Finset (DevRef τ sig)) ⊆ S5 by decide

/-- After the first reshape: the flattened input in place, everything else as launched. -/
theorem held_1 (d : Dev nD) :
    (held (T d) S5 ((op1 (F := F)).result (V0 m d)) : sProp 𝕄) = iprop((aLoc d ↦{fullShare} m (aLoc d)) ∗ (bLoc d ↦{fullShare} m (bLoc d))
      ∗ (xLoc d ↦{fullShare} X2 m d) ∗ (oLoc d ↦{fullShare} m (oLoc d)) ∗ rLoc d ↦{fullShare} m (rLoc d)) := by
  rw [held_S5, op1_x,
    (op1 (F := F)).result_of_not_mem (V0 m d) (b := a') (show a' ∉ ({x'} : Finset (DevRef τ sig)) by decide),
    (op1 (F := F)).result_of_not_mem (V0 m d) (b := b') (show b' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide)]
  rfl
theorem held_2 (d : Dev nD) :
    (held (T d) S5 (V1 m d) : sProp 𝕄) = iprop((aLoc d ↦{fullShare} m (aLoc d)) ∗ (bLoc d ↦{fullShare} m (bLoc d))
      ∗ (xLoc d ↦{fullShare} X2 m d) ∗ (oLoc d ↦{fullShare} G2 m d) ∗ rLoc d ↦{fullShare} m (rLoc d)) := by
  rw [held_S5, V1_a, V1_b, V1_x, V1_o, V1_r]
/-- After the second reshape: the result in place. -/
theorem held_3 (d : Dev nD) :
    (held (T d) S5 ((op2 (F := F)).result (V1 m d)) : sProp 𝕄) = iprop((aLoc d ↦{fullShare} m (aLoc d)) ∗ (bLoc d ↦{fullShare} m (bLoc d))
      ∗ (xLoc d ↦{fullShare} X2 m d) ∗ (oLoc d ↦{fullShare} G2 m d) ∗ rLoc d ↦{fullShare} R3 m d) := by
  rw [held_S5, op2_r,
    (op2 (F := F)).result_of_not_mem (V1 m d) (b := a') (show a' ∉ ({r'} : Finset (DevRef τ sig)) by decide),
    (op2 (F := F)).result_of_not_mem (V1 m d) (b := b') (show b' ∉ ({r'} : Finset (DevRef τ sig)) by decide),
    (op2 (F := F)).result_of_not_mem (V1 m d) (b := x') (show x' ∉ ({r'} : Finset (DevRef τ sig)) by decide),
    (op2 (F := F)).result_of_not_mem (V1 m d) (b := o') (show o' ∉ ({r'} : Finset (DevRef τ sig)) by decide),
    V1_a, V1_b, V1_x, V1_o]
  rfl

/-- What @main leaves the claim: the result at the unflattened spread, the two arguments at their launch contents. -/
abbrev FIN (d : Dev nD) : sProp 𝕄 :=
  iprop((rLoc d ↦{fullShare} R3 m d) ∗ (aLoc d ↦{fullShare} m (aLoc d)) ∗ bLoc d ↦{fullShare} m (bLoc d))

/-- @main on device `d`'s TensorCore: the flattening, the call from the flattened input and the flat result split
    into all tasks' chunks and joined back at the spread, the unflattening; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening, over the argument and the flattened input
  iapply (wp_hlo_within 𝒱 (SparseCore.T d) none Set.univ (op := op1) (S := S5) hop1 (V := V0 m d)) $$ [Hb Hheld]
  · isplitl [Hb]; · iexact Hb
    iexact Hheld
  iintro ⟨Hb, Hheld⟩
  ihave Hh := (Entails.of_eq (held_1 m d)) $$ Hheld
  icases Hh with ⟨Ha, Hbb, Hx, Ho, Hr⟩
  rw [wp_ret]; imodintro
  -- the call: every task's chunks out, and back
  iapply ((K (F := F)).wp_run (D (F := F)) 𝒱 (EH := EH) (P := P m) κ d 0) $$ [Hst Hx Ho Hb Ha Hbb Hr]
  isplitr; · iexact Hctx
  isplitl [Hst]; · iexact Hst
  isplitl [Hx Ho]
  · iapply (st_intro m d (m (oLoc d)))
    isplitl [Hx]; · iexact Hx
    iexact Ho
  iintro ⟨Hst, Hdn⟩
  ihave Hdn' := (dn_elim m d) $$ Hdn
  icases Hdn' with ⟨Hx, Ho⟩
  -- the unflattening, over the flat result and the result
  iapply (wp_hlo_within 𝒱 (SparseCore.T d) none Set.univ (op := op2) (S := S5) hop2 (V := V1 m d)) $$ [Hb Ha Hbb Hx Ho Hr]
  · isplitl [Hb]; · iexact Hb
    rw [held_2]
    isplitl [Ha]; · iexact Ha
    isplitl [Hbb]; · iexact Hbb
    isplitl [Hx]; · iexact Hx
    isplitl [Ho]; · iexact Ho
    iexact Hr
  iintro ⟨Hb, Hheld⟩
  ihave Hh := (Entails.of_eq (held_3 m d)) $$ Hheld
  icases Hh with ⟨Ha, Hbb, -, -, Hr⟩
  rw [wp_ret]; imodintro; imodintro
  isplitl [Hst]; · iexact Hst
  isplitl [Hr]; · iexact Hr
  isplitl [Ha]; · iexact Ha
  iexact Hbb

def fq (d : Dev nD) (s' : Phys nD τ sig (Elt F)) : Prop :=
  s'.mem.mem (rLoc d) = R3 m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hr, Ha, Hbb⟩, HSI⟩
  ihave H := (persistent_entails_right (SI_pointsTo_agree (st := s') (ℓ := rLoc d) (I := Finset.univ) (q := fullShare) (f := R3 m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := bLoc d) (I := Finset.univ) (q := fullShare) (f := m (bLoc d))) $$ [HSI Hbb]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (rLoc c) = R3 m c ∧ r.2.mem (aLoc c) = m (aLoc c) ∧ r.2.mem (bLoc c) = m (bLoc c)

/-- Every weakly fair execution of the device's threads from the launch memory ends with the result at the unflattened
    spread of the first argument and both arguments unchanged, given the tile body's statement. -/
theorem run_main [∀ e, Nonempty (Elt F e)] (h : TileBody (F := F) m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KBTileRes.lean ====
import proofs.«217887_g14147622273102_retrytranche1_597_18_alg».proof.Proof.KBDefs

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## A task's own scratch and semaphores

Among a vector subcore's own semaphore cells are the kernel's eight DMA semaphores (one per bank and direction), and
among its own buffers the eight scratch buffers (four input banks of 8 × 256, four output banks of 8 × 2048). The
two lemmas below take them out of the subcore's "everything I own, at zero / at some contents", leaving the rest. -/

variable (d : Dev nD) (L : grid0.Coords)

abbrev thr : Thread nD τ := V d (cV L) (jV L)

abbrev cellOf (s : DmaSem sig) : GSem nD τ sig := (thr d L, .dma s)

omit [FloatOps F] in
theorem cell_ne {s s' : DmaSem sig} (h : s ≠ s') : cellOf d L s ≠ cellOf d L s' :=
  fun e => h (SemLoc.dma.inj (Prod.mk.inj e).2)

omit [FloatOps F] in
theorem cell_mem (s : DmaSem sig) (hs : (SemLoc.dma s : SemLoc sig).isScoped .scVector = true) : cellOf d L s ∈ ownCells (thr d L) :=
  (mem_ownCells (g := cellOf d L s)).mpr ⟨rfl, hs⟩

abbrev q0 : DmaSem sig := cc0_scratch8.sem
abbrev q1 : DmaSem sig := cc0_scratch9.sem
abbrev q2 : DmaSem sig := cc0_scratch10.sem
abbrev q3 : DmaSem sig := cc0_scratch11.sem
abbrev q4 : DmaSem sig := cc0_scratch12.sem
abbrev q5 : DmaSem sig := cc0_scratch13.sem
abbrev q6 : DmaSem sig := cc0_scratch14.sem
abbrev q7 : DmaSem sig := cc0_scratch15.sem

/-- The eight semaphore cells as one finite set. -/
def semCells : Finset (GSem nD τ sig) :=
  {cellOf d L q0, cellOf d L q1, cellOf d L q2, cellOf d L q3, cellOf d L q4, cellOf d L q5, cellOf d L q6, cellOf d L q7}

omit [FloatOps F] in
theorem semCells_sub : semCells d L ⊆ ownCells (thr d L) := by
  intro g hg
  simp only [semCells, Finset.mem_insert, Finset.mem_singleton] at hg
  rcases hg with rfl | rfl | rfl | rfl | rfl | rfl | rfl | rfl <;> exact cell_mem d L _ (by decide)

omit [FloatOps F] in
theorem ownSems0_V8 :
    (ownSems0 (thr d L) : sProp 𝕄)
      = iprop((semVal (cellOf d L q0) 0 ∗ semVal (cellOf d L q1) 0 ∗ semVal (cellOf d L q2) 0 ∗ semVal (cellOf d L q3) 0
          ∗ semVal (cellOf d L q4) 0 ∗ semVal (cellOf d L q5) 0 ∗ semVal (cellOf d L q6) 0 ∗ semVal (cellOf d L q7) 0)
          ∗ bigSep (ownCells (thr d L) \ semCells d L) fun g => semVal g 0) := by
  unfold SparseCore.Cfg.ownSems0
  rw [SparseCore.bigSep_sdiff_split' (semCells_sub d L)]
  congr 1
  unfold semCells
  have n01 : cellOf d L q0 ≠ cellOf d L q1 := cell_ne d L (by decide)
  rw [SparseCore.bigSep_insert' (by simp only [Finset.mem_insert, Finset.mem_singleton, not_or]; exact ⟨cell_ne d L (by decide), cell_ne d L (by decide), cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide), cell_ne d L (by decide)⟩),
    SparseCore.bigSep_insert' (by simp only [Finset.mem_insert, Finset.mem_singleton, not_or]; exact ⟨cell_ne d L (by decide), cell_ne d L (by decide), cell_ne d L (by decide)⟩),
    SparseCore.bigSep_insert' (by simp only [Finset.mem_insert, Finset.mem_singleton, not_or]; exact ⟨cell_ne d L (by decide), cell_ne d L (by decide)⟩),
    SparseCore.bigSep_insert' (by simp only [Finset.mem_singleton]; exact cell_ne d L (by decide)),
    bigSep_singleton]

/-! The scratch buffers. -/

abbrev refOf (b : Ref sig .scVector) : DevRef τ sig := (Proc.scVector (cV L) (jV L)).devRef b

omit [FloatOps F] in
theorem ref_ne {b b' : Ref sig .scVector} (h : b ≠ b') : refOf L b ≠ refOf L b' :=
  fun e => h (Proc.devRef_injective _ e)

/-- The eight scratch buffers as one finite set. -/
def bufRefs : Finset (DevRef τ sig) :=
  {refOf L cc0_scratch0, refOf L cc0_scratch1, refOf L cc0_scratch2, refOf L cc0_scratch3,
   refOf L cc0_scratch4, refOf L cc0_scratch5, refOf L cc0_scratch6, refOf L cc0_scratch7}

omit [FloatOps F] in
theorem bufRefs_sub : bufRefs L ⊆ ownRefs (τ := τ) (.scVector (cV L) (jV L)) := by
  intro g hg
  simp only [bufRefs, Finset.mem_insert, Finset.mem_singleton] at hg
  rcases hg with rfl | rfl | rfl | rfl | rfl | rfl | rfl | rfl <;>
    exact SparseCore.Cfg.mem_ownRefs_of_owner (p := Proc.scVector (cV L) (jV L)) rfl

omit [FloatOps F] in
theorem ownBufs_V8 :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f))
          ∗ bigSep (ownRefs (τ := τ) (.scVector (cV L) (jV L)) \ bufRefs L) fun b => iprop(∃ f, ((d, b) : Loc nD τ sig) ↦{fullShare} f)) := by
  unfold SparseCore.Cfg.ownBufs
  rw [SparseCore.bigSep_sdiff_split' (bufRefs_sub L)]
  congr 1
  unfold bufRefs
  rw [SparseCore.bigSep_insert' (by simp only [Finset.mem_insert, Finset.mem_singleton, not_or]; exact ⟨ref_ne L (by decide), ref_ne L (by decide), ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide), ref_ne L (by decide)⟩),
    SparseCore.bigSep_insert' (by simp only [Finset.mem_insert, Finset.mem_singleton, not_or]; exact ⟨ref_ne L (by decide), ref_ne L (by decide), ref_ne L (by decide)⟩),
    SparseCore.bigSep_insert' (by simp only [Finset.mem_insert, Finset.mem_singleton, not_or]; exact ⟨ref_ne L (by decide), ref_ne L (by decide)⟩),
    SparseCore.bigSep_insert' (by simp only [Finset.mem_singleton]; exact ref_ne L (by decide)),
    bigSep_singleton]

end Cert.Proof.KB
end
-- ==== Proof.KBZero.lean ====
/-
  The zero fill of the four output banks, as a loop invariant and one trip of the loop.

  Each bank is 8 rows of 2048 columns, taken as 1024 pieces of sixteen consecutive columns, 128 pieces to a
  row, numbered in row-major order. Trip `i` of the loop stores the zero vector over piece `i` of every
  bank. So before trip `k` the first `k` pieces of each bank are zero and the other elements are what the
  bank held when the loop was entered (`zfill`); nothing is known of that at entry, everything is zero at exit.
-/
import proofs.«217887_g14147622273102_retrytranche1_597_18_alg».proof.Proof.KBTileRes

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## The zero fill of the four output banks

The loop runs 1024 trips. Trip `i` addresses, in each of the four 8 × 2048 banks, the sixteen-lane piece
`r = i / 128`, columns `[16·(i mod 128), 16·(i mod 128) + 16)`, and stores the zero vector there. In row-major
order of the pieces (128 to a row) that is piece number `i`: after `k` trips the first `k` pieces of every bank
hold the zero word's value and the rest what the bank held before; after all 1024 the whole bank is zero. -/

/-- A bank whose first `k` sixteen-lane pieces, in the loop's order, are zero and whose other elements are `H`'s. -/
def zfill (H : S8x2048.Idx → Elt F .f32) (k : Nat) : S8x2048.Idx → Elt F .f32 :=
  fun j => if 128 * (j 0).val + (j 1).val / 16 < k then zF (F := F) else H j

theorem zfill_zero (H : S8x2048.Idx → Elt F .f32) : zfill H 0 = H :=
  funext fun _ => if_neg (Nat.not_lt_zero _)

theorem zfill_full (H : S8x2048.Idx → Elt F .f32) : zfill H 1024 = fun _ => zF (F := F) :=
  funext fun j => by
    have h0 : (j 0).val < 8 := (j 0).isLt
    have h1 : (j 1).val < 2048 := (j 1).isLt
    exact if_pos (by omega)

/-- One more piece: the element is zero if it lies in piece `k`, and is as before otherwise. -/
theorem zfill_succ_apply (H : S8x2048.Idx → Elt F .f32) (k : Nat) (j : S8x2048.Idx) :
    zfill H (k + 1) j = if 128 * (j 0).val + (j 1).val / 16 = k then zF (F := F) else zfill H k j := by
  unfold zfill
  by_cases h : 128 * (j 0).val + (j 1).val / 16 = k
  · rw [if_pos h, if_pos (by omega)]
  · rw [if_neg h]
    by_cases h' : 128 * (j 0).val + (j 1).val / 16 < k
    · rw [if_pos h', if_pos (by omega)]
    · rw [if_neg h', if_neg (by omega)]

/-- The loop runs 1024 trips. -/
theorem k0_t1_trips : k0_t1_loop.trips = 1024 := by decide

/-- Trip `i`'s offsets: row `i / 128`, column `16·(i mod 128)`. -/
theorem k0_off2_closed : ∀ t : Fin k0_t1_loop.trips, k0_off2 t 0 = t.val / 128 ∧ k0_off2 t 1 = t.val % 128 * 16 := by
  decide +kernel

/-- Trip `i`'s rectangle is piece number `i`. -/
theorem mem_piece (t : Fin k0_t1_loop.trips) (inb : ∀ a, k0_off2 t a + S1x16.size a ≤ S8x2048.size a) (y : S8x2048.Idx) :
    y ∈ (Rect.unit (s := S8x2048) (k0_off2 t) S1x16.size inb).set ↔ 128 * (y 0).val + (y 1).val / 16 = t.val := by
  have ht : t.val < 1024 := k0_t1_trips ▸ t.isLt
  obtain ⟨e0, e1⟩ := k0_off2_closed t
  have h1 : (y 1).val < 2048 := (y 1).isLt
  rw [Rect.mem_set_unit]
  constructor
  · intro h
    have a0 := h 0
    have a1 := h 1
    rw [e0] at a0; rw [e1] at a1
    have s0 : S1x16.size 0 = 1 := rfl
    have s1 : S1x16.size 1 = 16 := rfl
    rw [s0] at a0; rw [s1] at a1
    omega
  · intro h a
    match a with
    | ⟨0, _⟩ =>
      show k0_off2 t 0 ≤ (y 0).val ∧ (y 0).val < k0_off2 t 0 + 1
      rw [e0]; omega
    | ⟨1, _⟩ =>
      show k0_off2 t 1 ≤ (y 1).val ∧ (y 1).val < k0_off2 t 1 + 16
      rw [e1]; omega

/-- The stored vector is the zero word's value in every lane. -/
theorem pay_zero (x : S1x16.Idx) : shapeCast S1x16 (k0_pay351 (F := F)) shapeCasts_S16_S1x16 x = zF (F := F) := rfl

/-- What trip `i`'s store leaves, read through any view of the bank's shape: zero on piece `i`, the rest as before. -/
theorem read_store {κ : Kind} {sp : Space} (v : View sig κ sp S8x2048 .f32) (f : v.ty.Contents (Elt F))
    (t : Fin k0_t1_loop.trips) (inb : ∀ a, k0_off2 t a + S1x16.size a ≤ S8x2048.size a)
    (w : S1x16.Idx → Elt F .f32) (hw : ∀ x, w x = zF (F := F)) (y : S8x2048.Idx) :
    v.read (Elt F) (v.writes (Elt F) f [⟨Rect.unit (s := S8x2048) (k0_off2 t) S1x16.size inb, w⟩]) y
      = if 128 * (y 0).val + (y 1).val / 16 = t.val then zF (F := F) else v.read (Elt F) f y := by
  by_cases h : 128 * (y 0).val + (y 1).val / 16 = t.val
  · rw [if_pos h]
    obtain ⟨x, rfl⟩ := (Rect.unit (s := S8x2048) (k0_off2 t) S1x16.size inb).exists_idx_of_mem ((mem_piece t inb y).mpr h)
    exact (View.read_writes_cons_emb v f _ w [] x).trans (hw x)
  · rw [if_neg h]
    exact View.read_writes_apply_of_forall_not_mem v f y _ fun p hp => by
      rw [List.mem_singleton.mp hp]
      exact fun hm => h ((mem_piece t inb y).mp hm)

/-- Trip `i`'s store into each bank turns "the first `i` pieces are zero" into "the first `i + 1` are". -/
theorem writes_zfill0 (H : S8x2048.Idx → Elt F .f32) (t : Fin k0_t1_loop.trips) :
    sO0.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO0.view (zfill H t.val) t _ _ pay_zero y).trans (zfill_succ_apply H t.val y).symm
theorem writes_zfill1 (H : S8x2048.Idx → Elt F .f32) (t : Fin k0_t1_loop.trips) :
    sO1.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO1.view (zfill H t.val) t _ _ pay_zero y).trans (zfill_succ_apply H t.val y).symm
theorem writes_zfill2 (H : S8x2048.Idx → Elt F .f32) (t : Fin k0_t1_loop.trips) :
    sO2.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO2.view (zfill H t.val) t _ _ pay_zero y).trans (zfill_succ_apply H t.val y).symm
theorem writes_zfill3 (H : S8x2048.Idx → Elt F .f32) (t : Fin k0_t1_loop.trips) :
    sO3.view.writes (Elt F) (zfill H t.val) [⟨Rect.unit (s := S8x2048) (k0_off2 t) S1x16.size (k0_off2_inb t), shapeCast S1x16 (k0_pay351 (F := F)) shapeCasts_S16_S1x16⟩]
      = zfill H (t.val + 1) :=
  funext fun y => (read_store sO3.view (zfill H t.val) t _ _ pay_zero y).trans (zfill_succ_apply H t.val y).symm

/-- The loop's invariant: before trip `k` each of the four banks is whole, its first `k` pieces zero. -/
def zinv (d : Dev nD) (L : grid0.Coords) (H0 H1 H2 H3 : S8x2048.Idx → Elt F .f32) (k : Nat) (_ : BitVec 32) : sProp 𝕄 :=
  iprop((sO0.view.loc (thr d L) ↦{fullShare} zfill H0 k) ∗ (sO1.view.loc (thr d L) ↦{fullShare} zfill H1 k)
    ∗ (sO2.view.loc (thr d L) ↦{fullShare} zfill H2 k) ∗ (sO3.view.loc (thr d L) ↦{fullShare} zfill H3 k))

/-- One trip: four dead loads and four stores of the zero vector, one piece further in every bank. -/
theorem zero_trip (d : Dev nD) (L : grid0.Coords) (H0 H1 H2 H3 : S8x2048.Idx → Elt F .f32)
    (t : Fin k0_t1_loop.trips) (a : BitVec 32) :
    zinv d L H0 H1 H2 H3 t.val a ⊢ wp frame (wpE (defs₀ (F := F)) 𝒱₀ (thr d L) none) Set.univ
      (k0_t1_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 t a)
      (fun r => zinv d L H0 H1 H2 H3 (t.val + 1) r) := by
  unfold zinv
  iintro ⟨HO0, HO1, HO2, HO3⟩
  sl_exec
  sl_step
  irw [← writes_zfill0 H0 t, ← writes_zfill1 H1 t, ← writes_zfill2 H2 t, ← writes_zfill3 H3 t]
  isplitl [HO0]; · iexact HO0
  isplitl [HO1]; · iexact HO1
  isplitl [HO2]; · iexact HO2
  iexact HO3

/-- Before the first trip the banks hold what they held. -/
theorem zinv_init (d : Dev nD) (L : grid0.Coords) (H0 H1 H2 H3 : S8x2048.Idx → Elt F .f32) (a : BitVec 32) :
    (zinv d L H0 H1 H2 H3 0 a : sProp 𝕄)
      = iprop((sO0.view.loc (thr d L) ↦{fullShare} H0) ∗ (sO1.view.loc (thr d L) ↦{fullShare} H1)
          ∗ (sO2.view.loc (thr d L) ↦{fullShare} H2) ∗ (sO3.view.loc (thr d L) ↦{fullShare} H3)) := by
  unfold zinv; rw [zfill_zero, zfill_zero, zfill_zero, zfill_zero]

/-- After the last trip every element of the four banks is the zero word's value. -/
theorem zinv_done (d : Dev nD) (L : grid0.Coords) (H0 H1 H2 H3 : S8x2048.Idx → Elt F .f32) (a : BitVec 32) :
    (zinv d L H0 H1 H2 H3 (Scf.trips k0_t1_loop.lb k0_t1_loop.ub k0_t1_loop.st) a : sProp 𝕄)
      = iprop((sO0.view.loc (thr d L) ↦{fullShare} fun _ => zF (F := F)) ∗ (sO1.view.loc (thr d L) ↦{fullShare} fun _ => zF (F := F))
          ∗ (sO2.view.loc (thr d L) ↦{fullShare} fun _ => zF (F := F)) ∗ (sO3.view.loc (thr d L) ↦{fullShare} fun _ => zF (F := F))) := by
  rw [show Scf.trips k0_t1_loop.lb k0_t1_loop.ub k0_t1_loop.st = 1024 from k0_t1_trips]
  unfold zinv; rw [zfill_full, zfill_full, zfill_full, zfill_full]

end Cert.Proof.KB
end
-- ==== Proof.KBChunks.lean ====
/-
  The chunk slices of a task's body against the chunks of the flattened input and of the flat result.

  The body slices eight-row chunks out of the two flat arrays at offsets it computes in 32-bit words from the
  task's grid point and, inside the main loop, the trip and a bank number. As a number each offset is the first row
  `512·w + 8·k` of chunk `k` of the task's own number `w`; so each slice's rectangle is that chunk's rectangle, the
  slice holds exactly the chunk's elements, and what it reads off the flattened input is the chunk as an
  8 × 256 block. Writing the spread of that block through the matching slice of the flat result gives, on
  the chunk's elements, the spread of the flattened input: row `p` of the block is row `512·w + 8·k + p` of
  the array, and the spread acts on each row alone.
-/
import proofs.«217887_g14147622273102_retrytranche1_597_18_alg».proof.Proof.KBTileRes

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
variable {F : FTy → Type} [FloatOps F]
local notation "𝕄" => MT nD τ sig (HIx 1) (Elt F) ℕ UU ℕ

/-! ## The chunk slices, as the program spells them -/

abbrev xSl1 (L : grid0.Coords) (r : Fin 12) : Memref sig .scVector .hbm S8x256 .f32 :=
  xW.slice (Rect.unit (s := S16384x256) (k0_off1 L (k0_off1_at r)) S8x256.size (k0_off1_inb L r)) (fun _ => rfl)
abbrev oSl19 (L : grid0.Coords) (r : Fin 12) : Memref sig .scVector .hbm S8x2048 .f32 :=
  oW.slice (Rect.unit (s := S16384x2048) (k0_off19 L (k0_off19_at r)) S8x2048.size (k0_off19_inb L r)) (fun _ => rfl)
abbrev xSl68 (L : grid0.Coords) (t : Fin k0_t6_loop.trips) (r : Fin 4) : Memref sig .scVector .hbm S8x256 .f32 :=
  xW.slice (Rect.unit (s := S16384x256) (k0_off68 L t (BitVec.ofNat 32 r.val)) S8x256.size (k0_off68_inb L t r)) (fun _ => rfl)
abbrev oSl69 (L : grid0.Coords) (t : Fin k0_t6_loop.trips) (r : Fin 4) : Memref sig .scVector .hbm S8x2048 .f32 :=
  oW.slice (Rect.unit (s := S16384x2048) (k0_off69 L t (BitVec.ofNat 32 r.val)) S8x2048.size (k0_off69_inb L t r)) (fun _ => rfl)
abbrev oSl86 (L : grid0.Coords) (t : Fin k0_t6_loop.trips) (r : Fin 4) : Memref sig .scVector .hbm S8x2048 .f32 :=
  oW.slice (Rect.unit (s := S16384x2048) (k0_off86 L t (BitVec.ofNat 32 r.val)) S8x2048.size (k0_off86_inb L t r)) (fun _ => rfl)
abbrev xSl87 (L : grid0.Coords) (t : Fin k0_t6_loop.trips) (r : Fin 4) : Memref sig .scVector .hbm S8x256 .f32 :=
  xW.slice (Rect.unit (s := S16384x256) (k0_off87 L t (BitVec.ofNat 32 r.val)) S8x256.size (k0_off87_inb L t r)) (fun _ => rfl)

variable (m : (ℓ : Loc nD τ sig) → Buf (Elt F) ℓ)

/-! ## Each printed offset is the first row of a chunk of the task

The program computes a slice's row as `(2·s + c)·512 + …` in 32-bit words; as a number it is
`512·w + 8·k` for the task's number `w` and the chunk `k` the slice is meant for. The two unrolled families
are finite tables, checked by evaluation; the four loop families have closed forms already. -/

theorem off1_eq : ∀ L : grid0.Coords, ∀ r : Fin 12,
    k0_off1 L (k0_off1_at r) = ![1024 * (L 1).val + 512 * (L 0).val + (k0_off1_at r).toNat, 0] := by decide +kernel
theorem off19_eq : ∀ L : grid0.Coords, ∀ r : Fin 12,
    k0_off19 L (k0_off19_at r) = ![1024 * (L 1).val + 512 * (L 0).val + (k0_off19_at r).toNat, 0] := by decide +kernel

omit [FloatOps F] in
theorem wL_val (L : grid0.Coords) : (wL L).val = 2 * (L 1).val + (L 0).val := rfl

theorem off1_row (L : grid0.Coords) (r : Fin 12) (k : Fin 64) (hk : (k0_off1_at r).toNat = 8 * k.val) :
    k0_off1 L (k0_off1_at r) = ![512 * (wL L).val + 8 * k.val, 0] := by
  rw [off1_eq, hk, wL_val]; funext a
  match a with
  | 0 => show 1024 * (L 1).val + 512 * (L 0).val + 8 * k.val = 512 * (2 * (L 1).val + (L 0).val) + 8 * k.val; omega
  | 1 => rfl
theorem off19_row (L : grid0.Coords) (r : Fin 12) (k : Fin 64) (hk : (k0_off19_at r).toNat = 8 * k.val) :
    k0_off19 L (k0_off19_at r) = ![512 * (wL L).val + 8 * k.val, 0] := by
  rw [off19_eq, hk, wL_val]; funext a
  match a with
  | 0 => show 1024 * (L 1).val + 512 * (L 0).val + 8 * k.val = 512 * (2 * (L 1).val + (L 0).val) + 8 * k.val; omega
  | 1 => rfl
theorem off68_row (L : grid0.Coords) (t : Fin k0_t6_loop.trips) (r : Fin 4) (k : Fin 64) (hk : k.val = 4 * (t.val + 1) + r.val) :
    k0_off68 L t (BitVec.ofNat 32 r.val) = ![512 * (wL L).val + 8 * k.val, 0] := by
  rw [k0_off68_eq, hk, wL_val]; funext a
  match a with
  | 0 => show 1024 * (L 1).val + 512 * (L 0).val + 32 * t.val + 8 * r.val + 32 = 512 * (2 * (L 1).val + (L 0).val) + 8 * (4 * (t.val + 1) + r.val); omega
  | 1 => rfl
theorem off69_row (L : grid0.Coords) (t : Fin k0_t6_loop.trips) (r : Fin 4) (k : Fin 64) (hk : k.val = 4 * t.val + r.val) :
    k0_off69 L t (BitVec.ofNat 32 r.val) = ![512 * (wL L).val + 8 * k.val, 0] := by
  rw [k0_off69_eq, hk, wL_val]; funext a
  match a with
  | 0 => show 1024 * (L 1).val + 512 * (L 0).val + 32 * t.val + 8 * r.val = 512 * (2 * (L 1).val + (L 0).val) + 8 * (4 * t.val + r.val); omega
  | 1 => rfl
theorem off86_row (L : grid0.Coords) (t : Fin k0_t6_loop.trips) (r : Fin 4) (k : Fin 64) (hk : k.val = 4 * (t.val + 1) + r.val) :
    k0_off86 L t (BitVec.ofNat 32 r.val) = ![512 * (wL L).val + 8 * k.val, 0] := by
  rw [k0_off86_eq, hk, wL_val]; funext a
  match a with
  | 0 => show 1024 * (L 1).val + 512 * (L 0).val + 32 * t.val + 8 * r.val + 32 = 512 * (2 * (L 1).val + (L 0).val) + 8 * (4 * (t.val + 1) + r.val); omega
  | 1 => rfl
theorem off87_row (L : grid0.Coords) (t : Fin k0_t6_loop.trips) (r : Fin 4) (k : Fin 64) (hk : k.val = 4 * (t.val + 2) + r.val) :
    k0_off87 L t (BitVec.ofNat 32 r.val) = ![512 * (wL L).val + 8 * k.val, 0] := by
  rw [k0_off87_eq, hk, wL_val]; funext a
  match a with
  | 0 => show 1024 * (L 1).val + 512 * (L 0).val + 32 * t.val + 8 * r.val + 64 = 512 * (2 * (L 1).val + (L 0).val) + 8 * (4 * (t.val + 2) + r.val); omega
  | 1 => rfl

/-! ## A slice at a chunk's first row is the chunk -/

omit [FloatOps F] in
theorem xRect_of_off (w : Fin 32) (k : Fin 64) {off : Fin 2 → Nat} (inb : ∀ a, off a + S8x256.size a ≤ S16384x256.size a)
    (e : off = ![512 * w.val + 8 * k.val, 0]) : Rect.unit (s := S16384x256) off S8x256.size inb = xRect w k := by
  subst e; rfl
omit [FloatOps F] in
theorem oRect_of_off (w : Fin 32) (k : Fin 64) {off : Fin 2 → Nat} (inb : ∀ a, off a + S8x2048.size a ≤ S16384x2048.size a)
    (e : off = ![512 * w.val + 8 * k.val, 0]) : Rect.unit (s := S16384x2048) off S8x2048.size inb = oRect w k := by
  subst e; rfl

theorem pts_x1 (d : Dev nD) (L : grid0.Coords) (r : Fin 12) (k : Fin 64) (hk : (k0_off1_at r).toNat = 8 * k.val) (f : Buf (Elt F) (xLoc d)) :
    (((xSl1 L r).view.loc (thr d L) ↦[(xSl1 L r).view.set]{fullShare} f : sProp 𝕄)) = (xLoc d ↦[xSet (wL L) k]{fullShare} f) := by
  show ((xLoc d) ↦[(xW.view.slice (Rect.unit (s := S16384x256) (k0_off1 L (k0_off1_at r)) S8x256.size (k0_off1_inb L r))).set]{fullShare} f : sProp 𝕄) = _
  rw [xRect_of_off (wL L) k _ (off1_row L r k hk)]
theorem pts_o19 (d : Dev nD) (L : grid0.Coords) (r : Fin 12) (k : Fin 64) (hk : (k0_off19_at r).toNat = 8 * k.val) (f : Buf (Elt F) (oLoc d)) :
    (((oSl19 L r).view.loc (thr d L) ↦[(oSl19 L r).view.set]{fullShare} f : sProp 𝕄)) = (oLoc d ↦[oSet (wL L) k]{fullShare} f) := by
  show ((oLoc d) ↦[(oW.view.slice (Rect.unit (s := S16384x2048) (k0_off19 L (k0_off19_at r)) S8x2048.size (k0_off19_inb L r))).set]{fullShare} f : sProp 𝕄) = _
  rw [oRect_of_off (wL L) k _ (off19_row L r k hk)]
theorem pts_x68 (d : Dev nD) (L : grid0.Coords) (t : Fin k0_t6_loop.trips) (r : Fin 4) (k : Fin 64) (hk : k.val = 4 * (t.val + 1) + r.val) (f : Buf (Elt F) (xLoc d)) :
    (((xSl68 L t r).view.loc (thr d L) ↦[(xSl68 L t r).view.set]{fullShare} f : sProp 𝕄)) = (xLoc d ↦[xSet (wL L) k]{fullShare} f) := by
  show ((xLoc d) ↦[(xW.view.slice (Rect.unit (s := S16384x256) (k0_off68 L t (BitVec.ofNat 32 r.val)) S8x256.size (k0_off68_inb L t r))).set]{fullShare} f : sProp 𝕄) = _
  rw [xRect_of_off (wL L) k _ (off68_row L t r k hk)]
theorem pts_o69 (d : Dev nD) (L : grid0.Coords) (t : Fin k0_t6_loop.trips) (r : Fin 4) (k : Fin 64) (hk : k.val = 4 * t.val + r.val) (f : Buf (Elt F) (oLoc d)) :
    (((oSl69 L t r).view.loc (thr d L) ↦[(oSl69 L t r).view.set]{fullShare} f : sProp 𝕄)) = (oLoc d ↦[oSet (wL L) k]{fullShare} f) := by
  show ((oLoc d) ↦[(oW.view.slice (Rect.unit (s := S16384x2048) (k0_off69 L t (BitVec.ofNat 32 r.val)) S8x2048.size (k0_off69_inb L t r))).set]{fullShare} f : sProp 𝕄) = _
  rw [oRect_of_off (wL L) k _ (off69_row L t r k hk)]
theorem pts_o86 (d : Dev nD) (L : grid0.Coords) (t : Fin k0_t6_loop.trips) (r : Fin 4) (k : Fin 64) (hk : k.val = 4 * (t.val + 1) + r.val) (f : Buf (Elt F) (oLoc d)) :
    (((oSl86 L t r).view.loc (thr d L) ↦[(oSl86 L t r).view.set]{fullShare} f : sProp 𝕄)) = (oLoc d ↦[oSet (wL L) k]{fullShare} f) := by
  show ((oLoc d) ↦[(oW.view.slice (Rect.unit (s := S16384x2048) (k0_off86 L t (BitVec.ofNat 32 r.val)) S8x2048.size (k0_off86_inb L t r))).set]{fullShare} f : sProp 𝕄) = _
  rw [oRect_of_off (wL L) k _ (off86_row L t r k hk)]
theorem pts_x87 (d : Dev nD) (L : grid0.Coords) (t : Fin k0_t6_loop.trips) (r : Fin 4) (k : Fin 64) (hk : k.val = 4 * (t.val + 2) + r.val) (f : Buf (Elt F) (xLoc d)) :
    (((xSl87 L t r).view.loc (thr d L) ↦[(xSl87 L t r).view.set]{fullShare} f : sProp 𝕄)) = (xLoc d ↦[xSet (wL L) k]{fullShare} f) := by
  show ((xLoc d) ↦[(xW.view.slice (Rect.unit (s := S16384x256) (k0_off87 L t (BitVec.ofNat 32 r.val)) S8x256.size (k0_off87_inb L t r))).set]{fullShare} f : sProp 𝕄) = _
  rw [xRect_of_off (wL L) k _ (off87_row L t r k hk)]

/-! ## What a slice reads off the flattened input -/

/-- Chunk `k` of task `w` of the flattened input, as an 8 × 256 block. -/
def chunkX (d : Dev nD) (w : Fin 32) (k : Fin 64) : S8x256.Idx → Elt F .f32 := (xW.view.slice (xRect w k)).read (Elt F) (X2 m d)

theorem read_of_off (d : Dev nD) (w : Fin 32) (k : Fin 64) {off : Fin 2 → Nat} (inb : ∀ a, off a + S8x256.size a ≤ S16384x256.size a)
    (e : off = ![512 * w.val + 8 * k.val, 0]) :
    (xW.view.slice (Rect.unit (s := S16384x256) off S8x256.size inb)).read (Elt F) (X2 m d) = chunkX m d w k := by
  subst e; rfl

theorem read_x1 (d : Dev nD) (L : grid0.Coords) (r : Fin 12) (k : Fin 64) (hk : (k0_off1_at r).toNat = 8 * k.val) :
    (xSl1 L r).view.read (Elt F) (X2 m d) = chunkX m d (wL L) k :=
  read_of_off m d (wL L) k (k0_off1_inb L r) (off1_row L r k hk)
theorem read_x68 (d : Dev nD) (L : grid0.Coords) (t : Fin k0_t6_loop.trips) (r : Fin 4) (k : Fin 64) (hk : k.val = 4 * (t.val + 1) + r.val) :
    (xSl68 L t r).view.read (Elt F) (X2 m d) = chunkX m d (wL L) k :=
  read_of_off m d (wL L) k (k0_off68_inb L t r) (off68_row L t r k hk)
theorem read_x87 (d : Dev nD) (L : grid0.Coords) (t : Fin k0_t6_loop.trips) (r : Fin 4) (k : Fin 64) (hk : k.val = 4 * (t.val + 2) + r.val) :
    (xSl87 L t r).view.read (Elt F) (X2 m d) = chunkX m d (wL L) k :=
  read_of_off m d (wL L) k (k0_off87_inb L t r) (off87_row L t r k hk)

/-! ## The spread of a chunk, written through the chunk's slice of the flat result -/

/-- Every rank-2 index is built from two coordinates of literal extent. -/
theorem exists_ix2 {n0 n1 : Nat} (j : (⟨2, ![n0, n1]⟩ : Shape).Idx) : ∃ (a : Fin n0) (b : Fin n1), j = ix2 a b := ⟨j 0, j 1, eq_ix2 j⟩

/-- The spread of an 8 × 256 block to 8 × 2048. -/
def spreadB (X : S8x256.Idx → Elt F .f32) : S8x2048.Idx → Elt F .f32 :=
  fun j => if (j 1).val % 8 = 0 then X (ix2 (j 0) (Cert.Spec.col (j 1))) else zF (F := F)

/-- Chunk `k` of task `w` of the flat result, as the 8 × 2048 slice a copy lands in. -/
abbrev oCh (w : Fin 32) (k : Fin 64) : Memref sig .scVector .hbm S8x2048 .f32 := oW.slice (oRect w k) (fun _ => rfl)

theorem out_value (d : Dev nD) (w : Fin 32) (k : Fin 64) (fo : Buf (Elt F) (oLoc d)) (Y : S8x2048.Idx → Elt F .f32)
    (hY : Y = spreadB (chunkX m d w k)) :
    ∀ i ∈ oSet w k, ((oCh w k).view.writes (Elt F) fo [⟨Rect.whole S8x2048, Y⟩]) i = G2 m d i := by
  intro i hi
  obtain ⟨y, -, rfl⟩ := Finset.mem_map.mp hi
  subst hY
  obtain ⟨p, c, rfl⟩ := exists_ix2 (n0 := 8) (n1 := 2048) y
  rw [View.writes_singleton]
  have e : ((oCh w k).view.slice (Rect.whole S8x2048)).emb (ix2 p c)
      = ((Memref.whole main_v1_scv : Memref sig .scVector .hbm S16384x2048 .f32).view.slice (oRect w k)).emb (ix2 p c) := by
    show ((Memref.whole main_v1_scv : Memref sig .scVector .hbm S16384x2048 .f32).view.slice (oRect w k)).emb ((Rect.whole S8x2048).emb (ix2 p c)) = _
    rw [Rect.emb_whole_apply]
  rw [← e, View.write_emb_of_mem _ _ (Finset.mem_univ _), e]
  -- the element's place in the array: row 512·w + 8·k + p, column c
  have E0 : ((((Memref.whole main_v1_scv : Memref sig .scVector .hbm S16384x2048 .f32).view.slice (oRect w k)).emb (ix2 p c)) 0).val
      = 512 * w.val + 8 * k.val + p.val := by
    show 512 * w.val + 8 * k.val + 1 * p.val = _; omega
  have E1 : ((((Memref.whole main_v1_scv : Memref sig .scVector .hbm S16384x2048 .f32).view.slice (oRect w k)).emb (ix2 p c)) 1).val = c.val := by
    show 0 + 1 * c.val = _; omega
  generalize ((Memref.whole main_v1_scv : Memref sig .scVector .hbm S16384x2048 .f32).view.slice (oRect w k)).emb (ix2 p c) = j at E0 E1 ⊢
  show (if c.val % 8 = 0 then chunkX m d w k (ix2 p (Cert.Spec.col c)) else zF (F := F))
    = if (j 1).val % 8 = 0 then X2 m d (ix2 (j 0) (Cert.Spec.col (j 1))) else zF (F := F)
  by_cases h : c.val % 8 = 0
  · rw [if_pos h, if_pos (by rw [E1]; exact h)]
    show X2 m d ((xW.view.slice (xRect w k)).emb (ix2 p (Cert.Spec.col c))) = X2 m d (ix2 (j 0) (Cert.Spec.col (j 1)))
    refine congrArg (X2 m d) (funext fun a => ?_)
    match a with
    | 0 => exact Fin.ext (by show 512 * w.val + 8 * k.val + 1 * p.val = (j 0).val; omega)
    | 1 => exact Fin.ext (by show 0 + 1 * (c.val / 8) = (j 1).val / 8; omega)
  · rw [if_neg h, if_neg (by rw [E1]; exact h)]

/-- The points-to form: the chunk of the flat result, held at the spread of the block written over anything, is the
    chunk held at the spread of the flattened input. -/
theorem out_pts (d : Dev nD) (w : Fin 32) (k : Fin 64) (fo : Buf (Elt F) (oLoc d)) (Y : S8x2048.Idx → Elt F .f32)
    (hY : Y = spreadB (chunkX m d w k)) :
    (oLoc d ↦[oSet w k]{fullShare} (oCh w k).view.writes (Elt F) fo [⟨Rect.whole S8x2048, Y⟩] : sProp 𝕄)
      = (oLoc d ↦[oSet w k]{fullShare} G2 m d) :=
  pointsTo_congr (out_value m d w k fo Y hY)

/-- An eight-row slice of the flat result at a given offset. -/
abbrev oAt (off : Fin 2 → Nat) (inb : ∀ a, off a + S8x2048.size a ≤ S16384x2048.size a) : Memref sig .scVector .hbm S8x2048 .f32 :=
  oW.slice (Rect.unit (s := S16384x2048) off S8x2048.size inb) (fun _ => rfl)

theorem out_pts_of_off (d : Dev nD) (L : grid0.Coords) (w : Fin 32) (k : Fin 64) {off : Fin 2 → Nat}
    (inb : ∀ a, off a + S8x2048.size a ≤ S16384x2048.size a) (e : off = ![512 * w.val + 8 * k.val, 0])
    (fo : Buf (Elt F) (oLoc d)) (Y : S8x2048.Idx → Elt F .f32) (hY : Y = spreadB (chunkX m d w k)) :
    (((oAt off inb).view.loc (thr d L) ↦[(oAt off inb).view.set]{fullShare}
        (oAt off inb).view.writes (Elt F) fo [⟨Rect.whole S8x2048, Y⟩] : sProp 𝕄))
      = (oLoc d ↦[oSet w k]{fullShare} G2 m d) := by
  subst e; exact out_pts m d w k fo Y hY

theorem out_pts19 (d : Dev nD) (L : grid0.Coords) (r : Fin 12) (k : Fin 64) (hk : (k0_off19_at r).toNat = 8 * k.val)
    (fo : Buf (Elt F) (oLoc d)) (Y : S8x2048.Idx → Elt F .f32) (hY : Y = spreadB (chunkX m d (wL L) k)) :
    (((oSl19 L r).view.loc (thr d L) ↦[(oSl19 L r).view.set]{fullShare}
        (oSl19 L r).view.writes (Elt F) fo [⟨Rect.whole S8x2048, Y⟩] : sProp 𝕄))
      = (oLoc d ↦[oSet (wL L) k]{fullShare} G2 m d) :=
  out_pts_of_off m d L (wL L) k (k0_off19_inb L r) (off19_row L r k hk) fo Y hY
theorem out_pts86 (d : Dev nD) (L : grid0.Coords) (t : Fin k0_t6_loop.trips) (r : Fin 4) (k : Fin 64) (hk : k.val = 4 * (t.val + 1) + r.val)
    (fo : Buf (Elt F) (oLoc d)) (Y : S8x2048.Idx → Elt F .f32) (hY : Y = spreadB (chunkX m d (wL L) k)) :
    (((oSl86 L t r).view.loc (thr d L) ↦[(oSl86 L t r).view.set]{fullShare}
        (oSl86 L t r).view.writes (Elt F) fo [⟨Rect.whole S8x2048, Y⟩] : sProp 𝕄))
      = (oLoc d ↦[oSet (wL L) k]{fullShare} G2 m d) :=
  out_pts_of_off m d L (wL L) k (k0_off86_inb L t r) (off86_row L t r k hk) fo Y hY

/-! ## What a copy out of an output bank carries

A bank is a whole 8 × 2048 buffer, so what its view reads, taken as it is, is the buffer's contents. -/

theorem payload_sO0 (d : Dev nD) (L : grid0.Coords) (H : Buf (Elt F) (sO0.view.loc (thr d L))) :
    ReadAs.same.apply (sO0.view.read (Elt F) H) = H := rfl
theorem payload_sO1 (d : Dev nD) (L : grid0.Coords) (H : Buf (Elt F) (sO1.view.loc (thr d L))) :
    ReadAs.same.apply (sO1.view.read (Elt F) H) = H := rfl
theorem payload_sO2 (d : Dev nD) (L : grid0.Coords) (H : Buf (Elt F) (sO2.view.loc (thr d L))) :
    ReadAs.same.apply (sO2.view.read (Elt F) H) = H := rfl
theorem payload_sO3 (d : Dev nD) (L : grid0.Coords) (H : Buf (Elt F) (sO3.view.loc (thr d L))) :
    ReadAs.same.apply (sO3.view.read (Elt F) H) = H := rfl

end Cert.Proof.KB

end
-- ==== Proof.KBScat0.lean ====
import proofs.«217887_g14147622273102_retrytranche1_597_18_alg».proof.Proof.KBChunks
import proofs.«217887_g14147622273102_retrytranche1_597_18_alg».proof.Proof.ScatRow

set_option maxHeartbeats 1000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 0

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone0 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv0 (d : Dev nD) (L : grid0.Coords) (X : S8x256.Idx → Elt F .f32) (Hc : S8x2048.Idx → Elt F .f32) (k : Nat) (_ : BitVec 32) : sProp 𝕄 :=
  iprop((sX0.view.loc (thr d L) ↦{fullShare} X) ∗ ∃ H, (sO0.view.loc (thr d L) ↦{fullShare} H) ∗ ⌜RowsDone0 X Hc k H⌝)

omit [FloatOps F] in
theorem pts_acc0 (d : Dev nD) (L : grid0.Coords) (f : Buf (Elt F) ((thr d L).loc cc0_scratch4)) :
    (((sO0.access (Rect.whole S8x2048)).loc (thr d L) ↦[(sO0.access (Rect.whole S8x2048)).set]{fullShare} f : sProp 𝕄))
      = (sO0.view.loc (thr d L) ↦{fullShare} f) := by
  rw [show (sO0.access (Rect.whole S8x2048)).set = Finset.univ from Memref.set_access_whole (cc0_scratch4 : Ref sig .scVector)]
omit [FloatOps F] in
theorem pts_step0 (d : Dev nD) (L : grid0.Coords) (f w : Buf (Elt F) ((thr d L).loc cc0_scratch4)) :
    (((sO0.access (Rect.whole S8x2048)).loc (thr d L) ↦[(sO0.access (Rect.whole S8x2048)).set]{fullShare}
        (View.write (Elt F) (sO0.access (Rect.whole S8x2048)) f w Finset.univ) : sProp 𝕄))
      = (sO0.view.loc (thr d L) ↦{fullShare} w) := by
  rw [show (sO0.access (Rect.whole S8x2048)).set = Finset.univ from Memref.set_access_whole (cc0_scratch4 : Ref sig .scVector),
    show View.write (Elt F) (sO0.access (Rect.whole S8x2048)) f w Finset.univ = w from Memref.write_access_whole_univ (Elt F) (cc0_scratch4 : Ref sig .scVector) f w]

theorem trips_t2_0 : k0_t2_loop.trips = 8 := by decide
theorem iv_t2_0 : ∀ t : Fin k0_t2_loop.trips, (Scf.iv 0#32 1#32 t.val).toNat = t.val := by decide +kernel

set_option hygiene false in
macro "scat_step0" c:num : tactic => `(tactic| (
  sl_exec (disch := exact hchk (BitVec.ofNat 32 $c) (by decide))
  ihave HO := (Entails.of_eq (pts_acc0 d L _).symm) $$ HO
  iapply (SparseCore.wp_vectorStoreIdx 𝒱₀ (thr d L) none Set.univ (base := sO0)) $$ HO
  iintro HO
  ihave HO := (Entails.of_eq (pts_step0 d L _ _)) $$ HO))

/-- One trip: row `t` is spread. -/
theorem trip0 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv0 d L X Hc t.val a21
      ⊢ wp frame (wpE (defs₀ (F := F)) 𝒱₀ (thr d L) none) Set.univ
          (k0_t2_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv0 d L X Hc (t.val + 1) r) := by
  have ht8 : t.val < 8 := trips_t2_0 ▸ t.isLt
  have hr : (Scf.iv 0#32 1#32 t.val).toNat = t.val := iv_t2_0 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch4), View.read (Elt F) (sO0.access (Rect.whole S8x2048)) f = f :=
    fun f => Memref.read_access_whole (Elt F) (cc0_scratch4 : Ref sig .scVector) f
  unfold sinv0 k0_t2_body
  iintro ⟨HX, %H0, HO, %hH0⟩
  scat_step0 0
  scat_step0 128
  scat_step0 256
  scat_step0 384
  scat_step0 512
  scat_step0 640
  scat_step0 768
  scat_step0 896
  scat_step0 1024
  scat_step0 1152
  scat_step0 1280
  scat_step0 1408
  scat_step0 1536
  scat_step0 1664
  scat_step0 1792
  scat_step0 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch0 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone0_zero (X : S8x256.Idx → Elt F .f32) (Hc : S8x2048.Idx → Elt F .f32) : RowsDone0 X Hc 0 Hc :=
  fun p q => (if_neg (fun h => absurd h.1 (Nat.not_lt_zero _))).symm

/-- After the eighth trip, over a buffer whose other columns are the fill, the buffer is the spread of `X`. -/
theorem rowsDone0_full (X : S8x256.Idx → Elt F .f32) (Hc H : S8x2048.Idx → Elt F .f32) (h : RowsDone0 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KB
end
-- ==== Proof.KBScat1.lean ====
import proofs.«217887_g14147622273102_retrytranche1_597_18_alg».proof.Proof.KBChunks
import proofs.«217887_g14147622273102_retrytranche1_597_18_alg».proof.Proof.ScatRow

set_option maxHeartbeats 1000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 1

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone1 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv1 (d : Dev nD) (L : grid0.Coords) (X : S8x256.Idx → Elt F .f32) (Hc : S8x2048.Idx → Elt F .f32) (k : Nat) (_ : BitVec 32) : sProp 𝕄 :=
  iprop((sX1.view.loc (thr d L) ↦{fullShare} X) ∗ ∃ H, (sO1.view.loc (thr d L) ↦{fullShare} H) ∗ ⌜RowsDone1 X Hc k H⌝)

omit [FloatOps F] in
theorem pts_acc1 (d : Dev nD) (L : grid0.Coords) (f : Buf (Elt F) ((thr d L).loc cc0_scratch5)) :
    (((sO1.access (Rect.whole S8x2048)).loc (thr d L) ↦[(sO1.access (Rect.whole S8x2048)).set]{fullShare} f : sProp 𝕄))
      = (sO1.view.loc (thr d L) ↦{fullShare} f) := by
  rw [show (sO1.access (Rect.whole S8x2048)).set = Finset.univ from Memref.set_access_whole (cc0_scratch5 : Ref sig .scVector)]
omit [FloatOps F] in
theorem pts_step1 (d : Dev nD) (L : grid0.Coords) (f w : Buf (Elt F) ((thr d L).loc cc0_scratch5)) :
    (((sO1.access (Rect.whole S8x2048)).loc (thr d L) ↦[(sO1.access (Rect.whole S8x2048)).set]{fullShare}
        (View.write (Elt F) (sO1.access (Rect.whole S8x2048)) f w Finset.univ) : sProp 𝕄))
      = (sO1.view.loc (thr d L) ↦{fullShare} w) := by
  rw [show (sO1.access (Rect.whole S8x2048)).set = Finset.univ from Memref.set_access_whole (cc0_scratch5 : Ref sig .scVector),
    show View.write (Elt F) (sO1.access (Rect.whole S8x2048)) f w Finset.univ = w from Memref.write_access_whole_univ (Elt F) (cc0_scratch5 : Ref sig .scVector) f w]

theorem trips_t2_1 : k0_t2_loop.trips = 8 := by decide
theorem iv_t2_1 : ∀ t : Fin k0_t2_loop.trips, (Scf.iv 0#32 1#32 t.val).toNat = t.val := by decide +kernel

set_option hygiene false in
macro "scat_step1" c:num : tactic => `(tactic| (
  sl_exec (disch := exact hchk (BitVec.ofNat 32 $c) (by decide))
  ihave HO := (Entails.of_eq (pts_acc1 d L _).symm) $$ HO
  iapply (SparseCore.wp_vectorStoreIdx 𝒱₀ (thr d L) none Set.univ (base := sO1)) $$ HO
  iintro HO
  ihave HO := (Entails.of_eq (pts_step1 d L _ _)) $$ HO))

/-- One trip: row `t` is spread. -/
theorem trip1 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv1 d L X Hc t.val a21
      ⊢ wp frame (wpE (defs₀ (F := F)) 𝒱₀ (thr d L) none) Set.univ
          (k0_t2_body L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv1 d L X Hc (t.val + 1) r) := by
  have ht8 : t.val < 8 := trips_t2_1 ▸ t.isLt
  have hr : (Scf.iv 0#32 1#32 t.val).toNat = t.val := iv_t2_1 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch5), View.read (Elt F) (sO1.access (Rect.whole S8x2048)) f = f :=
    fun f => Memref.read_access_whole (Elt F) (cc0_scratch5 : Ref sig .scVector) f
  unfold sinv1 k0_t2_body
  iintro ⟨HX, %H0, HO, %hH0⟩
  scat_step1 0
  scat_step1 128
  scat_step1 256
  scat_step1 384
  scat_step1 512
  scat_step1 640
  scat_step1 768
  scat_step1 896
  scat_step1 1024
  scat_step1 1152
  scat_step1 1280
  scat_step1 1408
  scat_step1 1536
  scat_step1 1664
  scat_step1 1792
  scat_step1 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch1 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone1_zero (X : S8x256.Idx → Elt F .f32) (Hc : S8x2048.Idx → Elt F .f32) : RowsDone1 X Hc 0 Hc :=
  fun p q => (if_neg (fun h => absurd h.1 (Nat.not_lt_zero _))).symm

/-- After the eighth trip, over a buffer whose other columns are the fill, the buffer is the spread of `X`. -/
theorem rowsDone1_full (X : S8x256.Idx → Elt F .f32) (Hc H : S8x2048.Idx → Elt F .f32) (h : RowsDone1 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KB
end
-- ==== Proof.KBScat2.lean ====
import proofs.«217887_g14147622273102_retrytranche1_597_18_alg».proof.Proof.KBChunks
import proofs.«217887_g14147622273102_retrytranche1_597_18_alg».proof.Proof.ScatRow

set_option maxHeartbeats 1000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 2

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone2 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv2 (d : Dev nD) (L : grid0.Coords) (X : S8x256.Idx → Elt F .f32) (Hc : S8x2048.Idx → Elt F .f32) (k : Nat) (_ : BitVec 32) : sProp 𝕄 :=
  iprop((sX2.view.loc (thr d L) ↦{fullShare} X) ∗ ∃ H, (sO2.view.loc (thr d L) ↦{fullShare} H) ∗ ⌜RowsDone2 X Hc k H⌝)

omit [FloatOps F] in
theorem pts_acc2 (d : Dev nD) (L : grid0.Coords) (f : Buf (Elt F) ((thr d L).loc cc0_scratch6)) :
    (((sO2.access (Rect.whole S8x2048)).loc (thr d L) ↦[(sO2.access (Rect.whole S8x2048)).set]{fullShare} f : sProp 𝕄))
      = (sO2.view.loc (thr d L) ↦{fullShare} f) := by
  rw [show (sO2.access (Rect.whole S8x2048)).set = Finset.univ from Memref.set_access_whole (cc0_scratch6 : Ref sig .scVector)]
omit [FloatOps F] in
theorem pts_step2 (d : Dev nD) (L : grid0.Coords) (f w : Buf (Elt F) ((thr d L).loc cc0_scratch6)) :
    (((sO2.access (Rect.whole S8x2048)).loc (thr d L) ↦[(sO2.access (Rect.whole S8x2048)).set]{fullShare}
        (View.write (Elt F) (sO2.access (Rect.whole S8x2048)) f w Finset.univ) : sProp 𝕄))
      = (sO2.view.loc (thr d L) ↦{fullShare} w) := by
  rw [show (sO2.access (Rect.whole S8x2048)).set = Finset.univ from Memref.set_access_whole (cc0_scratch6 : Ref sig .scVector),
    show View.write (Elt F) (sO2.access (Rect.whole S8x2048)) f w Finset.univ = w from Memref.write_access_whole_univ (Elt F) (cc0_scratch6 : Ref sig .scVector) f w]

theorem trips_t2_2 : k0_t2_loop.trips = 8 := by decide
theorem iv_t2_2 : ∀ t : Fin k0_t2_loop.trips, (Scf.iv 0#32 1#32 t.val).toNat = t.val := by decide +kernel

set_option hygiene false in
macro "scat_step2" c:num : tactic => `(tactic| (
  sl_exec (disch := exact hchk (BitVec.ofNat 32 $c) (by decide))
  ihave HO := (Entails.of_eq (pts_acc2 d L _).symm) $$ HO
  iapply (SparseCore.wp_vectorStoreIdx 𝒱₀ (thr d L) none Set.univ (base := sO2)) $$ HO
  iintro HO
  ihave HO := (Entails.of_eq (pts_step2 d L _ _)) $$ HO))

/-- One trip: row `t` is spread. -/
theorem trip2 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv2 d L X Hc t.val a21
      ⊢ wp frame (wpE (defs₀ (F := F)) 𝒱₀ (thr d L) none) Set.univ
          (k0_t2_body L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv2 d L X Hc (t.val + 1) r) := by
  have ht8 : t.val < 8 := trips_t2_2 ▸ t.isLt
  have hr : (Scf.iv 0#32 1#32 t.val).toNat = t.val := iv_t2_2 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch6), View.read (Elt F) (sO2.access (Rect.whole S8x2048)) f = f :=
    fun f => Memref.read_access_whole (Elt F) (cc0_scratch6 : Ref sig .scVector) f
  unfold sinv2 k0_t2_body
  iintro ⟨HX, %H0, HO, %hH0⟩
  scat_step2 0
  scat_step2 128
  scat_step2 256
  scat_step2 384
  scat_step2 512
  scat_step2 640
  scat_step2 768
  scat_step2 896
  scat_step2 1024
  scat_step2 1152
  scat_step2 1280
  scat_step2 1408
  scat_step2 1536
  scat_step2 1664
  scat_step2 1792
  scat_step2 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch2 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone2_zero (X : S8x256.Idx → Elt F .f32) (Hc : S8x2048.Idx → Elt F .f32) : RowsDone2 X Hc 0 Hc :=
  fun p q => (if_neg (fun h => absurd h.1 (Nat.not_lt_zero _))).symm

/-- After the eighth trip, over a buffer whose other columns are the fill, the buffer is the spread of `X`. -/
theorem rowsDone2_full (X : S8x256.Idx → Elt F .f32) (Hc H : S8x2048.Idx → Elt F .f32) (h : RowsDone2 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KB
end
-- ==== Proof.KBScat3.lean ====
import proofs.«217887_g14147622273102_retrytranche1_597_18_alg».proof.Proof.KBChunks
import proofs.«217887_g14147622273102_retrytranche1_597_18_alg».proof.Proof.ScatRow

set_option maxHeartbeats 1000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## One scatter loop, bank 3

The loop runs eight trips; trip `t` reads row `t` of the bank's 8 × 256 input buffer `X` sixteen lanes at a time and
writes lane `l` of the `n`-th group to column `128·n + 8·l` of row `t` of the bank's 8 × 2048 output buffer, so that after
trip `t` the rows up to `t` hold `X[p, q / 8]` at every column `q` with `8 ∣ q`, and every other entry is untouched.
The program text is the loop body of the first bank with this bank's two buffers in its place. -/

open Idealize.ShloMosaic.ValueIdx

/-- Rows below `k` are spread from `X`; everything else is as in `Hc`. -/
def RowsDone3 (X : S8x256.Idx → Elt F .f32) (Hc : S8x2048.Idx → Elt F .f32) (k : Nat) (H : S8x2048.Idx → Elt F .f32) : Prop :=
  ∀ (p : Fin 8) (q : Fin 2048), H (ix2 p q) = if p.val < k ∧ q.val % 8 = 0 then X (ix2 p (Cert.Spec.col q)) else Hc (ix2 p q)

def sinv3 (d : Dev nD) (L : grid0.Coords) (X : S8x256.Idx → Elt F .f32) (Hc : S8x2048.Idx → Elt F .f32) (k : Nat) (_ : BitVec 32) : sProp 𝕄 :=
  iprop((sX3.view.loc (thr d L) ↦{fullShare} X) ∗ ∃ H, (sO3.view.loc (thr d L) ↦{fullShare} H) ∗ ⌜RowsDone3 X Hc k H⌝)

omit [FloatOps F] in
theorem pts_acc3 (d : Dev nD) (L : grid0.Coords) (f : Buf (Elt F) ((thr d L).loc cc0_scratch7)) :
    (((sO3.access (Rect.whole S8x2048)).loc (thr d L) ↦[(sO3.access (Rect.whole S8x2048)).set]{fullShare} f : sProp 𝕄))
      = (sO3.view.loc (thr d L) ↦{fullShare} f) := by
  rw [show (sO3.access (Rect.whole S8x2048)).set = Finset.univ from Memref.set_access_whole (cc0_scratch7 : Ref sig .scVector)]
omit [FloatOps F] in
theorem pts_step3 (d : Dev nD) (L : grid0.Coords) (f w : Buf (Elt F) ((thr d L).loc cc0_scratch7)) :
    (((sO3.access (Rect.whole S8x2048)).loc (thr d L) ↦[(sO3.access (Rect.whole S8x2048)).set]{fullShare}
        (View.write (Elt F) (sO3.access (Rect.whole S8x2048)) f w Finset.univ) : sProp 𝕄))
      = (sO3.view.loc (thr d L) ↦{fullShare} w) := by
  rw [show (sO3.access (Rect.whole S8x2048)).set = Finset.univ from Memref.set_access_whole (cc0_scratch7 : Ref sig .scVector),
    show View.write (Elt F) (sO3.access (Rect.whole S8x2048)) f w Finset.univ = w from Memref.write_access_whole_univ (Elt F) (cc0_scratch7 : Ref sig .scVector) f w]

theorem trips_t2_3 : k0_t2_loop.trips = 8 := by decide
theorem iv_t2_3 : ∀ t : Fin k0_t2_loop.trips, (Scf.iv 0#32 1#32 t.val).toNat = t.val := by decide +kernel

set_option hygiene false in
macro "scat_step3" c:num : tactic => `(tactic| (
  sl_exec (disch := exact hchk (BitVec.ofNat 32 $c) (by decide))
  ihave HO := (Entails.of_eq (pts_acc3 d L _).symm) $$ HO
  iapply (SparseCore.wp_vectorStoreIdx 𝒱₀ (thr d L) none Set.univ (base := sO3)) $$ HO
  iintro HO
  ihave HO := (Entails.of_eq (pts_step3 d L _ _)) $$ HO))

/-- One trip: row `t` is spread. -/
theorem trip3 (d : Dev nD) (L : grid0.Coords) (v2 : BitVec 32) (c16 c18 : BitVec 32) (X : S8x256.Idx → Elt F .f32) (Hc : S8x2048.Idx → Elt F .f32)
    (t : Fin k0_t2_loop.trips) (a21 : BitVec 32) :
    sinv3 d L X Hc t.val a21
      ⊢ wp frame (wpE (defs₀ (F := F)) 𝒱₀ (thr d L) none) Set.univ
          (k0_t2_body L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 c16 0#32 c18 t a21)
          (fun r => sinv3 d L X Hc (t.val + 1) r) := by
  have ht8 : t.val < 8 := trips_t2_3 ▸ t.isLt
  have hr : (Scf.iv 0#32 1#32 t.val).toNat = t.val := iv_t2_3 t
  have hr8 : (Scf.iv 0#32 1#32 t.val).toNat < 8 := by rw [hr]; exact ht8
  have hchk : ∀ c : BitVec 32, c.toNat ≤ 1920 → ∀ a x, ((![k0_pay1 (k0_pay350) 0#32 1#32 t, addi (k0_pay349) (broadcast S16 c)] : Fin 2 → IVec S16 32) a x).toNat < S8x2048.size a :=
    fun c hc => Scat.chk (Scf.iv 0#32 1#32 t.val) c hr8 hc
  have rd : ∀ f : Buf (Elt F) ((thr d L).loc cc0_scratch7), View.read (Elt F) (sO3.access (Rect.whole S8x2048)) f = f :=
    fun f => Memref.read_access_whole (Elt F) (cc0_scratch7 : Ref sig .scVector) f
  unfold sinv3 k0_t2_body
  iintro ⟨HX, %H0, HO, %hH0⟩
  scat_step3 0
  scat_step3 128
  scat_step3 256
  scat_step3 384
  scat_step3 512
  scat_step3 640
  scat_step3 768
  scat_step3 896
  scat_step3 1024
  scat_step3 1152
  scat_step3 1280
  scat_step3 1408
  scat_step3 1536
  scat_step3 1664
  scat_step3 1792
  scat_step3 1920
  sl_exec
  sl_step
  isplitl [HX]; · iexact HX
  iexists _; isplitl [HO]; · iexact HO
  ipureintro
  intro p q
  refine (congrFun (?e : _ = Scat.accRec (Scf.iv 0#32 1#32 t.val) hr8 X ⟨t.val, ht8⟩ H0 16) _).trans ?_
  case e =>
    simp only [rd]
    have sc : ∀ (f f' : Vec F S8x2048 .f32) (i i' : Fin 2 → IVec S16 32) (v v' : Vec F S16 .f32)
        (h : ∀ a x, (i a x).toNat < S8x2048.size a) (h' : ∀ a x, (i' a x).toNat < S8x2048.size a), f = f' → i = i' → v = v' →
        storeIdx f i v (fun _ => 1#1) false h = storeIdx f' i' v' (fun _ => 1#1) false h' := by
      intro f f' i i' v v' h h' e1 e2 e3; subst e1; subst e2; subst e3; rfl
    have ld : ∀ (n : Fin 16) (off : Fin 2 → Nat) (hoff : off = ![t.val, 16 * n.val]) (inb : ∀ a, off a + S1x16.size a ≤ S8x256.size a),
        shapeCast S16 (View.readAt (Elt F) (View.whole (cc0_scratch3 : Ref sig .scVector)) (Rect.unit (s := S8x256) off S1x16.size inb).toLoadRect X) shapeCasts_S1x16_S16
          = Scat.vsX X ⟨t.val, ht8⟩ n := by
      intro n off hoff inb; subst hoff; rfl
    exact sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (sc _ _ _ _ _ _ _ _ (rfl) rfl (ld ⟨0, by decide⟩ _ (k0_off3_eq t) _)) rfl (ld ⟨1, by decide⟩ _ (k0_off4_eq t) _)) rfl (ld ⟨2, by decide⟩ _ (k0_off5_eq t) _)) rfl (ld ⟨3, by decide⟩ _ (k0_off6_eq t) _)) rfl (ld ⟨4, by decide⟩ _ (k0_off7_eq t) _)) rfl (ld ⟨5, by decide⟩ _ (k0_off8_eq t) _)) rfl (ld ⟨6, by decide⟩ _ (k0_off9_eq t) _)) rfl (ld ⟨7, by decide⟩ _ (k0_off10_eq t) _)) rfl (ld ⟨8, by decide⟩ _ (k0_off11_eq t) _)) rfl (ld ⟨9, by decide⟩ _ (k0_off12_eq t) _)) rfl (ld ⟨10, by decide⟩ _ (k0_off13_eq t) _)) rfl (ld ⟨11, by decide⟩ _ (k0_off14_eq t) _)) rfl (ld ⟨12, by decide⟩ _ (k0_off15_eq t) _)) rfl (ld ⟨13, by decide⟩ _ (k0_off16_eq t) _)) rfl (ld ⟨14, by decide⟩ _ (k0_off17_eq t) _)) rfl (ld ⟨15, by decide⟩ _ (k0_off18_eq t) _)
  rw [Scat.accRec_row (Scf.iv 0#32 1#32 t.val) hr8 ⟨t.val, ht8⟩ hr X H0 p q, hH0 p q]
  by_cases hq : q.val % 8 = 0
  · by_cases hpt : p.val = t.val
    · have hp : p = ⟨t.val, ht8⟩ := Fin.ext hpt
      rw [if_pos ⟨hpt, hq⟩, if_pos ⟨by omega, hq⟩, hp]
    · rw [if_neg (fun h => hpt h.1)]
      by_cases hlt : p.val < t.val
      · rw [if_pos ⟨hlt, hq⟩, if_pos ⟨by omega, hq⟩]
      · rw [if_neg (fun h => hlt h.1), if_neg (fun h => by omega)]
  · rw [if_neg (fun h => hq h.2), if_neg (fun h => hq h.2), if_neg (fun h => hq h.2)]

/-- Before the first trip nothing is spread. -/
theorem rowsDone3_zero (X : S8x256.Idx → Elt F .f32) (Hc : S8x2048.Idx → Elt F .f32) : RowsDone3 X Hc 0 Hc :=
  fun p q => (if_neg (fun h => absurd h.1 (Nat.not_lt_zero _))).symm

/-- After the eighth trip, over a buffer whose other columns are the fill, the buffer is the spread of `X`. -/
theorem rowsDone3_full (X : S8x256.Idx → Elt F .f32) (Hc H : S8x2048.Idx → Elt F .f32) (h : RowsDone3 X Hc 8 H)
    (hz : ∀ (p : Fin 8) (q : Fin 2048), q.val % 8 ≠ 0 → Hc (ix2 p q) = zF (F := F)) : H = spreadB X := by
  funext j
  obtain ⟨p, q, rfl⟩ : ∃ (p : Fin 8) (q : Fin 2048), j = ix2 p q := ⟨j 0, j 1, eq_ix2 j⟩
  rw [h p q]
  unfold spreadB
  by_cases hq : q.val % 8 = 0
  · rw [if_pos ⟨p.isLt, hq⟩]; exact (if_pos hq).symm
  · rw [if_neg (fun h => hq h.2), hz p q hq]; exact (if_neg hq).symm

end Cert.Proof.KB
end
-- ==== Proof.KBPerm.lean ====
/-
  The twelve scatter loops have one trip.

  The kernel spreads its four input banks into its four output banks in twelve counted loops: four before the
  main loop, four inside it and four after it, one per bank each time. Every one of them runs the same trip —
  read sixteen lanes of the input bank, store them at every eighth column of the output bank — and differs from
  the first loop's only in which bank's two buffers it addresses. Each equation below says so for one loop: its
  trip, at the buffers the tile holds, is the first loop's trip with bank `j`'s input and output buffer in the
  first bank's places. The values a loop is handed but does not read stay universally quantified.
-/
import proofs.«217887_g14147622273102_retrytranche1_597_18_alg».proof.Proof.KBTileRes

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-- Loop `k0_t3`'s trip (bank 1) is loop `k0_t2`'s trip at bank 1's two buffers. -/
theorem body3_eq (L : grid0.Coords) (v2 : BitVec 32) (v5 v6 : IVec S16 32) (c16 c17 c18 : BitVec 32) :
    k0_t3_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 c17 c18
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t4`'s trip (bank 2) is loop `k0_t2`'s trip at bank 2's two buffers. -/
theorem body4_eq (L : grid0.Coords) (v2 : BitVec 32) (v5 v6 : IVec S16 32) (c16 c17 c18 : BitVec 32) :
    k0_t4_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 c17 c18
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t5`'s trip (bank 3) is loop `k0_t2`'s trip at bank 3's two buffers. -/
theorem body5_eq (c16 c18 : BitVec 32) (L : grid0.Coords) (v2 : BitVec 32) (v5 v6 : IVec S16 32) :
    k0_t5_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t7`'s trip (bank 0) is loop `k0_t2`'s trip at bank 0's two buffers. -/
theorem body7_eq (c16 c18 : BitVec 32) (L : grid0.Coords) (v2 : BitVec 32) (v5 v6 : IVec S16 32) (c66 c67 : BitVec 32) (k6 : Fin k0_t6_loop.trips) :
    k0_t7_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c66 c67 k6
      = k0_t2_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t8`'s trip (bank 1) is loop `k0_t2`'s trip at bank 1's two buffers. -/
theorem body8_eq (c16 c18 : BitVec 32) (L : grid0.Coords) (v2 : BitVec 32) (v5 v6 : IVec S16 32) (k6 : Fin k0_t6_loop.trips) (v124 v146 v151 : BitVec 32) :
    k0_t8_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v146 v151
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t9`'s trip (bank 2) is loop `k0_t2`'s trip at bank 2's two buffers. -/
theorem body9_eq (c16 c18 : BitVec 32) (L : grid0.Coords) (v2 : BitVec 32) (v5 v6 : IVec S16 32) (k6 : Fin k0_t6_loop.trips) (v124 v146 v151 : BitVec 32) :
    k0_t9_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v146 v151
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t10`'s trip (bank 3) is loop `k0_t2`'s trip at bank 3's two buffers. -/
theorem body10_eq (c16 c18 : BitVec 32) (L : grid0.Coords) (v2 : BitVec 32) (v5 v6 : IVec S16 32) (k6 : Fin k0_t6_loop.trips) (v124 v167 : BitVec 32) :
    k0_t10_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 k6 v124 v167
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t11`'s trip (bank 0) is loop `k0_t2`'s trip at bank 0's two buffers. -/
theorem body11_eq (c16 c18 : BitVec 32) (L : grid0.Coords) (v2 : BitVec 32) (v5 v6 : IVec S16 32) :
    k0_t11_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t12`'s trip (bank 1) is loop `k0_t2`'s trip at bank 1's two buffers. -/
theorem body12_eq (c16 c18 : BitVec 32) (L : grid0.Coords) (v2 : BitVec 32) (v5 v6 : IVec S16 32) :
    k0_t12_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6
      = k0_t2_body (F := F) L xW (Memref.isWhole_whole _) oW (Memref.isWhole_whole _) sX1 (Memref.isWhole_whole _) sX1 (Memref.isWhole_whole _) sX2 (Memref.isWhole_whole _) sX3 (Memref.isWhole_whole _) sO1 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t13`'s trip (bank 2) is loop `k0_t2`'s trip at bank 2's two buffers. -/
theorem body13_eq (c16 c18 : BitVec 32) (L : grid0.Coords) (v2 : BitVec 32) (v5 v6 : IVec S16 32) (c97 : BitVec 32) :
    k0_t13_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c97
      = k0_t2_body (F := F) L xW (Memref.isWhole_whole _) oW (Memref.isWhole_whole _) sX2 (Memref.isWhole_whole _) sX1 (Memref.isWhole_whole _) sX2 (Memref.isWhole_whole _) sX3 (Memref.isWhole_whole _) sO2 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

/-- Loop `k0_t14`'s trip (bank 3) is loop `k0_t2`'s trip at bank 3's two buffers. -/
theorem body14_eq (c16 c18 : BitVec 32) (L : grid0.Coords) (v2 : BitVec 32) (v5 v6 : IVec S16 32) (c97 : BitVec 32) :
    k0_t14_body (F := F) L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c97
      = k0_t2_body (F := F) L xW (Memref.isWhole_whole _) oW (Memref.isWhole_whole _) sX3 (Memref.isWhole_whole _) sX1 (Memref.isWhole_whole _) sX2 (Memref.isWhole_whole _) sX3 (Memref.isWhole_whole _) sO3 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 v5 v6 c16 0#32 c18 := rfl

end Cert.Proof.KB
end
-- ==== Proof.KBInvDefs.lean ====
import proofs.«217887_g14147622273102_retrytranche1_597_18_alg».proof.Proof.KBChunks
import proofs.«217887_g14147622273102_retrytranche1_597_18_alg».proof.Proof.Pieces

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## The pipeline's invariant: chunk pieces and transfers in flight

A task moves its 64 chunks in 16 stages of four banks; stage `s` handles chunks `4·s + b`. Between stages the
input chunks of the coming stage are in flight into the bank buffers, the result chunks of the stage just done are in
flight out of them, every other input chunk is in hand at the flattened input's contents, the result chunks of earlier
stages hold the spread, and the later ones anything. -/

variable (m : (ℓ : Loc nD τ sig) → Buf (Elt F) ℓ) (d : Dev nD) (L : grid0.Coords)

/-- Input chunk `n` of this task, in hand at the flattened input's contents (nothing past 63). -/
def XP (n : ℕ) : sProp 𝕄 := if h : n < 64 then (xLoc d ↦[xSet (wL L) ⟨n, h⟩]{fullShare} X2 m d) else iprop(emp)
/-- Result chunk `n` at anything. -/
def OE (n : ℕ) : sProp 𝕄 := if h : n < 64 then iprop(∃ f, oLoc d ↦[oSet (wL L) ⟨n, h⟩]{fullShare} f) else iprop(emp)
/-- Result chunk `n` at the spread. -/
def OG (n : ℕ) : sProp 𝕄 := if h : n < 64 then (oLoc d ↦[oSet (wL L) ⟨n, h⟩]{fullShare} G2 m d) else iprop(emp)
/-- Input chunk `n` as an 8 × 256 block. -/
def CX (n : ℕ) : S8x256.Idx → Elt F .f32 := if h : n < 64 then chunkX m d (wL L) ⟨n, h⟩ else fun _ => zF (F := F)

theorem XP_eq (n : ℕ) (h : n < 64) : XP m d L n = (xLoc d ↦[xSet (wL L) ⟨n, h⟩]{fullShare} X2 m d) := dif_pos h
theorem OE_eq (n : ℕ) (h : n < 64) : OE (F := F) d L n = iprop(∃ f, oLoc d ↦[oSet (wL L) ⟨n, h⟩]{fullShare} f) := dif_pos h
theorem OG_eq (n : ℕ) (h : n < 64) : OG m d L n = (oLoc d ↦[oSet (wL L) ⟨n, h⟩]{fullShare} G2 m d) := dif_pos h
theorem CX_eq (n : ℕ) (h : n < 64) : CX m d L n = chunkX m d (wL L) ⟨n, h⟩ := dif_pos h

/-- Input chunk `n` in flight into bank `J`'s input buffer on semaphore `q`: when it lands the buffer holds the chunk and the chunk is in hand again. -/
def FlIn (q : DmaSem sig) : Fin 4 → ℕ → sProp 𝕄
  | 0, n => Transfers.Flight countersEmb (thr d L) (SemLoc.dma q) default 65536
      iprop((sX0.view.loc (thr d L) ↦{fullShare} CX m d L n) ∗ XP m d L n)
  | 1, n => Transfers.Flight countersEmb (thr d L) (SemLoc.dma q) default 65536
      iprop((sX1.view.loc (thr d L) ↦{fullShare} CX m d L n) ∗ XP m d L n)
  | 2, n => Transfers.Flight countersEmb (thr d L) (SemLoc.dma q) default 65536
      iprop((sX2.view.loc (thr d L) ↦{fullShare} CX m d L n) ∗ XP m d L n)
  | 3, n => Transfers.Flight countersEmb (thr d L) (SemLoc.dma q) default 65536
      iprop((sX3.view.loc (thr d L) ↦{fullShare} CX m d L n) ∗ XP m d L n)
/-- Result chunk `n` in flight out of bank `J`'s output buffer on semaphore `q`: when it lands the chunk holds the spread and the buffer is back, at the spread of input chunk `n`. -/
def FlOut (q : DmaSem sig) : Fin 4 → ℕ → sProp 𝕄
  | 0, n => Transfers.Flight countersEmb (thr d L) (SemLoc.dma q) default 524288
      iprop(OG m d L n ∗ (sO0.view.loc (thr d L) ↦{fullShare} spreadB (CX m d L n)))
  | 1, n => Transfers.Flight countersEmb (thr d L) (SemLoc.dma q) default 524288
      iprop(OG m d L n ∗ (sO1.view.loc (thr d L) ↦{fullShare} spreadB (CX m d L n)))
  | 2, n => Transfers.Flight countersEmb (thr d L) (SemLoc.dma q) default 524288
      iprop(OG m d L n ∗ (sO2.view.loc (thr d L) ↦{fullShare} spreadB (CX m d L n)))
  | 3, n => Transfers.Flight countersEmb (thr d L) (SemLoc.dma q) default 524288
      iprop(OG m d L n ∗ (sO3.view.loc (thr d L) ↦{fullShare} spreadB (CX m d L n)))
theorem FlIn_0 (q : DmaSem sig) (n : ℕ) : FlIn m d L q 0 n = Transfers.Flight countersEmb (thr d L) (SemLoc.dma q) default 65536
    iprop((sX0.view.loc (thr d L) ↦{fullShare} CX m d L n) ∗ XP m d L n) := rfl
theorem FlOut_0 (q : DmaSem sig) (n : ℕ) : FlOut m d L q 0 n = Transfers.Flight countersEmb (thr d L) (SemLoc.dma q) default 524288
    iprop(OG m d L n ∗ (sO0.view.loc (thr d L) ↦{fullShare} spreadB (CX m d L n))) := rfl
theorem FlIn_1 (q : DmaSem sig) (n : ℕ) : FlIn m d L q 1 n = Transfers.Flight countersEmb (thr d L) (SemLoc.dma q) default 65536
    iprop((sX1.view.loc (thr d L) ↦{fullShare} CX m d L n) ∗ XP m d L n) := rfl
theorem FlOut_1 (q : DmaSem sig) (n : ℕ) : FlOut m d L q 1 n = Transfers.Flight countersEmb (thr d L) (SemLoc.dma q) default 524288
    iprop(OG m d L n ∗ (sO1.view.loc (thr d L) ↦{fullShare} spreadB (CX m d L n))) := rfl
theorem FlIn_2 (q : DmaSem sig) (n : ℕ) : FlIn m d L q 2 n = Transfers.Flight countersEmb (thr d L) (SemLoc.dma q) default 65536
    iprop((sX2.view.loc (thr d L) ↦{fullShare} CX m d L n) ∗ XP m d L n) := rfl
theorem FlOut_2 (q : DmaSem sig) (n : ℕ) : FlOut m d L q 2 n = Transfers.Flight countersEmb (thr d L) (SemLoc.dma q) default 524288
    iprop(OG m d L n ∗ (sO2.view.loc (thr d L) ↦{fullShare} spreadB (CX m d L n))) := rfl
theorem FlIn_3 (q : DmaSem sig) (n : ℕ) : FlIn m d L q 3 n = Transfers.Flight countersEmb (thr d L) (SemLoc.dma q) default 65536
    iprop((sX3.view.loc (thr d L) ↦{fullShare} CX m d L n) ∗ XP m d L n) := rfl
theorem FlOut_3 (q : DmaSem sig) (n : ℕ) : FlOut m d L q 3 n = Transfers.Flight countersEmb (thr d L) (SemLoc.dma q) default 524288
    iprop(OG m d L n ∗ (sO3.view.loc (thr d L) ↦{fullShare} spreadB (CX m d L n))) := rfl

open Cert.Proof.Pieces in
/-- Before trip `t` of the main loop (stage `t + 1`). -/
def minv (O : CellTallies nD τ sig (HIx 1)) (W : Waits sig (HIx 1)) (t : ℕ) (_ : BitVec 32) : sProp 𝕄 :=
  iprop(Transfers.MayWaits (thr d L) none O
    ∗ bigSep (inHand (t + 1)) (XP m d L) ∗ bigSep (Cert.Proof.Pieces.done (t + 1)) (OG m d L) ∗ bigSep (todo (t + 1)) (OE (F := F) d L)
    ∗ FlIn m d L q0 0 (4 * (t + 1)) ∗ FlIn m d L q1 1 (4 * (t + 1) + 1) ∗ FlIn m d L q2 2 (4 * (t + 1) + 2) ∗ FlIn m d L q3 3 (4 * (t + 1) + 3)
    ∗ FlOut m d L q4 0 (4 * t) ∗ FlOut m d L q5 1 (4 * t + 1) ∗ FlOut m d L q6 2 (4 * t + 2) ∗ FlOut m d L q7 3 (4 * t + 3)
    ∗ ∃ W', ⌜∀ p ∈ W', p ∈ W ∨ p.2 = none⌝ ∗ owes (thr d L) O W')

end Cert.Proof.KB
end
-- ==== Proof.KBInv.lean ====
/-
  The pipeline's vocabulary, made usable: what a copy into an input bank and a copy out of an output bank leave in
  flight are the chunk-in-flight assertions of the invariant, and the task's hand-over and hand-back are the
  conjunctions of the per-chunk assertions over the 64 chunk numbers.
-/
import proofs.«217887_g14147622273102_retrytranche1_597_18_alg».proof.Proof.KBInvDefs

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

variable (m : (ℓ : Loc nD τ sig) → Buf (Elt F) ℓ) (d : Dev nD) (L : grid0.Coords)

/-! ## The two canonicalisations

What an in-copy leaves in flight — the bank written whole with the payload, beside the source's assertion P — is
the chunk in flight into the bank, once P is the chunk of the flattened input and the payload is the chunk's block;
likewise what an out-copy leaves — the destination's assertion P beside the bank on its own element set — is the
result chunk in flight out of the bank, once P is the chunk of the flat result at the spread of the flattened input. A
whole buffer's view writes over everything and covers every element. -/

theorem flIn_of0 (q : DmaSem sig) (n : ℕ) (h : n < 64) (P : sProp 𝕄)
    (hP : P = (xLoc d ↦[xSet (wL L) ⟨n, h⟩]{fullShare} X2 m d))
    (bprev : Buf (Elt F) (sX0.view.loc (thr d L))) (pay : S8x256.Idx → Elt F .f32)
    (hpay : pay = chunkX m d (wL L) ⟨n, h⟩) :
    (Transfers.Flight countersEmb (thr d L) (SemLoc.dma q) default 65536
        iprop((sX0.view.loc (thr d L) ↦{fullShare} sX0.view.write (Elt F) bprev pay Finset.univ) ∗ P) : sProp 𝕄)
      ⊢ FlIn m d L q 0 n := by
  subst hP hpay
  have hw : sX0.view.write (Elt F) bprev (chunkX m d (wL L) ⟨n, h⟩) Finset.univ = chunkX m d (wL L) ⟨n, h⟩ :=
    View.write_whole_univ cc0_scratch0 bprev _
  rw [FlIn_0, CX_eq m d L n h, XP_eq m d L n h, hw]

theorem flIn_of1 (q : DmaSem sig) (n : ℕ) (h : n < 64) (P : sProp 𝕄)
    (hP : P = (xLoc d ↦[xSet (wL L) ⟨n, h⟩]{fullShare} X2 m d))
    (bprev : Buf (Elt F) (sX1.view.loc (thr d L))) (pay : S8x256.Idx → Elt F .f32)
    (hpay : pay = chunkX m d (wL L) ⟨n, h⟩) :
    (Transfers.Flight countersEmb (thr d L) (SemLoc.dma q) default 65536
        iprop((sX1.view.loc (thr d L) ↦{fullShare} sX1.view.write (Elt F) bprev pay Finset.univ) ∗ P) : sProp 𝕄)
      ⊢ FlIn m d L q 1 n := by
  subst hP hpay
  have hw : sX1.view.write (Elt F) bprev (chunkX m d (wL L) ⟨n, h⟩) Finset.univ = chunkX m d (wL L) ⟨n, h⟩ :=
    View.write_whole_univ cc0_scratch1 bprev _
  rw [FlIn_1, CX_eq m d L n h, XP_eq m d L n h, hw]

theorem flIn_of2 (q : DmaSem sig) (n : ℕ) (h : n < 64) (P : sProp 𝕄)
    (hP : P = (xLoc d ↦[xSet (wL L) ⟨n, h⟩]{fullShare} X2 m d))
    (bprev : Buf (Elt F) (sX2.view.loc (thr d L))) (pay : S8x256.Idx → Elt F .f32)
    (hpay : pay = chunkX m d (wL L) ⟨n, h⟩) :
    (Transfers.Flight countersEmb (thr d L) (SemLoc.dma q) default 65536
        iprop((sX2.view.loc (thr d L) ↦{fullShare} sX2.view.write (Elt F) bprev pay Finset.univ) ∗ P) : sProp 𝕄)
      ⊢ FlIn m d L q 2 n := by
  subst hP hpay
  have hw : sX2.view.write (Elt F) bprev (chunkX m d (wL L) ⟨n, h⟩) Finset.univ = chunkX m d (wL L) ⟨n, h⟩ :=
    View.write_whole_univ cc0_scratch2 bprev _
  rw [FlIn_2, CX_eq m d L n h, XP_eq m d L n h, hw]

theorem flIn_of3 (q : DmaSem sig) (n : ℕ) (h : n < 64) (P : sProp 𝕄)
    (hP : P = (xLoc d ↦[xSet (wL L) ⟨n, h⟩]{fullShare} X2 m d))
    (bprev : Buf (Elt F) (sX3.view.loc (thr d L))) (pay : S8x256.Idx → Elt F .f32)
    (hpay : pay = chunkX m d (wL L) ⟨n, h⟩) :
    (Transfers.Flight countersEmb (thr d L) (SemLoc.dma q) default 65536
        iprop((sX3.view.loc (thr d L) ↦{fullShare} sX3.view.write (Elt F) bprev pay Finset.univ) ∗ P) : sProp 𝕄)
      ⊢ FlIn m d L q 3 n := by
  subst hP hpay
  have hw : sX3.view.write (Elt F) bprev (chunkX m d (wL L) ⟨n, h⟩) Finset.univ = chunkX m d (wL L) ⟨n, h⟩ :=
    View.write_whole_univ cc0_scratch3 bprev _
  rw [FlIn_3, CX_eq m d L n h, XP_eq m d L n h, hw]

theorem flOut_of0 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO0.view.loc (thr d L) ↦[sO0.view.set]{fullShare} spreadB X)) : sProp 𝕄)
      ⊢ FlOut m d L q 0 n := by
  subst hP hX
  rw [FlOut_0, OG_eq m d L n h, show sO0.view.set = Finset.univ from View.set_whole cc0_scratch4]

theorem flOut_of1 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO1.view.loc (thr d L) ↦[sO1.view.set]{fullShare} spreadB X)) : sProp 𝕄)
      ⊢ FlOut m d L q 1 n := by
  subst hP hX
  rw [FlOut_1, OG_eq m d L n h, show sO1.view.set = Finset.univ from View.set_whole cc0_scratch5]

theorem flOut_of2 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO2.view.loc (thr d L) ↦[sO2.view.set]{fullShare} spreadB X)) : sProp 𝕄)
      ⊢ FlOut m d L q 2 n := by
  subst hP hX
  rw [FlOut_2, OG_eq m d L n h, show sO2.view.set = Finset.univ from View.set_whole cc0_scratch6]

theorem flOut_of3 (q : DmaSem sig) (n : ℕ) (h : n < 64) (X : S8x256.Idx → Elt F .f32) (hX : X = CX m d L n)
    (P : sProp 𝕄) (hP : P = (oLoc d ↦[oSet (wL L) ⟨n, h⟩]{fullShare} G2 m d)) :
    (Transfers.Flight countersEmb (thr d L) (SemLoc.dma q) default 524288
        iprop(P ∗ (sO3.view.loc (thr d L) ↦[sO3.view.set]{fullShare} spreadB X)) : sProp 𝕄)
      ⊢ FlOut m d L q 3 n := by
  subst hP hX
  rw [FlOut_3, OG_eq m d L n h, show sO3.view.set = Finset.univ from View.set_whole cc0_scratch7]

/-! ## The ends: what the task is handed, and what it hands back, chunk family by chunk family -/

theorem goRes_split :
    goRes m d (wL L) = iprop(bigSep (Finset.range 64) (XP m d L) ∗ bigSep (Finset.range 64) (OE (F := F) d L)) := by
  unfold goRes
  rw [Cert.Proof.Pieces.fin64, ← bigSep_sep']
  refine bigSep_congr (fun n hn => ?_)
  have h : n < 64 := Finset.mem_range.mp hn
  simp only [dif_pos h, XP_eq m d L n h, OE_eq d L n h]

theorem tdRes_join :
    iprop(bigSep (Finset.range 64) (XP m d L) ∗ bigSep (Finset.range 64) (OG m d L)) = tdRes m d (wL L) := by
  unfold tdRes
  rw [Cert.Proof.Pieces.fin64, ← bigSep_sep']
  refine bigSep_congr (fun n hn => ?_)
  have h : n < 64 := Finset.mem_range.mp hn
  simp only [dif_pos h, XP_eq m d L n h, OG_eq m d L n h]

end Cert.Proof.KB
end
-- ==== Proof.KBMain.lean ====
import proofs.«217887_g14147622273102_retrytranche1_597_18_alg».proof.Proof.KBInv
import proofs.«217887_g14147622273102_retrytranche1_597_18_alg».proof.Proof.KBScat0
import proofs.«217887_g14147622273102_retrytranche1_597_18_alg».proof.Proof.KBScat1
import proofs.«217887_g14147622273102_retrytranche1_597_18_alg».proof.Proof.KBScat2
import proofs.«217887_g14147622273102_retrytranche1_597_18_alg».proof.Proof.KBScat3
import proofs.«217887_g14147622273102_retrytranche1_597_18_alg».proof.Proof.KBPerm

set_option maxHeartbeats 4000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
variable (m : (ℓ : Loc nD τ sig) → Buf (Elt F) ℓ)
open Cert.Proof.Pieces
local notation "𝕄" => MT nD τ sig (HIx 1) (Elt F) ℕ UU ℕ

/-! ## One trip of the main loop

Trip `t` is stage `s = t + 1` of the pipeline. For each bank `b` in turn: the in-copy of input chunk `4·s + b` is
waited for (the bank's input buffer then holds that chunk, and the chunk is in hand again); the out-copy of result chunk
`4·(s − 1) + b` is waited for (that chunk then holds the spread, and the bank's output buffer is back, still at the
spread of the previous input chunk, so that every column not divisible by 8 is the fill); the eight-trip scatter loop
spreads the new input chunk over the output buffer; the buffer is sent out to result chunk `4·s + b` and input chunk
`4·(s + 1) + b` is fetched into the input buffer. Each bank has its own pair of semaphores, one copy at a time on each,
and a buffer is read or written only between the wait of the copy that used it and the issue of the next one.
The chunk bookkeeping is `Pieces`: four input chunks leave the hand and four come back, four result chunks leave the
to-do pile and four join the done pile. -/

theorem trips6 : k0_t6_loop.trips = 14 := by decide
theorem trips7 : Scf.trips k0_t7_loop.lb k0_t7_loop.ub k0_t7_loop.st = 8 := by decide
theorem trips8 : Scf.trips k0_t8_loop.lb k0_t8_loop.ub k0_t8_loop.st = 8 := by decide
theorem trips9 : Scf.trips k0_t9_loop.lb k0_t9_loop.ub k0_t9_loop.st = 8 := by decide
theorem trips10 : Scf.trips k0_t10_loop.lb k0_t10_loop.ub k0_t10_loop.st = 8 := by decide

theorem main_trip (d : Dev nD) (L : grid0.Coords) (O : CellTallies nD τ sig (HIx 1)) (W : Waits sig (HIx 1)) (v2 : BitVec 32) (t : Fin k0_t6_loop.trips) (a : BitVec 32) :
    minv m d L O W t.val a ⊢ wp frame (wpE (defs₀ (F := F)) 𝒱₀ (thr d L) none) Set.univ
      (k0_t6_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15 v2 k0_pay349 k0_pay350 t a)
      (fun r => minv m d L O W (t.val + 1) r) := by
  have ht : t.val < 14 := trips6 ▸ t.isLt
  have hn0 : 4 * (t.val + 1) < 64 := by omega
  have hn1 : 4 * (t.val + 1) + 1 < 64 := by omega
  have hn2 : 4 * (t.val + 1) + 2 < 64 := by omega
  have hn3 : 4 * (t.val + 1) + 3 < 64 := by omega
  have hx0 : 4 * (t.val + 1) + 4 < 64 := by omega
  have hx1 : 4 * (t.val + 1) + 5 < 64 := by omega
  have hx2 : 4 * (t.val + 1) + 6 < 64 := by omega
  have hx3 : 4 * (t.val + 1) + 7 < 64 := by omega
  unfold minv k0_t6_body
  rw [Pieces.inHand_take (t.val + 1) (by omega), Pieces.todo_take (t.val + 1) (by omega)]
  rw [FlIn_0, FlIn_1, FlIn_2, FlIn_3, FlOut_0, FlOut_1, FlOut_2, FlOut_3]
  iintro ⟨Hmw, ⟨Hx8, Hx9, Hx10, Hx11, Hxr⟩, Hdone, ⟨Ho4, Ho5, Ho6, Ho7, Htodo⟩, HFi0, HFi1, HFi2, HFi3, HFo0, HFo1, HFo2, HFo3, %W', %hW', HO⟩
  ihave HFi0 := (Entails.of_eq (congrArg (fun P : sProp 𝕄 => Transfers.Flight countersEmb (thr d L) (SemLoc.dma q0) default 65536
      iprop((View.loc (thr d L) sX0.view ↦{fullShare} CX m d L (4 * (t.val + 1))) ∗ P))
    ((XP_eq m d L (4 * (t.val + 1)) hn0).trans (pts_x68 (F := F) d L t 0 ⟨(4 * (t.val + 1)), hn0⟩ (by simp) (X2 m d)).symm))) $$ HFi0
  ihave HFi1 := (Entails.of_eq (congrArg (fun P : sProp 𝕄 => Transfers.Flight countersEmb (thr d L) (SemLoc.dma q1) default 65536
      iprop((View.loc (thr d L) sX1.view ↦{fullShare} CX m d L (4 * (t.val + 1) + 1)) ∗ P))
    ((XP_eq m d L (4 * (t.val + 1) + 1) hn1).trans (pts_x68 (F := F) d L t 1 ⟨(4 * (t.val + 1) + 1), hn1⟩ (by simp) (X2 m d)).symm))) $$ HFi1
  ihave HFi2 := (Entails.of_eq (congrArg (fun P : sProp 𝕄 => Transfers.Flight countersEmb (thr d L) (SemLoc.dma q2) default 65536
      iprop((View.loc (thr d L) sX2.view ↦{fullShare} CX m d L (4 * (t.val + 1) + 2)) ∗ P))
    ((XP_eq m d L (4 * (t.val + 1) + 2) hn2).trans (pts_x68 (F := F) d L t 2 ⟨(4 * (t.val + 1) + 2), hn2⟩ (by simp) (X2 m d)).symm))) $$ HFi2
  ihave HFi3 := (Entails.of_eq (congrArg (fun P : sProp 𝕄 => Transfers.Flight countersEmb (thr d L) (SemLoc.dma q3) default 65536
      iprop((View.loc (thr d L) sX3.view ↦{fullShare} CX m d L (4 * (t.val + 1) + 3)) ∗ P))
    ((XP_eq m d L (4 * (t.val + 1) + 3) hn3).trans (pts_x68 (F := F) d L t 3 ⟨(4 * (t.val + 1) + 3), hn3⟩ (by simp) (X2 m d)).symm))) $$ HFi3
  sl_exec
  -- bank 0: the chunk that landed is spread over the buffer whose out-copy has just returned, goes out, and the next chunk is fetched
  sl_for (sinv0 d L (CX m d L (4 * (t.val + 1))) (spreadB (CX m d L (4 * t.val)))) $$ [HFi0_dst HFo0_src]
  case region => exact fun k acc => trip0 d L v2 0#32 8#32 (CX m d L (4 * (t.val + 1))) (spreadB (CX m d L (4 * t.val))) k acc
  · unfold sinv0
    isplitl [HFi0_dst]; · iexact HFi0_dst
    iexists _; isplitl [HFo0_src]; · iexact HFo0_src
    ipureintro; exact rowsDone0_zero _ _
  iintro %acc0 HI
  unfold sinv0
  icases HI with ⟨HX0, %H0', HS0, %hH0'⟩
  rw [trips7] at hH0'
  have eH0 : H0' = spreadB (CX m d L (4 * (t.val + 1))) := rowsDone0_full _ _ H0' hH0' (fun p q hq => if_neg hq)
  subst eH0
  ihave Ho4 := (Entails.of_eq (OE_eq (F := F) d L (4 * (t.val + 1)) hn0)) $$ Ho4
  icases Ho4 with ⟨%fo0, Ho4⟩
  ihave Ho4 := (Entails.of_eq (pts_o86 (F := F) d L t 0 ⟨(4 * (t.val + 1)), hn0⟩ (by simp) _).symm) $$ Ho4
  ihave Hx8 := (Entails.of_eq ((XP_eq m d L (4 * (t.val + 1) + 4) hx0).trans (pts_x87 (F := F) d L t 0 ⟨(4 * (t.val + 1) + 4), hx0⟩ (by first | (simp; done) | (simp; omega) | omega) (X2 m d)).symm)) $$ Hx8
  sl_exec
  -- bank 1: the chunk that landed is spread over the buffer whose out-copy has just returned, goes out, and the next chunk is fetched
  sl_for (sinv1 d L (CX m d L (4 * (t.val + 1) + 1)) (spreadB (CX m d L (4 * t.val + 1)))) $$ [HFi1_dst HFo1_src]
  case region => exact fun k acc => trip1 d L v2 0#32 8#32 (CX m d L (4 * (t.val + 1) + 1)) (spreadB (CX m d L (4 * t.val + 1))) k acc
  · unfold sinv1
    isplitl [HFi1_dst]; · iexact HFi1_dst
    iexists _; isplitl [HFo1_src]; · iexact HFo1_src
    ipureintro; exact rowsDone1_zero _ _
  iintro %acc1 HI
  unfold sinv1
  icases HI with ⟨HX1, %H1', HS1, %hH1'⟩
  rw [trips8] at hH1'
  have eH1 : H1' = spreadB (CX m d L (4 * (t.val + 1) + 1)) := rowsDone1_full _ _ H1' hH1' (fun p q hq => if_neg hq)
  subst eH1
  ihave Ho5 := (Entails.of_eq (OE_eq (F := F) d L (4 * (t.val + 1) + 1) hn1)) $$ Ho5
  icases Ho5 with ⟨%fo1, Ho5⟩
  ihave Ho5 := (Entails.of_eq (pts_o86 (F := F) d L t 1 ⟨(4 * (t.val + 1) + 1), hn1⟩ (by simp) _).symm) $$ Ho5
  ihave Hx9 := (Entails.of_eq ((XP_eq m d L (4 * (t.val + 1) + 5) hx1).trans (pts_x87 (F := F) d L t 1 ⟨(4 * (t.val + 1) + 5), hx1⟩ (by first | (simp; done) | (simp; omega) | omega) (X2 m d)).symm)) $$ Hx9
  sl_exec
  -- bank 2: the chunk that landed is spread over the buffer whose out-copy has just returned, goes out, and the next chunk is fetched
  sl_for (sinv2 d L (CX m d L (4 * (t.val + 1) + 2)) (spreadB (CX m d L (4 * t.val + 2)))) $$ [HFi2_dst HFo2_src]
  case region => exact fun k acc => trip2 d L v2 0#32 8#32 (CX m d L (4 * (t.val + 1) + 2)) (spreadB (CX m d L (4 * t.val + 2))) k acc
  · unfold sinv2
    isplitl [HFi2_dst]; · iexact HFi2_dst
    iexists _; isplitl [HFo2_src]; · iexact HFo2_src
    ipureintro; exact rowsDone2_zero _ _
  iintro %acc2 HI
  unfold sinv2
  icases HI with ⟨HX2, %H2', HS2, %hH2'⟩
  rw [trips9] at hH2'
  have eH2 : H2' = spreadB (CX m d L (4 * (t.val + 1) + 2)) := rowsDone2_full _ _ H2' hH2' (fun p q hq => if_neg hq)
  subst eH2
  ihave Ho6 := (Entails.of_eq (OE_eq (F := F) d L (4 * (t.val + 1) + 2) hn2)) $$ Ho6
  icases Ho6 with ⟨%fo2, Ho6⟩
  ihave Ho6 := (Entails.of_eq (pts_o86 (F := F) d L t 2 ⟨(4 * (t.val + 1) + 2), hn2⟩ (by simp) _).symm) $$ Ho6
  ihave Hx10 := (Entails.of_eq ((XP_eq m d L (4 * (t.val + 1) + 6) hx2).trans (pts_x87 (F := F) d L t 2 ⟨(4 * (t.val + 1) + 6), hx2⟩ (by first | (simp; done) | (simp; omega) | omega) (X2 m d)).symm)) $$ Hx10
  sl_exec
  -- bank 3: the chunk that landed is spread over the buffer whose out-copy has just returned, goes out, and the next chunk is fetched
  sl_for (sinv3 d L (CX m d L (4 * (t.val + 1) + 3)) (spreadB (CX m d L (4 * t.val + 3)))) $$ [HFi3_dst HFo3_src]
  case region => exact fun k acc => trip3 d L v2 0#32 8#32 (CX m d L (4 * (t.val + 1) + 3)) (spreadB (CX m d L (4 * t.val + 3))) k acc
  · unfold sinv3
    isplitl [HFi3_dst]; · iexact HFi3_dst
    iexists _; isplitl [HFo3_src]; · iexact HFo3_src
    ipureintro; exact rowsDone3_zero _ _
  iintro %acc3 HI
  unfold sinv3
  icases HI with ⟨HX3, %H3', HS3, %hH3'⟩
  rw [trips10] at hH3'
  have eH3 : H3' = spreadB (CX m d L (4 * (t.val + 1) + 3)) := rowsDone3_full _ _ H3' hH3' (fun p q hq => if_neg hq)
  subst eH3
  ihave Ho7 := (Entails.of_eq (OE_eq (F := F) d L (4 * (t.val + 1) + 3) hn3)) $$ Ho7
  icases Ho7 with ⟨%fo3, Ho7⟩
  ihave Ho7 := (Entails.of_eq (pts_o86 (F := F) d L t 3 ⟨(4 * (t.val + 1) + 3), hn3⟩ (by simp) _).symm) $$ Ho7
  ihave Hx11 := (Entails.of_eq ((XP_eq m d L (4 * (t.val + 1) + 7) hx3).trans (pts_x87 (F := F) d L t 3 ⟨(4 * (t.val + 1) + 7), hx3⟩ (by first | (simp; done) | (simp; omega) | omega) (X2 m d)).symm)) $$ Hx11
  sl_exec
  sl_step
  -- the state before the next trip
  isplitl [Hmw]; · iexact Hmw
  isplitl [HFi0_src HFi1_src HFi2_src HFi3_src Hxr]
  · rw [← Pieces.inHand_give (t.val + 1) (by omega)]
    isplitl [HFi0_src]; · iapply (Entails.of_eq ((XP_eq m d L (4 * (t.val + 1)) hn0).trans (pts_x68 (F := F) d L t 0 ⟨4 * (t.val + 1), hn0⟩ (by simp) (X2 m d)).symm).symm); iexact HFi0_src
    isplitl [HFi1_src]; · iapply (Entails.of_eq ((XP_eq m d L (4 * (t.val + 1) + 1) hn1).trans (pts_x68 (F := F) d L t 1 ⟨4 * (t.val + 1) + 1, hn1⟩ (by simp) (X2 m d)).symm).symm); iexact HFi1_src
    isplitl [HFi2_src]; · iapply (Entails.of_eq ((XP_eq m d L (4 * (t.val + 1) + 2) hn2).trans (pts_x68 (F := F) d L t 2 ⟨4 * (t.val + 1) + 2, hn2⟩ (by simp) (X2 m d)).symm).symm); iexact HFi2_src
    isplitl [HFi3_src]; · iapply (Entails.of_eq ((XP_eq m d L (4 * (t.val + 1) + 3) hn3).trans (pts_x68 (F := F) d L t 3 ⟨4 * (t.val + 1) + 3, hn3⟩ (by simp) (X2 m d)).symm).symm); iexact HFi3_src
    iexact Hxr
  isplitl [HFo0_dst HFo1_dst HFo2_dst HFo3_dst Hdone]
  · rw [← Pieces.done_give (t.val + 1) (by omega) (by omega),
      show 4 * (t.val + 1) - 4 = 4 * t.val from by omega, show 4 * (t.val + 1) - 3 = 4 * t.val + 1 from by omega,
      show 4 * (t.val + 1) - 2 = 4 * t.val + 2 from by omega, show 4 * (t.val + 1) - 1 = 4 * t.val + 3 from by omega]
    isplitl [HFo0_dst]; · iexact HFo0_dst
    isplitl [HFo1_dst]; · iexact HFo1_dst
    isplitl [HFo2_dst]; · iexact HFo2_dst
    isplitl [HFo3_dst]; · iexact HFo3_dst
    iexact Hdone
  isplitl [Htodo]; · iexact Htodo
  isplitl [HFi0]
  · iapply (Entails.of_eq (congrArg (FlIn m d L q0 0) (show 4 * (t.val + 1) + 4 = 4 * (t.val + 1 + 1) from by omega)))
    iapply (flIn_of0 m d L q0 (4 * (t.val + 1) + 4) hx0 _ (pts_x87 (F := F) d L t 0 ⟨(4 * (t.val + 1) + 4), hx0⟩ (by first | (simp; done) | (simp; omega) | omega) (X2 m d)) _ _ (read_x87 m d L t 0 ⟨(4 * (t.val + 1) + 4), hx0⟩ (by first | (simp; done) | (simp; omega) | omega)))
    iexact HFi0
  isplitl [HFi1]
  · iapply (Entails.of_eq (congrArg (FlIn m d L q1 1) (show 4 * (t.val + 1) + 5 = 4 * (t.val + 1 + 1) + 1 from by omega)))
    iapply (flIn_of1 m d L q1 (4 * (t.val + 1) + 5) hx1 _ (pts_x87 (F := F) d L t 1 ⟨(4 * (t.val + 1) + 5), hx1⟩ (by first | (simp; done) | (simp; omega) | omega) (X2 m d)) _ _ (read_x87 m d L t 1 ⟨(4 * (t.val + 1) + 5), hx1⟩ (by first | (simp; done) | (simp; omega) | omega)))
    iexact HFi1
  isplitl [HFi2]
  · iapply (Entails.of_eq (congrArg (FlIn m d L q2 2) (show 4 * (t.val + 1) + 6 = 4 * (t.val + 1 + 1) + 2 from by omega)))
    iapply (flIn_of2 m d L q2 (4 * (t.val + 1) + 6) hx2 _ (pts_x87 (F := F) d L t 2 ⟨(4 * (t.val + 1) + 6), hx2⟩ (by first | (simp; done) | (simp; omega) | omega) (X2 m d)) _ _ (read_x87 m d L t 2 ⟨(4 * (t.val + 1) + 6), hx2⟩ (by first | (simp; done) | (simp; omega) | omega)))
    iexact HFi2
  isplitl [HFi3]
  · iapply (Entails.of_eq (congrArg (FlIn m d L q3 3) (show 4 * (t.val + 1) + 7 = 4 * (t.val + 1 + 1) + 3 from by omega)))
    iapply (flIn_of3 m d L q3 (4 * (t.val + 1) + 7) hx3 _ (pts_x87 (F := F) d L t 3 ⟨(4 * (t.val + 1) + 7), hx3⟩ (by first | (simp; done) | (simp; omega) | omega) (X2 m d)) _ _ (read_x87 m d L t 3 ⟨(4 * (t.val + 1) + 7), hx3⟩ (by first | (simp; done) | (simp; omega) | omega)))
    iexact HFi3
  isplitl [HFo0]
  · iapply (flOut_of0 m d L q4 (4 * (t.val + 1)) hn0 (CX m d L (4 * (t.val + 1))) rfl _ (out_pts86 m d L t 0 ⟨(4 * (t.val + 1)), hn0⟩ (by simp) fo0 _ (by rw [← CX_eq m d L (4 * (t.val + 1)) hn0])))
    iexact HFo0
  isplitl [HFo1]
  · iapply (flOut_of1 m d L q5 (4 * (t.val + 1) + 1) hn1 (CX m d L (4 * (t.val + 1) + 1)) rfl _ (out_pts86 m d L t 1 ⟨(4 * (t.val + 1) + 1), hn1⟩ (by simp) fo1 _ (by rw [← CX_eq m d L (4 * (t.val + 1) + 1) hn1])))
    iexact HFo1
  isplitl [HFo2]
  · iapply (flOut_of2 m d L q6 (4 * (t.val + 1) + 2) hn2 (CX m d L (4 * (t.val + 1) + 2)) rfl _ (out_pts86 m d L t 2 ⟨(4 * (t.val + 1) + 2), hn2⟩ (by simp) fo2 _ (by rw [← CX_eq m d L (4 * (t.val + 1) + 2) hn2])))
    iexact HFo2
  isplitl [HFo3]
  · iapply (flOut_of3 m d L q7 (4 * (t.val + 1) + 3) hn3 (CX m d L (4 * (t.val + 1) + 3)) rfl _ (out_pts86 m d L t 3 ⟨(4 * (t.val + 1) + 3), hn3⟩ (by simp) fo3 _ (by rw [← CX_eq m d L (4 * (t.val + 1) + 3) hn3])))
    iexact HFo3
  iexists _; isplitr
  swap
  · iexact HO
  · ipureintro
    intro p hp
    simp only [Finset.mem_insert] at hp
    rcases hp with rfl | rfl | rfl | rfl | rfl | rfl | rfl | rfl | hp
    all_goals first | exact hW' p hp | exact .inr rfl

end Cert.Proof.KB
end
-- ==== Proof.KBTile.lean ====
/-
  One task's body, from the statements of its loops.

  A task moves its 64 chunks through four banks in 16 stages; stage s handles chunks 4·s + b, one per bank b. The body
  first fetches chunks 0 to 3 into the four input banks and fills the four output banks with the fill value. In
  stage 0, for each bank in turn, it waits for the bank's input chunk, spreads it over the output bank (every eighth
  column; the others stay the fill), sends the output bank to the result chunk of the same number and fetches the input
  chunk four further on. Stages 1 to 14 are the trips of the main loop, each of which does the same and first waits
  for the bank's previous result chunk to have left; its statement is the invariant of the pipeline: the input chunks
  of the coming stage in flight into the banks, the result chunks of the stage just done in flight out of them, every
  other input chunk in hand at the flattened input, earlier result chunks at the spread, later ones at anything. Stage
  15 does the same without fetching, and the body ends by waiting for its four result chunks.

  Each copy has its own semaphore per bank and direction, and a bank is read or written only between the wait of the
  copy that last used it and the issue of the next one, so every wait hands back exactly what its copy was given, the
  destination at what the source held. The pieces are counted with the four index sets of the bookkeeping module: at
  the start all 64 input chunks are in hand and all 64 result chunks are to do; at the end all 64 input chunks are in
  hand again, unchanged, and all 64 result chunks hold the spread of the flattened input. The scratch buffers and the
  semaphores go back as they came: each buffer whole at some contents, each semaphore at zero, and every wait the body
  recorded is an unnamed one.
-/
import proofs.«217887_g14147622273102_retrytranche1_597_18_alg».proof.Proof.KBZero
import proofs.«217887_g14147622273102_retrytranche1_597_18_alg».proof.Proof.KBScat0
import proofs.«217887_g14147622273102_retrytranche1_597_18_alg».proof.Proof.KBScat1
import proofs.«217887_g14147622273102_retrytranche1_597_18_alg».proof.Proof.KBScat2
import proofs.«217887_g14147622273102_retrytranche1_597_18_alg».proof.Proof.KBScat3
import proofs.«217887_g14147622273102_retrytranche1_597_18_alg».proof.Proof.KBPerm
import proofs.«217887_g14147622273102_retrytranche1_597_18_alg».proof.Proof.KBInv
import proofs.«217887_g14147622273102_retrytranche1_597_18_alg».proof.Proof.KBMain
set_option maxHeartbeats 4000000

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pieces
variable {F : FTy → Type} [FloatOps F]
variable (m : (ℓ : Loc nD τ sig) → Buf (Elt F) ℓ)
local notation "𝕄" => MT nD τ sig (HIx 1) (Elt F) ℕ UU ℕ

/-! ## The pieces at the two ends -/

omit [FloatOps F] in
/-- All 64 pieces: the first eight, and the rest of the hand of stage 0. -/
theorem range_first8 {Φ : ℕ → sProp 𝕄} :
    bigSep (Finset.range 64) Φ = iprop(Φ 0 ∗ Φ 1 ∗ Φ 2 ∗ Φ 3 ∗ Φ 4 ∗ Φ 5 ∗ Φ 6 ∗ Φ 7 ∗ bigSep (inRest 0) Φ) := by
  rw [range_start, inHand_take 0 (by omega)]
omit [FloatOps F] in
/-- All 64 pieces: the first four, and the pieces from the fourth on. -/
theorem range_first4 {Φ : ℕ → sProp 𝕄} :
    bigSep (Finset.range 64) Φ = iprop(Φ 0 ∗ Φ 1 ∗ Φ 2 ∗ Φ 3 ∗ bigSep (todo 1) Φ) := by
  rw [← todo_0, todo_take 0 (by omega)]

omit [FloatOps F] in
/-- A wait's record added to a set of waits that only holds the launch's waits and unnamed ones keeps it so. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact Or.inr rfl
  · exact h p hp

theorem trips_t2 : Scf.trips k0_t2_loop.lb k0_t2_loop.ub k0_t2_loop.st = 8 := by decide
theorem trips_t3 : Scf.trips k0_t3_loop.lb k0_t3_loop.ub k0_t3_loop.st = 8 := by decide
theorem trips_t4 : Scf.trips k0_t4_loop.lb k0_t4_loop.ub k0_t4_loop.st = 8 := by decide
theorem trips_t5 : Scf.trips k0_t5_loop.lb k0_t5_loop.ub k0_t5_loop.st = 8 := by decide
theorem trips_t11 : Scf.trips k0_t11_loop.lb k0_t11_loop.ub k0_t11_loop.st = 8 := by decide
theorem trips_t12 : Scf.trips k0_t12_loop.lb k0_t12_loop.ub k0_t12_loop.st = 8 := by decide
theorem trips_t13 : Scf.trips k0_t13_loop.lb k0_t13_loop.ub k0_t13_loop.st = 8 := by decide
theorem trips_t14 : Scf.trips k0_t14_loop.lb k0_t14_loop.ub k0_t14_loop.st = 8 := by decide

variable (d : Dev nD) (L : grid0.Coords)

/-! ## Chunk pieces in the spelling of the copies that move them -/

/-- An eight-row slice of the flattened input at a given offset. -/
abbrev xAt (off : Fin 2 → Nat) (inb : ∀ a, off a + S8x256.size a ≤ S16384x256.size a) : Memref sig .scVector .hbm S8x256 .f32 :=
  xW.slice (Rect.unit (s := S16384x256) off S8x256.size inb) (fun _ => rfl)

/-- Input chunk `n`, in hand, is the slice at the chunk's first row, at the flattened input. -/
theorem xp_at {off : Fin 2 → Nat} (inb : ∀ a, off a + S8x256.size a ≤ S16384x256.size a) (n : ℕ) (h : n < 64)
    (e : off = ![512 * (wL L).val + 8 * n, 0]) :
    XP m d L n = ((xAt off inb).view.loc (thr d L) ↦[(xAt off inb).view.set]{fullShare} X2 m d : sProp 𝕄) := by
  rw [XP_eq m d L n h]
  show _ = ((xLoc d) ↦[(xW.view.slice (Rect.unit (s := S16384x256) off S8x256.size inb)).set]{fullShare} X2 m d : sProp 𝕄)
  rw [xRect_of_off (wL L) ⟨n, h⟩ inb e]
/-- Result chunk `n` at anything is the slice at the chunk's first row, at anything. -/
theorem oe_at {off : Fin 2 → Nat} (inb : ∀ a, off a + S8x2048.size a ≤ S16384x2048.size a) (n : ℕ) (h : n < 64)
    (e : off = ![512 * (wL L).val + 8 * n, 0]) :
    OE (F := F) d L n = iprop(∃ f, ((oAt off inb).view.loc (thr d L) ↦[(oAt off inb).view.set]{fullShare} f : sProp 𝕄)) := by
  rw [OE_eq d L n h]
  show _ = iprop(∃ f, ((oLoc d) ↦[(oW.view.slice (Rect.unit (s := S16384x2048) off S8x2048.size inb)).set]{fullShare} f : sProp 𝕄))
  rw [oRect_of_off (wL L) ⟨n, h⟩ inb e]
/-- The slice at result chunk `n`'s first row, after the spread of input chunk `n` is written over it, is the chunk at the spread. -/
theorem og_at {off : Fin 2 → Nat} (inb : ∀ a, off a + S8x2048.size a ≤ S16384x2048.size a) (n : ℕ) (h : n < 64)
    (e : off = ![512 * (wL L).val + 8 * n, 0]) (fo : Buf (Elt F) (oLoc d)) (pay : S8x2048.Idx → Elt F .f32)
    (hpay : pay = spreadB (CX m d L n)) :
    (((oAt off inb).view.loc (thr d L) ↦[(oAt off inb).view.set]{fullShare}
        (oAt off inb).view.writes (Elt F) fo [⟨Rect.whole S8x2048, pay⟩] : sProp 𝕄)) = OG m d L n := by
  rw [OG_eq m d L n h]
  exact out_pts_of_off m d L (wL L) ⟨n, h⟩ inb e fo pay (by rw [hpay, CX_eq m d L n h])
/-- What the slice at input chunk `n`'s first row reads off the flattened input is the chunk's block. -/
theorem cx_at {off : Fin 2 → Nat} (inb : ∀ a, off a + S8x256.size a ≤ S16384x256.size a) (n : ℕ) (h : n < 64)
    (e : off = ![512 * (wL L).val + 8 * n, 0]) :
    ReadAs.same.apply ((xAt off inb).view.read (Elt F) (X2 m d)) = CX m d L n := by
  rw [CX_eq m d L n h]; exact read_of_off m d (wL L) ⟨n, h⟩ inb e

/-- What lands in input bank 0 is the chunk's block. -/
theorem landed0 (n : ℕ) (bprev : Buf (Elt F) (sX0.view.loc (thr d L))) (pay : S8x256.Idx → Elt F .f32) (hpay : pay = CX m d L n) :
    (sX0.view.loc (thr d L) ↦{fullShare} sX0.view.write (Elt F) bprev pay Finset.univ : sProp 𝕄)
      = (sX0.view.loc (thr d L) ↦{fullShare} CX m d L n) := by
  subst hpay; rw [View.write_whole_univ cc0_scratch0 bprev _]
/-- A copy of input chunk `n` into bank 0, as issued, is the chunk in flight into the bank. -/
theorem flin0 (q : DmaSem sig) (n : ℕ) (h : n < 64) (bprev : Buf (Elt F) (sX0.view.loc (thr d L)))
    (pay : S8x256.Idx → Elt F .f32) (hpay : pay = CX m d L n) (P : sProp 𝕄) (hP : P = XP m d L n) :
    (Transfers.Flight countersEmb (thr d L) (SemLoc.dma q) default 65536
        iprop((sX0.view.loc (thr d L) ↦{fullShare} sX0.view.write (Elt F) bprev pay Finset.univ) ∗ P) : sProp 𝕄)
      ⊢ FlIn m d L q 0 n :=
  flIn_of0 m d L q n h P (hP.trans (XP_eq m d L n h)) bprev pay (hpay.trans (CX_eq m d L n h))
/-- A copy of the spread of input chunk `n` out of bank 0, as issued, is result chunk `n` in flight out of the bank. -/
theorem flout0 (q : DmaSem sig) (n : ℕ) (h : n < 64) (P : sProp 𝕄) (hP : P = OG m d L n) :
    (Transfers.Flight countersEmb (thr d L) (SemLoc.dma q) default 524288
        iprop(P ∗ (sO0.view.loc (thr d L) ↦[sO0.view.set]{fullShare} spreadB (CX m d L n))) : sProp 𝕄)
      ⊢ FlOut m d L q 0 n :=
  flOut_of0 m d L q n h (CX m d L n) rfl P (hP.trans (OG_eq m d L n h))
theorem pay_sO0 (H : Buf (Elt F) (sO0.view.loc (thr d L))) : ReadAs.same.apply (sO0.view.read (Elt F) H) = H := rfl

/-- What lands in input bank 1 is the chunk's block. -/
theorem landed1 (n : ℕ) (bprev : Buf (Elt F) (sX1.view.loc (thr d L))) (pay : S8x256.Idx → Elt F .f32) (hpay : pay = CX m d L n) :
    (sX1.view.loc (thr d L) ↦{fullShare} sX1.view.write (Elt F) bprev pay Finset.univ : sProp 𝕄)
      = (sX1.view.loc (thr d L) ↦{fullShare} CX m d L n) := by
  subst hpay; rw [View.write_whole_univ cc0_scratch1 bprev _]
/-- A copy of input chunk `n` into bank 1, as issued, is the chunk in flight into the bank. -/
theorem flin1 (q : DmaSem sig) (n : ℕ) (h : n < 64) (bprev : Buf (Elt F) (sX1.view.loc (thr d L)))
    (pay : S8x256.Idx → Elt F .f32) (hpay : pay = CX m d L n) (P : sProp 𝕄) (hP : P = XP m d L n) :
    (Transfers.Flight countersEmb (thr d L) (SemLoc.dma q) default 65536
        iprop((sX1.view.loc (thr d L) ↦{fullShare} sX1.view.write (Elt F) bprev pay Finset.univ) ∗ P) : sProp 𝕄)
      ⊢ FlIn m d L q 1 n :=
  flIn_of1 m d L q n h P (hP.trans (XP_eq m d L n h)) bprev pay (hpay.trans (CX_eq m d L n h))
/-- A copy of the spread of input chunk `n` out of bank 1, as issued, is result chunk `n` in flight out of the bank. -/
theorem flout1 (q : DmaSem sig) (n : ℕ) (h : n < 64) (P : sProp 𝕄) (hP : P = OG m d L n) :
    (Transfers.Flight countersEmb (thr d L) (SemLoc.dma q) default 524288
        iprop(P ∗ (sO1.view.loc (thr d L) ↦[sO1.view.set]{fullShare} spreadB (CX m d L n))) : sProp 𝕄)
      ⊢ FlOut m d L q 1 n :=
  flOut_of1 m d L q n h (CX m d L n) rfl P (hP.trans (OG_eq m d L n h))
theorem pay_sO1 (H : Buf (Elt F) (sO1.view.loc (thr d L))) : ReadAs.same.apply (sO1.view.read (Elt F) H) = H := rfl

/-- What lands in input bank 2 is the chunk's block. -/
theorem landed2 (n : ℕ) (bprev : Buf (Elt F) (sX2.view.loc (thr d L))) (pay : S8x256.Idx → Elt F .f32) (hpay : pay = CX m d L n) :
    (sX2.view.loc (thr d L) ↦{fullShare} sX2.view.write (Elt F) bprev pay Finset.univ : sProp 𝕄)
      = (sX2.view.loc (thr d L) ↦{fullShare} CX m d L n) := by
  subst hpay; rw [View.write_whole_univ cc0_scratch2 bprev _]
/-- A copy of input chunk `n` into bank 2, as issued, is the chunk in flight into the bank. -/
theorem flin2 (q : DmaSem sig) (n : ℕ) (h : n < 64) (bprev : Buf (Elt F) (sX2.view.loc (thr d L)))
    (pay : S8x256.Idx → Elt F .f32) (hpay : pay = CX m d L n) (P : sProp 𝕄) (hP : P = XP m d L n) :
    (Transfers.Flight countersEmb (thr d L) (SemLoc.dma q) default 65536
        iprop((sX2.view.loc (thr d L) ↦{fullShare} sX2.view.write (Elt F) bprev pay Finset.univ) ∗ P) : sProp 𝕄)
      ⊢ FlIn m d L q 2 n :=
  flIn_of2 m d L q n h P (hP.trans (XP_eq m d L n h)) bprev pay (hpay.trans (CX_eq m d L n h))
/-- A copy of the spread of input chunk `n` out of bank 2, as issued, is result chunk `n` in flight out of the bank. -/
theorem flout2 (q : DmaSem sig) (n : ℕ) (h : n < 64) (P : sProp 𝕄) (hP : P = OG m d L n) :
    (Transfers.Flight countersEmb (thr d L) (SemLoc.dma q) default 524288
        iprop(P ∗ (sO2.view.loc (thr d L) ↦[sO2.view.set]{fullShare} spreadB (CX m d L n))) : sProp 𝕄)
      ⊢ FlOut m d L q 2 n :=
  flOut_of2 m d L q n h (CX m d L n) rfl P (hP.trans (OG_eq m d L n h))
theorem pay_sO2 (H : Buf (Elt F) (sO2.view.loc (thr d L))) : ReadAs.same.apply (sO2.view.read (Elt F) H) = H := rfl

/-- What lands in input bank 3 is the chunk's block. -/
theorem landed3 (n : ℕ) (bprev : Buf (Elt F) (sX3.view.loc (thr d L))) (pay : S8x256.Idx → Elt F .f32) (hpay : pay = CX m d L n) :
    (sX3.view.loc (thr d L) ↦{fullShare} sX3.view.write (Elt F) bprev pay Finset.univ : sProp 𝕄)
      = (sX3.view.loc (thr d L) ↦{fullShare} CX m d L n) := by
  subst hpay; rw [View.write_whole_univ cc0_scratch3 bprev _]
/-- A copy of input chunk `n` into bank 3, as issued, is the chunk in flight into the bank. -/
theorem flin3 (q : DmaSem sig) (n : ℕ) (h : n < 64) (bprev : Buf (Elt F) (sX3.view.loc (thr d L)))
    (pay : S8x256.Idx → Elt F .f32) (hpay : pay = CX m d L n) (P : sProp 𝕄) (hP : P = XP m d L n) :
    (Transfers.Flight countersEmb (thr d L) (SemLoc.dma q) default 65536
        iprop((sX3.view.loc (thr d L) ↦{fullShare} sX3.view.write (Elt F) bprev pay Finset.univ) ∗ P) : sProp 𝕄)
      ⊢ FlIn m d L q 3 n :=
  flIn_of3 m d L q n h P (hP.trans (XP_eq m d L n h)) bprev pay (hpay.trans (CX_eq m d L n h))
/-- A copy of the spread of input chunk `n` out of bank 3, as issued, is result chunk `n` in flight out of the bank. -/
theorem flout3 (q : DmaSem sig) (n : ℕ) (h : n < 64) (P : sProp 𝕄) (hP : P = OG m d L n) :
    (Transfers.Flight countersEmb (thr d L) (SemLoc.dma q) default 524288
        iprop(P ∗ (sO3.view.loc (thr d L) ↦[sO3.view.set]{fullShare} spreadB (CX m d L n))) : sProp 𝕄)
      ⊢ FlOut m d L q 3 n :=
  flOut_of3 m d L q n h (CX m d L n) rfl P (hP.trans (OG_eq m d L n h))
theorem pay_sO3 (H : Buf (Elt F) (sO3.view.loc (thr d L))) : ReadAs.same.apply (sO3.view.read (Elt F) H) = H := rfl

/-! ## The main loop's invariant at its two ends -/

/-- Before the first trip. -/
theorem minv_zero (O : CellTallies nD τ sig (HIx 1)) (W : Waits sig (HIx 1)) (a : BitVec 32) :
    minv m d L O W 0 a = iprop(Transfers.MayWaits (thr d L) none O
      ∗ bigSep (inHand 1) (XP m d L) ∗ bigSep (Pieces.done 1) (OG m d L) ∗ bigSep (todo 1) (OE (F := F) d L)
      ∗ FlIn m d L q0 0 4 ∗ FlIn m d L q1 1 5 ∗ FlIn m d L q2 2 6 ∗ FlIn m d L q3 3 7
      ∗ FlOut m d L q4 0 0 ∗ FlOut m d L q5 1 1 ∗ FlOut m d L q6 2 2 ∗ FlOut m d L q7 3 3
      ∗ ∃ W', ⌜∀ p ∈ W', p ∈ W ∨ p.2 = none⌝ ∗ owes (thr d L) O W') := rfl

/-- After the last trip, each chunk in flight spelt as the wait that ends it names it. -/
theorem minv_last (O : CellTallies nD τ sig (HIx 1)) (W : Waits sig (HIx 1)) (a : BitVec 32) :
    minv m d L O W (Scf.trips k0_t6_loop.lb k0_t6_loop.ub k0_t6_loop.st) a = iprop(Transfers.MayWaits (thr d L) none O
      ∗ bigSep (inHand 15) (XP m d L) ∗ bigSep (Pieces.done 15) (OG m d L) ∗ bigSep (todo 15) (OE (F := F) d L)
      ∗ Transfers.Flight countersEmb (thr d L) (SemLoc.dma q0) default 65536
      iprop((sX0.view.loc (thr d L) ↦{fullShare} CX m d L 60)
        ∗ ((xAt (k0_off1 L 480#32) (k0_off1_inb L 8)).view.loc (thr d L) ↦[(xAt (k0_off1 L 480#32) (k0_off1_inb L 8)).view.set]{fullShare} X2 m d))
      ∗ Transfers.Flight countersEmb (thr d L) (SemLoc.dma q1) default 65536
      iprop((sX1.view.loc (thr d L) ↦{fullShare} CX m d L 61)
        ∗ ((xAt (k0_off1 L 488#32) (k0_off1_inb L 9)).view.loc (thr d L) ↦[(xAt (k0_off1 L 488#32) (k0_off1_inb L 9)).view.set]{fullShare} X2 m d))
      ∗ Transfers.Flight countersEmb (thr d L) (SemLoc.dma q2) default 65536
      iprop((sX2.view.loc (thr d L) ↦{fullShare} CX m d L 62)
        ∗ ((xAt (k0_off1 L 496#32) (k0_off1_inb L 10)).view.loc (thr d L) ↦[(xAt (k0_off1 L 496#32) (k0_off1_inb L 10)).view.set]{fullShare} X2 m d))
      ∗ Transfers.Flight countersEmb (thr d L) (SemLoc.dma q3) default 65536
      iprop((sX3.view.loc (thr d L) ↦{fullShare} CX m d L 63)
        ∗ ((xAt (k0_off1 L 504#32) (k0_off1_inb L 11)).view.loc (thr d L) ↦[(xAt (k0_off1 L 504#32) (k0_off1_inb L 11)).view.set]{fullShare} X2 m d))
      ∗ Transfers.Flight countersEmb (thr d L) (SemLoc.dma q4) default 524288
      iprop(OG m d L 56 ∗ (sO0.view.loc (thr d L) ↦{fullShare} spreadB (CX m d L 56)))
      ∗ Transfers.Flight countersEmb (thr d L) (SemLoc.dma q5) default 524288
      iprop(OG m d L 57 ∗ (sO1.view.loc (thr d L) ↦{fullShare} spreadB (CX m d L 57)))
      ∗ Transfers.Flight countersEmb (thr d L) (SemLoc.dma q6) default 524288
      iprop(OG m d L 58 ∗ (sO2.view.loc (thr d L) ↦{fullShare} spreadB (CX m d L 58)))
      ∗ Transfers.Flight countersEmb (thr d L) (SemLoc.dma q7) default 524288
      iprop(OG m d L 59 ∗ (sO3.view.loc (thr d L) ↦{fullShare} spreadB (CX m d L 59)))
      ∗ ∃ W', ⌜∀ p ∈ W', p ∈ W ∨ p.2 = none⌝ ∗ owes (thr d L) O W') := by
  rw [show Scf.trips k0_t6_loop.lb k0_t6_loop.ub k0_t6_loop.st = 14 from by decide,
    ← xp_at m d L (off := k0_off1 L 480#32) (k0_off1_inb L 8) 60 (by omega) (off1_row L 8 ⟨60, by omega⟩ (by decide)), ← xp_at m d L (off := k0_off1 L 488#32) (k0_off1_inb L 9) 61 (by omega) (off1_row L 9 ⟨61, by omega⟩ (by decide)),
    ← xp_at m d L (off := k0_off1 L 496#32) (k0_off1_inb L 10) 62 (by omega) (off1_row L 10 ⟨62, by omega⟩ (by decide)), ← xp_at m d L (off := k0_off1 L 504#32) (k0_off1_inb L 11) 63 (by omega) (off1_row L 11 ⟨63, by omega⟩ (by decide))]
  rfl

omit [FloatOps F] in
theorem todo15 {Φ : ℕ → sProp 𝕄} : bigSep (todo 15) Φ = iprop(Φ 60 ∗ Φ 61 ∗ Φ 62 ∗ Φ 63 ∗ bigSep (todo 16) Φ) := todo_take 15 (by omega)
omit [FloatOps F] in
theorem done15 {Φ : ℕ → sProp 𝕄} : iprop(Φ 56 ∗ Φ 57 ∗ Φ 58 ∗ Φ 59 ∗ bigSep (Pieces.done 15) Φ) = bigSep (Pieces.done 16) Φ :=
  done_give 15 (by omega) (by omega)
omit [FloatOps F] in
theorem done16 {Φ : ℕ → sProp 𝕄} : iprop(Φ 60 ∗ Φ 61 ∗ Φ 62 ∗ Φ 63 ∗ bigSep (Pieces.done 16) Φ) = bigSep (Finset.range 64) Φ :=
  (done_give 16 (by omega) (by omega)).trans (by rw [done_17])
omit [FloatOps F] in
theorem hand0 {Φ : ℕ → sProp 𝕄} : iprop(Φ 0 ∗ Φ 1 ∗ Φ 2 ∗ Φ 3 ∗ bigSep (inRest 0) Φ) = bigSep (inHand 1) Φ := inHand_give 0 (by omega)
omit [FloatOps F] in
theorem done1 {Φ : ℕ → sProp 𝕄} : (iprop(emp) : sProp 𝕄) = bigSep (Pieces.done 1) Φ := by rw [done_1, bigSep_empty]; rfl

omit [FloatOps F] in
/-- An output bank held on its own element set is the bank held whole. -/
theorem whole_back0 (f : Buf (Elt F) (sO0.view.loc (thr d L))) :
    (sO0.view.loc (thr d L) ↦[sO0.view.set]{fullShare} f : sProp 𝕄) ⊢ iprop(∃ g, (thr d L).loc cc0_scratch4 ↦{fullShare} g) := by
  rw [show sO0.view.set = Finset.univ from View.set_whole cc0_scratch4]
  iintro H; iexists f; iexact H
omit [FloatOps F] in
/-- An output bank held on its own element set is the bank held whole. -/
theorem whole_back1 (f : Buf (Elt F) (sO1.view.loc (thr d L))) :
    (sO1.view.loc (thr d L) ↦[sO1.view.set]{fullShare} f : sProp 𝕄) ⊢ iprop(∃ g, (thr d L).loc cc0_scratch5 ↦{fullShare} g) := by
  rw [show sO1.view.set = Finset.univ from View.set_whole cc0_scratch5]
  iintro H; iexists f; iexact H
omit [FloatOps F] in
/-- An output bank held on its own element set is the bank held whole. -/
theorem whole_back2 (f : Buf (Elt F) (sO2.view.loc (thr d L))) :
    (sO2.view.loc (thr d L) ↦[sO2.view.set]{fullShare} f : sProp 𝕄) ⊢ iprop(∃ g, (thr d L).loc cc0_scratch6 ↦{fullShare} g) := by
  rw [show sO2.view.set = Finset.univ from View.set_whole cc0_scratch6]
  iintro H; iexists f; iexact H
omit [FloatOps F] in
/-- An output bank held on its own element set is the bank held whole. -/
theorem whole_back3 (f : Buf (Elt F) (sO3.view.loc (thr d L))) :
    (sO3.view.loc (thr d L) ↦[sO3.view.set]{fullShare} f : sProp 𝕄) ⊢ iprop(∃ g, (thr d L).loc cc0_scratch7 ↦{fullShare} g) := by
  rw [show sO3.view.set = Finset.univ from View.set_whole cc0_scratch7]
  iintro H; iexists f; iexact H

theorem tile_body_thr (O : CellTallies nD τ sig (HIx 1)) (W : Waits sig (HIx 1)) (hO : ∀ g, O g none = 0) :
    (iprop(levAts (K (F := F)).L (K (F := F)).lev ∗ emp ∗ goRes m d (wL L)
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) oW (Memref.isWhole_whole _) sX0 (Memref.isWhole_whole _) sX1 (Memref.isWhole_whole _) sX2 (Memref.isWhole_whole _) sX3 (Memref.isWhole_whole _) sO0 (Memref.isWhole_whole _) sO1 (Memref.isWhole_whole _) sO2 (Memref.isWhole_whole _) sO3 (Memref.isWhole_whole _) cc0_scratch8 cc0_scratch9 cc0_scratch10 cc0_scratch11 cc0_scratch12 cc0_scratch13 cc0_scratch14 cc0_scratch15)
          fun _ => iprop(tdRes m d (wL L) ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V facts d (cV L) (jV L), SparseCore.Cfg.scopedSems0_V (Val := Elt F) d (cV L) (jV L), ownSems0_V8, ownBufs_V8,
    goRes_split m d L, range_first8 (Φ := XP m d L), range_first4 (Φ := OE (F := F) d L)]
  iintro ⟨#Hlv, -, ⟨⟨Hx0, Hx1, Hx2, Hx3, Hx4, Hx5, Hx6, Hx7, Hxr⟩, Ho0, Ho1, Ho2, Ho3, Hor⟩,
    ⟨⟨⟨%b0, HB0⟩, ⟨%b1, HB1⟩, ⟨%b2, HB2⟩, ⟨%b3, HB3⟩, ⟨%b4, HB4⟩, ⟨%b5, HB5⟩, ⟨%b6, HB6⟩, ⟨%b7, HB7⟩⟩, Hbufs⟩,
    ⟨⟨Hq0, Hq1, Hq2, Hq3, Hq4, Hq5, Hq6, Hq7⟩, Hsems⟩, HO⟩
  ihave Hmw := ((K (F := F)).mayWaits_none (thr := thr d L) hO) $$ Hlv
  ihave Hx0 := (Entails.of_eq (xp_at m d L (off := k0_off1 L 0#32) (k0_off1_inb L 0) 0 (by omega) (off1_row L 0 ⟨0, by omega⟩ (by decide)))) $$ Hx0
  ihave Hx1 := (Entails.of_eq (xp_at m d L (off := k0_off1 L 8#32) (k0_off1_inb L 1) 1 (by omega) (off1_row L 1 ⟨1, by omega⟩ (by decide)))) $$ Hx1
  ihave Hx2 := (Entails.of_eq (xp_at m d L (off := k0_off1 L 16#32) (k0_off1_inb L 2) 2 (by omega) (off1_row L 2 ⟨2, by omega⟩ (by decide)))) $$ Hx2
  ihave Hx3 := (Entails.of_eq (xp_at m d L (off := k0_off1 L 24#32) (k0_off1_inb L 3) 3 (by omega) (off1_row L 3 ⟨3, by omega⟩ (by decide)))) $$ Hx3
  ihave HB0 := (Entails.of_eq (show ((thr d L).loc cc0_scratch0 ↦{fullShare} b0 : sProp 𝕄) = (sX0.view.loc (thr d L) ↦{fullShare} b0) from rfl)) $$ HB0
  ihave HB1 := (Entails.of_eq (show ((thr d L).loc cc0_scratch1 ↦{fullShare} b1 : sProp 𝕄) = (sX1.view.loc (thr d L) ↦{fullShare} b1) from rfl)) $$ HB1
  ihave HB2 := (Entails.of_eq (show ((thr d L).loc cc0_scratch2 ↦{fullShare} b2 : sProp 𝕄) = (sX2.view.loc (thr d L) ↦{fullShare} b2) from rfl)) $$ HB2
  ihave HB3 := (Entails.of_eq (show ((thr d L).loc cc0_scratch3 ↦{fullShare} b3 : sProp 𝕄) = (sX3.view.loc (thr d L) ↦{fullShare} b3) from rfl)) $$ HB3
  ihave HB4 := (Entails.of_eq (show ((thr d L).loc cc0_scratch4 ↦{fullShare} b4 : sProp 𝕄) = (sO0.view.loc (thr d L) ↦{fullShare} b4) from rfl)) $$ HB4
  ihave HB5 := (Entails.of_eq (show ((thr d L).loc cc0_scratch5 ↦{fullShare} b5 : sProp 𝕄) = (sO1.view.loc (thr d L) ↦{fullShare} b5) from rfl)) $$ HB5
  ihave HB6 := (Entails.of_eq (show ((thr d L).loc cc0_scratch6 ↦{fullShare} b6 : sProp 𝕄) = (sO2.view.loc (thr d L) ↦{fullShare} b6) from rfl)) $$ HB6
  ihave HB7 := (Entails.of_eq (show ((thr d L).loc cc0_scratch7 ↦{fullShare} b7 : sProp 𝕄) = (sO3.view.loc (thr d L) ↦{fullShare} b7) from rfl)) $$ HB7
  sl_exec
  sl_for (zinv d L b4 b5 b6 b7) $$ [HB4 HB5 HB6 HB7]
  case region => exact fun k acc => zero_trip d L b4 b5 b6 b7 k acc
  · rw [zinv_init]; isplitl [HB4]; · iexact HB4
    isplitl [HB5]; · iexact HB5
    isplitl [HB6]; · iexact HB6
    iexact HB7
  iintro %acc HI
  ihave HI' := (Entails.of_eq (zinv_done d L b4 b5 b6 b7 acc)) $$ HI
  icases HI' with ⟨HB4, HB5, HB6, HB7⟩
  sl_exec
  -- bank 0: chunk 0 has landed
  ihave HB0 := (Entails.of_eq (landed0 m d L 0 _ _ (by exact cx_at m d L (off := k0_off1 L 0#32) (k0_off1_inb L 0) 0 (by omega) (off1_row L 0 ⟨0, by omega⟩ (by decide))))) $$ HB0
  ihave Hx0 := (Entails.of_eq (xp_at m d L (off := k0_off1 L 0#32) (k0_off1_inb L 0) 0 (by omega) (off1_row L 0 ⟨0, by omega⟩ (by decide))).symm) $$ Hx0
  -- bank 0: the block in the input bank is spread over the output bank
  sl_for (sinv0 d L (CX m d L 0) (fun _ => zF (F := F))) $$ [HB0 HB4]
  case region => exact fun k acc => trip0 d L (tile_body_thr.sl.v2 L) 0#32 8#32 (CX m d L 0) (fun _ => zF (F := F)) k acc
  · unfold sinv0
    isplitl [HB0]; · iexact HB0
    iexists _; isplitl [HB4]; · iexact HB4
    ipureintro; exact rowsDone0_zero _ _
  iintro %acc2 HI
  unfold sinv0
  icases HI with ⟨HB0, %H2', HB4, %hH2'⟩
  rw [trips_t2] at hH2'
  have eH2 : H2' = spreadB (CX m d L 0) := rowsDone0_full _ _ H2' hH2' (fun _ _ _ => rfl)
  subst eH2
  ihave Ho0 := (Entails.of_eq (oe_at d L (off := k0_off19 L 0#32) (k0_off19_inb L 0) 0 (by omega) (off19_row L 0 ⟨0, by omega⟩ (by decide)))) $$ Ho0
  icases Ho0 with ⟨%fo0, Ho0⟩
  ihave Hx4 := (Entails.of_eq (xp_at m d L (off := k0_off1 L 32#32) (k0_off1_inb L 4) 4 (by omega) (off1_row L 4 ⟨4, by omega⟩ (by decide)))) $$ Hx4
  sl_exec
  iclear HB4
  ihave HB1 := (Entails.of_eq (landed1 m d L 1 _ _ (by exact cx_at m d L (off := k0_off1 L 8#32) (k0_off1_inb L 1) 1 (by omega) (off1_row L 1 ⟨1, by omega⟩ (by decide))))) $$ HB1
  ihave Hx1 := (Entails.of_eq (xp_at m d L (off := k0_off1 L 8#32) (k0_off1_inb L 1) 1 (by omega) (off1_row L 1 ⟨1, by omega⟩ (by decide))).symm) $$ Hx1
  -- bank 1: the block in the input bank is spread over the output bank
  sl_for (sinv1 d L (CX m d L 1) (fun _ => zF (F := F))) $$ [HB1 HB5]
  case region => exact fun k acc => trip1 d L (tile_body_thr.sl.v2 L) 0#32 8#32 (CX m d L 1) (fun _ => zF (F := F)) k acc
  · unfold sinv1
    isplitl [HB1]; · iexact HB1
    iexists _; isplitl [HB5]; · iexact HB5
    ipureintro; exact rowsDone1_zero _ _
  iintro %acc3 HI
  unfold sinv1
  icases HI with ⟨HB1, %H3', HB5, %hH3'⟩
  rw [trips_t3] at hH3'
  have eH3 : H3' = spreadB (CX m d L 1) := rowsDone1_full _ _ H3' hH3' (fun _ _ _ => rfl)
  subst eH3
  ihave Ho1 := (Entails.of_eq (oe_at d L (off := k0_off19 L 8#32) (k0_off19_inb L 1) 1 (by omega) (off19_row L 1 ⟨1, by omega⟩ (by decide)))) $$ Ho1
  icases Ho1 with ⟨%fo1, Ho1⟩
  ihave Hx5 := (Entails.of_eq (xp_at m d L (off := k0_off1 L 40#32) (k0_off1_inb L 5) 5 (by omega) (off1_row L 5 ⟨5, by omega⟩ (by decide)))) $$ Hx5
  sl_exec
  iclear HB5
  ihave HB2 := (Entails.of_eq (landed2 m d L 2 _ _ (by exact cx_at m d L (off := k0_off1 L 16#32) (k0_off1_inb L 2) 2 (by omega) (off1_row L 2 ⟨2, by omega⟩ (by decide))))) $$ HB2
  ihave Hx2 := (Entails.of_eq (xp_at m d L (off := k0_off1 L 16#32) (k0_off1_inb L 2) 2 (by omega) (off1_row L 2 ⟨2, by omega⟩ (by decide))).symm) $$ Hx2
  -- bank 2: the block in the input bank is spread over the output bank
  sl_for (sinv2 d L (CX m d L 2) (fun _ => zF (F := F))) $$ [HB2 HB6]
  case region => exact fun k acc => trip2 d L (tile_body_thr.sl.v2 L) 0#32 8#32 (CX m d L 2) (fun _ => zF (F := F)) k acc
  · unfold sinv2
    isplitl [HB2]; · iexact HB2
    iexists _; isplitl [HB6]; · iexact HB6
    ipureintro; exact rowsDone2_zero _ _
  iintro %acc4 HI
  unfold sinv2
  icases HI with ⟨HB2, %H4', HB6, %hH4'⟩
  rw [trips_t4] at hH4'
  have eH4 : H4' = spreadB (CX m d L 2) := rowsDone2_full _ _ H4' hH4' (fun _ _ _ => rfl)
  subst eH4
  ihave Ho2 := (Entails.of_eq (oe_at d L (off := k0_off19 L 16#32) (k0_off19_inb L 2) 2 (by omega) (off19_row L 2 ⟨2, by omega⟩ (by decide)))) $$ Ho2
  icases Ho2 with ⟨%fo2, Ho2⟩
  ihave Hx6 := (Entails.of_eq (xp_at m d L (off := k0_off1 L 48#32) (k0_off1_inb L 6) 6 (by omega) (off1_row L 6 ⟨6, by omega⟩ (by decide)))) $$ Hx6
  sl_exec
  iclear HB6
  ihave HB3 := (Entails.of_eq (landed3 m d L 3 _ _ (by exact cx_at m d L (off := k0_off1 L 24#32) (k0_off1_inb L 3) 3 (by omega) (off1_row L 3 ⟨3, by omega⟩ (by decide))))) $$ HB3
  ihave Hx3 := (Entails.of_eq (xp_at m d L (off := k0_off1 L 24#32) (k0_off1_inb L 3) 3 (by omega) (off1_row L 3 ⟨3, by omega⟩ (by decide))).symm) $$ Hx3
  -- bank 3: the block in the input bank is spread over the output bank
  sl_for (sinv3 d L (CX m d L 3) (fun _ => zF (F := F))) $$ [HB3 HB7]
  case region => exact fun k acc => trip3 d L (tile_body_thr.sl.v2 L) 0#32 8#32 (CX m d L 3) (fun _ => zF (F := F)) k acc
  · unfold sinv3
    isplitl [HB3]; · iexact HB3
    iexists _; isplitl [HB7]; · iexact HB7
    ipureintro; exact rowsDone3_zero _ _
  iintro %acc5 HI
  unfold sinv3
  icases HI with ⟨HB3, %H5', HB7, %hH5'⟩
  rw [trips_t5] at hH5'
  have eH5 : H5' = spreadB (CX m d L 3) := rowsDone3_full _ _ H5' hH5' (fun _ _ _ => rfl)
  subst eH5
  ihave Ho3 := (Entails.of_eq (oe_at d L (off := k0_off19 L 24#32) (k0_off19_inb L 3) 3 (by omega) (off19_row L 3 ⟨3, by omega⟩ (by decide)))) $$ Ho3
  icases Ho3 with ⟨%fo3, Ho3⟩
  ihave Hx7 := (Entails.of_eq (xp_at m d L (off := k0_off1 L 56#32) (k0_off1_inb L 7) 7 (by omega) (off1_row L 7 ⟨7, by omega⟩ (by decide)))) $$ Hx7
  sl_exec
  iclear HB7
  -- the main loop
  sl_for (minv m d L O W) $$ [Hx0 Hx1 Hx2 Hx3 Hxr Hor Hq0 Hq1 Hq2 Hq3 Hq4 Hq5 Hq6 Hq7 HO]
  case region => exact fun k acc => main_trip m d L O W (tile_body_thr.sl.v2 L) k acc
  · iapply (Entails.of_eq (minv_zero m d L O W _).symm)
    isplitr; · iexact Hmw
    isplitl [Hx0 Hx1 Hx2 Hx3 Hxr]
    · iapply (Entails.of_eq (hand0 (Φ := XP m d L)))
      isplitl [Hx0]; · iexact Hx0
      isplitl [Hx1]; · iexact Hx1
      isplitl [Hx2]; · iexact Hx2
      isplitl [Hx3]; · iexact Hx3
      iexact Hxr
    isplitr
    · iapply (Entails.of_eq (done1 (Φ := OG m d L))); iempintro
    isplitl [Hor]; · iexact Hor
    isplitl [Hq0]
    · iapply (flin0 m d L q0 4 (by omega) _ _ (cx_at m d L (off := k0_off1 L 32#32) (k0_off1_inb L 4) 4 (by omega) (off1_row L 4 ⟨4, by omega⟩ (by decide))) _ (xp_at m d L (off := k0_off1 L 32#32) (k0_off1_inb L 4) 4 (by omega) (off1_row L 4 ⟨4, by omega⟩ (by decide))).symm)
      iexact Hq0
    isplitl [Hq1]
    · iapply (flin1 m d L q1 5 (by omega) _ _ (cx_at m d L (off := k0_off1 L 40#32) (k0_off1_inb L 5) 5 (by omega) (off1_row L 5 ⟨5, by omega⟩ (by decide))) _ (xp_at m d L (off := k0_off1 L 40#32) (k0_off1_inb L 5) 5 (by omega) (off1_row L 5 ⟨5, by omega⟩ (by decide))).symm)
      iexact Hq1
    isplitl [Hq2]
    · iapply (flin2 m d L q2 6 (by omega) _ _ (cx_at m d L (off := k0_off1 L 48#32) (k0_off1_inb L 6) 6 (by omega) (off1_row L 6 ⟨6, by omega⟩ (by decide))) _ (xp_at m d L (off := k0_off1 L 48#32) (k0_off1_inb L 6) 6 (by omega) (off1_row L 6 ⟨6, by omega⟩ (by decide))).symm)
      iexact Hq2
    isplitl [Hq3]
    · iapply (flin3 m d L q3 7 (by omega) _ _ (cx_at m d L (off := k0_off1 L 56#32) (k0_off1_inb L 7) 7 (by omega) (off1_row L 7 ⟨7, by omega⟩ (by decide))) _ (xp_at m d L (off := k0_off1 L 56#32) (k0_off1_inb L 7) 7 (by omega) (off1_row L 7 ⟨7, by omega⟩ (by decide))).symm)
      iexact Hq3
    isplitl [Hq4]
    · iapply (flout0 m d L q4 0 (by omega) _ (og_at m d L (off := k0_off19 L 0#32) (k0_off19_inb L 0) 0 (by omega) (off19_row L 0 ⟨0, by omega⟩ (by decide)) fo0 _ (pay_sO0 d L _)))
      iexact Hq4
    isplitl [Hq5]
    · iapply (flout1 m d L q5 1 (by omega) _ (og_at m d L (off := k0_off19 L 8#32) (k0_off19_inb L 1) 1 (by omega) (off19_row L 1 ⟨1, by omega⟩ (by decide)) fo1 _ (pay_sO1 d L _)))
      iexact Hq5
    isplitl [Hq6]
    · iapply (flout2 m d L q6 2 (by omega) _ (og_at m d L (off := k0_off19 L 16#32) (k0_off19_inb L 2) 2 (by omega) (off19_row L 2 ⟨2, by omega⟩ (by decide)) fo2 _ (pay_sO2 d L _)))
      iexact Hq6
    isplitl [Hq7]
    · iapply (flout3 m d L q7 3 (by omega) _ (og_at m d L (off := k0_off19 L 24#32) (k0_off19_inb L 3) 3 (by omega) (off19_row L 3 ⟨3, by omega⟩ (by decide)) fo3 _ (pay_sO3 d L _)))
      iexact Hq7
    iexists _; isplitr
    swap
    · iexact HO
    · ipureintro
      exact waits_insert (waits_insert (waits_insert (waits_insert (fun p hp => Or.inl hp) _) _) _) _
  iintro %accM HI
  ihave HI := (Entails.of_eq (minv_last m d L O W accM)) $$ HI
  icases HI with ⟨-, Hxh, Hdone, Htodo, HFi0, HFi1, HFi2, HFi3, HFo0, HFo1, HFo2, HFo3, %W', %hW', HO⟩
  ihave Htodo := (Entails.of_eq (todo15 (Φ := OE (F := F) d L))) $$ Htodo
  icases Htodo with ⟨Ho0, Ho1, Ho2, Ho3, -⟩
  sl_exec
  -- bank 0: the block in the input bank is spread over the output bank
  sl_for (sinv0 d L (CX m d L 60) (spreadB (CX m d L 56))) $$ [HFi0_dst HFo0_src]
  case region => exact fun k acc => trip0 d L (tile_body_thr.sl.v2 L) 0#32 8#32 (CX m d L 60) (spreadB (CX m d L 56)) k acc
  · unfold sinv0
    isplitl [HFi0_dst]; · iexact HFi0_dst
    iexists _; isplitl [HFo0_src]; · iexact HFo0_src
    ipureintro; exact rowsDone0_zero _ _
  iintro %acc11 HI
  unfold sinv0
  icases HI with ⟨HB0, %H11', HB4, %hH11'⟩
  rw [trips_t11] at hH11'
  have eH11 : H11' = spreadB (CX m d L 60) := rowsDone0_full _ _ H11' hH11' (fun p q hq => if_neg hq)
  subst eH11
  ihave Ho0 := (Entails.of_eq (oe_at d L (off := k0_off19 L 480#32) (k0_off19_inb L 5) 60 (by omega) (off19_row L 5 ⟨60, by omega⟩ (by decide)))) $$ Ho0
  icases Ho0 with ⟨%fo60, Ho0⟩
  sl_exec
  iclear HB4
  -- bank 1: the block in the input bank is spread over the output bank
  sl_for (sinv1 d L (CX m d L 61) (spreadB (CX m d L 57))) $$ [HFi1_dst HFo1_src]
  case region => exact fun k acc => trip1 d L (tile_body_thr.sl.v2 L) 0#32 8#32 (CX m d L 61) (spreadB (CX m d L 57)) k acc
  · unfold sinv1
    isplitl [HFi1_dst]; · iexact HFi1_dst
    iexists _; isplitl [HFo1_src]; · iexact HFo1_src
    ipureintro; exact rowsDone1_zero _ _
  iintro %acc12 HI
  unfold sinv1
  icases HI with ⟨HB1, %H12', HB5, %hH12'⟩
  rw [trips_t12] at hH12'
  have eH12 : H12' = spreadB (CX m d L 61) := rowsDone1_full _ _ H12' hH12' (fun p q hq => if_neg hq)
  subst eH12
  ihave Ho1 := (Entails.of_eq (oe_at d L (off := k0_off19 L 488#32) (k0_off19_inb L 7) 61 (by omega) (off19_row L 7 ⟨61, by omega⟩ (by decide)))) $$ Ho1
  icases Ho1 with ⟨%fo61, Ho1⟩
  sl_exec
  iclear HB5
  -- bank 2: the block in the input bank is spread over the output bank
  sl_for (sinv2 d L (CX m d L 62) (spreadB (CX m d L 58))) $$ [HFi2_dst HFo2_src]
  case region => exact fun k acc => trip2 d L (tile_body_thr.sl.v2 L) 0#32 8#32 (CX m d L 62) (spreadB (CX m d L 58)) k acc
  · unfold sinv2
    isplitl [HFi2_dst]; · iexact HFi2_dst
    iexists _; isplitl [HFo2_src]; · iexact HFo2_src
    ipureintro; exact rowsDone2_zero _ _
  iintro %acc13 HI
  unfold sinv2
  icases HI with ⟨HB2, %H13', HB6, %hH13'⟩
  rw [trips_t13] at hH13'
  have eH13 : H13' = spreadB (CX m d L 62) := rowsDone2_full _ _ H13' hH13' (fun p q hq => if_neg hq)
  subst eH13
  ihave Ho2 := (Entails.of_eq (oe_at d L (off := k0_off19 L 496#32) (k0_off19_inb L 9) 62 (by omega) (off19_row L 9 ⟨62, by omega⟩ (by decide)))) $$ Ho2
  icases Ho2 with ⟨%fo62, Ho2⟩
  sl_exec
  iclear HB6
  -- bank 3: the block in the input bank is spread over the output bank
  sl_for (sinv3 d L (CX m d L 63) (spreadB (CX m d L 59))) $$ [HFi3_dst HFo3_src]
  case region => exact fun k acc => trip3 d L (tile_body_thr.sl.v2 L) 0#32 8#32 (CX m d L 63) (spreadB (CX m d L 59)) k acc
  · unfold sinv3
    isplitl [HFi3_dst]; · iexact HFi3_dst
    iexists _; isplitl [HFo3_src]; · iexact HFo3_src
    ipureintro; exact rowsDone3_zero _ _
  iintro %acc14 HI
  unfold sinv3
  icases HI with ⟨HB3, %H14', HB7, %hH14'⟩
  rw [trips_t14] at hH14'
  have eH14 : H14' = spreadB (CX m d L 63) := rowsDone3_full _ _ H14' hH14' (fun p q hq => if_neg hq)
  subst eH14
  ihave Ho3 := (Entails.of_eq (oe_at d L (off := k0_off19 L 504#32) (k0_off19_inb L 11) 63 (by omega) (off19_row L 11 ⟨63, by omega⟩ (by decide)))) $$ Ho3
  icases Ho3 with ⟨%fo63, Ho3⟩
  sl_exec
  -- the four last result chunks hold the spread; the four last input chunks are back in hand
  ihave Ho0 := (Entails.of_eq (og_at m d L (off := k0_off19 L 480#32) (k0_off19_inb L 5) 60 (by omega) (off19_row L 5 ⟨60, by omega⟩ (by decide)) _ _ (by exact pay_sO0 (F := F) d L _))) $$ Ho0
  ihave HFi0_src := (Entails.of_eq (xp_at m d L (off := k0_off1 L 480#32) (k0_off1_inb L 8) 60 (by omega) (off1_row L 8 ⟨60, by omega⟩ (by decide))).symm) $$ HFi0_src
  ihave Ho1 := (Entails.of_eq (og_at m d L (off := k0_off19 L 488#32) (k0_off19_inb L 7) 61 (by omega) (off19_row L 7 ⟨61, by omega⟩ (by decide)) _ _ (by exact pay_sO1 (F := F) d L _))) $$ Ho1
  ihave HFi1_src := (Entails.of_eq (xp_at m d L (off := k0_off1 L 488#32) (k0_off1_inb L 9) 61 (by omega) (off1_row L 9 ⟨61, by omega⟩ (by decide))).symm) $$ HFi1_src
  ihave Ho2 := (Entails.of_eq (og_at m d L (off := k0_off19 L 496#32) (k0_off19_inb L 9) 62 (by omega) (off19_row L 9 ⟨62, by omega⟩ (by decide)) _ _ (by exact pay_sO2 (F := F) d L _))) $$ Ho2
  ihave HFi2_src := (Entails.of_eq (xp_at m d L (off := k0_off1 L 496#32) (k0_off1_inb L 10) 62 (by omega) (off1_row L 10 ⟨62, by omega⟩ (by decide))).symm) $$ HFi2_src
  ihave Ho3 := (Entails.of_eq (og_at m d L (off := k0_off19 L 504#32) (k0_off19_inb L 11) 63 (by omega) (off19_row L 11 ⟨63, by omega⟩ (by decide)) _ _ (by exact pay_sO3 (F := F) d L _))) $$ Ho3
  ihave HFi3_src := (Entails.of_eq (xp_at m d L (off := k0_off1 L 504#32) (k0_off1_inb L 11) 63 (by omega) (off1_row L 11 ⟨63, by omega⟩ (by decide))).symm) $$ HFi3_src
  sl_step
  isplitl [Hxh HFi0_src HFi1_src HFi2_src HFi3_src Hdone HFo0_dst HFo1_dst HFo2_dst HFo3_dst Ho0 Ho1 Ho2 Ho3]
  · iapply (Entails.of_eq (tdRes_join m d L))
    isplitl [Hxh HFi0_src HFi1_src HFi2_src HFi3_src]
    · iapply (Entails.of_eq (inHand_last (Φ := XP m d L)))
      isplitl [HFi0_src]; · iexact HFi0_src
      isplitl [HFi1_src]; · iexact HFi1_src
      isplitl [HFi2_src]; · iexact HFi2_src
      isplitl [HFi3_src]; · iexact HFi3_src
      iexact Hxh
    · iapply (Entails.of_eq (done16 (Φ := OG m d L)))
      isplitl [Ho0]; · iexact Ho0
      isplitl [Ho1]; · iexact Ho1
      isplitl [Ho2]; · iexact Ho2
      isplitl [Ho3]; · iexact Ho3
      iapply (Entails.of_eq (done15 (Φ := OG m d L)))
      isplitl [HFo0_dst]; · iexact HFo0_dst
      isplitl [HFo1_dst]; · iexact HFo1_dst
      isplitl [HFo2_dst]; · iexact HFo2_dst
      isplitl [HFo3_dst]; · iexact HFo3_dst
      iexact Hdone
  isplitl [HB0 HB1 HB2 HB3 HB4 HB5 HB6 HB7 Hbufs]
  · isplitr [Hbufs]
    · isplitl [HB0]; · iexists _; iexact HB0
      isplitl [HB1]; · iexists _; iexact HB1
      isplitl [HB2]; · iexists _; iexact HB2
      isplitl [HB3]; · iexists _; iexact HB3
      isplitl [HB4]; · iapply (whole_back0 d L _); iexact HB4
      isplitl [HB5]; · iapply (whole_back1 d L _); iexact HB5
      isplitl [HB6]; · iapply (whole_back2 d L _); iexact HB6
      first | (iexists _; iexact HB7) | (iapply (whole_back3 d L _); iexact HB7)
    · iexact Hbufs
  isplitl [HFi0 HFi1 HFi2 HFi3 HFo0 HFo1 HFo2 HFo3 Hsems]
  · isplitr [Hsems]
    · isplitl [HFi0]; · iexact HFi0
      isplitl [HFi1]; · iexact HFi1
      isplitl [HFi2]; · iexact HFi2
      isplitl [HFi3]; · iexact HFi3
      isplitl [HFo0]; · iexact HFo0
      isplitl [HFo1]; · iexact HFo1
      isplitl [HFo2]; · iexact HFo2
      iexact HFo3
    · iexact Hsems
  iexists _; isplitr
  swap
  · iexact HO
  · ipureintro
    intro p hp
    simp only [Finset.mem_insert] at hp
    rcases hp with rfl | rfl | rfl | rfl | rfl | rfl | rfl | rfl | rfl | rfl | rfl | rfl | hp
    all_goals first | exact hW' p hp | exact .inr rfl

/-- The tile body's statement, at the thread as the launch spells it. -/
theorem tile_body : TileBody (F := F) m := fun d L O W hO => tile_body_thr m d L O W hO

end Cert.Proof.KB
end
-- ==== Proof.RefOps.lean ====
/-
  The reference's @main as the list of its twelve host operations, and its run read back: every weakly
  fair execution terminates with the result buffer at the operations' composed pure term of the
  argument's launch contents, the arguments unchanged.
-/
import proofs.«217887_g14147622273102_retrytranche1_597_18_alg».proof.Proof.Gen.ReferenceIdeal
import Idealize.ShloMosaic.Lib.StableHlo.Run

noncomputable section

namespace Cert.Proof.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 12 operations, in order. -/
abbrev ops : List (HloOp τ sig (Elt F)) :=
  [ nullary main_c (fun i => lit0 (S256.rowMajor i)),
    nullary main_cst (constant S_ .f32 0x00000000#32),
    unary main_cst main_v0 (broadcastInDim S4x4096x2048 ![] bcast_S_S4x4096x2048 : (⟨S_, .f32⟩ : BufTy).Contents (Elt F) → (⟨S4x4096x2048, .f32⟩ : BufTy).Contents (Elt F)),
    nullary main_c_0 (constantI S_ 32 0#32),
    unary main_c_0 main_v1 (broadcastInDim S256 ![] bcast_S_S256 : (⟨S_, .i32⟩ : BufTy).Contents (Elt F) → (⟨S256, .i32⟩ : BufTy).Contents (Elt F)),
    binary main_c main_v1 main_v2 (cmpi .slt : (⟨S256, .i32⟩ : BufTy).Contents (Elt F) → (⟨S256, .i32⟩ : BufTy).Contents (Elt F) → (⟨S256, .i1⟩ : BufTy).Contents (Elt F)),
    nullary main_c_1 (constantI S_ 32 2048#32),
    unary main_c_1 main_v3 (broadcastInDim S256 ![] bcast_S_S256 : (⟨S_, .i32⟩ : BufTy).Contents (Elt F) → (⟨S256, .i32⟩ : BufTy).Contents (Elt F)),
    binary main_c main_v3 main_v4 (addi : (⟨S256, .i32⟩ : BufTy).Contents (Elt F) → (⟨S256, .i32⟩ : BufTy).Contents (Elt F) → (⟨S256, .i32⟩ : BufTy).Contents (Elt F)),
    ternary main_v2 main_v4 main_c main_v5 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v5 main_v6 (broadcastInDim S256x1 ![0] bcast_S256_S256x1_0 : (⟨S256, .i32⟩ : BufTy).Contents (Elt F) → (⟨S256x1, .i32⟩ : BufTy).Contents (Elt F)),
    ternary main_v0 main_v6 main_arg0 main_v7 ((fun x i u => Host.scatter scatter_S4x4096x2048_S256x1_S4x4096x256_01_2_2_1 (fun _ b => b) x i u) : (⟨S4x4096x2048, .f32⟩ : BufTy).Contents (Elt F) → (⟨S256x1, .i32⟩ : BufTy).Contents (Elt F) → (⟨S4x4096x256, .f32⟩ : BufTy).Contents (Elt F) → (⟨S4x4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- The scatter indices the program computes: the literal table, wrapped, as a column. -/
abbrev table : (⟨S256x1, .i32⟩ : BufTy).Contents (Elt F) :=
  broadcastInDim S256x1 ![0] bcast_S256_S256x1_0
    (select (cmpi .slt (fun i => lit0 (S256.rowMajor i)) (broadcastInDim S256 ![] bcast_S_S256 (constantI S_ 32 0#32)))
      (addi (fun i => lit0 (S256.rowMajor i)) (broadcastInDim S256 ![] bcast_S_S256 (constantI S_ 32 2048#32)))
      (fun i => lit0 (S256.rowMajor i)))

/-- On every device, from any memory with zero counters: every weakly fair execution of @main terminates with
    the result at the operations' composed term of the argument, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = Host.scatter scatter_S4x4096x2048_S256x1_S4x4096x256_01_2_2_1 (fun _ b => b)
              (broadcastInDim S4x4096x2048 ![] bcast_S_S4x4096x2048 (constant S_ .f32 0x00000000#32))
              (table (F := F)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (by after_results; rfl),
      (h c main_arg0).trans (by after_results),
      (h c main_arg1).trans (by after_results)⟩)
    (run_seq scopedRefs_eq scopedSems_eq defs main (fun _ => ops) main_eq (fun _ => ops_sub) m ρ)

end Cert.Proof.RefOps

end
-- ==== Proof.RefScatter.lean ====
/-
  A scatter whose body returns the update (`x.at[idx].set(u)`), read at ONE result index.

  `Host.scatter d f x idx upd` is a left fold over the update indices in row-major order; each step
  that lands inside the operand replaces the element at its result index by `f` of the old element and
  the update's. For the body `fun _ b => b` the fold at a result index `i'` is therefore
    * `x i'` when no update index lands at `i'`, and
    * `upd j` when `j` lands at `i'` and is the only update index that does.
  Both are proved by induction on the list folded over, for every list, so nothing here depends on how
  long that list is.
-/
import Idealize.ShloMosaic.PureOps

namespace Cert.Proof.RefScatter

open Idealize.ShloMosaic

variable {s si u : Shape} {α : Type} {w : Nat}

/-- One step of the fold, for the body that returns the update. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step; rw [h]; exact if_pos rfl

theorem step_miss (d : ScatterDims s si u) (idx : IVec si w) (upd : u.Idx → α) (r : s.Idx → α) (n : Fin u.numel)
    (i' : s.Idx) (h : d.resultIdx? (u.rowMajor.symm n) idx ≠ some i') :
    step d idx upd r n i' = r i' := by
  unfold step
  cases hi : d.resultIdx? (u.rowMajor.symm n) idx with
  | none => rfl
  | some i => exact if_neg fun e => h (hi.trans (congrArg some e.symm))

/-- No member of the list lands at `i'`: the fold leaves `i'` as it was. -/
theorem foldl_miss (d : ScatterDims s si u) (idx : IVec si w) (upd : u.Idx → α) (i' : s.Idx) :
    ∀ (l : List (Fin u.numel)) (r : s.Idx → α),
      (∀ n ∈ l, d.resultIdx? (u.rowMajor.symm n) idx ≠ some i') → l.foldl (step d idx upd) r i' = r i'
  | [], _, _ => rfl
  | n :: l, r, h => by
    rw [List.foldl_cons, foldl_miss d idx upd i' l _ fun m hm => h m (List.mem_cons_of_mem _ hm),
      step_miss d idx upd r n i' (h n List.mem_cons_self)]

/-- `n` is in the list, lands at `i'`, and is the only member that does: the fold has the update's element there. -/
theorem foldl_hit (d : ScatterDims s si u) (idx : IVec si w) (upd : u.Idx → α) (i' : s.Idx) (n : Fin u.numel)
    (hn : d.resultIdx? (u.rowMajor.symm n) idx = some i') :
    ∀ (l : List (Fin u.numel)) (r : s.Idx → α), n ∈ l →
      (∀ m ∈ l, d.resultIdx? (u.rowMajor.symm m) idx = some i' → m = n) →
      l.foldl (step d idx upd) r i' = upd (u.rowMajor.symm n)
  | [], _, hmem, _ => absurd hmem List.not_mem_nil
  | a :: l, r, hmem, huniq => by
    rw [List.foldl_cons]
    by_cases hl : n ∈ l
    · exact foldl_hit d idx upd i' n hn l _ hl fun m hm => huniq m (List.mem_cons_of_mem _ hm)
    · have ha : a = n := by
        rcases List.mem_cons.1 hmem with e | e
        · exact e.symm
        · exact absurd e hl
      subst ha
      rw [foldl_miss d idx upd i' l _ fun m hm e => hl ((huniq m (List.mem_cons_of_mem _ hm) e) ▸ hm),
        step_hit d idx upd r a i' hn]

/-- The scatter at a result index no update index lands at: the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x fun n _ => h _

/-- The scatter at a result index exactly one update index lands at: that update's element. -/
theorem scatter_set_hit (d : ScatterDims s si u) (x : s.Idx → α) (idx : IVec si w) (upd : u.Idx → α) (i' : s.Idx)
    (j : u.Idx) (hj : d.resultIdx? j idx = some i')
    (huniq : ∀ j' : u.Idx, d.resultIdx? j' idx = some i' → j' = j) :
    Host.scatter d (fun _ b => b) x idx upd i' = upd j := by
  rw [scatter_eq_foldl]
  have hj' : d.resultIdx? (u.rowMajor.symm (u.rowMajor j)) idx = some i' := by rw [Equiv.symm_apply_apply]; exact hj
  have := foldl_hit d idx upd i' (u.rowMajor j) hj' (List.finRange u.numel) x (List.mem_finRange _)
    fun m _ hm => by
      have := huniq _ hm
      rw [← this, Equiv.apply_symm_apply]
  rw [this, Equiv.symm_apply_apply]

end Cert.Proof.RefScatter
-- ==== Proof.RefIdx.lean ====
/-
  The index table of the reference's scatter, and where each update index lands.

  The table is the literal `k ↦ 8k` (256 entries) after the usual wrap of negative indices
  (`if c < 0 then c + 2048 else c`), broadcast to a column. Every entry is non-negative, so the wrap
  keeps it: read as a signed integer, entry `k` is `8k`.

  For the scatter's dimension numbers (update window axes 0 and 1, the operand's axis 2 inserted and
  scattered to, one index component), update index `(b, s, k)` lands at result index
  `(b, s, start k)`, the start read signed off the table: `(b, s, 8k)`, always inside the operand.
-/
import proofs.«217887_g14147622273102_retrytranche1_597_18_alg».proof.Proof.Gen.ReferenceIdeal
import Idealize.ShloMosaic.Lib.ValueIdx

namespace Cert.Proof.RefIdx

open Idealize.ShloMosaic Idealize.ShloMosaic.ValueIdx Cert.ReferenceIdeal Cert.ReferenceIdeal.Gen

/-- The literal table, entry by entry: `8k`. -/
theorem lit0_toNat : ∀ k : Fin 256, (lit0 k).toNat = 8 * k.val := by decide

theorem lit0_toInt (k : Fin 256) : (lit0 k).toInt = 8 * (k.val : Int) := by
  have h := lit0_toNat k
  have hk := k.isLt
  rw [BitVec.toInt_eq_toNat_cond, h]
  split <;> omega

theorem lit0_not_neg (k : Fin 256) : (lit0 k).slt 0#32 = false := by
  have h := lit0_toInt k
  rw [BitVec.slt, h]
  simp only [BitVec.toInt_zero, decide_eq_false_iff_not, not_lt]
  omega

/-- The scatter indices: the literal table, wrapped, as a column. -/
abbrev table : IVec S256x1 32 :=
  broadcastInDim S256x1 ![0] bcast_S256_S256x1_0
    (select (cmpi .slt (fun i => lit0 (S256.rowMajor i)) (broadcastInDim S256 ![] bcast_S_S256 (constantI S_ 32 0#32)))
      (addi (fun i => lit0 (S256.rowMajor i)) (broadcastInDim S256 ![] bcast_S_S256 (constantI S_ 32 2048#32)))
      (fun i => lit0 (S256.rowMajor i)))

/-- The wrap keeps a table entry: read signed, it is `8k`. -/
theorem wrap_toInt (k : Fin 256) (a : BitVec 32) :
    (Scalar.select (IntOp.cmpi .slt (lit0 k) 0#32) a (lit0 k)).toInt = 8 * (k.val : Int) := by
  have h : IntOp.cmpi .slt (lit0 k) 0#32 = 0#1 := by
    show BitVec.ofBool ((lit0 k).slt 0#32) = 0#1
    rw [lit0_not_neg]; rfl
  rw [h, select_zero]
  exact lit0_toInt k

/-- Entry `(k, 0)` of the column, read signed, is `8k`. -/
theorem table_toInt (i : S256x1.Idx) : (table i).toInt = 8 * ((i 0).val : Int) := by
  refine (wrap_toInt (S256.rowMajor _) _).trans ?_
  refine (congrArg (fun n : Nat => 8 * (n : Int)) (Shape.rowMajor_val_one (d := ![256]) _)).trans ?_
  rfl

/-! ## Where an update index lands -/

/-- The scatter's dimension numbers. -/
abbrev dims : ScatterDims S4x4096x2048 S256x1 S4x4096x256 := scatter_S4x4096x2048_S256x1_S4x4096x256_01_2_2_1

/-- Start plus window coordinate on each operand axis, for update index `(b, s, k)`: `b`, `s`, and the table's entry `8k`. -/
theorem start_window (b : Fin 4) (s : Fin 4096) (k : Fin 256) (idx : IVec S256x1 32)
    (hidx : ∀ i : S256x1.Idx, (idx i).toInt = 8 * ((i 0).val : Int)) (a : Fin 3) :
    dims.start (ix3 b s k : S4x4096x256.Idx) idx a + (dims.window (ix3 b s k : S4x4096x256.Idx) a : Int)
      = (((ix3 b s (⟨8 * k.val, by have := k.isLt; omega⟩ : Fin 2048) : S4x4096x2048.Idx) a).val : Int) := by
  match a with
  | ⟨0, _⟩ =>
    show (0 : Int) + ((b.val : Nat) : Int) = (b.val : Int)
    omega
  | ⟨1, _⟩ =>
    show (0 : Int) + ((s.val : Nat) : Int) = (s.val : Int)
    omega
  | ⟨2, _⟩ =>
    show (idx _).toInt + ((0 : Nat) : Int) = ((8 * k.val : Nat) : Int)
    rw [hidx]
    show 8 * ((k.val : Nat) : Int) + ((0 : Nat) : Int) = ((8 * k.val : Nat) : Int)
    omega

/-- Update index `(b, s, k)` lands at result index `(b, s, 8k)`. -/
theorem resultIdx (b : Fin 4) (s : Fin 4096) (k : Fin 256) (idx : IVec S256x1 32)
    (hidx : ∀ i : S256x1.Idx, (idx i).toInt = 8 * ((i 0).val : Int)) :
    dims.resultIdx? (ix3 b s k : S4x4096x256.Idx) idx
      = some (ix3 b s (⟨8 * k.val, by have := k.isLt; omega⟩ : Fin 2048) : S4x4096x2048.Idx) := by
  have key := start_window b s k idx hidx
  unfold ScatterDims.resultIdx?
  rw [dif_pos (fun a => by
    rw [key a]
    exact ⟨Int.natCast_nonneg _, Int.ofNat_lt.2 (Fin.isLt _)⟩)]
  congr 1
  funext a
  apply Fin.ext
  show (dims.start _ idx a + (dims.window _ a : Int)).toNat = _
  rw [key a]
  exact Int.toNat_natCast _

end Cert.Proof.RefIdx
-- ==== Proof.RefValue.lean ====
/-
  The reference's scatter as a function of the argument array: the spread of its 256 columns to every
  eighth column of the result, the operand's fill elsewhere.

  For scatter indices whose entry `k`, read signed, is `8k`, update index `(b, s, k)` lands at result
  index `(b, s, 8k)`. So a result index `(b, s, h)` with `8 ∣ h` is met by exactly one update index,
  `(b, s, h / 8)`, and holds that update's element; one with `8 ∤ h` is met by none and keeps the
  operand's element.
-/
import proofs.«217887_g14147622273102_retrytranche1_597_18_alg».proof.Proof.RefScatter
import proofs.«217887_g14147622273102_retrytranche1_597_18_alg».proof.Proof.RefIdx
import proofs.«217887_g14147622273102_retrytranche1_597_18_alg».proof.Proof.Spec

namespace Cert.Proof.RefValue

open Idealize.ShloMosaic Idealize.ShloMosaic.ValueIdx Cert.ReferenceIdeal Cert.ReferenceIdeal.Gen Cert.Proof.RefIdx

theorem scatter_up3 {α : Type} (z : α) (x : S4x4096x256.Idx → α) (idx : IVec S256x1 32)
    (hidx : ∀ i : S256x1.Idx, (idx i).toInt = 8 * ((i 0).val : Int)) :
    Host.scatter dims (fun _ b => b) (fun _ => z) idx x = Cert.Spec.up3 z x := by
  funext i'
  obtain ⟨b, s, h, rfl⟩ : ∃ (b : Fin 4) (s : Fin 4096) (h : Fin 2048), i' = ix3 b s h := ⟨i' 0, i' 1, i' 2, eq_ix3 i'⟩
  show _ = if h.val % 8 = 0 then x (ix3 b s (Cert.Spec.col h)) else z
  by_cases h8 : h.val % 8 = 0
  · rw [if_pos h8]
    refine RefScatter.scatter_set_hit dims _ idx x _ (ix3 b s (Cert.Spec.col h)) ?_ ?_
    · rw [resultIdx b s (Cert.Spec.col h) idx hidx]
      have e : (⟨8 * (Cert.Spec.col h).val, by have := (Cert.Spec.col h).isLt; omega⟩ : Fin 2048) = h := by
        apply Fin.ext
        show 8 * (h.val / 8) = h.val
        omega
      rw [e]
    · intro j' hj'
      obtain ⟨b', s', k', rfl⟩ : ∃ (b' : Fin 4) (s' : Fin 4096) (k' : Fin 256), j' = ix3 b' s' k' :=
        ⟨j' 0, j' 1, j' 2, eq_ix3 j'⟩
      rw [resultIdx b' s' k' idx hidx] at hj'
      have e := Option.some.inj hj'
      have e0 : b' = b := congrFun e 0
      have e1 : s' = s := congrFun e 1
      have e2 : (⟨8 * k'.val, by have := k'.isLt; omega⟩ : Fin 2048) = h := congrFun e 2
      have e2' : 8 * k'.val = h.val := congrArg Fin.val e2
      have e3 : k' = Cert.Spec.col h := by
        apply Fin.ext
        show k'.val = h.val / 8
        omega
      rw [e0, e1, e3]
  · rw [if_neg h8]
    refine RefScatter.scatter_set_miss dims _ idx x _ ?_
    intro j' hj'
    obtain ⟨b', s', k', rfl⟩ : ∃ (b' : Fin 4) (s' : Fin 4096) (k' : Fin 256), j' = ix3 b' s' k' :=
      ⟨j' 0, j' 1, j' 2, eq_ix3 j'⟩
    rw [resultIdx b' s' k' idx hidx] at hj'
    have e2 : (⟨8 * k'.val, by have := k'.isLt; omega⟩ : Fin 2048) = h := congrFun (Option.some.inj hj') 2
    have e2' : 8 * k'.val = h.val := congrArg Fin.val e2
    omega

end Cert.Proof.RefValue
-- ==== Proof.RefRun.lean ====
/-
  The reference's run, with its result named as a function of the argument array: from any memory with
  zero counters every weakly fair execution of @main terminates, the result buffer holds the argument's
  256 columns spread to every eighth column over the program's own zero constant, and the arguments are
  unchanged.
-/
import proofs.«217887_g14147622273102_retrytranche1_597_18_alg».proof.Proof.RefOps
import proofs.«217887_g14147622273102_retrytranche1_597_18_alg».proof.Proof.RefValue

noncomputable section

namespace Cert.Proof.RefRun

open Idealize.ShloMosaic Idealize.SL.Sem

theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v7)
            = Cert.Spec.up3 (FloatOps.ofBits (F := Ideal) .f32 0x00000000#32) (m' ((c.tc : Thread Cert.ReferenceIdeal.nD Cert.ReferenceIdeal.τ).loc Cert.ReferenceIdeal.main_arg0))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run _ _ _).mono
    (fun _ h c => ⟨(h c).1.trans
        (RefValue.scatter_up3 (FloatOps.ofBits (F := Ideal) .f32 0x00000000#32)
          (m' ((c.tc : Thread Cert.ReferenceIdeal.nD Cert.ReferenceIdeal.τ).loc Cert.ReferenceIdeal.main_arg0))
          (RefOps.table (F := Ideal)) RefIdx.table_toInt), (h c).2⟩)
    (RefOps.run (F := Ideal) m' g')

end Cert.Proof.RefRun

end
-- ==== Proof.lean ====
/-
  The kernel and its reference compute the same function of `x : f32[4, 4096, 256]` (the second argument is read by
  neither): the result `f32[4, 4096, 2048]` has, in every row, column `h` equal to column `h / 8` of the same row of
  `x` when `8 ∣ h`, and the value of the zero word otherwise (`Cert.Spec.up3`). No arithmetic is done on either side,
  so the two results are equal entry by entry at every instance, and finiteness of the inputs is never used.

  The reference writes a zero array and sets its every eighth column from `x` by one host scatter at the 256 literal
  column indices `0, 8, …, 2040`: its run is read back operation by operation, and the scatter — a fold over the four
  million updates — is read at an index by a general fact about such folds at pairwise distinct targets
  (`Proof/RefScatter.lean`, `RefIdx.lean`, `RefOps.lean`, `RefValue.lean`, `RefRun.lean`).

  The kernel flattens the rows to 16384 and runs one task on each of 32 vector subcores; task `w` owns rows
  `[512·w, 512·w + 512)` and moves them in 64 chunks of 8 rows through four banks of buffers in a software pipeline:
  an input chunk is fetched into a bank's 8 × 256 buffer, its 256 columns are stored, sixteen lanes at a time, at every
  eighth column of the bank's 8 × 2048 buffer (zeroed once at the start, and touched at those columns only), and that
  buffer is sent out to the result's chunk. Each bank has one semaphore per direction with one copy in flight on it at
  a time, and a buffer is read or written only between the wait of the copy that used it and the issue of the next.
  The proof: what one indexed store and the sixteen stores of a row leave (`ScatPure`, `ScatRow`); one trip and the
  whole of a scatter loop, once per bank, the twelve loops of the program being one printed function at the bank's
  buffers (`KIScat0`–`3`, `KIPerm`); the zero-fill loop (`KIZero`); the chunk slices as the program spells them and the
  value a sent-out chunk holds (`KIChunks`); the bookkeeping of chunks over the sixteen stages (`Pieces`, `KIInvDefs`,
  `KIInv`); one trip of the main loop (`KIMain`); the whole task (`KITile`); the launch of the 32 tasks around @main's
  two reshapes, and that unflattening the spread of the flattened input is the spread (`KIReshape`, `KILaunch`).
  The word-level kernel is the same program text: its modules (`KB…`) are those of the idealized kernel with the
  program's name substituted, everything being stated for an arbitrary float instance.
-/
import proofs.«217887_g14147622273102_retrytranche1_597_18_alg».proof.Defs
import proofs.«217887_g14147622273102_retrytranche1_597_18_alg».proof.Proof.Gen.Kernel
import proofs.«217887_g14147622273102_retrytranche1_597_18_alg».proof.Proof.Gen.Kernel.Skeleton
import proofs.«217887_g14147622273102_retrytranche1_597_18_alg».proof.Proof.Gen.KernelIdeal
import proofs.«217887_g14147622273102_retrytranche1_597_18_alg».proof.Proof.Gen.KernelIdeal.Skeleton
import proofs.«217887_g14147622273102_retrytranche1_597_18_alg».proof.Proof.Gen.ReferenceIdeal
import proofs.«217887_g14147622273102_retrytranche1_597_18_alg».proof.Proof.Gen.Pre_finite_inputs
import proofs.«217887_g14147622273102_retrytranche1_597_18_alg».proof.Proof.KILaunch
import proofs.«217887_g14147622273102_retrytranche1_597_18_alg».proof.Proof.KITile
import proofs.«217887_g14147622273102_retrytranche1_597_18_alg».proof.Proof.KBLaunch
import proofs.«217887_g14147622273102_retrytranche1_597_18_alg».proof.Proof.KBTile
import proofs.«217887_g14147622273102_retrytranche1_597_18_alg».proof.Proof.RefRun
import Idealize.ShloMosaic.Adequacy
import Idealize.ShloMosaic.Init

noncomputable section

namespace Cert.Proof

open Idealize.ShloMosaic Idealize.SL.Sem

/-- The word-level kernel runs and leaves its arguments unchanged: its run with the result's value dropped. -/
theorem frame_k : Cert.frame_Kernel := fun m g _ =>
  (θ_run Cert.Kernel.defs _ _).mono (fun _ h c => ⟨(h c).2.1, (h c).2.2⟩)
    (Cert.Proof.KB.run_main (F := Bits) m g (Cert.Proof.KB.tile_body (F := Bits) m))

/-- The idealized kernel likewise. -/
theorem frame_ki : Cert.frame_KernelIdeal := fun m g _ =>
  (θ_run Cert.KernelIdeal.defs _ _).mono (fun _ h c => ⟨(h c).2.1, (h c).2.2⟩)
    (Cert.Proof.KI.run_main (F := Ideal) m g (Cert.Proof.KI.tile_body (F := Ideal) m))

/-- The reference runs and leaves its arguments unchanged: its run with the result's value dropped. -/
theorem frame_ri : Cert.frame_ReferenceIdeal := fun m g _ =>
  (θ_run Cert.ReferenceIdeal.defs _ _).mono (fun _ h c => (h c).2) (Cert.Proof.RefRun.run m g)

/-- Over the extended reals both programs end at the spread of `x`: column `h` of a result row is column `h / 8` of the
    same row of `x` when `8 ∣ h` and the zero word's value otherwise. The kernel's run names its result as the unflattened
    spread of the flattened input, which is the spread; the reference's run names its result as the spread. -/
theorem algebraic : Cert.algebraic_KernelIdeal_ReferenceIdeal := by
  intro m g m' g' _ hagree
  refine ⟨fun c => Cert.Proof.KI.R3 (F := Ideal) m c, ?_, ?_⟩
  · exact (θ_run Cert.KernelIdeal.defs _ _).mono (fun _ h c => h c) (Cert.Proof.KI.run_main (F := Ideal) m g (Cert.Proof.KI.tile_body (F := Ideal) m))
  · refine (θ_run Cert.ReferenceIdeal.defs _ _).mono (fun _ h c => ⟨?_, (h c).2.1, (h c).2.2⟩) (Cert.Proof.RefRun.run m' g')
    rw [(h c).1, (hagree c).1]
    exact (Cert.Proof.KI.R3_eq (F := Ideal) m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
